-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v224)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v224) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v318) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S200000x64 : Shape := ⟨2, ![200000, 64]⟩
abbrev S2x4x64x64 : Shape := ⟨4, ![2, 4, 64, 64]⟩
abbrev S2x4x64 : Shape := ⟨3, ![2, 4, 64]⟩
abbrev S4x64x25 : Shape := ⟨3, ![4, 64, 25]⟩
abbrev S4x25 : Shape := ⟨2, ![4, 25]⟩
abbrev S800000 : Shape := ⟨1, ![800000]⟩
abbrev S1600000 : Shape := ⟨1, ![1600000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S2x4x64x64 : S_.BroadcastsInDim S2x4x64x64 (![] : Fin 0 → Fin S2x4x64x64.rank)
  reducesTo_S2x4x64x64_S_d0_1_2_3 : S2x4x64x64.ReducesTo [0, 1, 2, 3] S_
  bcast_S_S2x4x64 : S_.BroadcastsInDim S2x4x64 (![] : Fin 0 → Fin S2x4x64.rank)
  reducesTo_S2x4x64_S_d0_1_2 : S2x4x64.ReducesTo [0, 1, 2] S_
  bcast_S_S4x64x25 : S_.BroadcastsInDim S4x64x25 (![] : Fin 0 → Fin S4x64x25.rank)
  reducesTo_S4x64x25_S_d0_1_2 : S4x64x25.ReducesTo [0, 1, 2] S_
  bcast_S_S4x25 : S_.BroadcastsInDim S4x25 (![] : Fin 0 → Fin S4x25.rank)
  reducesTo_S4x25_S_d0_1 : S4x25.ReducesTo [0, 1] S_

variable [Facts]

def fn_part2 {F : FTy → Type} [FloatOps F] (main_arg7 : FVec F S4x25 .f32) (main_v33 : IVec S_ 1) : IVec S_ 1 :=
  let main_v34 : FVec F S4x25 .f32 := Host.absf main_arg7
  let main_cst_12 : FVec F S_ .f32 := constant S_ .f32 0x7F800000#32
  let main_v35 : FVec F S4x25 .f32 := broadcastInDim S4x25 ![] bcast_S_S4x25 main_cst_12
  let main_v36 : IVec S4x25 1 := cmpf .olt main_v34 main_v35
  let main_c_13 : IVec S_ 1 := constantI S_ 1 1#1
  let main_v37 : IVec S_ 1 := (fun x v => Host.reduce IntOp.andi x v reducesTo_S4x25_S_d0_1 h_S_) main_v36 main_c_13
  let main_v38 : IVec S_ 1 := andi main_v33 main_v37
  main_v38

def fn_part1 {F : FTy → Type} [FloatOps F] (main_arg4 : FVec F S2x4x64 .f32) (main_arg5 : FVec F S4x64x25 .f32) (main_arg6 : FVec F S4x64x25 .f32) (main_arg7 : FVec F S4x25 .f32) (main_v13 : IVec S_ 1) (main_v16 : IVec S2x4x64x64 1) : IVec S_ 1 :=
  let main_c_5 : IVec S_ 1 := constantI S_ 1 1#1
  let main_v17 : IVec S_ 1 := (fun x v => Host.reduce IntOp.andi x v reducesTo_S2x4x64x64_S_d0_1_2_3 h_S_) main_v16 main_c_5
  let main_v18 : IVec S_ 1 := andi main_v13 main_v17
  let main_v19 : FVec F S2x4x64 .f32 := Host.absf main_arg4
  let main_cst_6 : FVec F S_ .f32 := constant S_ .f32 0x7F800000#32
  let main_v20 : FVec F S2x4x64 .f32 := broadcastInDim S2x4x64 ![] bcast_S_S2x4x64 main_cst_6
  let main_v21 : IVec S2x4x64 1 := cmpf .olt main_v19 main_v20
  let main_c_7 : IVec S_ 1 := constantI S_ 1 1#1
  let main_v22 : IVec S_ 1 := (fun x v => Host.reduce IntOp.andi x v reducesTo_S2x4x64_S_d0_1_2 h_S_) main_v21 main_c_7
  let main_v23 : IVec S_ 1 := andi main_v18 main_v22
  let main_v24 : FVec F S4x64x25 .f32 := Host.absf main_arg5
  let main_cst_8 : FVec F S_ .f32 := constant S_ .f32 0x7F800000#32
  let main_v25 : FVec F S4x64x25 .f32 := broadcastInDim S4x64x25 ![] bcast_S_S4x64x25 main_cst_8
  let main_v26 : IVec S4x64x25 1 := cmpf .olt main_v24 main_v25
  let main_c_9 : IVec S_ 1 := constantI S_ 1 1#1
  let main_v27 : IVec S_ 1 := (fun x v => Host.reduce IntOp.andi x v reducesTo_S4x64x25_S_d0_1_2 h_S_) main_v26 main_c_9
  let main_v28 : IVec S_ 1 := andi main_v23 main_v27
  let main_v29 : FVec F S4x64x25 .f32 := Host.absf main_arg6
  let main_cst_10 : FVec F S_ .f32 := constant S_ .f32 0x7F800000#32
  let main_v30 : FVec F S4x64x25 .f32 := broadcastInDim S4x64x25 ![] bcast_S_S4x64x25 main_cst_10
  let main_v31 : IVec S4x64x25 1 := cmpf .olt main_v29 main_v30
  let main_c_11 : IVec S_ 1 := constantI S_ 1 1#1
  let main_v32 : IVec S_ 1 := (fun x v => Host.reduce IntOp.andi x v reducesTo_S4x64x25_S_d0_1_2 h_S_) main_v31 main_c_11
  let main_v33 : IVec S_ 1 := andi main_v28 main_v32
  fn_part2 (F := F) main_arg7 main_v33

def fn {F : FTy → Type} [FloatOps F] (main_arg0 : FVec F S50000x64 .f32) (main_arg1 : FVec F S200000x64 .f32) (main_arg2 : FVec F S2x4x64x64 .f32) (main_arg3 : FVec F S2x4x64x64 .f32) (main_arg4 : FVec F S2x4x64 .f32) (main_arg5 : FVec F S4x64x25 .f32) (main_arg6 : FVec F S4x64x25 .f32) (main_arg7 : FVec F S4x25 .f32) (main_arg8 : IVec S800000 32) (main_arg9 : IVec S800000 32) (main_arg10 : IVec S1600000 32) (main_arg11 : IVec S1600000 32) (main_arg12 : IVec S1600000 32) (main_arg13 : IVec S1600000 32) (main_arg14 : IVec S1600000 32) (main_arg15 : IVec S1600000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S2x4x64x64 .f32 := Host.absf main_arg2
  let main_cst_2 : FVec F S_ .f32 := constant S_ .f32 0x7F800000#32
  let main_v10 : FVec F S2x4x64x64 .f32 := broadcastInDim S2x4x64x64 ![] bcast_S_S2x4x64x64 main_cst_2
  let main_v11 : IVec S2x4x64x64 1 := cmpf .olt main_v9 main_v10
  let main_c_3 : IVec S_ 1 := constantI S_ 1 1#1
  let main_v12 : IVec S_ 1 := (fun x v => Host.reduce IntOp.andi x v reducesTo_S2x4x64x64_S_d0_1_2_3 h_S_) main_v11 main_c_3
  let main_v13 : IVec S_ 1 := andi main_v8 main_v12
  let main_v14 : FVec F S2x4x64x64 .f32 := Host.absf main_arg3
  let main_cst_4 : FVec F S_ .f32 := constant S_ .f32 0x7F800000#32
  let main_v15 : FVec F S2x4x64x64 .f32 := broadcastInDim S2x4x64x64 ![] bcast_S_S2x4x64x64 main_cst_4
  let main_v16 : IVec S2x4x64x64 1 := cmpf .olt main_v14 main_v15
  fn_part1 (F := F) main_arg4 main_arg5 main_arg6 main_arg7 main_v13 main_v16
-- ==== Kernel.lean ====
abbrev S50000x64 : Shape := ⟨2, ![50000, 64]⟩
abbrev S200000x64 : Shape := ⟨2, ![200000, 64]⟩
abbrev S2x4x64x64 : Shape := ⟨4, ![2, 4, 64, 64]⟩
abbrev S2x4x64 : Shape := ⟨3, ![2, 4, 64]⟩
abbrev S4x64x25 : Shape := ⟨3, ![4, 64, 25]⟩
abbrev S4x25 : Shape := ⟨2, ![4, 25]⟩
abbrev S800000 : Shape := ⟨1, ![800000]⟩
abbrev S1600000 : Shape := ⟨1, ![1600000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1600000x1 : Shape := ⟨2, ![1600000, 1]⟩
abbrev S1600000x64 : Shape := ⟨2, ![1600000, 64]⟩
abbrev S200000 : Shape := ⟨1, ![200000]⟩
abbrev S200000x1 : Shape := ⟨2, ![200000, 1]⟩
abbrev S1x1x64x64 : Shape := ⟨4, ![1, 1, 64, 64]⟩
abbrev S64x64 : Shape := ⟨2, ![64, 64]⟩
abbrev S1x1x64 : Shape := ⟨3, ![1, 1, 64]⟩
abbrev S64 : Shape := ⟨1, ![64]⟩
abbrev S1x64 : Shape := ⟨2, ![1, 64]⟩
abbrev S5000x64 : Shape := ⟨2, ![5000, 64]⟩
abbrev S5000x1 : Shape := ⟨2, ![5000, 1]⟩
abbrev S1x64x25 : Shape := ⟨3, ![1, 64, 25]⟩
abbrev S64x25 : Shape := ⟨2, ![64, 25]⟩
abbrev S1x25 : Shape := ⟨2, ![1, 25]⟩
abbrev S25 : Shape := ⟨1, ![25]⟩
abbrev S50000x25 : Shape := ⟨2, ![50000, 25]⟩
abbrev S5000x25 : Shape := ⟨2, ![5000, 25]⟩

abbrev nBuf : Space → Nat
  | .hbm => 291
  | .vmem => 90
  | .smem => 0
  | _ => 0

abbrev hbmTy0_0 (i : Nat) : BufTy := match i % 128 with
  | 0 => ⟨S50000x64, .f32⟩
  | 1 => ⟨S200000x64, .f32⟩
  | 2 => ⟨S2x4x64x64, .f32⟩
  | 3 => ⟨S2x4x64x64, .f32⟩
  | 4 => ⟨S2x4x64, .f32⟩
  | 5 => ⟨S4x64x25, .f32⟩
  | 6 => ⟨S4x64x25, .f32⟩
  | 7 => ⟨S4x25, .f32⟩
  | 8 => ⟨S800000, .i32⟩
  | 9 => ⟨S800000, .i32⟩
  | 10 => ⟨S1600000, .i32⟩
  | 11 => ⟨S1600000, .i32⟩
  | 12 => ⟨S1600000, .i32⟩
  | 13 => ⟨S1600000, .i32⟩
  | 14 => ⟨S1600000, .i32⟩
  | 15 => ⟨S1600000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S50000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S50000x64, .f32⟩
  | 47 => ⟨S1600000x1, .i32⟩
  | 48 => ⟨S50000x64, .f32⟩
  | 49 => ⟨S_, .f32⟩
  | 50 => ⟨S1600000, .f32⟩
  | 51 => ⟨S_, .f32⟩
  | 52 => ⟨S50000, .f32⟩
  | 53 => ⟨S1600000x1, .i32⟩
  | 54 => ⟨S50000, .f32⟩
  | 55 => ⟨S50000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S_, .f32⟩
  | 66 => ⟨S200000x64, .f32⟩
  | 67 => ⟨S1600000x1, .i32⟩
  | 68 => ⟨S200000x64, .f32⟩
  | 69 => ⟨S_, .f32⟩
  | 70 => ⟨S1600000, .f32⟩
  | 71 => ⟨S_, .f32⟩
  | 72 => ⟨S200000, .f32⟩
  | 73 => ⟨S1600000x1, .i32⟩
  | 74 => ⟨S200000, .f32⟩
  | 75 => ⟨S200000x1, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x64, .f32⟩
  | 85 => ⟨S_, .f32⟩
  | 86 => ⟨S200000x64, .f32⟩
  | 87 => ⟨S1600000x1, .i32⟩
  | 88 => ⟨S200000x64, .f32⟩
  | 89 => ⟨S_, .f32⟩
  | 90 => ⟨S1600000, .f32⟩
  | 91 => ⟨S_, .f32⟩
  | 92 => ⟨S200000, .f32⟩
  | 93 => ⟨S1600000x1, .i32⟩
  | 94 => ⟨S200000, .f32⟩
  | 95 => ⟨S200000x1, .f32⟩
  | 96 => ⟨S1x1x64x64, .f32⟩
  | 97 => ⟨S64x64, .f32⟩
  | 98 => ⟨S1x1x64x64, .f32⟩
  | 99 => ⟨S64x64, .f32⟩
  | 100 => ⟨S1x1x64, .f32⟩
  | 101 => ⟨S64, .f32⟩
  | 102 => ⟨S1x1x64x64, .f32⟩
  | 103 => ⟨S64x64, .f32⟩
  | 104 => ⟨S1x1x64x64, .f32⟩
  | 105 => ⟨S64x64, .f32⟩
  | 106 => ⟨S1x1x64, .f32⟩
  | 107 => ⟨S64, .f32⟩
  | 108 => ⟨S1x64, .f32⟩
  | 109 => ⟨S1x64, .f32⟩
  | 110 => ⟨S50000x64, .f32⟩
  | 111 => ⟨S1x1x64x64, .f32⟩
  | 112 => ⟨S64x64, .f32⟩
  | 113 => ⟨S1x1x64x64, .f32⟩
  | 114 => ⟨S64x64, .f32⟩
  | 115 => ⟨S1x1x64, .f32⟩
  | 116 => ⟨S64, .f32⟩
  | 117 => ⟨S1x1x64x64, .f32⟩
  | 118 => ⟨S64x64, .f32⟩
  | 119 => ⟨S1x1x64x64, .f32⟩
  | 120 => ⟨S64x64, .f32⟩
  | 121 => ⟨S1x1x64, .f32⟩
  | 122 => ⟨S64, .f32⟩
  | 123 => ⟨S1x64, .f32⟩
  | 124 => ⟨S1x64, .f32⟩
  | 125 => ⟨S200000x64, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S_, .f32⟩
  | 8 => ⟨S50000x64, .f32⟩
  | 9 => ⟨S800000x1, .i32⟩
  | 10 => ⟨S50000x64, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S50000x1, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S50000x64, .f32⟩
  | 29 => ⟨S1600000x1, .i32⟩
  | 30 => ⟨S50000x64, .f32⟩
  | 31 => ⟨S_, .f32⟩
  | 32 => ⟨S1600000, .f32⟩
  | 33 => ⟨S_, .f32⟩
  | 34 => ⟨S50000, .f32⟩
  | 35 => ⟨S1600000x1, .i32⟩
  | 36 => ⟨S50000, .f32⟩
  | 37 => ⟨S50000x1, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x64, .f32⟩
  | 47 => ⟨S_, .f32⟩
  | 48 => ⟨S200000x64, .f32⟩
  | 49 => ⟨S1600000x1, .i32⟩
  | 50 => ⟨S200000x64, .f32⟩
  | 51 => ⟨S_, .f32⟩
  | 52 => ⟨S1600000, .f32⟩
  | 53 => ⟨S_, .f32⟩
  | 54 => ⟨S200000, .f32⟩
  | 55 => ⟨S1600000x1, .i32⟩
  | 56 => ⟨S200000, .f32⟩
  | 57 => ⟨S200000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S200000x64, .f32⟩
  | 69 => ⟨S1600000x1, .i32⟩
  | 70 => ⟨S200000x64, .f32⟩
  | 71 => ⟨S_, .f32⟩
  | 72 => ⟨S1600000, .f32⟩
  | 73 => ⟨S_, .f32⟩
  | 74 => ⟨S200000, .f32⟩
  | 75 => ⟨S1600000x1, .i32⟩
  | 76 => ⟨S200000, .f32⟩
  | 77 => ⟨S200000x1, .f32⟩
  | 78 => ⟨S1x1x64x64, .f32⟩
  | 79 => ⟨S64x64, .f32⟩
  | 80 => ⟨S1x1x64x64, .f32⟩
  | 81 => ⟨S64x64, .f32⟩
  | 82 => ⟨S1x1x64, .f32⟩
  | 83 => ⟨S64, .f32⟩
  | 84 => ⟨S1x1x64x64, .f32⟩
  | 85 => ⟨S64x64, .f32⟩
  | 86 => ⟨S1x1x64x64, .f32⟩
  | 87 => ⟨S64x64, .f32⟩
  | 88 => ⟨S1x1x64, .f32⟩
  | 89 => ⟨S64, .f32⟩
  | 90 => ⟨S1x64, .f32⟩
  | 91 => ⟨S1x64, .f32⟩
  | 92 => ⟨S50000x64, .f32⟩
  | 93 => ⟨S1x1x64x64, .f32⟩
  | 94 => ⟨S64x64, .f32⟩
  | 95 => ⟨S1x1x64x64, .f32⟩
  | 96 => ⟨S64x64, .f32⟩
  | 97 => ⟨S1x1x64, .f32⟩
  | 98 => ⟨S64, .f32⟩
  | 99 => ⟨S1x1x64x64, .f32⟩
  | 100 => ⟨S64x64, .f32⟩
  | 101 => ⟨S1x1x64x64, .f32⟩
  | 102 => ⟨S64x64, .f32⟩
  | 103 => ⟨S1x1x64, .f32⟩
  | 104 => ⟨S64, .f32⟩
  | 105 => ⟨S1x64, .f32⟩
  | 106 => ⟨S1x64, .f32⟩
  | 107 => ⟨S200000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S_, .f32⟩
  | 122 => ⟨S800000, .f32⟩
  | 123 => ⟨S_, .f32⟩
  | 124 => ⟨S50000, .f32⟩
  | 125 => ⟨S800000x1, .i32⟩
  | 126 => ⟨S50000, .f32⟩
  | 127 => ⟨S50000x1, .f32⟩
  | _ => ⟨S50000x64, .f32⟩

abbrev hbmTy0_2 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S_, .f32⟩
  | 10 => ⟨S50000x64, .f32⟩
  | 11 => ⟨S1600000x1, .i32⟩
  | 12 => ⟨S50000x64, .f32⟩
  | 13 => ⟨S_, .f32⟩
  | 14 => ⟨S1600000, .f32⟩
  | 15 => ⟨S_, .f32⟩
  | 16 => ⟨S50000, .f32⟩
  | 17 => ⟨S1600000x1, .i32⟩
  | 18 => ⟨S50000, .f32⟩
  | 19 => ⟨S50000x1, .f32⟩
  | 20 => ⟨S1x64x25, .f32⟩
  | 21 => ⟨S64x25, .f32⟩
  | 22 => ⟨S1x64x25, .f32⟩
  | 23 => ⟨S64x25, .f32⟩
  | 24 => ⟨S1x25, .f32⟩
  | 25 => ⟨S25, .f32⟩
  | 26 => ⟨S1x64x25, .f32⟩
  | 27 => ⟨S64x25, .f32⟩
  | 28 => ⟨S1x64x25, .f32⟩
  | 29 => ⟨S64x25, .f32⟩
  | 30 => ⟨S1x25, .f32⟩
  | 31 => ⟨S25, .f32⟩
  | 32 => ⟨S1x25, .f32⟩
  | 33 => ⟨S1x25, .f32⟩
  | 34 => ⟨S50000x25, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x1, .f32⟩
  | .local _ .vmem, ⟨7, _⟩ => ⟨S5000x1, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x1, .f32⟩
  | .local _ .vmem, ⟨39, _⟩ => ⟨S5000x1, .f32⟩
  | .local _ .vmem, ⟨40, _⟩ => ⟨S5000x64, .f32⟩
  | .local _ .vmem, ⟨41, _⟩ => ⟨S5000x64, .f32⟩
  | .local _ .vmem, ⟨42, _⟩ => ⟨S5000x1, .f32⟩
  | .local _ .vmem, ⟨43, _⟩ => ⟨S5000x1, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S64x64, .f32⟩
  | .local _ .vmem, ⟨48, _⟩ => ⟨S1x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x1, .f32⟩
  | .local _ .vmem, ⟨57, _⟩ => ⟨S5000x1, .f32⟩
  | .local _ .vmem, ⟨58, _⟩ => ⟨S5000x64, .f32⟩
  | .local _ .vmem, ⟨59, _⟩ => ⟨S5000x64, .f32⟩
  | .local _ .vmem, ⟨60, _⟩ => ⟨S5000x1, .f32⟩
  | .local _ .vmem, ⟨61, _⟩ => ⟨S5000x1, .f32⟩
  | .local _ .vmem, ⟨62, _⟩ => ⟨S5000x64, .f32⟩
  | .local _ .vmem, ⟨63, _⟩ => ⟨S5000x64, .f32⟩
  | .local _ .vmem, ⟨64, _⟩ => ⟨S64x64, .f32⟩
  | .local _ .vmem, ⟨65, _⟩ => ⟨S64x64, .f32⟩
  | .local _ .vmem, ⟨66, _⟩ => ⟨S1x64, .f32⟩
  | .local _ .vmem, ⟨67, _⟩ => ⟨S64x64, .f32⟩
  | .local _ .vmem, ⟨68, _⟩ => ⟨S64x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x1, .f32⟩
  | .local _ .vmem, ⟨75, _⟩ => ⟨S5000x1, .f32⟩
  | .local _ .vmem, ⟨76, _⟩ => ⟨S5000x64, .f32⟩
  | .local _ .vmem, ⟨77, _⟩ => ⟨S5000x64, .f32⟩
  | .local _ .vmem, ⟨78, _⟩ => ⟨S5000x1, .f32⟩
  | .local _ .vmem, ⟨79, _⟩ => ⟨S5000x1, .f32⟩
  | .local _ .vmem, ⟨80, _⟩ => ⟨S5000x64, .f32⟩
  | .local _ .vmem, ⟨81, _⟩ => ⟨S5000x64, .f32⟩
  | .local _ .vmem, ⟨82, _⟩ => ⟨S64x25, .f32⟩
  | .local _ .vmem, ⟨83, _⟩ => ⟨S64x25, .f32⟩
  | .local _ .vmem, ⟨84, _⟩ => ⟨S1x25, .f32⟩
  | .local _ .vmem, ⟨85, _⟩ => ⟨S64x25, .f32⟩
  | .local _ .vmem, ⟨86, _⟩ => ⟨S64x25, .f32⟩
  | .local _ .vmem, ⟨87, _⟩ => ⟨S1x25, .f32⟩
  | .local _ .vmem, ⟨88, _⟩ => ⟨S5000x25, .f32⟩
  | .local _ .vmem, ⟨89, _⟩ => ⟨S5000x25, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_8 : Ref sig .tc := ⟨.hbm, 56, rfl⟩
abbrev main_v30 : Ref sig .tc := ⟨.hbm, 57, rfl⟩
abbrev main_v31 : Ref sig .tc := ⟨.hbm, 58, rfl⟩
abbrev main_c_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_11 : Ref sig .tc := ⟨.hbm, 69, rfl⟩
abbrev main_v40 : Ref sig .tc := ⟨.hbm, 70, rfl⟩
abbrev main_cst_12 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_c_14 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_15 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_16 : Ref sig .tc := ⟨.hbm, 89, rfl⟩
abbrev main_v55 : Ref sig .tc := ⟨.hbm, 90, rfl⟩
abbrev main_cst_17 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_c_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_20 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_cst_22 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_c_23 : Ref sig .tc := ⟨.hbm, 146, rfl⟩
abbrev main_v105 : Ref sig .tc := ⟨.hbm, 147, rfl⟩
abbrev main_v106 : Ref sig .tc := ⟨.hbm, 148, rfl⟩
abbrev main_c_24 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_25 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_26 : Ref sig .tc := ⟨.hbm, 159, rfl⟩
abbrev main_v115 : Ref sig .tc := ⟨.hbm, 160, rfl⟩
abbrev main_cst_27 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_28 : Ref sig .tc := ⟨.hbm, 166, rfl⟩
abbrev main_v120 : Ref sig .tc := ⟨.hbm, 167, rfl⟩
abbrev main_v121 : Ref sig .tc := ⟨.hbm, 168, rfl⟩
abbrev main_c_29 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_30 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_31 : Ref sig .tc := ⟨.hbm, 179, rfl⟩
abbrev main_v130 : Ref sig .tc := ⟨.hbm, 180, rfl⟩
abbrev main_cst_32 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_33 : Ref sig .tc := ⟨.hbm, 186, rfl⟩
abbrev main_v135 : Ref sig .tc := ⟨.hbm, 187, rfl⟩
abbrev main_v136 : Ref sig .tc := ⟨.hbm, 188, rfl⟩
abbrev main_c_34 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_35 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_cst_36 : Ref sig .tc := ⟨.hbm, 199, rfl⟩
abbrev main_v145 : Ref sig .tc := ⟨.hbm, 200, rfl⟩
abbrev main_cst_37 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_c_38 : Ref sig .tc := ⟨.hbm, 236, rfl⟩
abbrev main_v180 : Ref sig .tc := ⟨.hbm, 237, rfl⟩
abbrev main_v181 : Ref sig .tc := ⟨.hbm, 238, rfl⟩
abbrev main_c_39 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_cst_40 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_41 : Ref sig .tc := ⟨.hbm, 249, rfl⟩
abbrev main_v190 : Ref sig .tc := ⟨.hbm, 250, rfl⟩
abbrev main_cst_42 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_c_43 : Ref sig .tc := ⟨.hbm, 256, rfl⟩
abbrev main_v195 : Ref sig .tc := ⟨.hbm, 257, rfl⟩
abbrev main_v196 : Ref sig .tc := ⟨.hbm, 258, rfl⟩
abbrev main_c_44 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_cst_45 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_cst_46 : Ref sig .tc := ⟨.hbm, 269, rfl⟩
abbrev main_v205 : Ref sig .tc := ⟨.hbm, 270, rfl⟩
abbrev main_cst_47 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg8_0 : Ref sig .tc := ⟨.vmem, 49, rfl⟩
abbrev cc2_stg9_0 : Ref sig .tc := ⟨.vmem, 50, rfl⟩
abbrev cc2_stg10_0 : Ref sig .tc := ⟨.vmem, 51, rfl⟩
abbrev cc2_stg11_0 : Ref sig .tc := ⟨.vmem, 52, rfl⟩
abbrev cc2_stg11_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg6_0 : Ref sig .tc := ⟨.vmem, 65, rfl⟩
abbrev cc3_stg7_0 : Ref sig .tc := ⟨.vmem, 66, rfl⟩
abbrev cc3_stg8_0 : Ref sig .tc := ⟨.vmem, 67, rfl⟩
abbrev cc3_stg9_0 : Ref sig .tc := ⟨.vmem, 68, rfl⟩
abbrev cc3_stg10_0 : Ref sig .tc := ⟨.vmem, 69, rfl⟩
abbrev cc3_stg11_0 : Ref sig .tc := ⟨.vmem, 70, rfl⟩
abbrev cc3_stg11_1 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg1_1 : Ref sig .tc := ⟨.vmem, 75, rfl⟩
abbrev cc4_stg2_0 : Ref sig .tc := ⟨.vmem, 76, rfl⟩
abbrev cc4_stg2_1 : Ref sig .tc := ⟨.vmem, 77, rfl⟩
abbrev cc4_stg3_0 : Ref sig .tc := ⟨.vmem, 78, rfl⟩
abbrev cc4_stg3_1 : Ref sig .tc := ⟨.vmem, 79, rfl⟩
abbrev cc4_stg4_0 : Ref sig .tc := ⟨.vmem, 80, rfl⟩
abbrev cc4_stg4_1 : Ref sig .tc := ⟨.vmem, 81, rfl⟩
abbrev cc4_stg5_0 : Ref sig .tc := ⟨.vmem, 82, rfl⟩
abbrev cc4_stg6_0 : Ref sig .tc := ⟨.vmem, 83, rfl⟩
abbrev cc4_stg7_0 : Ref sig .tc := ⟨.vmem, 84, rfl⟩
abbrev cc4_stg8_0 : Ref sig .tc := ⟨.vmem, 85, rfl⟩
abbrev cc4_stg9_0 : Ref sig .tc := ⟨.vmem, 86, rfl⟩
abbrev cc4_stg10_0 : Ref sig .tc := ⟨.vmem, 87, rfl⟩
abbrev cc4_stg11_0 : Ref sig .tc := ⟨.vmem, 88, rfl⟩
abbrev cc4_stg11_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem6_0 : DmaSem sig := 47
abbrev cc2_sem7_0 : DmaSem sig := 48
abbrev cc2_sem8_0 : DmaSem sig := 49
abbrev cc2_sem9_0 : DmaSem sig := 50
abbrev cc2_sem10_0 : DmaSem sig := 51
abbrev cc2_sem11_0 : DmaSem sig := 52
abbrev cc2_sem11_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem6_0 : DmaSem sig := 65
abbrev cc3_sem7_0 : DmaSem sig := 66
abbrev cc3_sem8_0 : DmaSem sig := 67
abbrev cc3_sem9_0 : DmaSem sig := 68
abbrev cc3_sem10_0 : DmaSem sig := 69
abbrev cc3_sem11_0 : DmaSem sig := 70
abbrev cc3_sem11_1 : DmaSem sig := 71
abbrev cc4_sem0_0 : DmaSem sig := 72
abbrev cc4_sem0_1 : DmaSem sig := 73
abbrev cc4_sem1_0 : DmaSem sig := 74
abbrev cc4_sem1_1 : DmaSem sig := 75
abbrev cc4_sem2_0 : DmaSem sig := 76
abbrev cc4_sem2_1 : DmaSem sig := 77
abbrev cc4_sem3_0 : DmaSem sig := 78
abbrev cc4_sem3_1 : DmaSem sig := 79
abbrev cc4_sem4_0 : DmaSem sig := 80
abbrev cc4_sem4_1 : DmaSem sig := 81
abbrev cc4_sem5_0 : DmaSem sig := 82
abbrev cc4_sem6_0 : DmaSem sig := 83
abbrev cc4_sem7_0 : DmaSem sig := 84
abbrev cc4_sem8_0 : DmaSem sig := 85
abbrev cc4_sem9_0 : DmaSem sig := 86
abbrev cc4_sem10_0 : DmaSem sig := 87
abbrev cc4_sem11_0 : DmaSem sig := 88
abbrev cc4_sem11_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S64x25 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x25 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x25 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x25 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x25 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x25 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S5000x25 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S200000x64 : S_.BroadcastsInDim S200000x64 (![] : Fin 0 → Fin S200000x64.rank)
  bcast_S_S200000 : S_.BroadcastsInDim S200000 (![] : Fin 0 → Fin S200000.rank)
  shapeCasts_S200000_S200000x1 : S200000.ShapeCasts S200000x1
  slices_S2x4x64x64_S1x1x64x64_0_0_0_0 : S2x4x64x64.Slices ![0, 0, 0, 0] S1x1x64x64
  shapeCasts_S1x1x64x64_S64x64 : S1x1x64x64.ShapeCasts S64x64
  slices_S2x4x64_S1x1x64_0_0_0 : S2x4x64.Slices ![0, 0, 0] S1x1x64
  shapeCasts_S1x1x64_S64 : S1x1x64.ShapeCasts S64
  slices_S2x4x64x64_S1x1x64x64_0_1_0_0 : S2x4x64x64.Slices ![0, 1, 0, 0] S1x1x64x64
  slices_S2x4x64_S1x1x64_0_1_0 : S2x4x64.Slices ![0, 1, 0] S1x1x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S2x4x64x64_S1x1x64x64_0_2_0_0 : S2x4x64x64.Slices ![0, 2, 0, 0] S1x1x64x64
  slices_S2x4x64_S1x1x64_0_2_0 : S2x4x64.Slices ![0, 2, 0] S1x1x64
  slices_S2x4x64x64_S1x1x64x64_0_3_0_0 : S2x4x64x64.Slices ![0, 3, 0, 0] S1x1x64x64
  slices_S2x4x64_S1x1x64_0_3_0 : S2x4x64.Slices ![0, 3, 0] S1x1x64
  slices_S2x4x64x64_S1x1x64x64_1_0_0_0 : S2x4x64x64.Slices ![1, 0, 0, 0] S1x1x64x64
  slices_S2x4x64_S1x1x64_1_0_0 : S2x4x64.Slices ![1, 0, 0] S1x1x64
  slices_S2x4x64x64_S1x1x64x64_1_1_0_0 : S2x4x64x64.Slices ![1, 1, 0, 0] S1x1x64x64
  slices_S2x4x64_S1x1x64_1_1_0 : S2x4x64.Slices ![1, 1, 0] S1x1x64
  slices_S2x4x64x64_S1x1x64x64_1_2_0_0 : S2x4x64x64.Slices ![1, 2, 0, 0] S1x1x64x64
  slices_S2x4x64_S1x1x64_1_2_0 : S2x4x64.Slices ![1, 2, 0] S1x1x64
  slices_S2x4x64x64_S1x1x64x64_1_3_0_0 : S2x4x64x64.Slices ![1, 3, 0, 0] S1x1x64x64
  slices_S2x4x64_S1x1x64_1_3_0 : S2x4x64.Slices ![1, 3, 0] S1x1x64
  slices_S4x64x25_S1x64x25_0_0_0 : S4x64x25.Slices ![0, 0, 0] S1x64x25
  shapeCasts_S1x64x25_S64x25 : S1x64x25.ShapeCasts S64x25
  slices_S4x25_S1x25_0_0 : S4x25.Slices ![0, 0] S1x25
  shapeCasts_S1x25_S25 : S1x25.ShapeCasts S25
  slices_S4x64x25_S1x64x25_1_0_0 : S4x64x25.Slices ![1, 0, 0] S1x64x25
  slices_S4x25_S1x25_1_0 : S4x25.Slices ![1, 0] S1x25
  shapeCasts_S25_S1x25 : S25.ShapeCasts S1x25
  inb_S64x25_S64x25_0_0 : ∀ a, (![0, 0] : Fin 2 → Nat) a + S64x25.size a ≤ S64x25.size a
  h_S64x25 : 0 < S64x25.numel
  shapeCasts_S64x25_S64x25 : S64x25.ShapeCasts S64x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S5000x25 : S1x25.Broadcasts S5000x25
  inb_S5000x25_S5000x25_0_0 : ∀ a, (![0, 0] : Fin 2 → Nat) a + S5000x25.size a ≤ S5000x25.size a
  h_S5000x25 : 0 < S5000x25.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  gather_S200000x64_S1600000x1_S1600000x64_1_0_n_n_0_1_164_wf : GatherDims.WF S200000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S200000x64_S1600000x1_S1600000x64_1_0_0_1_wf : ScatterDims.WF S200000x64 S1600000x1 S1600000x64 [1] [0] [0] 1
  scatter_S200000_S1600000x1_S1600000_n_0_0_1_wf : ScatterDims.WF S200000 S1600000x1 S1600000 [] [0] [0] 1
  dot_S5000x64_S64x64_S5000x64_1_0_0_1_n_n_wf : DotDims.WF S5000x64 S64x64 S5000x64 [1] [0] [0] [1] [] []
  dot_S5000x64_S64x25_S5000x25_1_0_0_1_n_n_wf : DotDims.WF S5000x64 S64x25 S5000x25 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S50000x64.size a
  hwx0_11 : ∀ i : grid0.Coords, EltTy.bits .f32 = 32 ∨ (Rect.block (s := S50000x64) S5000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S200000x64.size a
  hwx1_2 : ∀ i : grid1.Coords, EltTy.bits .f32 = 32 ∨ (Rect.block (s := S200000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S200000x1.size a
  hwx1_3 : ∀ i : grid1.Coords, EltTy.bits .f32 = 32 ∨ (Rect.block (s := S200000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S200000x64.size a
  hwx1_4 : ∀ i : grid1.Coords, EltTy.bits .f32 = 32 ∨ (Rect.block (s := S200000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S200000x64.size a
  hwx1_11 : ∀ i : grid1.Coords, EltTy.bits .f32 = 32 ∨ (Rect.block (s := S200000x64) S5000x64.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x64.size a ≤ S50000x64.size a
  hwx2_11 : ∀ i : grid2.Coords, EltTy.bits .f32 = 32 ∨ (Rect.block (s := S50000x64) S5000x64.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S200000x1.size a
  hwx3_1 : ∀ i : grid3.Coords, EltTy.bits .f32 = 32 ∨ (Rect.block (s := S200000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S200000x64.size a
  hwx3_2 : ∀ i : grid3.Coords, EltTy.bits .f32 = 32 ∨ (Rect.block (s := S200000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S200000x1.size a
  hwx3_3 : ∀ i : grid3.Coords, EltTy.bits .f32 = 32 ∨ (Rect.block (s := S200000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S200000x64.size a
  hwx3_4 : ∀ i : grid3.Coords, EltTy.bits .f32 = 32 ∨ (Rect.block (s := S200000x64) S5000x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .f32 = 32 ∨ (Rect.block (s := S64x64) S64x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .f32 = 32 ∨ (Rect.block (s := S64x64) S64x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x64.size a ≤ S200000x64.size a
  hwx3_11 : ∀ i : grid3.Coords, EltTy.bits .f32 = 32 ∨ (Rect.block (s := S200000x64) S5000x64.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x25.size a ≤ S64x25.size a
  hwx4_5 : ∀ i : grid4.Coords, EltTy.bits .f32 = 32 ∨ (Rect.block (s := S64x25) S64x25.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x25.size a ≤ S64x25.size a
  hwx4_6 : ∀ i : grid4.Coords, EltTy.bits .f32 = 32 ∨ (Rect.block (s := S64x25) S64x25.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x25.size a ≤ S1x25.size a
  hwx4_7 : ∀ i : grid4.Coords, EltTy.bits .f32 = 32 ∨ (Rect.block (s := S1x25) S1x25.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x25.size a ≤ S64x25.size a
  hwx4_8 : ∀ i : grid4.Coords, EltTy.bits .f32 = 32 ∨ (Rect.block (s := S64x25) S64x25.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S64x25.size a ≤ S64x25.size a
  hwx4_9 : ∀ i : grid4.Coords, EltTy.bits .f32 = 32 ∨ (Rect.block (s := S64x25) S64x25.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x25.size a ≤ S1x25.size a
  hwx4_10 : ∀ i : grid4.Coords, EltTy.bits .f32 = 32 ∨ (Rect.block (s := S1x25) S1x25.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S5000x25.size a ≤ S50000x25.size a
  hwx4_11 : ∀ i : grid4.Coords, EltTy.bits .f32 = 32 ∨ (Rect.block (s := S50000x25) S5000x25.size (cc4_transform_11 i) (hinb4_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x25_S5000x25_1_0_0_1_n_n : DotDims S5000x64 S64x25 S5000x25 where
  lhsContracting := [1]
  rhsContracting := [0]
  lhsNonContracting := [0]
  rhsNonContracting := [1]
  lhsBatch := []
  rhsBatch := []
  wf := dot_S5000x64_S64x25_S5000x25_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v61) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v63) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v72) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v67) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v69) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v73) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v74) S5000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S5000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v76) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v78) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v87) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v82) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v84) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v88) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v89) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v99) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v104) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v114) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v119) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v74) S5000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v151) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v153) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v162) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v157) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v159) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v163) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v164) S5000x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v129) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v134) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v144) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v149) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v89) S5000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v166) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v168) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v177) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v172) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v174) S64x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v178) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v179) S5000x64.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v189) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v194) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v204) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v209) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v164) S5000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v211) S64x25.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v213) S64x25.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v222) S1x25.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v217) S64x25.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v219) S64x25.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v223) S1x25.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v224) S5000x25.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

class Facts : Prop extends Facts₀ where

variable [Facts]
-- ==== ReferenceIdeal.lean ====
abbrev S50000x64 : Shape := ⟨2, ![50000, 64]⟩
abbrev S200000x64 : Shape := ⟨2, ![200000, 64]⟩
abbrev S2x4x64x64 : Shape := ⟨4, ![2, 4, 64, 64]⟩
abbrev S2x4x64 : Shape := ⟨3, ![2, 4, 64]⟩
abbrev S4x64x25 : Shape := ⟨3, ![4, 64, 25]⟩
abbrev S4x25 : Shape := ⟨2, ![4, 25]⟩
abbrev S800000 : Shape := ⟨1, ![800000]⟩
abbrev S1600000 : Shape := ⟨1, ![1600000]⟩
abbrev S1x1x64x64 : Shape := ⟨4, ![1, 1, 64, 64]⟩
abbrev S64x64 : Shape := ⟨2, ![64, 64]⟩
abbrev S1x1x64 : Shape := ⟨3, ![1, 1, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S1600000x1 : Shape := ⟨2, ![1600000, 1]⟩
abbrev S1600000x64 : Shape := ⟨2, ![1600000, 64]⟩
abbrev S200000 : Shape := ⟨1, ![200000]⟩
abbrev S200000x1 : Shape := ⟨2, ![200000, 1]⟩
abbrev S1x64x25 : Shape := ⟨3, ![1, 64, 25]⟩
abbrev S64x25 : Shape := ⟨2, ![64, 25]⟩
abbrev S1x25 : Shape := ⟨2, ![1, 25]⟩
abbrev S25 : Shape := ⟨1, ![25]⟩
abbrev S50000x25 : Shape := ⟨2, ![50000, 25]⟩

abbrev nBuf : Space → Nat
  | .hbm => 403
  | .vmem => 0
  | .smem => 0
  | _ => 0

abbrev hbmTy0_0 (i : Nat) : BufTy := match i % 128 with
  | 0 => ⟨S50000x64, .f32⟩
  | 1 => ⟨S200000x64, .f32⟩
  | 2 => ⟨S2x4x64x64, .f32⟩
  | 3 => ⟨S2x4x64x64, .f32⟩
  | 4 => ⟨S2x4x64, .f32⟩
  | 5 => ⟨S4x64x25, .f32⟩
  | 6 => ⟨S4x64x25, .f32⟩
  | 7 => ⟨S4x25, .f32⟩
  | 8 => ⟨S800000, .i32⟩
  | 9 => ⟨S800000, .i32⟩
  | 10 => ⟨S1600000, .i32⟩
  | 11 => ⟨S1600000, .i32⟩
  | 12 => ⟨S1600000, .i32⟩
  | 13 => ⟨S1600000, .i32⟩
  | 14 => ⟨S1600000, .i32⟩
  | 15 => ⟨S1600000, .i32⟩
  | 16 => ⟨S1x1x64x64, .f32⟩
  | 17 => ⟨S64x64, .f32⟩
  | 18 => ⟨S1x1x64x64, .f32⟩
  | 19 => ⟨S64x64, .f32⟩
  | 20 => ⟨S1x1x64, .f32⟩
  | 21 => ⟨S64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S_, .f32⟩
  | 36 => ⟨S800000, .f32⟩
  | 37 => ⟨S_, .f32⟩
  | 38 => ⟨S50000, .f32⟩
  | 39 => ⟨S800000x1, .i32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x64, .f32⟩
  | 46 => ⟨S50000x64, .f32⟩
  | 47 => ⟨S50000x64, .f32⟩
  | 48 => ⟨S1x64, .f32⟩
  | 49 => ⟨S50000x64, .f32⟩
  | 50 => ⟨S50000x64, .f32⟩
  | 51 => ⟨S50000x64, .f32⟩
  | 52 => ⟨S50000x64, .f32⟩
  | 53 => ⟨S1x1x64x64, .f32⟩
  | 54 => ⟨S64x64, .f32⟩
  | 55 => ⟨S1x1x64x64, .f32⟩
  | 56 => ⟨S64x64, .f32⟩
  | 57 => ⟨S1x1x64, .f32⟩
  | 58 => ⟨S64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S_, .f32⟩
  | 69 => ⟨S50000x64, .f32⟩
  | 70 => ⟨S1600000x1, .i32⟩
  | 71 => ⟨S50000x64, .f32⟩
  | 72 => ⟨S_, .f32⟩
  | 73 => ⟨S1600000, .f32⟩
  | 74 => ⟨S_, .f32⟩
  | 75 => ⟨S50000, .f32⟩
  | 76 => ⟨S1600000x1, .i32⟩
  | 77 => ⟨S50000, .f32⟩
  | 78 => ⟨S_, .f32⟩
  | 79 => ⟨S50000, .f32⟩
  | 80 => ⟨S50000, .f32⟩
  | 81 => ⟨S50000x1, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S50000x64, .f32⟩
  | 89 => ⟨S50000x64, .f32⟩
  | 90 => ⟨S50000x64, .f32⟩
  | 91 => ⟨S1x1x64x64, .f32⟩
  | 92 => ⟨S64x64, .f32⟩
  | 93 => ⟨S1x1x64x64, .f32⟩
  | 94 => ⟨S64x64, .f32⟩
  | 95 => ⟨S1x1x64, .f32⟩
  | 96 => ⟨S64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S_, .f32⟩
  | 107 => ⟨S200000x64, .f32⟩
  | 108 => ⟨S1600000x1, .i32⟩
  | 109 => ⟨S200000x64, .f32⟩
  | 110 => ⟨S_, .f32⟩
  | 111 => ⟨S1600000, .f32⟩
  | 112 => ⟨S_, .f32⟩
  | 113 => ⟨S200000, .f32⟩
  | 114 => ⟨S1600000x1, .i32⟩
  | 115 => ⟨S200000, .f32⟩
  | 116 => ⟨S_, .f32⟩
  | 117 => ⟨S200000, .f32⟩
  | 118 => ⟨S200000, .f32⟩
  | 119 => ⟨S200000x1, .f32⟩
  | 120 => ⟨S200000x64, .f32⟩
  | 121 => ⟨S200000x64, .f32⟩
  | 122 => ⟨S200000x64, .f32⟩
  | 123 => ⟨S1x64, .f32⟩
  | 124 => ⟨S200000x64, .f32⟩
  | 125 => ⟨S200000x64, .f32⟩
  | 126 => ⟨S200000x64, .f32⟩
  | 127 => ⟨S200000x64, .f32⟩
  | _ => ⟨S50000x64, .f32⟩

abbrev hbmTy0_1 (i : Nat) : BufTy := match i % 128 with
  | 0 => ⟨S1x1x64x64, .f32⟩
  | 1 => ⟨S64x64, .f32⟩
  | 2 => ⟨S1x1x64x64, .f32⟩
  | 3 => ⟨S64x64, .f32⟩
  | 4 => ⟨S1x1x64, .f32⟩
  | 5 => ⟨S64, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S_, .f32⟩
  | 16 => ⟨S200000x64, .f32⟩
  | 17 => ⟨S1600000x1, .i32⟩
  | 18 => ⟨S200000x64, .f32⟩
  | 19 => ⟨S_, .f32⟩
  | 20 => ⟨S1600000, .f32⟩
  | 21 => ⟨S_, .f32⟩
  | 22 => ⟨S200000, .f32⟩
  | 23 => ⟨S1600000x1, .i32⟩
  | 24 => ⟨S200000, .f32⟩
  | 25 => ⟨S_, .f32⟩
  | 26 => ⟨S200000, .f32⟩
  | 27 => ⟨S200000, .f32⟩
  | 28 => ⟨S200000x1, .f32⟩
  | 29 => ⟨S200000x64, .f32⟩
  | 30 => ⟨S200000x64, .f32⟩
  | 31 => ⟨S200000x64, .f32⟩
  | 32 => ⟨S1x64, .f32⟩
  | 33 => ⟨S200000x64, .f32⟩
  | 34 => ⟨S200000x64, .f32⟩
  | 35 => ⟨S200000x64, .f32⟩
  | 36 => ⟨S200000x64, .f32⟩
  | 37 => ⟨S200000x64, .f32⟩
  | 38 => ⟨S_, .f32⟩
  | 39 => ⟨S50000x64, .f32⟩
  | 40 => ⟨S50000x64, .f32⟩
  | 41 => ⟨S_, .f32⟩
  | 42 => ⟨S200000x64, .f32⟩
  | 43 => ⟨S200000x64, .f32⟩
  | 44 => ⟨S1x1x64x64, .f32⟩
  | 45 => ⟨S64x64, .f32⟩
  | 46 => ⟨S1x1x64x64, .f32⟩
  | 47 => ⟨S64x64, .f32⟩
  | 48 => ⟨S1x1x64, .f32⟩
  | 49 => ⟨S64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S50000x64, .f32⟩
  | 80 => ⟨S50000x64, .f32⟩
  | 81 => ⟨S1x1x64x64, .f32⟩
  | 82 => ⟨S64x64, .f32⟩
  | 83 => ⟨S1x1x64x64, .f32⟩
  | 84 => ⟨S64x64, .f32⟩
  | 85 => ⟨S1x1x64, .f32⟩
  | 86 => ⟨S64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x64, .f32⟩
  | 96 => ⟨S_, .f32⟩
  | 97 => ⟨S50000x64, .f32⟩
  | 98 => ⟨S1600000x1, .i32⟩
  | 99 => ⟨S50000x64, .f32⟩
  | 100 => ⟨S_, .f32⟩
  | 101 => ⟨S1600000, .f32⟩
  | 102 => ⟨S_, .f32⟩
  | 103 => ⟨S50000, .f32⟩
  | 104 => ⟨S1600000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S50000x64, .f32⟩
  | 117 => ⟨S50000x64, .f32⟩
  | 118 => ⟨S50000x64, .f32⟩
  | 119 => ⟨S1x1x64x64, .f32⟩
  | 120 => ⟨S64x64, .f32⟩
  | 121 => ⟨S1x1x64x64, .f32⟩
  | 122 => ⟨S64x64, .f32⟩
  | 123 => ⟨S1x1x64, .f32⟩
  | 124 => ⟨S64, .f32⟩
  | 125 => ⟨S_, .i32⟩
  | 126 => ⟨S1600000, .i32⟩
  | 127 => ⟨S1600000, .i1⟩
  | _ => ⟨S50000x64, .f32⟩

abbrev hbmTy0_2 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S_, .f32⟩
  | 7 => ⟨S200000x64, .f32⟩
  | 8 => ⟨S1600000x1, .i32⟩
  | 9 => ⟨S200000x64, .f32⟩
  | 10 => ⟨S_, .f32⟩
  | 11 => ⟨S1600000, .f32⟩
  | 12 => ⟨S_, .f32⟩
  | 13 => ⟨S200000, .f32⟩
  | 14 => ⟨S1600000x1, .i32⟩
  | 15 => ⟨S200000, .f32⟩
  | 16 => ⟨S_, .f32⟩
  | 17 => ⟨S200000, .f32⟩
  | 18 => ⟨S200000, .f32⟩
  | 19 => ⟨S200000x1, .f32⟩
  | 20 => ⟨S200000x64, .f32⟩
  | 21 => ⟨S200000x64, .f32⟩
  | 22 => ⟨S200000x64, .f32⟩
  | 23 => ⟨S1x64, .f32⟩
  | 24 => ⟨S200000x64, .f32⟩
  | 25 => ⟨S200000x64, .f32⟩
  | 26 => ⟨S200000x64, .f32⟩
  | 27 => ⟨S200000x64, .f32⟩
  | 28 => ⟨S1x1x64x64, .f32⟩
  | 29 => ⟨S64x64, .f32⟩
  | 30 => ⟨S1x1x64x64, .f32⟩
  | 31 => ⟨S64x64, .f32⟩
  | 32 => ⟨S1x1x64, .f32⟩
  | 33 => ⟨S64, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x64, .f32⟩
  | 43 => ⟨S_, .f32⟩
  | 44 => ⟨S200000x64, .f32⟩
  | 45 => ⟨S1600000x1, .i32⟩
  | 46 => ⟨S200000x64, .f32⟩
  | 47 => ⟨S_, .f32⟩
  | 48 => ⟨S1600000, .f32⟩
  | 49 => ⟨S_, .f32⟩
  | 50 => ⟨S200000, .f32⟩
  | 51 => ⟨S1600000x1, .i32⟩
  | 52 => ⟨S200000, .f32⟩
  | 53 => ⟨S_, .f32⟩
  | 54 => ⟨S200000, .f32⟩
  | 55 => ⟨S200000, .f32⟩
  | 56 => ⟨S200000x1, .f32⟩
  | 57 => ⟨S200000x64, .f32⟩
  | 58 => ⟨S200000x64, .f32⟩
  | 59 => ⟨S200000x64, .f32⟩
  | 60 => ⟨S1x64, .f32⟩
  | 61 => ⟨S200000x64, .f32⟩
  | 62 => ⟨S200000x64, .f32⟩
  | 63 => ⟨S200000x64, .f32⟩
  | 64 => ⟨S200000x64, .f32⟩
  | 65 => ⟨S200000x64, .f32⟩
  | 66 => ⟨S_, .f32⟩
  | 67 => ⟨S50000x64, .f32⟩
  | 68 => ⟨S50000x64, .f32⟩
  | 69 => ⟨S_, .f32⟩
  | 70 => ⟨S200000x64, .f32⟩
  | 71 => ⟨S200000x64, .f32⟩
  | 72 => ⟨S1x64x25, .f32⟩
  | 73 => ⟨S64x25, .f32⟩
  | 74 => ⟨S1x64x25, .f32⟩
  | 75 => ⟨S64x25, .f32⟩
  | 76 => ⟨S1x25, .f32⟩
  | 77 => ⟨S25, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000x1, .f32⟩
  | 101 => ⟨S50000x64, .f32⟩
  | 102 => ⟨S50000x64, .f32⟩
  | 103 => ⟨S50000x25, .f32⟩
  | 104 => ⟨S1x25, .f32⟩
  | 105 => ⟨S50000x25, .f32⟩
  | 106 => ⟨S50000x25, .f32⟩
  | 107 => ⟨S50000x25, .f32⟩
  | 108 => ⟨S50000x25, .f32⟩
  | 109 => ⟨S1x64x25, .f32⟩
  | 110 => ⟨S64x25, .f32⟩
  | 111 => ⟨S1x64x25, .f32⟩
  | 112 => ⟨S64x25, .f32⟩
  | 113 => ⟨S1x25, .f32⟩
  | 114 => ⟨S25, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S_, .f32⟩
  | 125 => ⟨S50000x64, .f32⟩
  | 126 => ⟨S1600000x1, .i32⟩
  | 127 => ⟨S50000x64, .f32⟩
  | _ => ⟨S50000x64, .f32⟩

abbrev hbmTy0_3 (i : Nat) : BufTy := match i % 128 with
  | 0 => ⟨S_, .f32⟩
  | 1 => ⟨S1600000, .f32⟩
  | 2 => ⟨S_, .f32⟩
  | 3 => ⟨S50000, .f32⟩
  | 4 => ⟨S1600000x1, .i32⟩
  | 5 => ⟨S50000, .f32⟩
  | 6 => ⟨S_, .f32⟩
  | 7 => ⟨S50000, .f32⟩
  | 8 => ⟨S50000, .f32⟩
  | 9 => ⟨S50000x1, .f32⟩
  | 10 => ⟨S50000x64, .f32⟩
  | 11 => ⟨S50000x64, .f32⟩
  | 12 => ⟨S50000x25, .f32⟩
  | 13 => ⟨S1x25, .f32⟩
  | 14 => ⟨S50000x25, .f32⟩
  | 15 => ⟨S50000x25, .f32⟩
  | 16 => ⟨S50000x25, .f32⟩
  | 17 => ⟨S50000x25, .f32⟩
  | 18 => ⟨S50000x25, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_cst_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_10 : Ref sig .tc := ⟨.hbm, 97, rfl⟩
abbrev main_v69 : Ref sig .tc := ⟨.hbm, 98, rfl⟩
abbrev main_v70 : Ref sig .tc := ⟨.hbm, 99, rfl⟩
abbrev main_c_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_12 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_15 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_16 : Ref sig .tc := ⟨.hbm, 134, rfl⟩
abbrev main_v100 : Ref sig .tc := ⟨.hbm, 135, rfl⟩
abbrev main_v101 : Ref sig .tc := ⟨.hbm, 136, rfl⟩
abbrev main_c_17 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_18 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_19 : Ref sig .tc := ⟨.hbm, 147, rfl⟩
abbrev main_v110 : Ref sig .tc := ⟨.hbm, 148, rfl⟩
abbrev main_cst_20 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_21 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_call0_cst : Ref sig .tc := ⟨.hbm, 166, rfl⟩
abbrev main_call0_v0 : Ref sig .tc := ⟨.hbm, 167, rfl⟩
abbrev main_v126 : Ref sig .tc := ⟨.hbm, 168, rfl⟩
abbrev main_call1_cst : Ref sig .tc := ⟨.hbm, 169, rfl⟩
abbrev main_call1_v0 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_22 : Ref sig .tc := ⟨.hbm, 178, rfl⟩
abbrev main_v134 : Ref sig .tc := ⟨.hbm, 179, rfl⟩
abbrev main_v135 : Ref sig .tc := ⟨.hbm, 180, rfl⟩
abbrev main_c_23 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_24 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_25 : Ref sig .tc := ⟨.hbm, 191, rfl⟩
abbrev main_v144 : Ref sig .tc := ⟨.hbm, 192, rfl⟩
abbrev main_cst_26 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_cst_27 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_c_28 : Ref sig .tc := ⟨.hbm, 215, rfl⟩
abbrev main_v165 : Ref sig .tc := ⟨.hbm, 216, rfl⟩
abbrev main_v166 : Ref sig .tc := ⟨.hbm, 217, rfl⟩
abbrev main_c_29 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_30 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_31 : Ref sig .tc := ⟨.hbm, 228, rfl⟩
abbrev main_v175 : Ref sig .tc := ⟨.hbm, 229, rfl⟩
abbrev main_cst_32 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_cst_33 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_c_34 : Ref sig .tc := ⟨.hbm, 253, rfl⟩
abbrev main_v197 : Ref sig .tc := ⟨.hbm, 254, rfl⟩
abbrev main_v198 : Ref sig .tc := ⟨.hbm, 255, rfl⟩
abbrev main_c_35 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_36 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_cst_37 : Ref sig .tc := ⟨.hbm, 266, rfl⟩
abbrev main_v207 : Ref sig .tc := ⟨.hbm, 267, rfl⟩
abbrev main_cst_38 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_39 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_c_40 : Ref sig .tc := ⟨.hbm, 290, rfl⟩
abbrev main_v228 : Ref sig .tc := ⟨.hbm, 291, rfl⟩
abbrev main_v229 : Ref sig .tc := ⟨.hbm, 292, rfl⟩
abbrev main_c_41 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_cst_42 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_cst_43 : Ref sig .tc := ⟨.hbm, 303, rfl⟩
abbrev main_v238 : Ref sig .tc := ⟨.hbm, 304, rfl⟩
abbrev main_cst_44 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_cst_45 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_call2_cst : Ref sig .tc := ⟨.hbm, 322, rfl⟩
abbrev main_call2_v0 : Ref sig .tc := ⟨.hbm, 323, rfl⟩
abbrev main_v254 : Ref sig .tc := ⟨.hbm, 324, rfl⟩
abbrev main_call3_cst : Ref sig .tc := ⟨.hbm, 325, rfl⟩
abbrev main_call3_v0 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_c_46 : Ref sig .tc := ⟨.hbm, 334, rfl⟩
abbrev main_v262 : Ref sig .tc := ⟨.hbm, 335, rfl⟩
abbrev main_v263 : Ref sig .tc := ⟨.hbm, 336, rfl⟩
abbrev main_c_47 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_cst_48 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_cst_49 : Ref sig .tc := ⟨.hbm, 347, rfl⟩
abbrev main_v272 : Ref sig .tc := ⟨.hbm, 348, rfl⟩
abbrev main_cst_50 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_cst_51 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_c_52 : Ref sig .tc := ⟨.hbm, 371, rfl⟩
abbrev main_v293 : Ref sig .tc := ⟨.hbm, 372, rfl⟩
abbrev main_v294 : Ref sig .tc := ⟨.hbm, 373, rfl⟩
abbrev main_c_53 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_cst_54 : Ref sig .tc := ⟨.hbm, 380, rfl⟩
abbrev main_v300 : Ref sig .tc := ⟨.hbm, 381, rfl⟩
abbrev main_v301 : Ref sig .tc := ⟨.hbm, 382, rfl⟩
abbrev main_v302 : Ref sig .tc := ⟨.hbm, 383, rfl⟩
abbrev main_cst_55 : Ref sig .tc := ⟨.hbm, 384, rfl⟩
abbrev main_v303 : Ref sig .tc := ⟨.hbm, 385, rfl⟩
abbrev main_cst_56 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_cst_57 : Ref sig .tc := ⟨.hbm, 390, rfl⟩
abbrev main_v307 : Ref sig .tc := ⟨.hbm, 391, rfl⟩
abbrev main_v308 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_v317 : Ref sig .tc := ⟨.hbm, 401, rfl⟩
abbrev main_v318 : Ref sig .tc := ⟨.hbm, 402, rfl⟩

abbrev nD : Nat := 1
abbrev τ : Topo := Topo.v7x

variable {F : FTy → Type} [FloatOps F]

class Facts₀ : Prop where
  slices_S2x4x64x64_S1x1x64x64_0_0_0_0 : S2x4x64x64.Slices ![0, 0, 0, 0] S1x1x64x64
  shapeCasts_S1x1x64x64_S64x64 : S1x1x64x64.ShapeCasts S64x64
  slices_S2x4x64_S1x1x64_0_0_0 : S2x4x64.Slices ![0, 0, 0] S1x1x64
  shapeCasts_S1x1x64_S64 : S1x1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x4x64x64_S1x1x64x64_0_1_0_0 : S2x4x64x64.Slices ![0, 1, 0, 0] S1x1x64x64
  slices_S2x4x64_S1x1x64_0_1_0 : S2x4x64.Slices ![0, 1, 0] S1x1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x4x64x64_S1x1x64x64_0_2_0_0 : S2x4x64x64.Slices ![0, 2, 0, 0] S1x1x64x64
  slices_S2x4x64_S1x1x64_0_2_0 : S2x4x64.Slices ![0, 2, 0] S1x1x64
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  slices_S2x4x64x64_S1x1x64x64_0_3_0_0 : S2x4x64x64.Slices ![0, 3, 0, 0] S1x1x64x64
  slices_S2x4x64_S1x1x64_0_3_0 : S2x4x64.Slices ![0, 3, 0] S1x1x64
  slices_S2x4x64x64_S1x1x64x64_1_0_0_0 : S2x4x64x64.Slices ![1, 0, 0, 0] S1x1x64x64
  slices_S2x4x64_S1x1x64_1_0_0 : S2x4x64.Slices ![1, 0, 0] S1x1x64
  slices_S2x4x64x64_S1x1x64x64_1_1_0_0 : S2x4x64x64.Slices ![1, 1, 0, 0] S1x1x64x64
  slices_S2x4x64_S1x1x64_1_1_0 : S2x4x64.Slices ![1, 1, 0] S1x1x64
  slices_S2x4x64x64_S1x1x64x64_1_2_0_0 : S2x4x64x64.Slices ![1, 2, 0, 0] S1x1x64x64
  slices_S2x4x64_S1x1x64_1_2_0 : S2x4x64.Slices ![1, 2, 0] S1x1x64
  slices_S2x4x64x64_S1x1x64x64_1_3_0_0 : S2x4x64x64.Slices ![1, 3, 0, 0] S1x1x64x64
  slices_S2x4x64_S1x1x64_1_3_0 : S2x4x64.Slices ![1, 3, 0] S1x1x64
  slices_S4x64x25_S1x64x25_0_0_0 : S4x64x25.Slices ![0, 0, 0] S1x64x25
  shapeCasts_S1x64x25_S64x25 : S1x64x25.ShapeCasts S64x25
  slices_S4x25_S1x25_0_0 : S4x25.Slices ![0, 0] S1x25
  shapeCasts_S1x25_S25 : S1x25.ShapeCasts S25
  bcast_S25_S1x25_1 : S25.BroadcastsInDim S1x25 (![1] : Fin 1 → Fin S1x25.rank)
  bcast_S1x25_S50000x25_0_1 : S1x25.BroadcastsInDim S50000x25 (![0, 1] : Fin 2 → Fin S50000x25.rank)
  slices_S4x64x25_S1x64x25_1_0_0 : S4x64x25.Slices ![1, 0, 0] S1x64x25
  slices_S4x25_S1x25_1_0 : S4x25.Slices ![1, 0] S1x25
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  gather_S200000x64_S1600000x1_S1600000x64_1_0_n_n_0_1_164_wf : GatherDims.WF S200000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S200000x64_S1600000x1_S1600000x64_1_0_0_1_wf : ScatterDims.WF S200000x64 S1600000x1 S1600000x64 [1] [0] [0] 1
  scatter_S200000_S1600000x1_S1600000_n_0_0_1_wf : ScatterDims.WF S200000 S1600000x1 S1600000 [] [0] [0] 1
  dot_S200000x64_S64x64_S200000x64_1_0_0_1_n_n_wf : DotDims.WF S200000x64 S64x64 S200000x64 [1] [0] [0] [1] [] []
  dot_S50000x64_S64x25_S50000x25_1_0_0_1_n_n_wf : DotDims.WF S50000x64 S64x25 S50000x25 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S200000x64_S1600000x1_S1600000x64_1_0_n_n_0_1_164 : GatherDims S200000x64 S1600000x1 S1600000x64 where
  offsetDims := [1]
  collapsedSliceDims := [0]
  operandBatchingDims := []
  startIndicesBatchingDims := []
  startIndexMap := [0]
  indexVectorDim := 1
  sliceSizes := ![1, 64]
  wf := gather_S200000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S200000x64_S1600000x1_S1600000x64_1_0_0_1 : ScatterDims S200000x64 S1600000x1 S1600000x64 where
  updateWindowDims := [1]
  insertedWindowDims := [0]
  scatterDimsToOperandDims := [0]
  indexVectorDim := 1
  wf := scatter_S200000x64_S1600000x1_S1600000x64_1_0_0_1_wf
def scatter_S200000_S1600000x1_S1600000_n_0_0_1 : ScatterDims S200000 S1600000x1 S1600000 where
  updateWindowDims := []
  insertedWindowDims := [0]
  scatterDimsToOperandDims := [0]
  indexVectorDim := 1
  wf := scatter_S200000_S1600000x1_S1600000_n_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S50000x64_S64x25_S50000x25_1_0_0_1_n_n : DotDims S50000x64 S64x25 S50000x25 where
  lhsContracting := [1]
  rhsContracting := [0]
  lhsNonContracting := [0]
  rhsNonContracting := [1]
  lhsBatch := []
  rhsBatch := []
  wf := dot_S50000x64_S64x25_S50000x25_1_0_0_1_n_n_wf

class Facts : Prop extends Facts₀ where

variable [Facts]
-- ==== Proof.Spec.lean ====
/-
  The network both programs compute, stated once.

  A node's new features are, for each of the two edge types arriving at its node type, the mean of the source rows over
  the arriving edges (the sum of the gathered rows divided by the larger of the arrival count and one) times a left
  weight, plus a bias, plus the node's own features times a right weight; the two edge types' contributions are added,
  and a hidden layer clamps the sum at zero from below.  Two hidden layers update the room and the object features
  together; the output layer produces the room scores.

  The per-node expression `node` is stated index by index over plain functions, for any extents; the edge
  aggregations are kept as the whole-array gather and scatter-add, never opened.
-/
import proofs.«139568_j10058813407385_1_alg».proof.ReferenceIdeal
import Idealize.ShloMosaic.PureOps.Ideal
import Idealize.ShloMosaic.Lib.ValueIdx

noncomputable section

open scoped BigOperators

namespace Cert.Sage

open Idealize.ShloMosaic Idealize.ShloMosaic.ValueIdx Cert.ReferenceIdeal
open Cert.ReferenceIdeal.Facts₀ Cert.ReferenceIdeal.Facts

/-- One edge type's contribution at node `i`, output feature `j`: mean of the aggregated rows times the left weight,
    plus the bias, plus the node's own row times the right weight — in this association. -/
def half {N K D : Nat} (agg : (⟨2, ![N, K]⟩ : Shape).Idx → EReal) (deg : (⟨1, ![N]⟩ : Shape).Idx → EReal)
    (x : (⟨2, ![N, K]⟩ : Shape).Idx → EReal) (wl wr : (⟨2, ![K, D]⟩ : Shape).Idx → EReal)
    (b : (⟨1, ![D]⟩ : Shape).Idx → EReal) (i : Fin N) (j : Fin D) : EReal :=
  ((∑ q : Fin K, Ideal.div (agg (ix2 i q)) (max (deg (ix1 i)) (Ideal.ofBits .f32 0x3F800000#32)) * wl (ix2 q j)) + b (ix1 j))
    + ∑ q : Fin K, x (ix2 i q) * wr (ix2 q j)

/-- A node's new feature before any clamp: the two arriving edge types' contributions added. -/
def node {N K D : Nat} (agg1 : (⟨2, ![N, K]⟩ : Shape).Idx → EReal) (deg1 : (⟨1, ![N]⟩ : Shape).Idx → EReal)
    (agg2 : (⟨2, ![N, K]⟩ : Shape).Idx → EReal) (deg2 : (⟨1, ![N]⟩ : Shape).Idx → EReal)
    (x : (⟨2, ![N, K]⟩ : Shape).Idx → EReal) (wl1 wr1 : (⟨2, ![K, D]⟩ : Shape).Idx → EReal)
    (b1 : (⟨1, ![D]⟩ : Shape).Idx → EReal) (wl2 wr2 : (⟨2, ![K, D]⟩ : Shape).Idx → EReal)
    (b2 : (⟨1, ![D]⟩ : Shape).Idx → EReal) (i : Fin N) (j : Fin D) : EReal :=
  half agg1 deg1 x wl1 wr1 b1 i j + half agg2 deg2 x wl2 wr2 b2 i j

/-- The per-node expression reads only row `i` of the aggregates, the counts and the node's own features: two
    settings that agree on that row (possibly a row of a larger array, named `i'` there) give the same value. -/
theorem node_rows {N N' K D : Nat}
    {agg1 : (⟨2, ![N, K]⟩ : Shape).Idx → EReal} {deg1 : (⟨1, ![N]⟩ : Shape).Idx → EReal}
    {agg2 : (⟨2, ![N, K]⟩ : Shape).Idx → EReal} {deg2 : (⟨1, ![N]⟩ : Shape).Idx → EReal}
    {x : (⟨2, ![N, K]⟩ : Shape).Idx → EReal}
    {agg1' : (⟨2, ![N', K]⟩ : Shape).Idx → EReal} {deg1' : (⟨1, ![N']⟩ : Shape).Idx → EReal}
    {agg2' : (⟨2, ![N', K]⟩ : Shape).Idx → EReal} {deg2' : (⟨1, ![N']⟩ : Shape).Idx → EReal}
    {x' : (⟨2, ![N', K]⟩ : Shape).Idx → EReal}
    (wl1 wr1 : (⟨2, ![K, D]⟩ : Shape).Idx → EReal) (b1 : (⟨1, ![D]⟩ : Shape).Idx → EReal)
    (wl2 wr2 : (⟨2, ![K, D]⟩ : Shape).Idx → EReal) (b2 : (⟨1, ![D]⟩ : Shape).Idx → EReal)
    {i : Fin N} {i' : Fin N'} {j j' : Fin D}
    (h1 : ∀ q, agg1 (ix2 i q) = agg1' (ix2 i' q)) (hd1 : deg1 (ix1 i) = deg1' (ix1 i'))
    (h2 : ∀ q, agg2 (ix2 i q) = agg2' (ix2 i' q)) (hd2 : deg2 (ix1 i) = deg2' (ix1 i'))
    (hx : ∀ q, x (ix2 i q) = x' (ix2 i' q)) (hj : j = j') :
    node agg1 deg1 agg2 deg2 x wl1 wr1 b1 wl2 wr2 b2 i j = node agg1' deg1' agg2' deg2' x' wl1 wr1 b1 wl2 wr2 b2 i' j' := by
  subst hj
  unfold node half
  simp only [h1, hd1, h2, hd2, hx]

variable [Cert.ReferenceIdeal.Facts]

/-- Edge type RR: every edge reads the row of `x` named by its source (a negative source wraps by the extent), and the
    rows are summed into the row named by the edge's destination. -/
def aggRR (x : FVec Ideal S50000x64 .f32) (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- Edge type RR: the number of edges arriving at each destination, as a float. -/
def degRR (dst : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- Edge type OR: every edge reads the row of `x` named by its source (a negative source wraps by the extent), and the
    rows are summed into the row named by the edge's destination. -/
def aggOR (x : FVec Ideal S200000x64 .f32) (src dst : IVec S1600000 32) : FVec Ideal S50000x64 .f32 :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S200000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 200000#32))) src)))

/-- Edge type OR: the number of edges arriving at each destination, as a float. -/
def degOR (dst : IVec S1600000 32) : FVec Ideal S50000 .f32 :=
  Host.scatterAdd (F := Ideal) scatter_S50000_S1600000x1_S1600000_n_0_0_1
    (broadcastInDim S50000 ![] bcast_S_S50000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- Edge type RO: every edge reads the row of `x` named by its source (a negative source wraps by the extent), and the
    rows are summed into the row named by the edge's destination. -/
def aggRO (x : FVec Ideal S50000x64 .f32) (src dst : IVec S1600000 32) : FVec Ideal S200000x64 .f32 :=
  Host.scatterAdd (F := Ideal) scatter_S200000x64_S1600000x1_S1600000x64_1_0_0_1
    (broadcastInDim S200000x64 ![] bcast_S_S200000x64 (constant (F := Ideal) S_ .f32 0x00000000#32))
    (broadcastInDim S1600000x1 ![0] bcast_S1600000_S1600000x1_0 dst)
    (Host.gather gather_S50000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- Edge type RO: the number of edges arriving at each destination, as a float. -/
def degRO (dst : IVec S1600000 32) : FVec Ideal S200000 .f32 :=
  Host.scatterAdd (F := Ideal) scatter_S200000_S1600000x1_S1600000_n_0_0_1
    (broadcastInDim S200000 ![] bcast_S_S200000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- Edge type OO: every edge reads the row of `x` named by its source (a negative source wraps by the extent), and the
    rows are summed into the row named by the edge's destination. -/
def aggOO (x : FVec Ideal S200000x64 .f32) (src dst : IVec S1600000 32) : FVec Ideal S200000x64 .f32 :=
  Host.scatterAdd (F := Ideal) scatter_S200000x64_S1600000x1_S1600000x64_1_0_0_1
    (broadcastInDim S200000x64 ![] bcast_S_S200000x64 (constant (F := Ideal) S_ .f32 0x00000000#32))
    (broadcastInDim S1600000x1 ![0] bcast_S1600000_S1600000x1_0 dst)
    (Host.gather gather_S200000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 200000#32))) src)))

/-- Edge type OO: the number of edges arriving at each destination, as a float. -/
def degOO (dst : IVec S1600000 32) : FVec Ideal S200000 .f32 :=
  Host.scatterAdd (F := Ideal) scatter_S200000_S1600000x1_S1600000_n_0_0_1
    (broadcastInDim S200000 ![] bcast_S_S200000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-! The weight and bias slices: layer `l`, edge type `e` of the stacked parameters. -/
def mat00 (W : FVec Ideal S2x4x64x64 .f32) : FVec Ideal S64x64 .f32 :=
  shapeCast S64x64 (extractStridedSlice S1x1x64x64 ![0, 0, 0, 0] W slices_S2x4x64x64_S1x1x64x64_0_0_0_0) shapeCasts_S1x1x64x64_S64x64
def vec00 (b : FVec Ideal S2x4x64 .f32) : FVec Ideal S64 .f32 :=
  shapeCast S64 (extractStridedSlice S1x1x64 ![0, 0, 0] b slices_S2x4x64_S1x1x64_0_0_0) shapeCasts_S1x1x64_S64
def mat01 (W : FVec Ideal S2x4x64x64 .f32) : FVec Ideal S64x64 .f32 :=
  shapeCast S64x64 (extractStridedSlice S1x1x64x64 ![0, 1, 0, 0] W slices_S2x4x64x64_S1x1x64x64_0_1_0_0) shapeCasts_S1x1x64x64_S64x64
def vec01 (b : FVec Ideal S2x4x64 .f32) : FVec Ideal S64 .f32 :=
  shapeCast S64 (extractStridedSlice S1x1x64 ![0, 1, 0] b slices_S2x4x64_S1x1x64_0_1_0) shapeCasts_S1x1x64_S64
def mat02 (W : FVec Ideal S2x4x64x64 .f32) : FVec Ideal S64x64 .f32 :=
  shapeCast S64x64 (extractStridedSlice S1x1x64x64 ![0, 2, 0, 0] W slices_S2x4x64x64_S1x1x64x64_0_2_0_0) shapeCasts_S1x1x64x64_S64x64
def vec02 (b : FVec Ideal S2x4x64 .f32) : FVec Ideal S64 .f32 :=
  shapeCast S64 (extractStridedSlice S1x1x64 ![0, 2, 0] b slices_S2x4x64_S1x1x64_0_2_0) shapeCasts_S1x1x64_S64
def mat03 (W : FVec Ideal S2x4x64x64 .f32) : FVec Ideal S64x64 .f32 :=
  shapeCast S64x64 (extractStridedSlice S1x1x64x64 ![0, 3, 0, 0] W slices_S2x4x64x64_S1x1x64x64_0_3_0_0) shapeCasts_S1x1x64x64_S64x64
def vec03 (b : FVec Ideal S2x4x64 .f32) : FVec Ideal S64 .f32 :=
  shapeCast S64 (extractStridedSlice S1x1x64 ![0, 3, 0] b slices_S2x4x64_S1x1x64_0_3_0) shapeCasts_S1x1x64_S64
def mat10 (W : FVec Ideal S2x4x64x64 .f32) : FVec Ideal S64x64 .f32 :=
  shapeCast S64x64 (extractStridedSlice S1x1x64x64 ![1, 0, 0, 0] W slices_S2x4x64x64_S1x1x64x64_1_0_0_0) shapeCasts_S1x1x64x64_S64x64
def vec10 (b : FVec Ideal S2x4x64 .f32) : FVec Ideal S64 .f32 :=
  shapeCast S64 (extractStridedSlice S1x1x64 ![1, 0, 0] b slices_S2x4x64_S1x1x64_1_0_0) shapeCasts_S1x1x64_S64
def mat11 (W : FVec Ideal S2x4x64x64 .f32) : FVec Ideal S64x64 .f32 :=
  shapeCast S64x64 (extractStridedSlice S1x1x64x64 ![1, 1, 0, 0] W slices_S2x4x64x64_S1x1x64x64_1_1_0_0) shapeCasts_S1x1x64x64_S64x64
def vec11 (b : FVec Ideal S2x4x64 .f32) : FVec Ideal S64 .f32 :=
  shapeCast S64 (extractStridedSlice S1x1x64 ![1, 1, 0] b slices_S2x4x64_S1x1x64_1_1_0) shapeCasts_S1x1x64_S64
def mat12 (W : FVec Ideal S2x4x64x64 .f32) : FVec Ideal S64x64 .f32 :=
  shapeCast S64x64 (extractStridedSlice S1x1x64x64 ![1, 2, 0, 0] W slices_S2x4x64x64_S1x1x64x64_1_2_0_0) shapeCasts_S1x1x64x64_S64x64
def vec12 (b : FVec Ideal S2x4x64 .f32) : FVec Ideal S64 .f32 :=
  shapeCast S64 (extractStridedSlice S1x1x64 ![1, 2, 0] b slices_S2x4x64_S1x1x64_1_2_0) shapeCasts_S1x1x64_S64
def mat13 (W : FVec Ideal S2x4x64x64 .f32) : FVec Ideal S64x64 .f32 :=
  shapeCast S64x64 (extractStridedSlice S1x1x64x64 ![1, 3, 0, 0] W slices_S2x4x64x64_S1x1x64x64_1_3_0_0) shapeCasts_S1x1x64x64_S64x64
def vec13 (b : FVec Ideal S2x4x64 .f32) : FVec Ideal S64 .f32 :=
  shapeCast S64 (extractStridedSlice S1x1x64 ![1, 3, 0] b slices_S2x4x64_S1x1x64_1_3_0) shapeCasts_S1x1x64_S64
def omat0 (W : FVec Ideal S4x64x25 .f32) : FVec Ideal S64x25 .f32 :=
  shapeCast S64x25 (extractStridedSlice S1x64x25 ![0, 0, 0] W slices_S4x64x25_S1x64x25_0_0_0) shapeCasts_S1x64x25_S64x25
def ovec0 (b : FVec Ideal S4x25 .f32) : FVec Ideal S25 .f32 :=
  shapeCast S25 (extractStridedSlice S1x25 ![0, 0] b slices_S4x25_S1x25_0_0) shapeCasts_S1x25_S25
def omat1 (W : FVec Ideal S4x64x25 .f32) : FVec Ideal S64x25 .f32 :=
  shapeCast S64x25 (extractStridedSlice S1x64x25 ![1, 0, 0] W slices_S4x64x25_S1x64x25_1_0_0) shapeCasts_S1x64x25_S64x25
def ovec1 (b : FVec Ideal S4x25 .f32) : FVec Ideal S25 .f32 :=
  shapeCast S25 (extractStridedSlice S1x25 ![1, 0] b slices_S4x25_S1x25_1_0) shapeCasts_S1x25_S25

/-- A hidden layer's room features. -/
def hidR (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (srcRR dstRR : IVec S800000 32) (srcOR dstOR : IVec S1600000 32) : FVec Ideal S50000x64 .f32 :=
  fun idx => max (node (aggRR xr srcRR dstRR) (degRR dstRR) (aggOR xo srcOR dstOR) (degOR dstOR) xr wl1 wr1 b1 wl2 wr2 b2 (idx 0) (idx 1))
    (Ideal.ofBits .f32 0x00000000#32)

/-- A hidden layer's object features. -/
def hidO (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (srcRO dstRO srcOO dstOO : IVec S1600000 32) : FVec Ideal S200000x64 .f32 :=
  fun idx => max (node (aggRO xr srcRO dstRO) (degRO dstRO) (aggOO xo srcOO dstOO) (degOO dstOO) xo wl1 wr1 b1 wl2 wr2 b2 (idx 0) (idx 1))
    (Ideal.ofBits .f32 0x00000000#32)

/-- The output layer's room scores (no clamp). -/
def outR (xr : FVec Ideal S50000x64 .f32) (xo : FVec Ideal S200000x64 .f32)
    (wl1 wr1 : FVec Ideal S64x25 .f32) (b1 : FVec Ideal S25 .f32) (wl2 wr2 : FVec Ideal S64x25 .f32) (b2 : FVec Ideal S25 .f32)
    (srcRR dstRR : IVec S800000 32) (srcOR dstOR : IVec S1600000 32) : FVec Ideal S50000x25 .f32 :=
  fun idx => node (aggRR xr srcRR dstRR) (degRR dstRR) (aggOR xo srcOR dstOR) (degOR dstOR) xr wl1 wr1 b1 wl2 wr2 b2 (idx 0) (idx 1)

/-- The whole network: two hidden layers, then the output layer, from the sixteen arguments. -/
def final (a0 : FVec Ideal S50000x64 .f32) (a1 : FVec Ideal S200000x64 .f32) (a2 a3 : FVec Ideal S2x4x64x64 .f32)
    (a4 : FVec Ideal S2x4x64 .f32) (a5 a6 : FVec Ideal S4x64x25 .f32) (a7 : FVec Ideal S4x25 .f32)
    (a8 a9 : IVec S800000 32) (a10 a11 a12 a13 a14 a15 : IVec S1600000 32) : FVec Ideal S50000x25 .f32 :=
  outR
    (hidR (hidR a0 a1 (mat00 a2) (mat00 a3) (vec00 a4) (mat01 a2) (mat01 a3) (vec01 a4) a8 a9 a10 a11)
          (hidO a0 a1 (mat02 a2) (mat02 a3) (vec02 a4) (mat03 a2) (mat03 a3) (vec03 a4) a12 a13 a14 a15)
          (mat10 a2) (mat10 a3) (vec10 a4) (mat11 a2) (mat11 a3) (vec11 a4) a8 a9 a10 a11)
    (hidO (hidR a0 a1 (mat00 a2) (mat00 a3) (vec00 a4) (mat01 a2) (mat01 a3) (vec01 a4) a8 a9 a10 a11)
          (hidO a0 a1 (mat02 a2) (mat02 a3) (vec02 a4) (mat03 a2) (mat03 a3) (vec03 a4) a12 a13 a14 a15)
          (mat12 a2) (mat12 a3) (vec12 a4) (mat13 a2) (mat13 a3) (vec13 a4) a12 a13 a14 a15)
    (omat0 a5) (omat0 a6) (ovec0 a7) (omat1 a5) (omat1 a6) (ovec1 a7) a8 a9 a10 a11

end Cert.Sage

end
-- ==== Proof.LibPlainDot.lean ====
/-
  A plain matrix product's contraction read as a sum over the middle coordinate.  For dimension numbers that contract
  the left operand's second axis against the right operand's first, with no batch axis — an [M,K] by [K,N] product —
  the left operand's index at result position (a, b) and contraction position q is (a, q), the right operand's is
  (q, b), and so the contraction's sum over the one-axis contraction shape is the sum over q of L (a, q) · R (q, b).
  Stated for any such dimension-number record, whatever proof of well-formedness it carries, and for any extents.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat} (d : DotDims ⟨2, ![M, K]⟩ ⟨2, ![K, N]⟩ ⟨2, ![M, N]⟩)

/-- One axis is contracted. -/
theorem contr_rank (hlc : d.lhsContracting = [1]) : d.contr.rank = 1 := by rw [d.rank_contr, hlc]; rfl

/-- Its extent is the middle extent. -/
theorem contr_size (hlc : d.lhsContracting = [1]) :
    d.contr.size ⟨0, by rw [contr_rank d hlc]; exact Nat.one_pos⟩ = K := by
  obtain ⟨lc, rc, ln, rn, lb, rb, wf⟩ := d
  dsimp only at hlc
  subst hlc
  simp [DotDims.contr]

/-- The left operand is read at (row of the result, contraction position). -/
theorem lhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.lhsIdx (ix2 a b) ((contrEquiv1 d K (contr_rank d hlc) (contr_size d hlc)).symm q) = ix2 a q := by
  funext ax
  apply Fin.ext
  match ax with
  | ⟨1, _⟩ =>
    have h := DotDims.lhsIdx_val_of_single d (cl := (1 : Fin 2)) hlc (ix2 a b)
      ((contrEquiv1 d K (contr_rank d hlc) (contr_size d hlc)).symm q)
    rw [contrEquiv1_symm_val] at h
    exact h
  | ⟨0, _⟩ =>
    obtain ⟨lc, rc, ln, rn, lb, rb, wf⟩ := d
    dsimp only at hlc hrc hln hrn hlb hrb
    subst hlc hrc hln hrn hlb hrb
    simp [DotDims.lhsIdx]
    rfl

/-- The right operand is read at (contraction position, column of the result). -/
theorem rhs_plain (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (q : Fin K) :
    d.rhsIdx (ix2 a b) ((contrEquiv1 d K (contr_rank d hlc) (contr_size d hlc)).symm q) = ix2 q b := by
  funext ax
  apply Fin.ext
  match ax with
  | ⟨0, _⟩ =>
    have h := DotDims.rhsIdx_val_of_single d (cr := (0 : Fin 2)) hrc (ix2 a b)
      ((contrEquiv1 d K (contr_rank d hlc) (contr_size d hlc)).symm q)
    rw [contrEquiv1_symm_val] at h
    exact h
  | ⟨1, _⟩ =>
    obtain ⟨lc, rc, ln, rn, lb, rb, wf⟩ := d
    dsimp only at hlc hrc hln hrn hlb hrb
    subst hlc hrc hln hrn hlb hrb
    simp [DotDims.rhsIdx]
    rfl

/-- The contraction's sum is the sum over the middle coordinate. -/
theorem plain_sum {β : Type*} [AddCommMonoid β] (hlc : d.lhsContracting = [1]) (hrc : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → β) (a : Fin M) (b : Fin N) :
    ∑ k : d.contr.Idx, f (d.lhsIdx (ix2 a b) k) (d.rhsIdx (ix2 a b) k) = ∑ q : Fin K, f (ix2 a q) (ix2 q b) := by
  rw [← Equiv.sum_comp (contrEquiv1 d K (contr_rank d hlc) (contr_size d hlc)).symm]
  refine Finset.sum_congr rfl fun q _ => ?_
  rw [lhs_plain d hlc hrc hln hrn hlb hrb a b q, rhs_plain d hlc hrc hln hrn hlb hrb a b q]

end Cert.LibPlainDot

end
-- ==== Proof.KerBlock0.lean ====
/-
  One grid point's block of region 0: the body's stored value, index by index, is the per-node expression of the
  point's input blocks.  The body divides each aggregated row by the larger of its arrival count and one, multiplies by
  the left weight (a contraction over the 64 input features), adds the bias row and the product of the node's own row
  with the right weight, does the same for the second edge type, and adds the two, then clamps at zero.
  At exact values a change of float format is the identity, and a product into a zero accumulator is the plain sum.
-/
import proofs.«139568_j10058813407385_1_alg».proof.Proof.Gen.KernelIdeal.Skeleton
import proofs.«139568_j10058813407385_1_alg».proof.Proof.Spec
import proofs.«139568_j10058813407385_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerSide.R0

open Idealize.ShloMosaic Idealize.ShloMosaic.ValueIdx Idealize.ShloMosaic.TcCoe Cert.KernelIdeal Cert.KernelIdeal.Gen

/-- The mean of the aggregated rows at (p, q): the aggregate over the clamped count. -/
theorem mean_apply (x : Vec Ideal S5000x64 .f32) (d : Vec Ideal S5000x1 .f32) (p : Fin 5000) (q : Fin 64) :
    (divf x (broadcastTo S5000x64 (maximumf d
        (broadcast S5000x1 (FloatOps.ofBits (F := Ideal) .f32 0x3F800000#32))) broadcasts_S5000x1_S5000x64)
        : FVec Ideal S5000x64 .f32) (ix2 p q)
      = Ideal.div (x (ix2 p q)) (max (d (ix2 p 0)) (Ideal.ofBits .f32 0x3F800000#32)) := by
  rw [divf_apply,
    broadcastTo_apply _ broadcasts_S5000x1_S5000x64 (ix2 p q) (ix2 p 0) (fun a => by
      match a with
      | ⟨0, _⟩ => rfl
      | ⟨1, _⟩ => rfl),
    maximumf_apply, broadcast_apply]
  rfl

/-- A weight block re-read in the narrower format is itself. -/
theorem wcast_apply (w : Vec Ideal S64x64 .f32) (i : S64x64.Idx) :
    (truncf .bf16 (shapeCast S64x64 w shapeCasts_S64x64_S64x64) bitsLt_bf16_f32 : FVec Ideal S64x64 .bf16) i = w i := by
  rw [truncf_apply, shapeCast_self]

/-- The bias row spread over the block's rows, at (p, j). -/
theorem bias_apply (b : Vec Ideal S1x64 .f32) (p : Fin 5000) (j : Fin 64) :
    (broadcastTo S5000x64 (shapeCast S1x64 b shapeCasts_S1x64_S1x64) broadcasts_S1x64_S5000x64 : FVec Ideal S5000x64 .f32) (ix2 p j)
      = b (ix2 0 j) := by
  rw [broadcastTo_apply _ broadcasts_S1x64_S5000x64 (ix2 p j) (ix2 0 j) (fun a => by
      match a with
      | ⟨0, _⟩ => rfl
      | ⟨1, _⟩ => rfl), shapeCast_self]

/-- A product of a [5000,64] block with a [64,64] block into the zero accumulator, at (p, j): the sum over the 64 features. -/
theorem prod_apply (l : FVec Ideal S5000x64 .bf16) (r : FVec Ideal S64x64 .bf16) (p : Fin 5000) (j : Fin 64) :
    matmul dot_S5000x64_S64x64_S5000x64_1_0_0_1_n_n none l r (constant (F := Ideal) S5000x64 .f32 0x00000000#32) (ix2 p j)
      = ∑ q : Fin 64, l (ix2 p q) * r (ix2 q j) := by
  show FloatOps.matmul dot_S5000x64_S64x64_S5000x64_1_0_0_1_n_n none l r (constant (F := Ideal) S5000x64 .f32 0x00000000#32) (ix2 p j) = _
  rw [Ideal.matmul_constant_zero_apply]
  exact Cert.LibPlainDot.plain_sum dot_S5000x64_S64x64_S5000x64_1_0_0_1_n_n rfl rfl rfl rfl rfl rfl (fun a b => l a * r b) p j

/-- THE BLOCK: what the body stores, at row p and output feature j of the block. -/
theorem pay_apply (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (p : Fin 5000) (j : Fin 64) :
    k0_pay1 (F := Ideal) (k0_pay2 x2 x3) (k0_pay3 x4) (k0_pay4 x6) (k0_pay5 x8) (k0_pay6 x9) (k0_pay7 x0 x1 x5) (k0_pay8 x7) x10 (ix2 p j)
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) p j) (Ideal.ofBits .f32 0x00000000#32) := by
  unfold k0_pay1 k0_pay2 k0_pay3 k0_pay4 k0_pay5 k0_pay6 k0_pay7 k0_pay8
  dsimp only
  rw [maximumf_apply, broadcast_apply]
  rw [addf_apply, addf_apply, addf_apply, addf_apply, addf_apply]
  rw [prod_apply, prod_apply, prod_apply, prod_apply, bias_apply, bias_apply]
  simp only [truncf_apply, shapeCast_self, mean_apply]
  unfold Cert.Sage.node Cert.Sage.half
  rfl

/-- The same at any index of the block. -/
theorem pay_at (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (y : S5000x64.Idx) :
    k0_pay1 (F := Ideal) (k0_pay2 x2 x3) (k0_pay3 x4) (k0_pay4 x6) (k0_pay5 x8) (k0_pay6 x9) (k0_pay7 x0 x1 x5) (k0_pay8 x7) x10 y
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) (y 0) (y 1)) (Ideal.ofBits .f32 0x00000000#32) := by
  obtain ⟨p, j, rfl⟩ : ∃ (p : Fin 5000) (j : Fin 64), y = ix2 p j := ⟨y 0, y 1, eq_ix2 y⟩
  exact pay_apply x0 x1 x2 x3 x4 x5 x6 x7 x8 x9 x10 p j

end Cert.KerSide.R0

end
-- ==== Proof.KerShape.lean ====
/-
  What a region leaves, as a function of the arrays it reads (three shapes: the room layers, the object layers, the
  output layer).
-/
import proofs.«139568_j10058813407385_1_alg».proof.Proof.Spec

noncomputable section

open scoped BigOperators

namespace Cert.KerSide

open Idealize.ShloMosaic Idealize.ShloMosaic.ValueIdx

/-- A region's result over 50000 nodes and 64 output features, as one function of the eleven arrays it reads: the node
    arrays by row, the counts from one-column arrays, the biases from one-row arrays, clamped at zero. -/
def G50 (a0 : (⟨2, ![50000, 64]⟩ : Shape).Idx → EReal) (a1 : (⟨2, ![50000, 1]⟩ : Shape).Idx → EReal)
    (a2 : (⟨2, ![50000, 64]⟩ : Shape).Idx → EReal) (a3 : (⟨2, ![50000, 1]⟩ : Shape).Idx → EReal)
    (a4 : (⟨2, ![50000, 64]⟩ : Shape).Idx → EReal) (a5 a6 : (⟨2, ![64, 64]⟩ : Shape).Idx → EReal)
    (a7 : (⟨2, ![1, 64]⟩ : Shape).Idx → EReal) (a8 a9 : (⟨2, ![64, 64]⟩ : Shape).Idx → EReal)
    (a10 : (⟨2, ![1, 64]⟩ : Shape).Idx → EReal) : (⟨2, ![50000, 64]⟩ : Shape).Idx → EReal :=
  fun i => max (Cert.Sage.node (N := 50000) (K := 64) (D := 64) a0 (fun r => a1 (ix2 (r 0) 0)) a2 (fun r => a3 (ix2 (r 0) 0)) a4 a5 a6
    (fun d => a7 (ix2 0 (d 0))) a8 a9 (fun d => a10 (ix2 0 (d 0))) (i 0) (i 1)) (Ideal.ofBits .f32 0x00000000#32)

/-- A region's result over 200000 nodes and 64 output features, as one function of the eleven arrays it reads: the node
    arrays by row, the counts from one-column arrays, the biases from one-row arrays, clamped at zero. -/
def G200 (a0 : (⟨2, ![200000, 64]⟩ : Shape).Idx → EReal) (a1 : (⟨2, ![200000, 1]⟩ : Shape).Idx → EReal)
    (a2 : (⟨2, ![200000, 64]⟩ : Shape).Idx → EReal) (a3 : (⟨2, ![200000, 1]⟩ : Shape).Idx → EReal)
    (a4 : (⟨2, ![200000, 64]⟩ : Shape).Idx → EReal) (a5 a6 : (⟨2, ![64, 64]⟩ : Shape).Idx → EReal)
    (a7 : (⟨2, ![1, 64]⟩ : Shape).Idx → EReal) (a8 a9 : (⟨2, ![64, 64]⟩ : Shape).Idx → EReal)
    (a10 : (⟨2, ![1, 64]⟩ : Shape).Idx → EReal) : (⟨2, ![200000, 64]⟩ : Shape).Idx → EReal :=
  fun i => max (Cert.Sage.node (N := 200000) (K := 64) (D := 64) a0 (fun r => a1 (ix2 (r 0) 0)) a2 (fun r => a3 (ix2 (r 0) 0)) a4 a5 a6
    (fun d => a7 (ix2 0 (d 0))) a8 a9 (fun d => a10 (ix2 0 (d 0))) (i 0) (i 1)) (Ideal.ofBits .f32 0x00000000#32)

/-- A region's result over 50000 nodes and 25 output features, as one function of the eleven arrays it reads: the node
    arrays by row, the counts from one-column arrays, the biases from one-row arrays. -/
def Gout (a0 : (⟨2, ![50000, 64]⟩ : Shape).Idx → EReal) (a1 : (⟨2, ![50000, 1]⟩ : Shape).Idx → EReal)
    (a2 : (⟨2, ![50000, 64]⟩ : Shape).Idx → EReal) (a3 : (⟨2, ![50000, 1]⟩ : Shape).Idx → EReal)
    (a4 : (⟨2, ![50000, 64]⟩ : Shape).Idx → EReal) (a5 a6 : (⟨2, ![64, 25]⟩ : Shape).Idx → EReal)
    (a7 : (⟨2, ![1, 25]⟩ : Shape).Idx → EReal) (a8 a9 : (⟨2, ![64, 25]⟩ : Shape).Idx → EReal)
    (a10 : (⟨2, ![1, 25]⟩ : Shape).Idx → EReal) : (⟨2, ![50000, 25]⟩ : Shape).Idx → EReal :=
  fun i => Cert.Sage.node (N := 50000) (K := 64) (D := 25) a0 (fun r => a1 (ix2 (r 0) 0)) a2 (fun r => a3 (ix2 (r 0) 0)) a4 a5 a6
    (fun d => a7 (ix2 0 (d 0))) a8 a9 (fun d => a10 (ix2 0 (d 0))) (i 0) (i 1)

end Cert.KerSide

end
-- ==== Proof.KerRegion0.lean ====
/-
  Region 0 as a whole: the array it leaves is, index by index, the per-node expression of the arrays it found.
  The grid has 10 points; point t reads rows 5000·t … 5000·t + 4999 of the five node arrays and the whole of the six
  parameter arrays, and writes the same rows of the result; the 10 blocks tile the result.
-/
import proofs.«139568_j10058813407385_1_alg».proof.Proof.Gen.KernelIdeal.Frame
import proofs.«139568_j10058813407385_1_alg».proof.Proof.KerBlock0
import proofs.«139568_j10058813407385_1_alg».proof.Proof.KerShape
import Idealize.ShloMosaic.Lib.Pipeline.Value
import Idealize.ShloMosaic.Lib.Tactic

set_option maxRecDepth 16384

noncomputable section

open scoped BigOperators

namespace Cert.KerSide.R0

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the five node windows move with the output window along the rows, the six
    parameter windows stay at the origin. -/
theorem idx_facts : ∀ t : Fin cfg0.N, win0_0.index t (0 : Fin 2) = win0_11.index t (0 : Fin 2)
    ∧ win0_0.index t (1 : Fin 2) = 0
    ∧ win0_1.index t (0 : Fin 2) = win0_11.index t (0 : Fin 2)
    ∧ win0_1.index t (1 : Fin 2) = 0
    ∧ win0_2.index t (0 : Fin 2) = win0_11.index t (0 : Fin 2)
    ∧ win0_2.index t (1 : Fin 2) = 0
    ∧ win0_3.index t (0 : Fin 2) = win0_11.index t (0 : Fin 2)
    ∧ win0_3.index t (1 : Fin 2) = 0
    ∧ win0_4.index t (0 : Fin 2) = win0_11.index t (0 : Fin 2)
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (1 : Fin 2) = 0
    ∧ win0_11.index t (0 : Fin 2) ≤ 9 :=
  (by decide +kernel : ∀ t : Fin grid0.N, _)

/-- Every row block of the result is some point's. -/
theorem idx_onto : ∀ q0 : Fin 10, ∃ t : Fin cfg0.N, win0_11.index t = ![q0.val, 0] :=
  (by decide +kernel : ∀ q0 : Fin 10, ∃ t : Fin grid0.N, win0_11.index t = ![q0.val, 0])

/-- Window 5 is one whole block: every point reads the whole array. -/
theorem blk5 (c : Dev nD) (t : Fin cfg0.N) : iblk0 V c 5 t = (V c main_v61 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v61 : S64x64.Idx → EReal) (((cfg0.win 5).blk t).view.emb z) = _
  refine congrArg _ (funext fun a => Fin.ext ?_)
  match a with
  | ⟨0, _⟩ => show win0_5.index t (0 : Fin 2) * 64 + 1 * (z 0).val = (z 0).val; omega
  | ⟨1, _⟩ => show win0_5.index t (1 : Fin 2) * 64 + 1 * (z 1).val = (z 1).val; omega

/-- Window 6 is one whole block: every point reads the whole array. -/
theorem blk6 (c : Dev nD) (t : Fin cfg0.N) : iblk0 V c 6 t = (V c main_v63 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v63 : S64x64.Idx → EReal) (((cfg0.win 6).blk t).view.emb z) = _
  refine congrArg _ (funext fun a => Fin.ext ?_)
  match a with
  | ⟨0, _⟩ => show win0_6.index t (0 : Fin 2) * 64 + 1 * (z 0).val = (z 0).val; omega
  | ⟨1, _⟩ => show win0_6.index t (1 : Fin 2) * 64 + 1 * (z 1).val = (z 1).val; omega

/-- Window 7 is one whole block: every point reads the whole array. -/
theorem blk7 (c : Dev nD) (t : Fin cfg0.N) : iblk0 V c 7 t = (V c main_v72 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v72 : S1x64.Idx → EReal) (((cfg0.win 7).blk t).view.emb z) = _
  refine congrArg _ (funext fun a => Fin.ext ?_)
  match a with
  | ⟨0, _⟩ => show win0_7.index t (0 : Fin 2) * 1 + 1 * (z 0).val = (z 0).val; omega
  | ⟨1, _⟩ => show win0_7.index t (1 : Fin 2) * 64 + 1 * (z 1).val = (z 1).val; omega

/-- Window 8 is one whole block: every point reads the whole array. -/
theorem blk8 (c : Dev nD) (t : Fin cfg0.N) : iblk0 V c 8 t = (V c main_v67 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v67 : S64x64.Idx → EReal) (((cfg0.win 8).blk t).view.emb z) = _
  refine congrArg _ (funext fun a => Fin.ext ?_)
  match a with
  | ⟨0, _⟩ => show win0_8.index t (0 : Fin 2) * 64 + 1 * (z 0).val = (z 0).val; omega
  | ⟨1, _⟩ => show win0_8.index t (1 : Fin 2) * 64 + 1 * (z 1).val = (z 1).val; omega

/-- Window 9 is one whole block: every point reads the whole array. -/
theorem blk9 (c : Dev nD) (t : Fin cfg0.N) : iblk0 V c 9 t = (V c main_v69 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v69 : S64x64.Idx → EReal) (((cfg0.win 9).blk t).view.emb z) = _
  refine congrArg _ (funext fun a => Fin.ext ?_)
  match a with
  | ⟨0, _⟩ => show win0_9.index t (0 : Fin 2) * 64 + 1 * (z 0).val = (z 0).val; omega
  | ⟨1, _⟩ => show win0_9.index t (1 : Fin 2) * 64 + 1 * (z 1).val = (z 1).val; omega

/-- Window 10 is one whole block: every point reads the whole array. -/
theorem blk10 (c : Dev nD) (t : Fin cfg0.N) : iblk0 V c 10 t = (V c main_v73 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v73 : S1x64.Idx → EReal) (((cfg0.win 10).blk t).view.emb z) = _
  refine congrArg _ (funext fun a => Fin.ext ?_)
  match a with
  | ⟨0, _⟩ => show win0_10.index t (0 : Fin 2) * 1 + 1 * (z 0).val = (z 0).val; omega
  | ⟨1, _⟩ => show win0_10.index t (1 : Fin 2) * 64 + 1 * (z 1).val = (z 1).val; omega

/-- Window 0's block at point `t` is the rows of its array that the output block covers. -/
theorem row0 (c : Dev nD) (t : Fin cfg0.N) (y : S5000x64.Idx) (q : Fin 64) :
    iblk0 V c 0 t (ix2 (y 0) q) = (V c main_v9 : S50000x64.Idx → EReal) (ix2 ((((cfg0.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v9 : S50000x64.Idx → EReal) (((cfg0.win 0).blk t).view.emb (ix2 (y 0) q)) = _
  refine congrArg _ (funext fun a => Fin.ext ?_)
  match a with
  | ⟨0, _⟩ => show win0_0.index t (0 : Fin 2) * 5000 + 1 * (y 0).val = win0_11.index t (0 : Fin 2) * 5000 + 1 * (y 0).val; omega
  | ⟨1, _⟩ => show win0_0.index t (1 : Fin 2) * 64 + 1 * q.val = q.val; omega

/-- Window 1's block at point `t` is the rows of its array that the output block covers. -/
theorem row1 (c : Dev nD) (t : Fin cfg0.N) (y : S5000x64.Idx) (q : Fin 1) :
    iblk0 V c 1 t (ix2 (y 0) q) = (V c main_v14 : S50000x1.Idx → EReal) (ix2 ((((cfg0.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v14 : S50000x1.Idx → EReal) (((cfg0.win 1).blk t).view.emb (ix2 (y 0) q)) = _
  refine congrArg _ (funext fun a => Fin.ext ?_)
  match a with
  | ⟨0, _⟩ => show win0_1.index t (0 : Fin 2) * 5000 + 1 * (y 0).val = win0_11.index t (0 : Fin 2) * 5000 + 1 * (y 0).val; omega
  | ⟨1, _⟩ => show win0_1.index t (1 : Fin 2) * 1 + 1 * q.val = q.val; omega

/-- Window 2's block at point `t` is the rows of its array that the output block covers. -/
theorem row2 (c : Dev nD) (t : Fin cfg0.N) (y : S5000x64.Idx) (q : Fin 64) :
    iblk0 V c 2 t (ix2 (y 0) q) = (V c main_v24 : S50000x64.Idx → EReal) (ix2 ((((cfg0.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v24 : S50000x64.Idx → EReal) (((cfg0.win 2).blk t).view.emb (ix2 (y 0) q)) = _
  refine congrArg _ (funext fun a => Fin.ext ?_)
  match a with
  | ⟨0, _⟩ => show win0_2.index t (0 : Fin 2) * 5000 + 1 * (y 0).val = win0_11.index t (0 : Fin 2) * 5000 + 1 * (y 0).val; omega
  | ⟨1, _⟩ => show win0_2.index t (1 : Fin 2) * 64 + 1 * q.val = q.val; omega

/-- Window 3's block at point `t` is the rows of its array that the output block covers. -/
theorem row3 (c : Dev nD) (t : Fin cfg0.N) (y : S5000x64.Idx) (q : Fin 1) :
    iblk0 V c 3 t (ix2 (y 0) q) = (V c main_v29 : S50000x1.Idx → EReal) (ix2 ((((cfg0.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v29 : S50000x1.Idx → EReal) (((cfg0.win 3).blk t).view.emb (ix2 (y 0) q)) = _
  refine congrArg _ (funext fun a => Fin.ext ?_)
  match a with
  | ⟨0, _⟩ => show win0_3.index t (0 : Fin 2) * 5000 + 1 * (y 0).val = win0_11.index t (0 : Fin 2) * 5000 + 1 * (y 0).val; omega
  | ⟨1, _⟩ => show win0_3.index t (1 : Fin 2) * 1 + 1 * q.val = q.val; omega

/-- Window 4's block at point `t` is the rows of its array that the output block covers. -/
theorem row4 (c : Dev nD) (t : Fin cfg0.N) (y : S5000x64.Idx) (q : Fin 64) :
    iblk0 V c 4 t (ix2 (y 0) q) = (V c main_arg0 : S50000x64.Idx → EReal) (ix2 ((((cfg0.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_arg0 : S50000x64.Idx → EReal) (((cfg0.win 4).blk t).view.emb (ix2 (y 0) q)) = _
  refine congrArg _ (funext fun a => Fin.ext ?_)
  match a with
  | ⟨0, _⟩ => show win0_4.index t (0 : Fin 2) * 5000 + 1 * (y 0).val = win0_11.index t (0 : Fin 2) * 5000 + 1 * (y 0).val; omega
  | ⟨1, _⟩ => show win0_4.index t (1 : Fin 2) * 64 + 1 * q.val = q.val; omega

/-- WHAT POINT `t` WRITES BACK is block `t` of `G` of the arrays as the region finds them. -/
theorem flushed_eq (c : Dev nD) (t : Fin cfg0.N) :
    (dat0 V c).flushed 11 t = ((cfg0.win 11).blk t).view.read (Elt Ideal) (Cert.KerSide.G50 (V c main_v9 : S50000x64.Idx → EReal) (V c main_v14 : S50000x1.Idx → EReal) (V c main_v24 : S50000x64.Idx → EReal) (V c main_v29 : S50000x1.Idx → EReal) (V c main_arg0 : S50000x64.Idx → EReal) (V c main_v61 : S64x64.Idx → EReal) (V c main_v63 : S64x64.Idx → EReal) (V c main_v72 : S1x64.Idx → EReal) (V c main_v67 : S64x64.Idx → EReal) (V c main_v69 : S64x64.Idx → EReal) (V c main_v73 : S1x64.Idx → EReal)) := by
  show (cfg0.win 11).cut (grid0.coords t) ((dat0 V c).after 11 t) = _
  rw [after0_11]
  unfold out0_11
  rw [View.canon_unit_zero hz]
  simp only [View.ld_unit_zero (S := S5000x64) hz, View.ld_unit_zero (S := S5000x1) hz, View.ld_unit_zero (S := S64x64) hz, View.ld_unit_zero (S := S1x64) hz]
  rw [blk5 V c t, blk6 V c t, blk7 V c t, blk8 V c t, blk9 V c t, blk10 V c t]
  obtain ⟨e0a, e0b, e1a, e1b, e2a, e2b, e3a, e3b, e4a, e4b, e5a, e5b, e6a, e6b, e7a, e7b, e8a, e8b, e9a, e9b, e10a, e10b, eo1, eo0⟩ := idx_facts t
  funext y
  refine (pay_at (iblk0 V c 0 t) (iblk0 V c 1 t) (iblk0 V c 2 t) (iblk0 V c 3 t) (iblk0 V c 4 t) _ _ _ _ _ _ y).trans ?_
  show _ = Cert.KerSide.G50 (V c main_v9 : S50000x64.Idx → EReal) (V c main_v14 : S50000x1.Idx → EReal) (V c main_v24 : S50000x64.Idx → EReal) (V c main_v29 : S50000x1.Idx → EReal) (V c main_arg0 : S50000x64.Idx → EReal) (V c main_v61 : S64x64.Idx → EReal) (V c main_v63 : S64x64.Idx → EReal) (V c main_v72 : S1x64.Idx → EReal) (V c main_v67 : S64x64.Idx → EReal) (V c main_v69 : S64x64.Idx → EReal) (V c main_v73 : S1x64.Idx → EReal) (((cfg0.win 11).blk t).view.emb y)
  unfold Cert.KerSide.G50
  refine congrArg (fun z => max z _) (Cert.Sage.node_rows _ _ _ _ _ _ (row0 V c t y) (row1 V c t y 0) (row2 V c t y) (row3 V c t y 0) (row4 V c t y) ?_)
  apply Fin.ext
  show (y 1).val = win0_11.index t (1 : Fin 2) * 64 + 1 * (y 1).val
  omega

/-- An index of the result is in point `t`'s block iff each coordinate is in the block's range. -/
theorem mem_blk (t : Fin cfg0.N) (i : S50000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v74).slice (win0_11.rect t)).set ↔ _
  rw [View.set_slice_whole, Rect.mem_set_unit]
  exact Iff.rfl

/-- The blocks tile the result. -/
theorem cover (i : S50000x64.Idx) : ∃ t : Fin cfg0.N, (cfg0.win 11).flush t = true ∧ i ∈ ((cfg0.win 11).blk t).view.set := by
  have hi0 : (i 0).val < 50000 := (i 0).isLt
  have hi1 : (i 1).val < 64 := (i 1).isLt
  obtain ⟨t, ht⟩ := idx_onto ⟨(i 0).val / 5000, by omega⟩
  have q0 : win0_11.index t (0 : Fin 2) = (i 0).val / 5000 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 5000 ≤ (i 0).val ∧ (i 0).val < win0_11.index t (0 : Fin 2) * 5000 + 5000; omega
  | ⟨1, _⟩ => show win0_11.index t (1 : Fin 2) * 64 ≤ (i 1).val ∧ (i 1).val < win0_11.index t (1 : Fin 2) * 64 + 64; omega

/-- THE REGION'S RESULT ARRAY, whatever contents `V` it was entered from. -/
theorem final (c : Dev nD) : (dat0 V c).arrAt 11 cfg0.N = Cert.KerSide.G50 (V c main_v9 : S50000x64.Idx → EReal) (V c main_v14 : S50000x1.Idx → EReal) (V c main_v24 : S50000x64.Idx → EReal) (V c main_v29 : S50000x1.Idx → EReal) (V c main_arg0 : S50000x64.Idx → EReal) (V c main_v61 : S64x64.Idx → EReal) (V c main_v63 : S64x64.Idx → EReal) (V c main_v72 : S1x64.Idx → EReal) (V c main_v67 : S64x64.Idx → EReal) (V c main_v69 : S64x64.Idx → EReal) (V c main_v73 : S1x64.Idx → EReal) :=
  (dat0 V c).arrAt_eq_of_cover 11 _ (fun t _ => flushed_eq V c t) (cover)

end Cert.KerSide.R0

end
-- ==== Proof.KerBlock1.lean ====
/-
  One grid point's block of region 1: the body's stored value, index by index, is the per-node expression of the
  point's input blocks.  The body divides each aggregated row by the larger of its arrival count and one, multiplies by
  the left weight (a contraction over the 64 input features), adds the bias row and the product of the node's own row
  with the right weight, does the same for the second edge type, and adds the two, then clamps at zero.
  At exact values a change of float format is the identity, and a product into a zero accumulator is the plain sum.
-/
import proofs.«139568_j10058813407385_1_alg».proof.Proof.Gen.KernelIdeal.Skeleton
import proofs.«139568_j10058813407385_1_alg».proof.Proof.Spec
import proofs.«139568_j10058813407385_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerSide.R1

open Idealize.ShloMosaic Idealize.ShloMosaic.ValueIdx Idealize.ShloMosaic.TcCoe Cert.KernelIdeal Cert.KernelIdeal.Gen

/-- The mean of the aggregated rows at (p, q): the aggregate over the clamped count. -/
theorem mean_apply (x : Vec Ideal S5000x64 .f32) (d : Vec Ideal S5000x1 .f32) (p : Fin 5000) (q : Fin 64) :
    (divf x (broadcastTo S5000x64 (maximumf d
        (broadcast S5000x1 (FloatOps.ofBits (F := Ideal) .f32 0x3F800000#32))) broadcasts_S5000x1_S5000x64)
        : FVec Ideal S5000x64 .f32) (ix2 p q)
      = Ideal.div (x (ix2 p q)) (max (d (ix2 p 0)) (Ideal.ofBits .f32 0x3F800000#32)) := by
  rw [divf_apply,
    broadcastTo_apply _ broadcasts_S5000x1_S5000x64 (ix2 p q) (ix2 p 0) (fun a => by
      match a with
      | ⟨0, _⟩ => rfl
      | ⟨1, _⟩ => rfl),
    maximumf_apply, broadcast_apply]
  rfl

/-- A weight block re-read in the narrower format is itself. -/
theorem wcast_apply (w : Vec Ideal S64x64 .f32) (i : S64x64.Idx) :
    (truncf .bf16 (shapeCast S64x64 w shapeCasts_S64x64_S64x64) bitsLt_bf16_f32 : FVec Ideal S64x64 .bf16) i = w i := by
  rw [truncf_apply, shapeCast_self]

/-- The bias row spread over the block's rows, at (p, j). -/
theorem bias_apply (b : Vec Ideal S1x64 .f32) (p : Fin 5000) (j : Fin 64) :
    (broadcastTo S5000x64 (shapeCast S1x64 b shapeCasts_S1x64_S1x64) broadcasts_S1x64_S5000x64 : FVec Ideal S5000x64 .f32) (ix2 p j)
      = b (ix2 0 j) := by
  rw [broadcastTo_apply _ broadcasts_S1x64_S5000x64 (ix2 p j) (ix2 0 j) (fun a => by
      match a with
      | ⟨0, _⟩ => rfl
      | ⟨1, _⟩ => rfl), shapeCast_self]

/-- A product of a [5000,64] block with a [64,64] block into the zero accumulator, at (p, j): the sum over the 64 features. -/
theorem prod_apply (l : FVec Ideal S5000x64 .bf16) (r : FVec Ideal S64x64 .bf16) (p : Fin 5000) (j : Fin 64) :
    matmul dot_S5000x64_S64x64_S5000x64_1_0_0_1_n_n none l r (constant (F := Ideal) S5000x64 .f32 0x00000000#32) (ix2 p j)
      = ∑ q : Fin 64, l (ix2 p q) * r (ix2 q j) := by
  show FloatOps.matmul dot_S5000x64_S64x64_S5000x64_1_0_0_1_n_n none l r (constant (F := Ideal) S5000x64 .f32 0x00000000#32) (ix2 p j) = _
  rw [Ideal.matmul_constant_zero_apply]
  exact Cert.LibPlainDot.plain_sum dot_S5000x64_S64x64_S5000x64_1_0_0_1_n_n rfl rfl rfl rfl rfl rfl (fun a b => l a * r b) p j

/-- THE BLOCK: what the body stores, at row p and output feature j of the block. -/
theorem pay_apply (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (p : Fin 5000) (j : Fin 64) :
    k1_pay1 (F := Ideal) (k1_pay2 x2 x3) (k1_pay3 x4) (k1_pay4 x6) (k1_pay5 x8) (k1_pay6 x9) (k1_pay7 x0 x1 x5) (k1_pay8 x7) x10 (ix2 p j)
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) p j) (Ideal.ofBits .f32 0x00000000#32) := by
  unfold k1_pay1 k1_pay2 k1_pay3 k1_pay4 k1_pay5 k1_pay6 k1_pay7 k1_pay8
  dsimp only
  rw [maximumf_apply, broadcast_apply]
  rw [addf_apply, addf_apply, addf_apply, addf_apply, addf_apply]
  rw [prod_apply, prod_apply, prod_apply, prod_apply, bias_apply, bias_apply]
  simp only [truncf_apply, shapeCast_self, mean_apply]
  unfold Cert.Sage.node Cert.Sage.half
  rfl

/-- The same at any index of the block. -/
theorem pay_at (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (y : S5000x64.Idx) :
    k1_pay1 (F := Ideal) (k1_pay2 x2 x3) (k1_pay3 x4) (k1_pay4 x6) (k1_pay5 x8) (k1_pay6 x9) (k1_pay7 x0 x1 x5) (k1_pay8 x7) x10 y
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) (y 0) (y 1)) (Ideal.ofBits .f32 0x00000000#32) := by
  obtain ⟨p, j, rfl⟩ : ∃ (p : Fin 5000) (j : Fin 64), y = ix2 p j := ⟨y 0, y 1, eq_ix2 y⟩
  exact pay_apply x0 x1 x2 x3 x4 x5 x6 x7 x8 x9 x10 p j

end Cert.KerSide.R1

end
-- ==== Proof.KerRegion1.lean ====
/-
  Region 1 as a whole: the array it leaves is, index by index, the per-node expression of the arrays it found.
  The grid has 40 points; point t reads rows 5000·t … 5000·t + 4999 of the five node arrays and the whole of the six
  parameter arrays, and writes the same rows of the result; the 40 blocks tile the result.
-/
import proofs.«139568_j10058813407385_1_alg».proof.Proof.Gen.KernelIdeal.Frame
import proofs.«139568_j10058813407385_1_alg».proof.Proof.KerBlock1
import proofs.«139568_j10058813407385_1_alg».proof.Proof.KerShape
import Idealize.ShloMosaic.Lib.Pipeline.Value
import Idealize.ShloMosaic.Lib.Tactic

set_option maxRecDepth 16384

noncomputable section

open scoped BigOperators

namespace Cert.KerSide.R1

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the five node windows move with the output window along the rows, the six
    parameter windows stay at the origin. -/
theorem idx_facts : ∀ t : Fin cfg1.N, win1_0.index t (0 : Fin 2) = win1_11.index t (0 : Fin 2)
    ∧ win1_0.index t (1 : Fin 2) = 0
    ∧ win1_1.index t (0 : Fin 2) = win1_11.index t (0 : Fin 2)
    ∧ win1_1.index t (1 : Fin 2) = 0
    ∧ win1_2.index t (0 : Fin 2) = win1_11.index t (0 : Fin 2)
    ∧ win1_2.index t (1 : Fin 2) = 0
    ∧ win1_3.index t (0 : Fin 2) = win1_11.index t (0 : Fin 2)
    ∧ win1_3.index t (1 : Fin 2) = 0
    ∧ win1_4.index t (0 : Fin 2) = win1_11.index t (0 : Fin 2)
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (1 : Fin 2) = 0
    ∧ win1_11.index t (0 : Fin 2) ≤ 39 :=
  (by decide +kernel : ∀ t : Fin grid1.N, _)

/-- Every row block of the result is some point's. -/
theorem idx_onto : ∀ q0 : Fin 40, ∃ t : Fin cfg1.N, win1_11.index t = ![q0.val, 0] :=
  (by decide +kernel : ∀ q0 : Fin 40, ∃ t : Fin grid1.N, win1_11.index t = ![q0.val, 0])

/-- Window 5 is one whole block: every point reads the whole array. -/
theorem blk5 (c : Dev nD) (t : Fin cfg1.N) : iblk1 V c 5 t = (V c main_v76 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v76 : S64x64.Idx → EReal) (((cfg1.win 5).blk t).view.emb z) = _
  refine congrArg _ (funext fun a => Fin.ext ?_)
  match a with
  | ⟨0, _⟩ => show win1_5.index t (0 : Fin 2) * 64 + 1 * (z 0).val = (z 0).val; omega
  | ⟨1, _⟩ => show win1_5.index t (1 : Fin 2) * 64 + 1 * (z 1).val = (z 1).val; omega

/-- Window 6 is one whole block: every point reads the whole array. -/
theorem blk6 (c : Dev nD) (t : Fin cfg1.N) : iblk1 V c 6 t = (V c main_v78 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v78 : S64x64.Idx → EReal) (((cfg1.win 6).blk t).view.emb z) = _
  refine congrArg _ (funext fun a => Fin.ext ?_)
  match a with
  | ⟨0, _⟩ => show win1_6.index t (0 : Fin 2) * 64 + 1 * (z 0).val = (z 0).val; omega
  | ⟨1, _⟩ => show win1_6.index t (1 : Fin 2) * 64 + 1 * (z 1).val = (z 1).val; omega

/-- Window 7 is one whole block: every point reads the whole array. -/
theorem blk7 (c : Dev nD) (t : Fin cfg1.N) : iblk1 V c 7 t = (V c main_v87 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v87 : S1x64.Idx → EReal) (((cfg1.win 7).blk t).view.emb z) = _
  refine congrArg _ (funext fun a => Fin.ext ?_)
  match a with
  | ⟨0, _⟩ => show win1_7.index t (0 : Fin 2) * 1 + 1 * (z 0).val = (z 0).val; omega
  | ⟨1, _⟩ => show win1_7.index t (1 : Fin 2) * 64 + 1 * (z 1).val = (z 1).val; omega

/-- Window 8 is one whole block: every point reads the whole array. -/
theorem blk8 (c : Dev nD) (t : Fin cfg1.N) : iblk1 V c 8 t = (V c main_v82 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v82 : S64x64.Idx → EReal) (((cfg1.win 8).blk t).view.emb z) = _
  refine congrArg _ (funext fun a => Fin.ext ?_)
  match a with
  | ⟨0, _⟩ => show win1_8.index t (0 : Fin 2) * 64 + 1 * (z 0).val = (z 0).val; omega
  | ⟨1, _⟩ => show win1_8.index t (1 : Fin 2) * 64 + 1 * (z 1).val = (z 1).val; omega

/-- Window 9 is one whole block: every point reads the whole array. -/
theorem blk9 (c : Dev nD) (t : Fin cfg1.N) : iblk1 V c 9 t = (V c main_v84 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v84 : S64x64.Idx → EReal) (((cfg1.win 9).blk t).view.emb z) = _
  refine congrArg _ (funext fun a => Fin.ext ?_)
  match a with
  | ⟨0, _⟩ => show win1_9.index t (0 : Fin 2) * 64 + 1 * (z 0).val = (z 0).val; omega
  | ⟨1, _⟩ => show win1_9.index t (1 : Fin 2) * 64 + 1 * (z 1).val = (z 1).val; omega

/-- Window 10 is one whole block: every point reads the whole array. -/
theorem blk10 (c : Dev nD) (t : Fin cfg1.N) : iblk1 V c 10 t = (V c main_v88 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v88 : S1x64.Idx → EReal) (((cfg1.win 10).blk t).view.emb z) = _
  refine congrArg _ (funext fun a => Fin.ext ?_)
  match a with
  | ⟨0, _⟩ => show win1_10.index t (0 : Fin 2) * 1 + 1 * (z 0).val = (z 0).val; omega
  | ⟨1, _⟩ => show win1_10.index t (1 : Fin 2) * 64 + 1 * (z 1).val = (z 1).val; omega

/-- Window 0's block at point `t` is the rows of its array that the output block covers. -/
theorem row0 (c : Dev nD) (t : Fin cfg1.N) (y : S5000x64.Idx) (q : Fin 64) :
    iblk1 V c 0 t (ix2 (y 0) q) = (V c main_v39 : S200000x64.Idx → EReal) (ix2 ((((cfg1.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v39 : S200000x64.Idx → EReal) (((cfg1.win 0).blk t).view.emb (ix2 (y 0) q)) = _
  refine congrArg _ (funext fun a => Fin.ext ?_)
  match a with
  | ⟨0, _⟩ => show win1_0.index t (0 : Fin 2) * 5000 + 1 * (y 0).val = win1_11.index t (0 : Fin 2) * 5000 + 1 * (y 0).val; omega
  | ⟨1, _⟩ => show win1_0.index t (1 : Fin 2) * 64 + 1 * q.val = q.val; omega

/-- Window 1's block at point `t` is the rows of its array that the output block covers. -/
theorem row1 (c : Dev nD) (t : Fin cfg1.N) (y : S5000x64.Idx) (q : Fin 1) :
    iblk1 V c 1 t (ix2 (y 0) q) = (V c main_v44 : S200000x1.Idx → EReal) (ix2 ((((cfg1.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v44 : S200000x1.Idx → EReal) (((cfg1.win 1).blk t).view.emb (ix2 (y 0) q)) = _
  refine congrArg _ (funext fun a => Fin.ext ?_)
  match a with
  | ⟨0, _⟩ => show win1_1.index t (0 : Fin 2) * 5000 + 1 * (y 0).val = win1_11.index t (0 : Fin 2) * 5000 + 1 * (y 0).val; omega
  | ⟨1, _⟩ => show win1_1.index t (1 : Fin 2) * 1 + 1 * q.val = q.val; omega

/-- Window 2's block at point `t` is the rows of its array that the output block covers. -/
theorem row2 (c : Dev nD) (t : Fin cfg1.N) (y : S5000x64.Idx) (q : Fin 64) :
    iblk1 V c 2 t (ix2 (y 0) q) = (V c main_v54 : S200000x64.Idx → EReal) (ix2 ((((cfg1.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v54 : S200000x64.Idx → EReal) (((cfg1.win 2).blk t).view.emb (ix2 (y 0) q)) = _
  refine congrArg _ (funext fun a => Fin.ext ?_)
  match a with
  | ⟨0, _⟩ => show win1_2.index t (0 : Fin 2) * 5000 + 1 * (y 0).val = win1_11.index t (0 : Fin 2) * 5000 + 1 * (y 0).val; omega
  | ⟨1, _⟩ => show win1_2.index t (1 : Fin 2) * 64 + 1 * q.val = q.val; omega

/-- Window 3's block at point `t` is the rows of its array that the output block covers. -/
theorem row3 (c : Dev nD) (t : Fin cfg1.N) (y : S5000x64.Idx) (q : Fin 1) :
    iblk1 V c 3 t (ix2 (y 0) q) = (V c main_v59 : S200000x1.Idx → EReal) (ix2 ((((cfg1.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v59 : S200000x1.Idx → EReal) (((cfg1.win 3).blk t).view.emb (ix2 (y 0) q)) = _
  refine congrArg _ (funext fun a => Fin.ext ?_)
  match a with
  | ⟨0, _⟩ => show win1_3.index t (0 : Fin 2) * 5000 + 1 * (y 0).val = win1_11.index t (0 : Fin 2) * 5000 + 1 * (y 0).val; omega
  | ⟨1, _⟩ => show win1_3.index t (1 : Fin 2) * 1 + 1 * q.val = q.val; omega

/-- Window 4's block at point `t` is the rows of its array that the output block covers. -/
theorem row4 (c : Dev nD) (t : Fin cfg1.N) (y : S5000x64.Idx) (q : Fin 64) :
    iblk1 V c 4 t (ix2 (y 0) q) = (V c main_arg1 : S200000x64.Idx → EReal) (ix2 ((((cfg1.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_arg1 : S200000x64.Idx → EReal) (((cfg1.win 4).blk t).view.emb (ix2 (y 0) q)) = _
  refine congrArg _ (funext fun a => Fin.ext ?_)
  match a with
  | ⟨0, _⟩ => show win1_4.index t (0 : Fin 2) * 5000 + 1 * (y 0).val = win1_11.index t (0 : Fin 2) * 5000 + 1 * (y 0).val; omega
  | ⟨1, _⟩ => show win1_4.index t (1 : Fin 2) * 64 + 1 * q.val = q.val; omega

/-- WHAT POINT `t` WRITES BACK is block `t` of `G` of the arrays as the region finds them. -/
theorem flushed_eq (c : Dev nD) (t : Fin cfg1.N) :
    (dat1 V c).flushed 11 t = ((cfg1.win 11).blk t).view.read (Elt Ideal) (Cert.KerSide.G200 (V c main_v39 : S200000x64.Idx → EReal) (V c main_v44 : S200000x1.Idx → EReal) (V c main_v54 : S200000x64.Idx → EReal) (V c main_v59 : S200000x1.Idx → EReal) (V c main_arg1 : S200000x64.Idx → EReal) (V c main_v76 : S64x64.Idx → EReal) (V c main_v78 : S64x64.Idx → EReal) (V c main_v87 : S1x64.Idx → EReal) (V c main_v82 : S64x64.Idx → EReal) (V c main_v84 : S64x64.Idx → EReal) (V c main_v88 : S1x64.Idx → EReal)) := by
  show (cfg1.win 11).cut (grid1.coords t) ((dat1 V c).after 11 t) = _
  rw [after1_11]
  unfold out1_11
  rw [View.canon_unit_zero hz]
  simp only [View.ld_unit_zero (S := S5000x64) hz, View.ld_unit_zero (S := S5000x1) hz, View.ld_unit_zero (S := S64x64) hz, View.ld_unit_zero (S := S1x64) hz]
  rw [blk5 V c t, blk6 V c t, blk7 V c t, blk8 V c t, blk9 V c t, blk10 V c t]
  obtain ⟨e0a, e0b, e1a, e1b, e2a, e2b, e3a, e3b, e4a, e4b, e5a, e5b, e6a, e6b, e7a, e7b, e8a, e8b, e9a, e9b, e10a, e10b, eo1, eo0⟩ := idx_facts t
  funext y
  refine (pay_at (iblk1 V c 0 t) (iblk1 V c 1 t) (iblk1 V c 2 t) (iblk1 V c 3 t) (iblk1 V c 4 t) _ _ _ _ _ _ y).trans ?_
  show _ = Cert.KerSide.G200 (V c main_v39 : S200000x64.Idx → EReal) (V c main_v44 : S200000x1.Idx → EReal) (V c main_v54 : S200000x64.Idx → EReal) (V c main_v59 : S200000x1.Idx → EReal) (V c main_arg1 : S200000x64.Idx → EReal) (V c main_v76 : S64x64.Idx → EReal) (V c main_v78 : S64x64.Idx → EReal) (V c main_v87 : S1x64.Idx → EReal) (V c main_v82 : S64x64.Idx → EReal) (V c main_v84 : S64x64.Idx → EReal) (V c main_v88 : S1x64.Idx → EReal) (((cfg1.win 11).blk t).view.emb y)
  unfold Cert.KerSide.G200
  refine congrArg (fun z => max z _) (Cert.Sage.node_rows _ _ _ _ _ _ (row0 V c t y) (row1 V c t y 0) (row2 V c t y) (row3 V c t y 0) (row4 V c t y) ?_)
  apply Fin.ext
  show (y 1).val = win1_11.index t (1 : Fin 2) * 64 + 1 * (y 1).val
  omega

/-- An index of the result is in point `t`'s block iff each coordinate is in the block's range. -/
theorem mem_blk (t : Fin cfg1.N) (i : S200000x64.Idx) :
    i ∈ ((cfg1.win 11).blk t).view.set ↔ ∀ a : Fin 2, win1_11.index t a * S5000x64.size a ≤ (i a).val ∧ (i a).val < win1_11.index t a * S5000x64.size a + S5000x64.size a := by
  show i ∈ ((View.whole main_v89).slice (win1_11.rect t)).set ↔ _
  rw [View.set_slice_whole, Rect.mem_set_unit]
  exact Iff.rfl

/-- The blocks tile the result. -/
theorem cover (i : S200000x64.Idx) : ∃ t : Fin cfg1.N, (cfg1.win 11).flush t = true ∧ i ∈ ((cfg1.win 11).blk t).view.set := by
  have hi0 : (i 0).val < 200000 := (i 0).isLt
  have hi1 : (i 1).val < 64 := (i 1).isLt
  obtain ⟨t, ht⟩ := idx_onto ⟨(i 0).val / 5000, by omega⟩
  have q0 : win1_11.index t (0 : Fin 2) = (i 0).val / 5000 := congrFun ht 0
  have q1 : win1_11.index t (1 : Fin 2) = 0 := congrFun ht 1
  refine ⟨t, flush1_11 t, ?_⟩
  rw [mem_blk]
  intro a
  match a with
  | ⟨0, _⟩ => show win1_11.index t (0 : Fin 2) * 5000 ≤ (i 0).val ∧ (i 0).val < win1_11.index t (0 : Fin 2) * 5000 + 5000; omega
  | ⟨1, _⟩ => show win1_11.index t (1 : Fin 2) * 64 ≤ (i 1).val ∧ (i 1).val < win1_11.index t (1 : Fin 2) * 64 + 64; omega

/-- THE REGION'S RESULT ARRAY, whatever contents `V` it was entered from. -/
theorem final (c : Dev nD) : (dat1 V c).arrAt 11 cfg1.N = Cert.KerSide.G200 (V c main_v39 : S200000x64.Idx → EReal) (V c main_v44 : S200000x1.Idx → EReal) (V c main_v54 : S200000x64.Idx → EReal) (V c main_v59 : S200000x1.Idx → EReal) (V c main_arg1 : S200000x64.Idx → EReal) (V c main_v76 : S64x64.Idx → EReal) (V c main_v78 : S64x64.Idx → EReal) (V c main_v87 : S1x64.Idx → EReal) (V c main_v82 : S64x64.Idx → EReal) (V c main_v84 : S64x64.Idx → EReal) (V c main_v88 : S1x64.Idx → EReal) :=
  (dat1 V c).arrAt_eq_of_cover 11 _ (fun t _ => flushed_eq V c t) (cover)

end Cert.KerSide.R1

end
-- ==== Proof.KerBlock2.lean ====
/-
  One grid point's block of region 2: the body's stored value, index by index, is the per-node expression of the
  point's input blocks.  The body divides each aggregated row by the larger of its arrival count and one, multiplies by
  the left weight (a contraction over the 64 input features), adds the bias row and the product of the node's own row
  with the right weight, does the same for the second edge type, and adds the two, then clamps at zero.
  At exact values a change of float format is the identity, and a product into a zero accumulator is the plain sum.
-/
import proofs.«139568_j10058813407385_1_alg».proof.Proof.Gen.KernelIdeal.Skeleton
import proofs.«139568_j10058813407385_1_alg».proof.Proof.Spec
import proofs.«139568_j10058813407385_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerSide.R2

open Idealize.ShloMosaic Idealize.ShloMosaic.ValueIdx Idealize.ShloMosaic.TcCoe Cert.KernelIdeal Cert.KernelIdeal.Gen

/-- The mean of the aggregated rows at (p, q): the aggregate over the clamped count. -/
theorem mean_apply (x : Vec Ideal S5000x64 .f32) (d : Vec Ideal S5000x1 .f32) (p : Fin 5000) (q : Fin 64) :
    (divf x (broadcastTo S5000x64 (maximumf d
        (broadcast S5000x1 (FloatOps.ofBits (F := Ideal) .f32 0x3F800000#32))) broadcasts_S5000x1_S5000x64)
        : FVec Ideal S5000x64 .f32) (ix2 p q)
      = Ideal.div (x (ix2 p q)) (max (d (ix2 p 0)) (Ideal.ofBits .f32 0x3F800000#32)) := by
  rw [divf_apply,
    broadcastTo_apply _ broadcasts_S5000x1_S5000x64 (ix2 p q) (ix2 p 0) (fun a => by
      match a with
      | ⟨0, _⟩ => rfl
      | ⟨1, _⟩ => rfl),
    maximumf_apply, broadcast_apply]
  rfl

/-- A weight block re-read in the narrower format is itself. -/
theorem wcast_apply (w : Vec Ideal S64x64 .f32) (i : S64x64.Idx) :
    (truncf .bf16 (shapeCast S64x64 w shapeCasts_S64x64_S64x64) bitsLt_bf16_f32 : FVec Ideal S64x64 .bf16) i = w i := by
  rw [truncf_apply, shapeCast_self]

/-- The bias row spread over the block's rows, at (p, j). -/
theorem bias_apply (b : Vec Ideal S1x64 .f32) (p : Fin 5000) (j : Fin 64) :
    (broadcastTo S5000x64 (shapeCast S1x64 b shapeCasts_S1x64_S1x64) broadcasts_S1x64_S5000x64 : FVec Ideal S5000x64 .f32) (ix2 p j)
      = b (ix2 0 j) := by
  rw [broadcastTo_apply _ broadcasts_S1x64_S5000x64 (ix2 p j) (ix2 0 j) (fun a => by
      match a with
      | ⟨0, _⟩ => rfl
      | ⟨1, _⟩ => rfl), shapeCast_self]

/-- A product of a [5000,64] block with a [64,64] block into the zero accumulator, at (p, j): the sum over the 64 features. -/
theorem prod_apply (l : FVec Ideal S5000x64 .bf16) (r : FVec Ideal S64x64 .bf16) (p : Fin 5000) (j : Fin 64) :
    matmul dot_S5000x64_S64x64_S5000x64_1_0_0_1_n_n none l r (constant (F := Ideal) S5000x64 .f32 0x00000000#32) (ix2 p j)
      = ∑ q : Fin 64, l (ix2 p q) * r (ix2 q j) := by
  show FloatOps.matmul dot_S5000x64_S64x64_S5000x64_1_0_0_1_n_n none l r (constant (F := Ideal) S5000x64 .f32 0x00000000#32) (ix2 p j) = _
  rw [Ideal.matmul_constant_zero_apply]
  exact Cert.LibPlainDot.plain_sum dot_S5000x64_S64x64_S5000x64_1_0_0_1_n_n rfl rfl rfl rfl rfl rfl (fun a b => l a * r b) p j

/-- THE BLOCK: what the body stores, at row p and output feature j of the block. -/
theorem pay_apply (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (p : Fin 5000) (j : Fin 64) :
    k2_pay1 (F := Ideal) (k2_pay2 x2 x3) (k2_pay3 x4) (k2_pay4 x6) (k2_pay5 x8) (k2_pay6 x9) (k2_pay7 x0 x1 x5) (k2_pay8 x7) x10 (ix2 p j)
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) p j) (Ideal.ofBits .f32 0x00000000#32) := by
  unfold k2_pay1 k2_pay2 k2_pay3 k2_pay4 k2_pay5 k2_pay6 k2_pay7 k2_pay8
  dsimp only
  rw [maximumf_apply, broadcast_apply]
  rw [addf_apply, addf_apply, addf_apply, addf_apply, addf_apply]
  rw [prod_apply, prod_apply, prod_apply, prod_apply, bias_apply, bias_apply]
  simp only [truncf_apply, shapeCast_self, mean_apply]
  unfold Cert.Sage.node Cert.Sage.half
  rfl

/-- The same at any index of the block. -/
theorem pay_at (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (y : S5000x64.Idx) :
    k2_pay1 (F := Ideal) (k2_pay2 x2 x3) (k2_pay3 x4) (k2_pay4 x6) (k2_pay5 x8) (k2_pay6 x9) (k2_pay7 x0 x1 x5) (k2_pay8 x7) x10 y
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) (y 0) (y 1)) (Ideal.ofBits .f32 0x00000000#32) := by
  obtain ⟨p, j, rfl⟩ : ∃ (p : Fin 5000) (j : Fin 64), y = ix2 p j := ⟨y 0, y 1, eq_ix2 y⟩
  exact pay_apply x0 x1 x2 x3 x4 x5 x6 x7 x8 x9 x10 p j

end Cert.KerSide.R2

end
-- ==== Proof.KerRegion2.lean ====
/-
  Region 2 as a whole: the array it leaves is, index by index, the per-node expression of the arrays it found.
  The grid has 10 points; point t reads rows 5000·t … 5000·t + 4999 of the five node arrays and the whole of the six
  parameter arrays, and writes the same rows of the result; the 10 blocks tile the result.
-/
import proofs.«139568_j10058813407385_1_alg».proof.Proof.Gen.KernelIdeal.Frame
import proofs.«139568_j10058813407385_1_alg».proof.Proof.KerBlock2
import proofs.«139568_j10058813407385_1_alg».proof.Proof.KerShape
import Idealize.ShloMosaic.Lib.Pipeline.Value
import Idealize.ShloMosaic.Lib.Tactic

set_option maxRecDepth 16384

noncomputable section

open scoped BigOperators

namespace Cert.KerSide.R2

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the five node windows move with the output window along the rows, the six
    parameter windows stay at the origin. -/
theorem idx_facts : ∀ t : Fin cfg2.N, win2_0.index t (0 : Fin 2) = win2_11.index t (0 : Fin 2)
    ∧ win2_0.index t (1 : Fin 2) = 0
    ∧ win2_1.index t (0 : Fin 2) = win2_11.index t (0 : Fin 2)
    ∧ win2_1.index t (1 : Fin 2) = 0
    ∧ win2_2.index t (0 : Fin 2) = win2_11.index t (0 : Fin 2)
    ∧ win2_2.index t (1 : Fin 2) = 0
    ∧ win2_3.index t (0 : Fin 2) = win2_11.index t (0 : Fin 2)
    ∧ win2_3.index t (1 : Fin 2) = 0
    ∧ win2_4.index t (0 : Fin 2) = win2_11.index t (0 : Fin 2)
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (1 : Fin 2) = 0
    ∧ win2_11.index t (0 : Fin 2) ≤ 9 :=
  (by decide +kernel : ∀ t : Fin grid2.N, _)

/-- Every row block of the result is some point's. -/
theorem idx_onto : ∀ q0 : Fin 10, ∃ t : Fin cfg2.N, win2_11.index t = ![q0.val, 0] :=
  (by decide +kernel : ∀ q0 : Fin 10, ∃ t : Fin grid2.N, win2_11.index t = ![q0.val, 0])

/-- Window 5 is one whole block: every point reads the whole array. -/
theorem blk5 (c : Dev nD) (t : Fin cfg2.N) : iblk2 V c 5 t = (V c main_v151 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v151 : S64x64.Idx → EReal) (((cfg2.win 5).blk t).view.emb z) = _
  refine congrArg _ (funext fun a => Fin.ext ?_)
  match a with
  | ⟨0, _⟩ => show win2_5.index t (0 : Fin 2) * 64 + 1 * (z 0).val = (z 0).val; omega
  | ⟨1, _⟩ => show win2_5.index t (1 : Fin 2) * 64 + 1 * (z 1).val = (z 1).val; omega

/-- Window 6 is one whole block: every point reads the whole array. -/
theorem blk6 (c : Dev nD) (t : Fin cfg2.N) : iblk2 V c 6 t = (V c main_v153 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v153 : S64x64.Idx → EReal) (((cfg2.win 6).blk t).view.emb z) = _
  refine congrArg _ (funext fun a => Fin.ext ?_)
  match a with
  | ⟨0, _⟩ => show win2_6.index t (0 : Fin 2) * 64 + 1 * (z 0).val = (z 0).val; omega
  | ⟨1, _⟩ => show win2_6.index t (1 : Fin 2) * 64 + 1 * (z 1).val = (z 1).val; omega

/-- Window 7 is one whole block: every point reads the whole array. -/
theorem blk7 (c : Dev nD) (t : Fin cfg2.N) : iblk2 V c 7 t = (V c main_v162 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v162 : S1x64.Idx → EReal) (((cfg2.win 7).blk t).view.emb z) = _
  refine congrArg _ (funext fun a => Fin.ext ?_)
  match a with
  | ⟨0, _⟩ => show win2_7.index t (0 : Fin 2) * 1 + 1 * (z 0).val = (z 0).val; omega
  | ⟨1, _⟩ => show win2_7.index t (1 : Fin 2) * 64 + 1 * (z 1).val = (z 1).val; omega

/-- Window 8 is one whole block: every point reads the whole array. -/
theorem blk8 (c : Dev nD) (t : Fin cfg2.N) : iblk2 V c 8 t = (V c main_v157 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v157 : S64x64.Idx → EReal) (((cfg2.win 8).blk t).view.emb z) = _
  refine congrArg _ (funext fun a => Fin.ext ?_)
  match a with
  | ⟨0, _⟩ => show win2_8.index t (0 : Fin 2) * 64 + 1 * (z 0).val = (z 0).val; omega
  | ⟨1, _⟩ => show win2_8.index t (1 : Fin 2) * 64 + 1 * (z 1).val = (z 1).val; omega

/-- Window 9 is one whole block: every point reads the whole array. -/
theorem blk9 (c : Dev nD) (t : Fin cfg2.N) : iblk2 V c 9 t = (V c main_v159 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v159 : S64x64.Idx → EReal) (((cfg2.win 9).blk t).view.emb z) = _
  refine congrArg _ (funext fun a => Fin.ext ?_)
  match a with
  | ⟨0, _⟩ => show win2_9.index t (0 : Fin 2) * 64 + 1 * (z 0).val = (z 0).val; omega
  | ⟨1, _⟩ => show win2_9.index t (1 : Fin 2) * 64 + 1 * (z 1).val = (z 1).val; omega

/-- Window 10 is one whole block: every point reads the whole array. -/
theorem blk10 (c : Dev nD) (t : Fin cfg2.N) : iblk2 V c 10 t = (V c main_v163 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v163 : S1x64.Idx → EReal) (((cfg2.win 10).blk t).view.emb z) = _
  refine congrArg _ (funext fun a => Fin.ext ?_)
  match a with
  | ⟨0, _⟩ => show win2_10.index t (0 : Fin 2) * 1 + 1 * (z 0).val = (z 0).val; omega
  | ⟨1, _⟩ => show win2_10.index t (1 : Fin 2) * 64 + 1 * (z 1).val = (z 1).val; omega

/-- Window 0's block at point `t` is the rows of its array that the output block covers. -/
theorem row0 (c : Dev nD) (t : Fin cfg2.N) (y : S5000x64.Idx) (q : Fin 64) :
    iblk2 V c 0 t (ix2 (y 0) q) = (V c main_v99 : S50000x64.Idx → EReal) (ix2 ((((cfg2.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v99 : S50000x64.Idx → EReal) (((cfg2.win 0).blk t).view.emb (ix2 (y 0) q)) = _
  refine congrArg _ (funext fun a => Fin.ext ?_)
  match a with
  | ⟨0, _⟩ => show win2_0.index t (0 : Fin 2) * 5000 + 1 * (y 0).val = win2_11.index t (0 : Fin 2) * 5000 + 1 * (y 0).val; omega
  | ⟨1, _⟩ => show win2_0.index t (1 : Fin 2) * 64 + 1 * q.val = q.val; omega

/-- Window 1's block at point `t` is the rows of its array that the output block covers. -/
theorem row1 (c : Dev nD) (t : Fin cfg2.N) (y : S5000x64.Idx) (q : Fin 1) :
    iblk2 V c 1 t (ix2 (y 0) q) = (V c main_v104 : S50000x1.Idx → EReal) (ix2 ((((cfg2.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v104 : S50000x1.Idx → EReal) (((cfg2.win 1).blk t).view.emb (ix2 (y 0) q)) = _
  refine congrArg _ (funext fun a => Fin.ext ?_)
  match a with
  | ⟨0, _⟩ => show win2_1.index t (0 : Fin 2) * 5000 + 1 * (y 0).val = win2_11.index t (0 : Fin 2) * 5000 + 1 * (y 0).val; omega
  | ⟨1, _⟩ => show win2_1.index t (1 : Fin 2) * 1 + 1 * q.val = q.val; omega

/-- Window 2's block at point `t` is the rows of its array that the output block covers. -/
theorem row2 (c : Dev nD) (t : Fin cfg2.N) (y : S5000x64.Idx) (q : Fin 64) :
    iblk2 V c 2 t (ix2 (y 0) q) = (V c main_v114 : S50000x64.Idx → EReal) (ix2 ((((cfg2.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v114 : S50000x64.Idx → EReal) (((cfg2.win 2).blk t).view.emb (ix2 (y 0) q)) = _
  refine congrArg _ (funext fun a => Fin.ext ?_)
  match a with
  | ⟨0, _⟩ => show win2_2.index t (0 : Fin 2) * 5000 + 1 * (y 0).val = win2_11.index t (0 : Fin 2) * 5000 + 1 * (y 0).val; omega
  | ⟨1, _⟩ => show win2_2.index t (1 : Fin 2) * 64 + 1 * q.val = q.val; omega

/-- Window 3's block at point `t` is the rows of its array that the output block covers. -/
theorem row3 (c : Dev nD) (t : Fin cfg2.N) (y : S5000x64.Idx) (q : Fin 1) :
    iblk2 V c 3 t (ix2 (y 0) q) = (V c main_v119 : S50000x1.Idx → EReal) (ix2 ((((cfg2.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v119 : S50000x1.Idx → EReal) (((cfg2.win 3).blk t).view.emb (ix2 (y 0) q)) = _
  refine congrArg _ (funext fun a => Fin.ext ?_)
  match a with
  | ⟨0, _⟩ => show win2_3.index t (0 : Fin 2) * 5000 + 1 * (y 0).val = win2_11.index t (0 : Fin 2) * 5000 + 1 * (y 0).val; omega
  | ⟨1, _⟩ => show win2_3.index t (1 : Fin 2) * 1 + 1 * q.val = q.val; omega

/-- Window 4's block at point `t` is the rows of its array that the output block covers. -/
theorem row4 (c : Dev nD) (t : Fin cfg2.N) (y : S5000x64.Idx) (q : Fin 64) :
    iblk2 V c 4 t (ix2 (y 0) q) = (V c main_v74 : S50000x64.Idx → EReal) (ix2 ((((cfg2.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v74 : S50000x64.Idx → EReal) (((cfg2.win 4).blk t).view.emb (ix2 (y 0) q)) = _
  refine congrArg _ (funext fun a => Fin.ext ?_)
  match a with
  | ⟨0, _⟩ => show win2_4.index t (0 : Fin 2) * 5000 + 1 * (y 0).val = win2_11.index t (0 : Fin 2) * 5000 + 1 * (y 0).val; omega
  | ⟨1, _⟩ => show win2_4.index t (1 : Fin 2) * 64 + 1 * q.val = q.val; omega

/-- WHAT POINT `t` WRITES BACK is block `t` of `G` of the arrays as the region finds them. -/
theorem flushed_eq (c : Dev nD) (t : Fin cfg2.N) :
    (dat2 V c).flushed 11 t = ((cfg2.win 11).blk t).view.read (Elt Ideal) (Cert.KerSide.G50 (V c main_v99 : S50000x64.Idx → EReal) (V c main_v104 : S50000x1.Idx → EReal) (V c main_v114 : S50000x64.Idx → EReal) (V c main_v119 : S50000x1.Idx → EReal) (V c main_v74 : S50000x64.Idx → EReal) (V c main_v151 : S64x64.Idx → EReal) (V c main_v153 : S64x64.Idx → EReal) (V c main_v162 : S1x64.Idx → EReal) (V c main_v157 : S64x64.Idx → EReal) (V c main_v159 : S64x64.Idx → EReal) (V c main_v163 : S1x64.Idx → EReal)) := by
  show (cfg2.win 11).cut (grid2.coords t) ((dat2 V c).after 11 t) = _
  rw [after2_11]
  unfold out2_11
  rw [View.canon_unit_zero hz]
  simp only [View.ld_unit_zero (S := S5000x64) hz, View.ld_unit_zero (S := S5000x1) hz, View.ld_unit_zero (S := S64x64) hz, View.ld_unit_zero (S := S1x64) hz]
  rw [blk5 V c t, blk6 V c t, blk7 V c t, blk8 V c t, blk9 V c t, blk10 V c t]
  obtain ⟨e0a, e0b, e1a, e1b, e2a, e2b, e3a, e3b, e4a, e4b, e5a, e5b, e6a, e6b, e7a, e7b, e8a, e8b, e9a, e9b, e10a, e10b, eo1, eo0⟩ := idx_facts t
  funext y
  refine (pay_at (iblk2 V c 0 t) (iblk2 V c 1 t) (iblk2 V c 2 t) (iblk2 V c 3 t) (iblk2 V c 4 t) _ _ _ _ _ _ y).trans ?_
  show _ = Cert.KerSide.G50 (V c main_v99 : S50000x64.Idx → EReal) (V c main_v104 : S50000x1.Idx → EReal) (V c main_v114 : S50000x64.Idx → EReal) (V c main_v119 : S50000x1.Idx → EReal) (V c main_v74 : S50000x64.Idx → EReal) (V c main_v151 : S64x64.Idx → EReal) (V c main_v153 : S64x64.Idx → EReal) (V c main_v162 : S1x64.Idx → EReal) (V c main_v157 : S64x64.Idx → EReal) (V c main_v159 : S64x64.Idx → EReal) (V c main_v163 : S1x64.Idx → EReal) (((cfg2.win 11).blk t).view.emb y)
  unfold Cert.KerSide.G50
  refine congrArg (fun z => max z _) (Cert.Sage.node_rows _ _ _ _ _ _ (row0 V c t y) (row1 V c t y 0) (row2 V c t y) (row3 V c t y 0) (row4 V c t y) ?_)
  apply Fin.ext
  show (y 1).val = win2_11.index t (1 : Fin 2) * 64 + 1 * (y 1).val
  omega

/-- An index of the result is in point `t`'s block iff each coordinate is in the block's range. -/
theorem mem_blk (t : Fin cfg2.N) (i : S50000x64.Idx) :
    i ∈ ((cfg2.win 11).blk t).view.set ↔ ∀ a : Fin 2, win2_11.index t a * S5000x64.size a ≤ (i a).val ∧ (i a).val < win2_11.index t a * S5000x64.size a + S5000x64.size a := by
  show i ∈ ((View.whole main_v164).slice (win2_11.rect t)).set ↔ _
  rw [View.set_slice_whole, Rect.mem_set_unit]
  exact Iff.rfl

/-- The blocks tile the result. -/
theorem cover (i : S50000x64.Idx) : ∃ t : Fin cfg2.N, (cfg2.win 11).flush t = true ∧ i ∈ ((cfg2.win 11).blk t).view.set := by
  have hi0 : (i 0).val < 50000 := (i 0).isLt
  have hi1 : (i 1).val < 64 := (i 1).isLt
  obtain ⟨t, ht⟩ := idx_onto ⟨(i 0).val / 5000, by omega⟩
  have q0 : win2_11.index t (0 : Fin 2) = (i 0).val / 5000 := congrFun ht 0
  have q1 : win2_11.index t (1 : Fin 2) = 0 := congrFun ht 1
  refine ⟨t, flush2_11 t, ?_⟩
  rw [mem_blk]
  intro a
  match a with
  | ⟨0, _⟩ => show win2_11.index t (0 : Fin 2) * 5000 ≤ (i 0).val ∧ (i 0).val < win2_11.index t (0 : Fin 2) * 5000 + 5000; omega
  | ⟨1, _⟩ => show win2_11.index t (1 : Fin 2) * 64 ≤ (i 1).val ∧ (i 1).val < win2_11.index t (1 : Fin 2) * 64 + 64; omega

/-- THE REGION'S RESULT ARRAY, whatever contents `V` it was entered from. -/
theorem final (c : Dev nD) : (dat2 V c).arrAt 11 cfg2.N = Cert.KerSide.G50 (V c main_v99 : S50000x64.Idx → EReal) (V c main_v104 : S50000x1.Idx → EReal) (V c main_v114 : S50000x64.Idx → EReal) (V c main_v119 : S50000x1.Idx → EReal) (V c main_v74 : S50000x64.Idx → EReal) (V c main_v151 : S64x64.Idx → EReal) (V c main_v153 : S64x64.Idx → EReal) (V c main_v162 : S1x64.Idx → EReal) (V c main_v157 : S64x64.Idx → EReal) (V c main_v159 : S64x64.Idx → EReal) (V c main_v163 : S1x64.Idx → EReal) :=
  (dat2 V c).arrAt_eq_of_cover 11 _ (fun t _ => flushed_eq V c t) (cover)

end Cert.KerSide.R2

end
-- ==== Proof.KerBlock3.lean ====
/-
  One grid point's block of region 3: the body's stored value, index by index, is the per-node expression of the
  point's input blocks.  The body divides each aggregated row by the larger of its arrival count and one, multiplies by
  the left weight (a contraction over the 64 input features), adds the bias row and the product of the node's own row
  with the right weight, does the same for the second edge type, and adds the two, then clamps at zero.
  At exact values a change of float format is the identity, and a product into a zero accumulator is the plain sum.
-/
import proofs.«139568_j10058813407385_1_alg».proof.Proof.Gen.KernelIdeal.Skeleton
import proofs.«139568_j10058813407385_1_alg».proof.Proof.Spec
import proofs.«139568_j10058813407385_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerSide.R3

open Idealize.ShloMosaic Idealize.ShloMosaic.ValueIdx Idealize.ShloMosaic.TcCoe Cert.KernelIdeal Cert.KernelIdeal.Gen

/-- The mean of the aggregated rows at (p, q): the aggregate over the clamped count. -/
theorem mean_apply (x : Vec Ideal S5000x64 .f32) (d : Vec Ideal S5000x1 .f32) (p : Fin 5000) (q : Fin 64) :
    (divf x (broadcastTo S5000x64 (maximumf d
        (broadcast S5000x1 (FloatOps.ofBits (F := Ideal) .f32 0x3F800000#32))) broadcasts_S5000x1_S5000x64)
        : FVec Ideal S5000x64 .f32) (ix2 p q)
      = Ideal.div (x (ix2 p q)) (max (d (ix2 p 0)) (Ideal.ofBits .f32 0x3F800000#32)) := by
  rw [divf_apply,
    broadcastTo_apply _ broadcasts_S5000x1_S5000x64 (ix2 p q) (ix2 p 0) (fun a => by
      match a with
      | ⟨0, _⟩ => rfl
      | ⟨1, _⟩ => rfl),
    maximumf_apply, broadcast_apply]
  rfl

/-- A weight block re-read in the narrower format is itself. -/
theorem wcast_apply (w : Vec Ideal S64x64 .f32) (i : S64x64.Idx) :
    (truncf .bf16 (shapeCast S64x64 w shapeCasts_S64x64_S64x64) bitsLt_bf16_f32 : FVec Ideal S64x64 .bf16) i = w i := by
  rw [truncf_apply, shapeCast_self]

/-- The bias row spread over the block's rows, at (p, j). -/
theorem bias_apply (b : Vec Ideal S1x64 .f32) (p : Fin 5000) (j : Fin 64) :
    (broadcastTo S5000x64 (shapeCast S1x64 b shapeCasts_S1x64_S1x64) broadcasts_S1x64_S5000x64 : FVec Ideal S5000x64 .f32) (ix2 p j)
      = b (ix2 0 j) := by
  rw [broadcastTo_apply _ broadcasts_S1x64_S5000x64 (ix2 p j) (ix2 0 j) (fun a => by
      match a with
      | ⟨0, _⟩ => rfl
      | ⟨1, _⟩ => rfl), shapeCast_self]

/-- A product of a [5000,64] block with a [64,64] block into the zero accumulator, at (p, j): the sum over the 64 features. -/
theorem prod_apply (l : FVec Ideal S5000x64 .bf16) (r : FVec Ideal S64x64 .bf16) (p : Fin 5000) (j : Fin 64) :
    matmul dot_S5000x64_S64x64_S5000x64_1_0_0_1_n_n none l r (constant (F := Ideal) S5000x64 .f32 0x00000000#32) (ix2 p j)
      = ∑ q : Fin 64, l (ix2 p q) * r (ix2 q j) := by
  show FloatOps.matmul dot_S5000x64_S64x64_S5000x64_1_0_0_1_n_n none l r (constant (F := Ideal) S5000x64 .f32 0x00000000#32) (ix2 p j) = _
  rw [Ideal.matmul_constant_zero_apply]
  exact Cert.LibPlainDot.plain_sum dot_S5000x64_S64x64_S5000x64_1_0_0_1_n_n rfl rfl rfl rfl rfl rfl (fun a b => l a * r b) p j

/-- THE BLOCK: what the body stores, at row p and output feature j of the block. -/
theorem pay_apply (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (p : Fin 5000) (j : Fin 64) :
    k3_pay1 (F := Ideal) (k3_pay2 x2 x3) (k3_pay3 x4) (k3_pay4 x6) (k3_pay5 x8) (k3_pay6 x9) (k3_pay7 x0 x1 x5) (k3_pay8 x7) x10 (ix2 p j)
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) p j) (Ideal.ofBits .f32 0x00000000#32) := by
  unfold k3_pay1 k3_pay2 k3_pay3 k3_pay4 k3_pay5 k3_pay6 k3_pay7 k3_pay8
  dsimp only
  rw [maximumf_apply, broadcast_apply]
  rw [addf_apply, addf_apply, addf_apply, addf_apply, addf_apply]
  rw [prod_apply, prod_apply, prod_apply, prod_apply, bias_apply, bias_apply]
  simp only [truncf_apply, shapeCast_self, mean_apply]
  unfold Cert.Sage.node Cert.Sage.half
  rfl

/-- The same at any index of the block. -/
theorem pay_at (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x64 .f32) (x6 : Vec Ideal S64x64 .f32)
    (x7 : Vec Ideal S1x64 .f32) (x8 : Vec Ideal S64x64 .f32) (x9 : Vec Ideal S64x64 .f32) (x10 : Vec Ideal S1x64 .f32)
    (y : S5000x64.Idx) :
    k3_pay1 (F := Ideal) (k3_pay2 x2 x3) (k3_pay3 x4) (k3_pay4 x6) (k3_pay5 x8) (k3_pay6 x9) (k3_pay7 x0 x1 x5) (k3_pay8 x7) x10 y
      = max (Cert.Sage.node (N := 5000) (K := 64) (D := 64) x0 (fun i => x1 (ix2 (i 0) 0)) x2 (fun i => x3 (ix2 (i 0) 0)) x4 x5 x6
          (fun d => x7 (ix2 0 (d 0))) x8 x9 (fun d => x10 (ix2 0 (d 0))) (y 0) (y 1)) (Ideal.ofBits .f32 0x00000000#32) := by
  obtain ⟨p, j, rfl⟩ : ∃ (p : Fin 5000) (j : Fin 64), y = ix2 p j := ⟨y 0, y 1, eq_ix2 y⟩
  exact pay_apply x0 x1 x2 x3 x4 x5 x6 x7 x8 x9 x10 p j

end Cert.KerSide.R3

end
-- ==== Proof.KerRegion3.lean ====
/-
  Region 3 as a whole: the array it leaves is, index by index, the per-node expression of the arrays it found.
  The grid has 40 points; point t reads rows 5000·t … 5000·t + 4999 of the five node arrays and the whole of the six
  parameter arrays, and writes the same rows of the result; the 40 blocks tile the result.
-/
import proofs.«139568_j10058813407385_1_alg».proof.Proof.Gen.KernelIdeal.Frame
import proofs.«139568_j10058813407385_1_alg».proof.Proof.KerBlock3
import proofs.«139568_j10058813407385_1_alg».proof.Proof.KerShape
import Idealize.ShloMosaic.Lib.Pipeline.Value
import Idealize.ShloMosaic.Lib.Tactic

set_option maxRecDepth 16384

noncomputable section

open scoped BigOperators

namespace Cert.KerSide.R3

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the five node windows move with the output window along the rows, the six
    parameter windows stay at the origin. -/
theorem idx_facts : ∀ t : Fin cfg3.N, win3_0.index t (0 : Fin 2) = win3_11.index t (0 : Fin 2)
    ∧ win3_0.index t (1 : Fin 2) = 0
    ∧ win3_1.index t (0 : Fin 2) = win3_11.index t (0 : Fin 2)
    ∧ win3_1.index t (1 : Fin 2) = 0
    ∧ win3_2.index t (0 : Fin 2) = win3_11.index t (0 : Fin 2)
    ∧ win3_2.index t (1 : Fin 2) = 0
    ∧ win3_3.index t (0 : Fin 2) = win3_11.index t (0 : Fin 2)
    ∧ win3_3.index t (1 : Fin 2) = 0
    ∧ win3_4.index t (0 : Fin 2) = win3_11.index t (0 : Fin 2)
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (1 : Fin 2) = 0
    ∧ win3_11.index t (0 : Fin 2) ≤ 39 :=
  (by decide +kernel : ∀ t : Fin grid3.N, _)

/-- Every row block of the result is some point's. -/
theorem idx_onto : ∀ q0 : Fin 40, ∃ t : Fin cfg3.N, win3_11.index t = ![q0.val, 0] :=
  (by decide +kernel : ∀ q0 : Fin 40, ∃ t : Fin grid3.N, win3_11.index t = ![q0.val, 0])

/-- Window 5 is one whole block: every point reads the whole array. -/
theorem blk5 (c : Dev nD) (t : Fin cfg3.N) : iblk3 V c 5 t = (V c main_v166 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v166 : S64x64.Idx → EReal) (((cfg3.win 5).blk t).view.emb z) = _
  refine congrArg _ (funext fun a => Fin.ext ?_)
  match a with
  | ⟨0, _⟩ => show win3_5.index t (0 : Fin 2) * 64 + 1 * (z 0).val = (z 0).val; omega
  | ⟨1, _⟩ => show win3_5.index t (1 : Fin 2) * 64 + 1 * (z 1).val = (z 1).val; omega

/-- Window 6 is one whole block: every point reads the whole array. -/
theorem blk6 (c : Dev nD) (t : Fin cfg3.N) : iblk3 V c 6 t = (V c main_v168 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v168 : S64x64.Idx → EReal) (((cfg3.win 6).blk t).view.emb z) = _
  refine congrArg _ (funext fun a => Fin.ext ?_)
  match a with
  | ⟨0, _⟩ => show win3_6.index t (0 : Fin 2) * 64 + 1 * (z 0).val = (z 0).val; omega
  | ⟨1, _⟩ => show win3_6.index t (1 : Fin 2) * 64 + 1 * (z 1).val = (z 1).val; omega

/-- Window 7 is one whole block: every point reads the whole array. -/
theorem blk7 (c : Dev nD) (t : Fin cfg3.N) : iblk3 V c 7 t = (V c main_v177 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v177 : S1x64.Idx → EReal) (((cfg3.win 7).blk t).view.emb z) = _
  refine congrArg _ (funext fun a => Fin.ext ?_)
  match a with
  | ⟨0, _⟩ => show win3_7.index t (0 : Fin 2) * 1 + 1 * (z 0).val = (z 0).val; omega
  | ⟨1, _⟩ => show win3_7.index t (1 : Fin 2) * 64 + 1 * (z 1).val = (z 1).val; omega

/-- Window 8 is one whole block: every point reads the whole array. -/
theorem blk8 (c : Dev nD) (t : Fin cfg3.N) : iblk3 V c 8 t = (V c main_v172 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v172 : S64x64.Idx → EReal) (((cfg3.win 8).blk t).view.emb z) = _
  refine congrArg _ (funext fun a => Fin.ext ?_)
  match a with
  | ⟨0, _⟩ => show win3_8.index t (0 : Fin 2) * 64 + 1 * (z 0).val = (z 0).val; omega
  | ⟨1, _⟩ => show win3_8.index t (1 : Fin 2) * 64 + 1 * (z 1).val = (z 1).val; omega

/-- Window 9 is one whole block: every point reads the whole array. -/
theorem blk9 (c : Dev nD) (t : Fin cfg3.N) : iblk3 V c 9 t = (V c main_v174 : S64x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v174 : S64x64.Idx → EReal) (((cfg3.win 9).blk t).view.emb z) = _
  refine congrArg _ (funext fun a => Fin.ext ?_)
  match a with
  | ⟨0, _⟩ => show win3_9.index t (0 : Fin 2) * 64 + 1 * (z 0).val = (z 0).val; omega
  | ⟨1, _⟩ => show win3_9.index t (1 : Fin 2) * 64 + 1 * (z 1).val = (z 1).val; omega

/-- Window 10 is one whole block: every point reads the whole array. -/
theorem blk10 (c : Dev nD) (t : Fin cfg3.N) : iblk3 V c 10 t = (V c main_v178 : S1x64.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v178 : S1x64.Idx → EReal) (((cfg3.win 10).blk t).view.emb z) = _
  refine congrArg _ (funext fun a => Fin.ext ?_)
  match a with
  | ⟨0, _⟩ => show win3_10.index t (0 : Fin 2) * 1 + 1 * (z 0).val = (z 0).val; omega
  | ⟨1, _⟩ => show win3_10.index t (1 : Fin 2) * 64 + 1 * (z 1).val = (z 1).val; omega

/-- Window 0's block at point `t` is the rows of its array that the output block covers. -/
theorem row0 (c : Dev nD) (t : Fin cfg3.N) (y : S5000x64.Idx) (q : Fin 64) :
    iblk3 V c 0 t (ix2 (y 0) q) = (V c main_v129 : S200000x64.Idx → EReal) (ix2 ((((cfg3.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v129 : S200000x64.Idx → EReal) (((cfg3.win 0).blk t).view.emb (ix2 (y 0) q)) = _
  refine congrArg _ (funext fun a => Fin.ext ?_)
  match a with
  | ⟨0, _⟩ => show win3_0.index t (0 : Fin 2) * 5000 + 1 * (y 0).val = win3_11.index t (0 : Fin 2) * 5000 + 1 * (y 0).val; omega
  | ⟨1, _⟩ => show win3_0.index t (1 : Fin 2) * 64 + 1 * q.val = q.val; omega

/-- Window 1's block at point `t` is the rows of its array that the output block covers. -/
theorem row1 (c : Dev nD) (t : Fin cfg3.N) (y : S5000x64.Idx) (q : Fin 1) :
    iblk3 V c 1 t (ix2 (y 0) q) = (V c main_v134 : S200000x1.Idx → EReal) (ix2 ((((cfg3.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v134 : S200000x1.Idx → EReal) (((cfg3.win 1).blk t).view.emb (ix2 (y 0) q)) = _
  refine congrArg _ (funext fun a => Fin.ext ?_)
  match a with
  | ⟨0, _⟩ => show win3_1.index t (0 : Fin 2) * 5000 + 1 * (y 0).val = win3_11.index t (0 : Fin 2) * 5000 + 1 * (y 0).val; omega
  | ⟨1, _⟩ => show win3_1.index t (1 : Fin 2) * 1 + 1 * q.val = q.val; omega

/-- Window 2's block at point `t` is the rows of its array that the output block covers. -/
theorem row2 (c : Dev nD) (t : Fin cfg3.N) (y : S5000x64.Idx) (q : Fin 64) :
    iblk3 V c 2 t (ix2 (y 0) q) = (V c main_v144 : S200000x64.Idx → EReal) (ix2 ((((cfg3.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v144 : S200000x64.Idx → EReal) (((cfg3.win 2).blk t).view.emb (ix2 (y 0) q)) = _
  refine congrArg _ (funext fun a => Fin.ext ?_)
  match a with
  | ⟨0, _⟩ => show win3_2.index t (0 : Fin 2) * 5000 + 1 * (y 0).val = win3_11.index t (0 : Fin 2) * 5000 + 1 * (y 0).val; omega
  | ⟨1, _⟩ => show win3_2.index t (1 : Fin 2) * 64 + 1 * q.val = q.val; omega

/-- Window 3's block at point `t` is the rows of its array that the output block covers. -/
theorem row3 (c : Dev nD) (t : Fin cfg3.N) (y : S5000x64.Idx) (q : Fin 1) :
    iblk3 V c 3 t (ix2 (y 0) q) = (V c main_v149 : S200000x1.Idx → EReal) (ix2 ((((cfg3.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v149 : S200000x1.Idx → EReal) (((cfg3.win 3).blk t).view.emb (ix2 (y 0) q)) = _
  refine congrArg _ (funext fun a => Fin.ext ?_)
  match a with
  | ⟨0, _⟩ => show win3_3.index t (0 : Fin 2) * 5000 + 1 * (y 0).val = win3_11.index t (0 : Fin 2) * 5000 + 1 * (y 0).val; omega
  | ⟨1, _⟩ => show win3_3.index t (1 : Fin 2) * 1 + 1 * q.val = q.val; omega

/-- Window 4's block at point `t` is the rows of its array that the output block covers. -/
theorem row4 (c : Dev nD) (t : Fin cfg3.N) (y : S5000x64.Idx) (q : Fin 64) :
    iblk3 V c 4 t (ix2 (y 0) q) = (V c main_v89 : S200000x64.Idx → EReal) (ix2 ((((cfg3.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v89 : S200000x64.Idx → EReal) (((cfg3.win 4).blk t).view.emb (ix2 (y 0) q)) = _
  refine congrArg _ (funext fun a => Fin.ext ?_)
  match a with
  | ⟨0, _⟩ => show win3_4.index t (0 : Fin 2) * 5000 + 1 * (y 0).val = win3_11.index t (0 : Fin 2) * 5000 + 1 * (y 0).val; omega
  | ⟨1, _⟩ => show win3_4.index t (1 : Fin 2) * 64 + 1 * q.val = q.val; omega

/-- WHAT POINT `t` WRITES BACK is block `t` of `G` of the arrays as the region finds them. -/
theorem flushed_eq (c : Dev nD) (t : Fin cfg3.N) :
    (dat3 V c).flushed 11 t = ((cfg3.win 11).blk t).view.read (Elt Ideal) (Cert.KerSide.G200 (V c main_v129 : S200000x64.Idx → EReal) (V c main_v134 : S200000x1.Idx → EReal) (V c main_v144 : S200000x64.Idx → EReal) (V c main_v149 : S200000x1.Idx → EReal) (V c main_v89 : S200000x64.Idx → EReal) (V c main_v166 : S64x64.Idx → EReal) (V c main_v168 : S64x64.Idx → EReal) (V c main_v177 : S1x64.Idx → EReal) (V c main_v172 : S64x64.Idx → EReal) (V c main_v174 : S64x64.Idx → EReal) (V c main_v178 : S1x64.Idx → EReal)) := by
  show (cfg3.win 11).cut (grid3.coords t) ((dat3 V c).after 11 t) = _
  rw [after3_11]
  unfold out3_11
  rw [View.canon_unit_zero hz]
  simp only [View.ld_unit_zero (S := S5000x64) hz, View.ld_unit_zero (S := S5000x1) hz, View.ld_unit_zero (S := S64x64) hz, View.ld_unit_zero (S := S1x64) hz]
  rw [blk5 V c t, blk6 V c t, blk7 V c t, blk8 V c t, blk9 V c t, blk10 V c t]
  obtain ⟨e0a, e0b, e1a, e1b, e2a, e2b, e3a, e3b, e4a, e4b, e5a, e5b, e6a, e6b, e7a, e7b, e8a, e8b, e9a, e9b, e10a, e10b, eo1, eo0⟩ := idx_facts t
  funext y
  refine (pay_at (iblk3 V c 0 t) (iblk3 V c 1 t) (iblk3 V c 2 t) (iblk3 V c 3 t) (iblk3 V c 4 t) _ _ _ _ _ _ y).trans ?_
  show _ = Cert.KerSide.G200 (V c main_v129 : S200000x64.Idx → EReal) (V c main_v134 : S200000x1.Idx → EReal) (V c main_v144 : S200000x64.Idx → EReal) (V c main_v149 : S200000x1.Idx → EReal) (V c main_v89 : S200000x64.Idx → EReal) (V c main_v166 : S64x64.Idx → EReal) (V c main_v168 : S64x64.Idx → EReal) (V c main_v177 : S1x64.Idx → EReal) (V c main_v172 : S64x64.Idx → EReal) (V c main_v174 : S64x64.Idx → EReal) (V c main_v178 : S1x64.Idx → EReal) (((cfg3.win 11).blk t).view.emb y)
  unfold Cert.KerSide.G200
  refine congrArg (fun z => max z _) (Cert.Sage.node_rows _ _ _ _ _ _ (row0 V c t y) (row1 V c t y 0) (row2 V c t y) (row3 V c t y 0) (row4 V c t y) ?_)
  apply Fin.ext
  show (y 1).val = win3_11.index t (1 : Fin 2) * 64 + 1 * (y 1).val
  omega

/-- An index of the result is in point `t`'s block iff each coordinate is in the block's range. -/
theorem mem_blk (t : Fin cfg3.N) (i : S200000x64.Idx) :
    i ∈ ((cfg3.win 11).blk t).view.set ↔ ∀ a : Fin 2, win3_11.index t a * S5000x64.size a ≤ (i a).val ∧ (i a).val < win3_11.index t a * S5000x64.size a + S5000x64.size a := by
  show i ∈ ((View.whole main_v179).slice (win3_11.rect t)).set ↔ _
  rw [View.set_slice_whole, Rect.mem_set_unit]
  exact Iff.rfl

/-- The blocks tile the result. -/
theorem cover (i : S200000x64.Idx) : ∃ t : Fin cfg3.N, (cfg3.win 11).flush t = true ∧ i ∈ ((cfg3.win 11).blk t).view.set := by
  have hi0 : (i 0).val < 200000 := (i 0).isLt
  have hi1 : (i 1).val < 64 := (i 1).isLt
  obtain ⟨t, ht⟩ := idx_onto ⟨(i 0).val / 5000, by omega⟩
  have q0 : win3_11.index t (0 : Fin 2) = (i 0).val / 5000 := congrFun ht 0
  have q1 : win3_11.index t (1 : Fin 2) = 0 := congrFun ht 1
  refine ⟨t, flush3_11 t, ?_⟩
  rw [mem_blk]
  intro a
  match a with
  | ⟨0, _⟩ => show win3_11.index t (0 : Fin 2) * 5000 ≤ (i 0).val ∧ (i 0).val < win3_11.index t (0 : Fin 2) * 5000 + 5000; omega
  | ⟨1, _⟩ => show win3_11.index t (1 : Fin 2) * 64 ≤ (i 1).val ∧ (i 1).val < win3_11.index t (1 : Fin 2) * 64 + 64; omega

/-- THE REGION'S RESULT ARRAY, whatever contents `V` it was entered from. -/
theorem final (c : Dev nD) : (dat3 V c).arrAt 11 cfg3.N = Cert.KerSide.G200 (V c main_v129 : S200000x64.Idx → EReal) (V c main_v134 : S200000x1.Idx → EReal) (V c main_v144 : S200000x64.Idx → EReal) (V c main_v149 : S200000x1.Idx → EReal) (V c main_v89 : S200000x64.Idx → EReal) (V c main_v166 : S64x64.Idx → EReal) (V c main_v168 : S64x64.Idx → EReal) (V c main_v177 : S1x64.Idx → EReal) (V c main_v172 : S64x64.Idx → EReal) (V c main_v174 : S64x64.Idx → EReal) (V c main_v178 : S1x64.Idx → EReal) :=
  (dat3 V c).arrAt_eq_of_cover 11 _ (fun t _ => flushed_eq V c t) (cover)

end Cert.KerSide.R3

end
-- ==== Proof.KerBlock4.lean ====
/-
  One grid point's block of region 4: the body's stored value, index by index, is the per-node expression of the
  point's input blocks.  The body divides each aggregated row by the larger of its arrival count and one, multiplies by
  the left weight (a contraction over the 64 input features), adds the bias row and the product of the node's own row
  with the right weight, does the same for the second edge type, and adds the two.
  At exact values a change of float format is the identity, and a product into a zero accumulator is the plain sum.
-/
import proofs.«139568_j10058813407385_1_alg».proof.Proof.Gen.KernelIdeal.Skeleton
import proofs.«139568_j10058813407385_1_alg».proof.Proof.Spec
import proofs.«139568_j10058813407385_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerSide.R4

open Idealize.ShloMosaic Idealize.ShloMosaic.ValueIdx Idealize.ShloMosaic.TcCoe Cert.KernelIdeal Cert.KernelIdeal.Gen

/-- The mean of the aggregated rows at (p, q): the aggregate over the clamped count. -/
theorem mean_apply (x : Vec Ideal S5000x64 .f32) (d : Vec Ideal S5000x1 .f32) (p : Fin 5000) (q : Fin 64) :
    (divf x (broadcastTo S5000x64 (maximumf d
        (broadcast S5000x1 (FloatOps.ofBits (F := Ideal) .f32 0x3F800000#32))) broadcasts_S5000x1_S5000x64)
        : FVec Ideal S5000x64 .f32) (ix2 p q)
      = Ideal.div (x (ix2 p q)) (max (d (ix2 p 0)) (Ideal.ofBits .f32 0x3F800000#32)) := by
  rw [divf_apply,
    broadcastTo_apply _ broadcasts_S5000x1_S5000x64 (ix2 p q) (ix2 p 0) (fun a => by
      match a with
      | ⟨0, _⟩ => rfl
      | ⟨1, _⟩ => rfl),
    maximumf_apply, broadcast_apply]
  rfl

/-- A weight block re-read in the narrower format is itself. -/
theorem wcast_apply (w : Vec Ideal S64x25 .f32) (i : S64x25.Idx) :
    (truncf .bf16 (shapeCast S64x25 w shapeCasts_S64x25_S64x25) bitsLt_bf16_f32 : FVec Ideal S64x25 .bf16) i = w i := by
  rw [truncf_apply, shapeCast_self]

/-- The bias row spread over the block's rows, at (p, j). -/
theorem bias_apply (b : Vec Ideal S1x25 .f32) (p : Fin 5000) (j : Fin 25) :
    (broadcastTo S5000x25 (shapeCast S1x25 b shapeCasts_S1x25_S1x25) broadcasts_S1x25_S5000x25 : FVec Ideal S5000x25 .f32) (ix2 p j)
      = b (ix2 0 j) := by
  rw [broadcastTo_apply _ broadcasts_S1x25_S5000x25 (ix2 p j) (ix2 0 j) (fun a => by
      match a with
      | ⟨0, _⟩ => rfl
      | ⟨1, _⟩ => rfl), shapeCast_self]

/-- A product of a [5000,64] block with a [64,25] block into the zero accumulator, at (p, j): the sum over the 64 features. -/
theorem prod_apply (l : FVec Ideal S5000x64 .bf16) (r : FVec Ideal S64x25 .bf16) (p : Fin 5000) (j : Fin 25) :
    matmul dot_S5000x64_S64x25_S5000x25_1_0_0_1_n_n none l r (constant (F := Ideal) S5000x25 .f32 0x00000000#32) (ix2 p j)
      = ∑ q : Fin 64, l (ix2 p q) * r (ix2 q j) := by
  show FloatOps.matmul dot_S5000x64_S64x25_S5000x25_1_0_0_1_n_n none l r (constant (F := Ideal) S5000x25 .f32 0x00000000#32) (ix2 p j) = _
  rw [Ideal.matmul_constant_zero_apply]
  exact Cert.LibPlainDot.plain_sum dot_S5000x64_S64x25_S5000x25_1_0_0_1_n_n rfl rfl rfl rfl rfl rfl (fun a b => l a * r b) p j

/-- THE BLOCK: what the body stores, at row p and output feature j of the block. -/
theorem pay_apply (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x25 .f32) (x6 : Vec Ideal S64x25 .f32)
    (x7 : Vec Ideal S1x25 .f32) (x8 : Vec Ideal S64x25 .f32) (x9 : Vec Ideal S64x25 .f32) (x10 : Vec Ideal S1x25 .f32)
    (p : Fin 5000) (j : Fin 25) :
    k4_pay1 (F := Ideal) (k4_pay2 x2 x3) (k4_pay3 x4) (k4_pay4 x6) (k4_pay5 x8) (k4_pay6 x9) (k4_pay7 x0 x1 x5) (k4_pay8 x7) x10 (ix2 p j)
      = Cert.Sage.node (N := 5000) (K := 64) (D := 25) x0 (fun i => x1 (ix2 (i 0) 0)) x2 (fun i => x3 (ix2 (i 0) 0)) x4 x5 x6
          (fun d => x7 (ix2 0 (d 0))) x8 x9 (fun d => x10 (ix2 0 (d 0))) p j := by
  unfold k4_pay1 k4_pay2 k4_pay3 k4_pay4 k4_pay5 k4_pay6 k4_pay7 k4_pay8
  dsimp only
  rw [addf_apply, addf_apply, addf_apply, addf_apply, addf_apply]
  rw [prod_apply, prod_apply, prod_apply, prod_apply, bias_apply, bias_apply]
  simp only [truncf_apply, shapeCast_self, mean_apply]
  unfold Cert.Sage.node Cert.Sage.half
  rfl

/-- The same at any index of the block. -/
theorem pay_at (x0 : Vec Ideal S5000x64 .f32) (x1 : Vec Ideal S5000x1 .f32) (x2 : Vec Ideal S5000x64 .f32)
    (x3 : Vec Ideal S5000x1 .f32) (x4 : Vec Ideal S5000x64 .f32) (x5 : Vec Ideal S64x25 .f32) (x6 : Vec Ideal S64x25 .f32)
    (x7 : Vec Ideal S1x25 .f32) (x8 : Vec Ideal S64x25 .f32) (x9 : Vec Ideal S64x25 .f32) (x10 : Vec Ideal S1x25 .f32)
    (y : S5000x25.Idx) :
    k4_pay1 (F := Ideal) (k4_pay2 x2 x3) (k4_pay3 x4) (k4_pay4 x6) (k4_pay5 x8) (k4_pay6 x9) (k4_pay7 x0 x1 x5) (k4_pay8 x7) x10 y
      = Cert.Sage.node (N := 5000) (K := 64) (D := 25) x0 (fun i => x1 (ix2 (i 0) 0)) x2 (fun i => x3 (ix2 (i 0) 0)) x4 x5 x6
          (fun d => x7 (ix2 0 (d 0))) x8 x9 (fun d => x10 (ix2 0 (d 0))) (y 0) (y 1) := by
  obtain ⟨p, j, rfl⟩ : ∃ (p : Fin 5000) (j : Fin 25), y = ix2 p j := ⟨y 0, y 1, eq_ix2 y⟩
  exact pay_apply x0 x1 x2 x3 x4 x5 x6 x7 x8 x9 x10 p j

end Cert.KerSide.R4

end
-- ==== Proof.KerRegion4.lean ====
/-
  Region 4 as a whole: the array it leaves is, index by index, the per-node expression of the arrays it found.
  The grid has 10 points; point t reads rows 5000·t … 5000·t + 4999 of the five node arrays and the whole of the six
  parameter arrays, and writes the same rows of the result; the 10 blocks tile the result.
-/
import proofs.«139568_j10058813407385_1_alg».proof.Proof.Gen.KernelIdeal.Frame
import proofs.«139568_j10058813407385_1_alg».proof.Proof.KerBlock4
import proofs.«139568_j10058813407385_1_alg».proof.Proof.KerShape
import Idealize.ShloMosaic.Lib.Pipeline.Value
import Idealize.ShloMosaic.Lib.Tactic

set_option maxRecDepth 16384

noncomputable section

open scoped BigOperators

namespace Cert.KerSide.R4

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the five node windows move with the output window along the rows, the six
    parameter windows stay at the origin. -/
theorem idx_facts : ∀ t : Fin cfg4.N, win4_0.index t (0 : Fin 2) = win4_11.index t (0 : Fin 2)
    ∧ win4_0.index t (1 : Fin 2) = 0
    ∧ win4_1.index t (0 : Fin 2) = win4_11.index t (0 : Fin 2)
    ∧ win4_1.index t (1 : Fin 2) = 0
    ∧ win4_2.index t (0 : Fin 2) = win4_11.index t (0 : Fin 2)
    ∧ win4_2.index t (1 : Fin 2) = 0
    ∧ win4_3.index t (0 : Fin 2) = win4_11.index t (0 : Fin 2)
    ∧ win4_3.index t (1 : Fin 2) = 0
    ∧ win4_4.index t (0 : Fin 2) = win4_11.index t (0 : Fin 2)
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0
    ∧ win4_10.index t (0 : Fin 2) = 0
    ∧ win4_10.index t (1 : Fin 2) = 0
    ∧ win4_11.index t (1 : Fin 2) = 0
    ∧ win4_11.index t (0 : Fin 2) ≤ 9 :=
  (by decide +kernel : ∀ t : Fin grid4.N, _)

/-- Every row block of the result is some point's. -/
theorem idx_onto : ∀ q0 : Fin 10, ∃ t : Fin cfg4.N, win4_11.index t = ![q0.val, 0] :=
  (by decide +kernel : ∀ q0 : Fin 10, ∃ t : Fin grid4.N, win4_11.index t = ![q0.val, 0])

/-- Window 5 is one whole block: every point reads the whole array. -/
theorem blk5 (c : Dev nD) (t : Fin cfg4.N) : iblk4 V c 5 t = (V c main_v211 : S64x25.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v211 : S64x25.Idx → EReal) (((cfg4.win 5).blk t).view.emb z) = _
  refine congrArg _ (funext fun a => Fin.ext ?_)
  match a with
  | ⟨0, _⟩ => show win4_5.index t (0 : Fin 2) * 64 + 1 * (z 0).val = (z 0).val; omega
  | ⟨1, _⟩ => show win4_5.index t (1 : Fin 2) * 25 + 1 * (z 1).val = (z 1).val; omega

/-- Window 6 is one whole block: every point reads the whole array. -/
theorem blk6 (c : Dev nD) (t : Fin cfg4.N) : iblk4 V c 6 t = (V c main_v213 : S64x25.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v213 : S64x25.Idx → EReal) (((cfg4.win 6).blk t).view.emb z) = _
  refine congrArg _ (funext fun a => Fin.ext ?_)
  match a with
  | ⟨0, _⟩ => show win4_6.index t (0 : Fin 2) * 64 + 1 * (z 0).val = (z 0).val; omega
  | ⟨1, _⟩ => show win4_6.index t (1 : Fin 2) * 25 + 1 * (z 1).val = (z 1).val; omega

/-- Window 7 is one whole block: every point reads the whole array. -/
theorem blk7 (c : Dev nD) (t : Fin cfg4.N) : iblk4 V c 7 t = (V c main_v222 : S1x25.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v222 : S1x25.Idx → EReal) (((cfg4.win 7).blk t).view.emb z) = _
  refine congrArg _ (funext fun a => Fin.ext ?_)
  match a with
  | ⟨0, _⟩ => show win4_7.index t (0 : Fin 2) * 1 + 1 * (z 0).val = (z 0).val; omega
  | ⟨1, _⟩ => show win4_7.index t (1 : Fin 2) * 25 + 1 * (z 1).val = (z 1).val; omega

/-- Window 8 is one whole block: every point reads the whole array. -/
theorem blk8 (c : Dev nD) (t : Fin cfg4.N) : iblk4 V c 8 t = (V c main_v217 : S64x25.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v217 : S64x25.Idx → EReal) (((cfg4.win 8).blk t).view.emb z) = _
  refine congrArg _ (funext fun a => Fin.ext ?_)
  match a with
  | ⟨0, _⟩ => show win4_8.index t (0 : Fin 2) * 64 + 1 * (z 0).val = (z 0).val; omega
  | ⟨1, _⟩ => show win4_8.index t (1 : Fin 2) * 25 + 1 * (z 1).val = (z 1).val; omega

/-- Window 9 is one whole block: every point reads the whole array. -/
theorem blk9 (c : Dev nD) (t : Fin cfg4.N) : iblk4 V c 9 t = (V c main_v219 : S64x25.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v219 : S64x25.Idx → EReal) (((cfg4.win 9).blk t).view.emb z) = _
  refine congrArg _ (funext fun a => Fin.ext ?_)
  match a with
  | ⟨0, _⟩ => show win4_9.index t (0 : Fin 2) * 64 + 1 * (z 0).val = (z 0).val; omega
  | ⟨1, _⟩ => show win4_9.index t (1 : Fin 2) * 25 + 1 * (z 1).val = (z 1).val; omega

/-- Window 10 is one whole block: every point reads the whole array. -/
theorem blk10 (c : Dev nD) (t : Fin cfg4.N) : iblk4 V c 10 t = (V c main_v223 : S1x25.Idx → EReal) := by
  obtain ⟨e0a, e0b, e1a, e1b, e2a, e2b, e3a, e3b, e4a, e4b, e5a, e5b, e6a, e6b, e7a, e7b, e8a, e8b, e9a, e9b, e10a, e10b, eo1, eo0⟩ := idx_facts t
  funext z
  show (V c main_v223 : S1x25.Idx → EReal) (((cfg4.win 10).blk t).view.emb z) = _
  refine congrArg _ (funext fun a => Fin.ext ?_)
  match a with
  | ⟨0, _⟩ => show win4_10.index t (0 : Fin 2) * 1 + 1 * (z 0).val = (z 0).val; omega
  | ⟨1, _⟩ => show win4_10.index t (1 : Fin 2) * 25 + 1 * (z 1).val = (z 1).val; omega

/-- Window 0's block at point `t` is the rows of its array that the output block covers. -/
theorem row0 (c : Dev nD) (t : Fin cfg4.N) (y : S5000x25.Idx) (q : Fin 64) :
    iblk4 V c 0 t (ix2 (y 0) q) = (V c main_v189 : S50000x64.Idx → EReal) (ix2 ((((cfg4.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v189 : S50000x64.Idx → EReal) (((cfg4.win 0).blk t).view.emb (ix2 (y 0) q)) = _
  refine congrArg _ (funext fun a => Fin.ext ?_)
  match a with
  | ⟨0, _⟩ => show win4_0.index t (0 : Fin 2) * 5000 + 1 * (y 0).val = win4_11.index t (0 : Fin 2) * 5000 + 1 * (y 0).val; omega
  | ⟨1, _⟩ => show win4_0.index t (1 : Fin 2) * 64 + 1 * q.val = q.val; omega

/-- Window 1's block at point `t` is the rows of its array that the output block covers. -/
theorem row1 (c : Dev nD) (t : Fin cfg4.N) (y : S5000x25.Idx) (q : Fin 1) :
    iblk4 V c 1 t (ix2 (y 0) q) = (V c main_v194 : S50000x1.Idx → EReal) (ix2 ((((cfg4.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v194 : S50000x1.Idx → EReal) (((cfg4.win 1).blk t).view.emb (ix2 (y 0) q)) = _
  refine congrArg _ (funext fun a => Fin.ext ?_)
  match a with
  | ⟨0, _⟩ => show win4_1.index t (0 : Fin 2) * 5000 + 1 * (y 0).val = win4_11.index t (0 : Fin 2) * 5000 + 1 * (y 0).val; omega
  | ⟨1, _⟩ => show win4_1.index t (1 : Fin 2) * 1 + 1 * q.val = q.val; omega

/-- Window 2's block at point `t` is the rows of its array that the output block covers. -/
theorem row2 (c : Dev nD) (t : Fin cfg4.N) (y : S5000x25.Idx) (q : Fin 64) :
    iblk4 V c 2 t (ix2 (y 0) q) = (V c main_v204 : S50000x64.Idx → EReal) (ix2 ((((cfg4.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v204 : S50000x64.Idx → EReal) (((cfg4.win 2).blk t).view.emb (ix2 (y 0) q)) = _
  refine congrArg _ (funext fun a => Fin.ext ?_)
  match a with
  | ⟨0, _⟩ => show win4_2.index t (0 : Fin 2) * 5000 + 1 * (y 0).val = win4_11.index t (0 : Fin 2) * 5000 + 1 * (y 0).val; omega
  | ⟨1, _⟩ => show win4_2.index t (1 : Fin 2) * 64 + 1 * q.val = q.val; omega

/-- Window 3's block at point `t` is the rows of its array that the output block covers. -/
theorem row3 (c : Dev nD) (t : Fin cfg4.N) (y : S5000x25.Idx) (q : Fin 1) :
    iblk4 V c 3 t (ix2 (y 0) q) = (V c main_v209 : S50000x1.Idx → EReal) (ix2 ((((cfg4.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v209 : S50000x1.Idx → EReal) (((cfg4.win 3).blk t).view.emb (ix2 (y 0) q)) = _
  refine congrArg _ (funext fun a => Fin.ext ?_)
  match a with
  | ⟨0, _⟩ => show win4_3.index t (0 : Fin 2) * 5000 + 1 * (y 0).val = win4_11.index t (0 : Fin 2) * 5000 + 1 * (y 0).val; omega
  | ⟨1, _⟩ => show win4_3.index t (1 : Fin 2) * 1 + 1 * q.val = q.val; omega

/-- Window 4's block at point `t` is the rows of its array that the output block covers. -/
theorem row4 (c : Dev nD) (t : Fin cfg4.N) (y : S5000x25.Idx) (q : Fin 64) :
    iblk4 V c 4 t (ix2 (y 0) q) = (V c main_v164 : S50000x64.Idx → EReal) (ix2 ((((cfg4.win 11).blk t).view.emb y) 0) q) := by
  obtain ⟨e0a, e0b, e1a, e1b, e2a, e2b, e3a, e3b, e4a, e4b, e5a, e5b, e6a, e6b, e7a, e7b, e8a, e8b, e9a, e9b, e10a, e10b, eo1, eo0⟩ := idx_facts t
  show (V c main_v164 : S50000x64.Idx → EReal) (((cfg4.win 4).blk t).view.emb (ix2 (y 0) q)) = _
  refine congrArg _ (funext fun a => Fin.ext ?_)
  match a with
  | ⟨0, _⟩ => show win4_4.index t (0 : Fin 2) * 5000 + 1 * (y 0).val = win4_11.index t (0 : Fin 2) * 5000 + 1 * (y 0).val; omega
  | ⟨1, _⟩ => show win4_4.index t (1 : Fin 2) * 64 + 1 * q.val = q.val; omega

/-- WHAT POINT `t` WRITES BACK is block `t` of `G` of the arrays as the region finds them. -/
theorem flushed_eq (c : Dev nD) (t : Fin cfg4.N) :
    (dat4 V c).flushed 11 t = ((cfg4.win 11).blk t).view.read (Elt Ideal) (Cert.KerSide.Gout (V c main_v189 : S50000x64.Idx → EReal) (V c main_v194 : S50000x1.Idx → EReal) (V c main_v204 : S50000x64.Idx → EReal) (V c main_v209 : S50000x1.Idx → EReal) (V c main_v164 : S50000x64.Idx → EReal) (V c main_v211 : S64x25.Idx → EReal) (V c main_v213 : S64x25.Idx → EReal) (V c main_v222 : S1x25.Idx → EReal) (V c main_v217 : S64x25.Idx → EReal) (V c main_v219 : S64x25.Idx → EReal) (V c main_v223 : S1x25.Idx → EReal)) := by
  show (cfg4.win 11).cut (grid4.coords t) ((dat4 V c).after 11 t) = _
  rw [after4_11]
  unfold out4_11
  rw [View.canon_unit_zero hz]
  simp only [View.ld_unit_zero (S := S5000x64) hz, View.ld_unit_zero (S := S5000x1) hz, View.ld_unit_zero (S := S64x25) hz, View.ld_unit_zero (S := S1x25) hz, View.ld_unit_zero (S := S5000x25) hz]
  rw [blk5 V c t, blk6 V c t, blk7 V c t, blk8 V c t, blk9 V c t, blk10 V c t]
  obtain ⟨e0a, e0b, e1a, e1b, e2a, e2b, e3a, e3b, e4a, e4b, e5a, e5b, e6a, e6b, e7a, e7b, e8a, e8b, e9a, e9b, e10a, e10b, eo1, eo0⟩ := idx_facts t
  funext y
  refine (pay_at (iblk4 V c 0 t) (iblk4 V c 1 t) (iblk4 V c 2 t) (iblk4 V c 3 t) (iblk4 V c 4 t) _ _ _ _ _ _ y).trans ?_
  show _ = Cert.KerSide.Gout (V c main_v189 : S50000x64.Idx → EReal) (V c main_v194 : S50000x1.Idx → EReal) (V c main_v204 : S50000x64.Idx → EReal) (V c main_v209 : S50000x1.Idx → EReal) (V c main_v164 : S50000x64.Idx → EReal) (V c main_v211 : S64x25.Idx → EReal) (V c main_v213 : S64x25.Idx → EReal) (V c main_v222 : S1x25.Idx → EReal) (V c main_v217 : S64x25.Idx → EReal) (V c main_v219 : S64x25.Idx → EReal) (V c main_v223 : S1x25.Idx → EReal) (((cfg4.win 11).blk t).view.emb y)
  unfold Cert.KerSide.Gout
  refine (Cert.Sage.node_rows _ _ _ _ _ _ (row0 V c t y) (row1 V c t y 0) (row2 V c t y) (row3 V c t y 0) (row4 V c t y) ?_)
  apply Fin.ext
  show (y 1).val = win4_11.index t (1 : Fin 2) * 25 + 1 * (y 1).val
  omega

/-- An index of the result is in point `t`'s block iff each coordinate is in the block's range. -/
theorem mem_blk (t : Fin cfg4.N) (i : S50000x25.Idx) :
    i ∈ ((cfg4.win 11).blk t).view.set ↔ ∀ a : Fin 2, win4_11.index t a * S5000x25.size a ≤ (i a).val ∧ (i a).val < win4_11.index t a * S5000x25.size a + S5000x25.size a := by
  show i ∈ ((View.whole main_v224).slice (win4_11.rect t)).set ↔ _
  rw [View.set_slice_whole, Rect.mem_set_unit]
  exact Iff.rfl

/-- The blocks tile the result. -/
theorem cover (i : S50000x25.Idx) : ∃ t : Fin cfg4.N, (cfg4.win 11).flush t = true ∧ i ∈ ((cfg4.win 11).blk t).view.set := by
  have hi0 : (i 0).val < 50000 := (i 0).isLt
  have hi1 : (i 1).val < 25 := (i 1).isLt
  obtain ⟨t, ht⟩ := idx_onto ⟨(i 0).val / 5000, by omega⟩
  have q0 : win4_11.index t (0 : Fin 2) = (i 0).val / 5000 := congrFun ht 0
  have q1 : win4_11.index t (1 : Fin 2) = 0 := congrFun ht 1
  refine ⟨t, flush4_11 t, ?_⟩
  rw [mem_blk]
  intro a
  match a with
  | ⟨0, _⟩ => show win4_11.index t (0 : Fin 2) * 5000 ≤ (i 0).val ∧ (i 0).val < win4_11.index t (0 : Fin 2) * 5000 + 5000; omega
  | ⟨1, _⟩ => show win4_11.index t (1 : Fin 2) * 25 ≤ (i 1).val ∧ (i 1).val < win4_11.index t (1 : Fin 2) * 25 + 25; omega

/-- THE REGION'S RESULT ARRAY, whatever contents `V` it was entered from. -/
theorem final (c : Dev nD) : (dat4 V c).arrAt 11 cfg4.N = Cert.KerSide.Gout (V c main_v189 : S50000x64.Idx → EReal) (V c main_v194 : S50000x1.Idx → EReal) (V c main_v204 : S50000x64.Idx → EReal) (V c main_v209 : S50000x1.Idx → EReal) (V c main_v164 : S50000x64.Idx → EReal) (V c main_v211 : S64x25.Idx → EReal) (V c main_v213 : S64x25.Idx → EReal) (V c main_v222 : S1x25.Idx → EReal) (V c main_v217 : S64x25.Idx → EReal) (V c main_v219 : S64x25.Idx → EReal) (V c main_v223 : S1x25.Idx → EReal) :=
  (dat4 V c).arrAt_eq_of_cover 11 _ (fun t _ => flushed_eq V c t) (cover)

end Cert.KerSide.R4

end
-- ==== Proof.KerTerms.lean ====
/-
  The kernel program's host-side terms — the four edge aggregations, the arrival counts and the parameter slices — in
  the kernel program's own spelling, and that each is the network's term of the same name: the two programs name the
  same gather, scatter-add and slice dimension records, so the terms agree without being opened.
  Also the two re-layouts the kernel program inserts before its regions: a count vector as a one-column array and a
  bias vector as a one-row array, read back at an index.
-/
import proofs.«139568_j10058813407385_1_alg».proof.KernelIdeal
import proofs.«139568_j10058813407385_1_alg».proof.Proof.Gen.KernelIdeal
import proofs.«139568_j10058813407385_1_alg».proof.Proof.Gen.ReferenceIdeal
import proofs.«139568_j10058813407385_1_alg».proof.Proof.Spec
import Idealize.ShloMosaic.Lib.Pipeline.Value
import Idealize.ShloMosaic.Lib.ValueIdx
import Idealize.ShloMosaic.Lib.ValueLayout

noncomputable section

namespace Cert.KerSide

open Idealize.ShloMosaic Idealize.ShloMosaic.ValueIdx Cert.KernelIdeal
open Cert.KernelIdeal.Facts₀ Cert.KernelIdeal.Facts

def KaggRR (x : FVec Ideal S50000x64 .f32) (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

def KdegRR (dst : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

theorem aggRR_eq (x : FVec Ideal S50000x64 .f32) (src dst : IVec S800000 32) : KaggRR x src dst = Cert.Sage.aggRR x src dst := rfl
theorem degRR_eq (dst : IVec S800000 32) : KdegRR dst = Cert.Sage.degRR dst := rfl

def KaggOR (x : FVec Ideal S200000x64 .f32) (src dst : IVec S1600000 32) : FVec Ideal S50000x64 .f32 :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 dst)
    (Host.gather gather_S200000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 200000#32))) src)))

def KdegOR (dst : IVec S1600000 32) : FVec Ideal S50000 .f32 :=
  Host.scatterAdd (F := Ideal) scatter_S50000_S1600000x1_S1600000_n_0_0_1
    (broadcastInDim S50000 ![] bcast_S_S50000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

theorem aggOR_eq (x : FVec Ideal S200000x64 .f32) (src dst : IVec S1600000 32) : KaggOR x src dst = Cert.Sage.aggOR x src dst := rfl
theorem degOR_eq (dst : IVec S1600000 32) : KdegOR dst = Cert.Sage.degOR dst := rfl

def KaggRO (x : FVec Ideal S50000x64 .f32) (src dst : IVec S1600000 32) : FVec Ideal S200000x64 .f32 :=
  Host.scatterAdd (F := Ideal) scatter_S200000x64_S1600000x1_S1600000x64_1_0_0_1
    (broadcastInDim S200000x64 ![] bcast_S_S200000x64 (constant (F := Ideal) S_ .f32 0x00000000#32))
    (broadcastInDim S1600000x1 ![0] bcast_S1600000_S1600000x1_0 dst)
    (Host.gather gather_S50000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

def KdegRO (dst : IVec S1600000 32) : FVec Ideal S200000 .f32 :=
  Host.scatterAdd (F := Ideal) scatter_S200000_S1600000x1_S1600000_n_0_0_1
    (broadcastInDim S200000 ![] bcast_S_S200000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

theorem aggRO_eq (x : FVec Ideal S50000x64 .f32) (src dst : IVec S1600000 32) : KaggRO x src dst = Cert.Sage.aggRO x src dst := rfl
theorem degRO_eq (dst : IVec S1600000 32) : KdegRO dst = Cert.Sage.degRO dst := rfl

def KaggOO (x : FVec Ideal S200000x64 .f32) (src dst : IVec S1600000 32) : FVec Ideal S200000x64 .f32 :=
  Host.scatterAdd (F := Ideal) scatter_S200000x64_S1600000x1_S1600000x64_1_0_0_1
    (broadcastInDim S200000x64 ![] bcast_S_S200000x64 (constant (F := Ideal) S_ .f32 0x00000000#32))
    (broadcastInDim S1600000x1 ![0] bcast_S1600000_S1600000x1_0 dst)
    (Host.gather gather_S200000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 200000#32))) src)))

def KdegOO (dst : IVec S1600000 32) : FVec Ideal S200000 .f32 :=
  Host.scatterAdd (F := Ideal) scatter_S200000_S1600000x1_S1600000_n_0_0_1
    (broadcastInDim S200000 ![] bcast_S_S200000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

theorem aggOO_eq (x : FVec Ideal S200000x64 .f32) (src dst : IVec S1600000 32) : KaggOO x src dst = Cert.Sage.aggOO x src dst := rfl
theorem degOO_eq (dst : IVec S1600000 32) : KdegOO dst = Cert.Sage.degOO dst := rfl

def Kmat00 (W : FVec Ideal S2x4x64x64 .f32) : FVec Ideal S64x64 .f32 :=
  shapeCast S64x64 (extractStridedSlice S1x1x64x64 ![0, 0, 0, 0] W slices_S2x4x64x64_S1x1x64x64_0_0_0_0) shapeCasts_S1x1x64x64_S64x64
def Kvec00 (b : FVec Ideal S2x4x64 .f32) : FVec Ideal S64 .f32 :=
  shapeCast S64 (extractStridedSlice S1x1x64 ![0, 0, 0] b slices_S2x4x64_S1x1x64_0_0_0) shapeCasts_S1x1x64_S64
theorem mat00_eq (W : FVec Ideal S2x4x64x64 .f32) : Kmat00 W = Cert.Sage.mat00 W := rfl
theorem vec00_eq (b : FVec Ideal S2x4x64 .f32) : Kvec00 b = Cert.Sage.vec00 b := rfl
def Kmat01 (W : FVec Ideal S2x4x64x64 .f32) : FVec Ideal S64x64 .f32 :=
  shapeCast S64x64 (extractStridedSlice S1x1x64x64 ![0, 1, 0, 0] W slices_S2x4x64x64_S1x1x64x64_0_1_0_0) shapeCasts_S1x1x64x64_S64x64
def Kvec01 (b : FVec Ideal S2x4x64 .f32) : FVec Ideal S64 .f32 :=
  shapeCast S64 (extractStridedSlice S1x1x64 ![0, 1, 0] b slices_S2x4x64_S1x1x64_0_1_0) shapeCasts_S1x1x64_S64
theorem mat01_eq (W : FVec Ideal S2x4x64x64 .f32) : Kmat01 W = Cert.Sage.mat01 W := rfl
theorem vec01_eq (b : FVec Ideal S2x4x64 .f32) : Kvec01 b = Cert.Sage.vec01 b := rfl
def Kmat02 (W : FVec Ideal S2x4x64x64 .f32) : FVec Ideal S64x64 .f32 :=
  shapeCast S64x64 (extractStridedSlice S1x1x64x64 ![0, 2, 0, 0] W slices_S2x4x64x64_S1x1x64x64_0_2_0_0) shapeCasts_S1x1x64x64_S64x64
def Kvec02 (b : FVec Ideal S2x4x64 .f32) : FVec Ideal S64 .f32 :=
  shapeCast S64 (extractStridedSlice S1x1x64 ![0, 2, 0] b slices_S2x4x64_S1x1x64_0_2_0) shapeCasts_S1x1x64_S64
theorem mat02_eq (W : FVec Ideal S2x4x64x64 .f32) : Kmat02 W = Cert.Sage.mat02 W := rfl
theorem vec02_eq (b : FVec Ideal S2x4x64 .f32) : Kvec02 b = Cert.Sage.vec02 b := rfl
def Kmat03 (W : FVec Ideal S2x4x64x64 .f32) : FVec Ideal S64x64 .f32 :=
  shapeCast S64x64 (extractStridedSlice S1x1x64x64 ![0, 3, 0, 0] W slices_S2x4x64x64_S1x1x64x64_0_3_0_0) shapeCasts_S1x1x64x64_S64x64
def Kvec03 (b : FVec Ideal S2x4x64 .f32) : FVec Ideal S64 .f32 :=
  shapeCast S64 (extractStridedSlice S1x1x64 ![0, 3, 0] b slices_S2x4x64_S1x1x64_0_3_0) shapeCasts_S1x1x64_S64
theorem mat03_eq (W : FVec Ideal S2x4x64x64 .f32) : Kmat03 W = Cert.Sage.mat03 W := rfl
theorem vec03_eq (b : FVec Ideal S2x4x64 .f32) : Kvec03 b = Cert.Sage.vec03 b := rfl
def Kmat10 (W : FVec Ideal S2x4x64x64 .f32) : FVec Ideal S64x64 .f32 :=
  shapeCast S64x64 (extractStridedSlice S1x1x64x64 ![1, 0, 0, 0] W slices_S2x4x64x64_S1x1x64x64_1_0_0_0) shapeCasts_S1x1x64x64_S64x64
def Kvec10 (b : FVec Ideal S2x4x64 .f32) : FVec Ideal S64 .f32 :=
  shapeCast S64 (extractStridedSlice S1x1x64 ![1, 0, 0] b slices_S2x4x64_S1x1x64_1_0_0) shapeCasts_S1x1x64_S64
theorem mat10_eq (W : FVec Ideal S2x4x64x64 .f32) : Kmat10 W = Cert.Sage.mat10 W := rfl
theorem vec10_eq (b : FVec Ideal S2x4x64 .f32) : Kvec10 b = Cert.Sage.vec10 b := rfl
def Kmat11 (W : FVec Ideal S2x4x64x64 .f32) : FVec Ideal S64x64 .f32 :=
  shapeCast S64x64 (extractStridedSlice S1x1x64x64 ![1, 1, 0, 0] W slices_S2x4x64x64_S1x1x64x64_1_1_0_0) shapeCasts_S1x1x64x64_S64x64
def Kvec11 (b : FVec Ideal S2x4x64 .f32) : FVec Ideal S64 .f32 :=
  shapeCast S64 (extractStridedSlice S1x1x64 ![1, 1, 0] b slices_S2x4x64_S1x1x64_1_1_0) shapeCasts_S1x1x64_S64
theorem mat11_eq (W : FVec Ideal S2x4x64x64 .f32) : Kmat11 W = Cert.Sage.mat11 W := rfl
theorem vec11_eq (b : FVec Ideal S2x4x64 .f32) : Kvec11 b = Cert.Sage.vec11 b := rfl
def Kmat12 (W : FVec Ideal S2x4x64x64 .f32) : FVec Ideal S64x64 .f32 :=
  shapeCast S64x64 (extractStridedSlice S1x1x64x64 ![1, 2, 0, 0] W slices_S2x4x64x64_S1x1x64x64_1_2_0_0) shapeCasts_S1x1x64x64_S64x64
def Kvec12 (b : FVec Ideal S2x4x64 .f32) : FVec Ideal S64 .f32 :=
  shapeCast S64 (extractStridedSlice S1x1x64 ![1, 2, 0] b slices_S2x4x64_S1x1x64_1_2_0) shapeCasts_S1x1x64_S64
theorem mat12_eq (W : FVec Ideal S2x4x64x64 .f32) : Kmat12 W = Cert.Sage.mat12 W := rfl
theorem vec12_eq (b : FVec Ideal S2x4x64 .f32) : Kvec12 b = Cert.Sage.vec12 b := rfl
def Kmat13 (W : FVec Ideal S2x4x64x64 .f32) : FVec Ideal S64x64 .f32 :=
  shapeCast S64x64 (extractStridedSlice S1x1x64x64 ![1, 3, 0, 0] W slices_S2x4x64x64_S1x1x64x64_1_3_0_0) shapeCasts_S1x1x64x64_S64x64
def Kvec13 (b : FVec Ideal S2x4x64 .f32) : FVec Ideal S64 .f32 :=
  shapeCast S64 (extractStridedSlice S1x1x64 ![1, 3, 0] b slices_S2x4x64_S1x1x64_1_3_0) shapeCasts_S1x1x64_S64
theorem mat13_eq (W : FVec Ideal S2x4x64x64 .f32) : Kmat13 W = Cert.Sage.mat13 W := rfl
theorem vec13_eq (b : FVec Ideal S2x4x64 .f32) : Kvec13 b = Cert.Sage.vec13 b := rfl
def Komat0 (W : FVec Ideal S4x64x25 .f32) : FVec Ideal S64x25 .f32 :=
  shapeCast S64x25 (extractStridedSlice S1x64x25 ![0, 0, 0] W slices_S4x64x25_S1x64x25_0_0_0) shapeCasts_S1x64x25_S64x25
def Kovec0 (b : FVec Ideal S4x25 .f32) : FVec Ideal S25 .f32 :=
  shapeCast S25 (extractStridedSlice S1x25 ![0, 0] b slices_S4x25_S1x25_0_0) shapeCasts_S1x25_S25
theorem omat0_eq (W : FVec Ideal S4x64x25 .f32) : Komat0 W = Cert.Sage.omat0 W := rfl
theorem ovec0_eq (b : FVec Ideal S4x25 .f32) : Kovec0 b = Cert.Sage.ovec0 b := rfl
def Komat1 (W : FVec Ideal S4x64x25 .f32) : FVec Ideal S64x25 .f32 :=
  shapeCast S64x25 (extractStridedSlice S1x64x25 ![1, 0, 0] W slices_S4x64x25_S1x64x25_1_0_0) shapeCasts_S1x64x25_S64x25
def Kovec1 (b : FVec Ideal S4x25 .f32) : FVec Ideal S25 .f32 :=
  shapeCast S25 (extractStridedSlice S1x25 ![1, 0] b slices_S4x25_S1x25_1_0) shapeCasts_S1x25_S25
theorem omat1_eq (W : FVec Ideal S4x64x25 .f32) : Komat1 W = Cert.Sage.omat1 W := rfl
theorem ovec1_eq (b : FVec Ideal S4x25 .f32) : Kovec1 b = Cert.Sage.ovec1 b := rfl

/-- A count vector laid out as one column. -/
def col50 (d : FVec Ideal S50000 .f32) : FVec Ideal S50000x1 .f32 := shapeCast S50000x1 d shapeCasts_S50000_S50000x1
def col200 (d : FVec Ideal S200000 .f32) : FVec Ideal S200000x1 .f32 := shapeCast S200000x1 d shapeCasts_S200000_S200000x1
/-- A bias vector laid out as one row. -/
def row64 (b : FVec Ideal S64 .f32) : FVec Ideal S1x64 .f32 := shapeCast S1x64 b shapeCasts_S64_S1x64
def row25 (b : FVec Ideal S25 .f32) : FVec Ideal S1x25 .f32 := shapeCast S1x25 b shapeCasts_S25_S1x25

theorem col50_apply (d : FVec Ideal S50000 .f32) (r : Fin 50000) : col50 d (ix2 r 0) = d (ix1 r) := by
  unfold col50
  exact shapeCast_apply d _ (ix2 r 0) (ix1 r) (by
    rw [Shape.rowMajor_val_two, Shape.rowMajor_val_one]
    show r.val = r.val * 1 + 0
    omega)
theorem col200_apply (d : FVec Ideal S200000 .f32) (r : Fin 200000) : col200 d (ix2 r 0) = d (ix1 r) := by
  unfold col200
  exact shapeCast_apply d _ (ix2 r 0) (ix1 r) (by
    rw [Shape.rowMajor_val_two, Shape.rowMajor_val_one]
    show r.val = r.val * 1 + 0
    omega)
theorem row64_apply (b : FVec Ideal S64 .f32) (j : Fin 64) : row64 b (ix2 0 j) = b (ix1 j) := by
  unfold row64
  rw [shapeCast_a_1a_apply]
theorem row25_apply (b : FVec Ideal S25 .f32) (j : Fin 25) : row25 b (ix2 0 j) = b (ix1 j) := by
  unfold row25
  rw [shapeCast_a_1a_apply]

end Cert.KerSide

end
-- ==== Proof.KerHost0.lean ====
/-
  Host stretch 0 of the kernel program, read at the buffers the next region (and later stretches) use: each is the
  named aggregation, count or parameter slice of the contents the stretch started from; every buffer outside the
  stretch's own results keeps its contents.  Stated over an arbitrary starting valuation.
-/
import proofs.«139568_j10058813407385_1_alg».proof.Proof.Gen.KernelIdeal.Launch
import proofs.«139568_j10058813407385_1_alg».proof.Proof.KerTerms
import Idealize.ShloMosaic.Lib.StableHlo.Run

set_option maxRecDepth 65536

noncomputable section

namespace Cert.KerSide.H0

open Idealize.ShloMosaic Idealize.ShloMosaic.TcCoe Idealize.SL.Sem Idealize.ShloMosaic.StableHlo
open Cert.KernelIdeal Cert.KernelIdeal.Gen Cert.KerSide

/-- The buffers the stretch's operations write. -/
abbrev written : List (Ref sig .tc) := [main_c, main_v0, main_v1, main_c_0, main_v2, main_v3, main_v4, main_v5, main_v6, main_cst, main_v7, main_v8, main_v9, main_cst_1, main_v10, main_cst_2, main_v11, main_v12, main_v13, main_v14, main_c_3, main_v15, main_v16, main_c_4, main_v17, main_v18, main_v19, main_v20, main_v21, main_cst_5, main_v22, main_v23, main_v24, main_cst_6, main_v25, main_cst_7, main_v26, main_v27, main_v28, main_v29, main_c_8, main_v30, main_v31, main_c_9, main_v32, main_v33, main_v34, main_v35, main_v36, main_cst_10, main_v37, main_v38, main_v39, main_cst_11, main_v40, main_cst_12, main_v41, main_v42, main_v43, main_v44, main_c_13, main_v45, main_v46, main_c_14, main_v47, main_v48, main_v49, main_v50, main_v51, main_cst_15, main_v52, main_v53, main_v54, main_cst_16, main_v55, main_cst_17, main_v56, main_v57, main_v58, main_v59, main_v60, main_v61, main_v62, main_v63, main_v64, main_v65, main_v66, main_v67, main_v68, main_v69, main_v70, main_v71, main_v72, main_v73]

set_option maxHeartbeats 4000000 in
theorem writes : (hostOps0 : List (HloOp τ sig (Elt Ideal))).Forall fun op => op.writes ⊆ (written.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A buffer the stretch does not write keeps its contents. -/
theorem keep (W : Valuation τ sig (Elt Ideal)) (r : Ref sig .tc) (h : r ∉ written) :
    after hostOps0 W (Proc.devRef .tc r) = W (Proc.devRef .tc r) :=
  after_of_writes_sub hostOps0 W writes h

set_option maxHeartbeats 4000000 in
theorem r_v9 (W : Valuation τ sig (Elt Ideal)) :
    after hostOps0 W (Proc.devRef .tc main_v9) = KaggRR (W (Proc.devRef .tc main_arg0)) (W (Proc.devRef .tc main_arg8)) (W (Proc.devRef .tc main_arg9)) := by
  after_results_simp <;> rfl

set_option maxHeartbeats 4000000 in
theorem r_v14 (W : Valuation τ sig (Elt Ideal)) :
    after hostOps0 W (Proc.devRef .tc main_v14) = col50 (KdegRR (W (Proc.devRef .tc main_arg9))) := by
  after_results_simp <;> rfl

set_option maxHeartbeats 4000000 in
theorem r_v24 (W : Valuation τ sig (Elt Ideal)) :
    after hostOps0 W (Proc.devRef .tc main_v24) = KaggOR (W (Proc.devRef .tc main_arg1)) (W (Proc.devRef .tc main_arg10)) (W (Proc.devRef .tc main_arg11)) := by
  after_results_simp <;> rfl

set_option maxHeartbeats 4000000 in
theorem r_v29 (W : Valuation τ sig (Elt Ideal)) :
    after hostOps0 W (Proc.devRef .tc main_v29) = col50 (KdegOR (W (Proc.devRef .tc main_arg11))) := by
  after_results_simp <;> rfl

set_option maxHeartbeats 4000000 in
theorem r_v39 (W : Valuation τ sig (Elt Ideal)) :
    after hostOps0 W (Proc.devRef .tc main_v39) = KaggRO (W (Proc.devRef .tc main_arg0)) (W (Proc.devRef .tc main_arg12)) (W (Proc.devRef .tc main_arg13)) := by
  after_results_simp <;> rfl

set_option maxHeartbeats 4000000 in
theorem r_v44 (W : Valuation τ sig (Elt Ideal)) :
    after hostOps0 W (Proc.devRef .tc main_v44) = col200 (KdegRO (W (Proc.devRef .tc main_arg13))) := by
  after_results_simp <;> rfl

set_option maxHeartbeats 4000000 in
theorem r_v54 (W : Valuation τ sig (Elt Ideal)) :
    after hostOps0 W (Proc.devRef .tc main_v54) = KaggOO (W (Proc.devRef .tc main_arg1)) (W (Proc.devRef .tc main_arg14)) (W (Proc.devRef .tc main_arg15)) := by
  after_results_simp <;> rfl

set_option maxHeartbeats 4000000 in
theorem r_v59 (W : Valuation τ sig (Elt Ideal)) :
    after hostOps0 W (Proc.devRef .tc main_v59) = col200 (KdegOO (W (Proc.devRef .tc main_arg15))) := by
  after_results_simp <;> rfl

set_option maxHeartbeats 4000000 in
theorem r_v61 (W : Valuation τ sig (Elt Ideal)) :
    after hostOps0 W (Proc.devRef .tc main_v61) = Kmat00 (W (Proc.devRef .tc main_arg2)) := by
  after_results_simp <;> rfl

set_option maxHeartbeats 4000000 in
theorem r_v63 (W : Valuation τ sig (Elt Ideal)) :
    after hostOps0 W (Proc.devRef .tc main_v63) = Kmat00 (W (Proc.devRef .tc main_arg3)) := by
  after_results_simp <;> rfl

set_option maxHeartbeats 4000000 in
theorem r_v72 (W : Valuation τ sig (Elt Ideal)) :
    after hostOps0 W (Proc.devRef .tc main_v72) = row64 (Kvec00 (W (Proc.devRef .tc main_arg4))) := by
  after_results_simp <;> rfl

set_option maxHeartbeats 4000000 in
theorem r_v67 (W : Valuation τ sig (Elt Ideal)) :
    after hostOps0 W (Proc.devRef .tc main_v67) = Kmat01 (W (Proc.devRef .tc main_arg2)) := by
  after_results_simp <;> rfl

set_option maxHeartbeats 4000000 in
theorem r_v69 (W : Valuation τ sig (Elt Ideal)) :
    after hostOps0 W (Proc.devRef .tc main_v69) = Kmat01 (W (Proc.devRef .tc main_arg3)) := by
  after_results_simp <;> rfl

set_option maxHeartbeats 4000000 in
theorem r_v73 (W : Valuation τ sig (Elt Ideal)) :
    after hostOps0 W (Proc.devRef .tc main_v73) = row64 (Kvec01 (W (Proc.devRef .tc main_arg4))) := by
  after_results_simp <;> rfl

end Cert.KerSide.H0

end
-- ==== Proof.KerHost1.lean ====
/-
  Host stretch 1 of the kernel program, read at the buffers the next region (and later stretches) use: each is the
  named aggregation, count or parameter slice of the contents the stretch started from; every buffer outside the
  stretch's own results keeps its contents.  Stated over an arbitrary starting valuation.
-/
import proofs.«139568_j10058813407385_1_alg».proof.Proof.Gen.KernelIdeal.Launch
import proofs.«139568_j10058813407385_1_alg».proof.Proof.KerTerms
import Idealize.ShloMosaic.Lib.StableHlo.Run

set_option maxRecDepth 65536

noncomputable section

namespace Cert.KerSide.H1

open Idealize.ShloMosaic Idealize.ShloMosaic.TcCoe Idealize.SL.Sem Idealize.ShloMosaic.StableHlo
open Cert.KernelIdeal Cert.KernelIdeal.Gen Cert.KerSide

/-- The buffers the stretch's operations write. -/
abbrev written : List (Ref sig .tc) := [main_v75, main_v76, main_v77, main_v78, main_v79, main_v80, main_v81, main_v82, main_v83, main_v84, main_v85, main_v86, main_v87, main_v88]

set_option maxHeartbeats 4000000 in
theorem writes : (hostOps1 : List (HloOp τ sig (Elt Ideal))).Forall fun op => op.writes ⊆ (written.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A buffer the stretch does not write keeps its contents. -/
theorem keep (W : Valuation τ sig (Elt Ideal)) (r : Ref sig .tc) (h : r ∉ written) :
    after hostOps1 W (Proc.devRef .tc r) = W (Proc.devRef .tc r) :=
  after_of_writes_sub hostOps1 W writes h

set_option maxHeartbeats 4000000 in
theorem r_v76 (W : Valuation τ sig (Elt Ideal)) :
    after hostOps1 W (Proc.devRef .tc main_v76) = Kmat02 (W (Proc.devRef .tc main_arg2)) := by
  after_results_simp <;> rfl

set_option maxHeartbeats 4000000 in
theorem r_v78 (W : Valuation τ sig (Elt Ideal)) :
    after hostOps1 W (Proc.devRef .tc main_v78) = Kmat02 (W (Proc.devRef .tc main_arg3)) := by
  after_results_simp <;> rfl

set_option maxHeartbeats 4000000 in
theorem r_v87 (W : Valuation τ sig (Elt Ideal)) :
    after hostOps1 W (Proc.devRef .tc main_v87) = row64 (Kvec02 (W (Proc.devRef .tc main_arg4))) := by
  after_results_simp <;> rfl

set_option maxHeartbeats 4000000 in
theorem r_v82 (W : Valuation τ sig (Elt Ideal)) :
    after hostOps1 W (Proc.devRef .tc main_v82) = Kmat03 (W (Proc.devRef .tc main_arg2)) := by
  after_results_simp <;> rfl

set_option maxHeartbeats 4000000 in
theorem r_v84 (W : Valuation τ sig (Elt Ideal)) :
    after hostOps1 W (Proc.devRef .tc main_v84) = Kmat03 (W (Proc.devRef .tc main_arg3)) := by
  after_results_simp <;> rfl

set_option maxHeartbeats 4000000 in
theorem r_v88 (W : Valuation τ sig (Elt Ideal)) :
    after hostOps1 W (Proc.devRef .tc main_v88) = row64 (Kvec03 (W (Proc.devRef .tc main_arg4))) := by
  after_results_simp <;> rfl

end Cert.KerSide.H1

end
-- ==== Proof.KerHost2.lean ====
/-
  Host stretch 2 of the kernel program, read at the buffers the next region (and later stretches) use: each is the
  named aggregation, count or parameter slice of the contents the stretch started from; every buffer outside the
  stretch's own results keeps its contents.  Stated over an arbitrary starting valuation.
-/
import proofs.«139568_j10058813407385_1_alg».proof.Proof.Gen.KernelIdeal.Launch
import proofs.«139568_j10058813407385_1_alg».proof.Proof.KerTerms
import Idealize.ShloMosaic.Lib.StableHlo.Run

set_option maxRecDepth 65536

noncomputable section

namespace Cert.KerSide.H2

open Idealize.ShloMosaic Idealize.ShloMosaic.TcCoe Idealize.SL.Sem Idealize.ShloMosaic.StableHlo
open Cert.KernelIdeal Cert.KernelIdeal.Gen Cert.KerSide

/-- The buffers the stretch's operations write. -/
abbrev written : List (Ref sig .tc) := [main_c_18, main_v90, main_v91, main_c_19, main_v92, main_v93, main_v94, main_v95, main_v96, main_cst_20, main_v97, main_v98, main_v99, main_cst_21, main_v100, main_cst_22, main_v101, main_v102, main_v103, main_v104, main_c_23, main_v105, main_v106, main_c_24, main_v107, main_v108, main_v109, main_v110, main_v111, main_cst_25, main_v112, main_v113, main_v114, main_cst_26, main_v115, main_cst_27, main_v116, main_v117, main_v118, main_v119, main_c_28, main_v120, main_v121, main_c_29, main_v122, main_v123, main_v124, main_v125, main_v126, main_cst_30, main_v127, main_v128, main_v129, main_cst_31, main_v130, main_cst_32, main_v131, main_v132, main_v133, main_v134, main_c_33, main_v135, main_v136, main_c_34, main_v137, main_v138, main_v139, main_v140, main_v141, main_cst_35, main_v142, main_v143, main_v144, main_cst_36, main_v145, main_cst_37, main_v146, main_v147, main_v148, main_v149, main_v150, main_v151, main_v152, main_v153, main_v154, main_v155, main_v156, main_v157, main_v158, main_v159, main_v160, main_v161, main_v162, main_v163]

set_option maxHeartbeats 4000000 in
theorem writes : (hostOps2 : List (HloOp τ sig (Elt Ideal))).Forall fun op => op.writes ⊆ (written.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A buffer the stretch does not write keeps its contents. -/
theorem keep (W : Valuation τ sig (Elt Ideal)) (r : Ref sig .tc) (h : r ∉ written) :
    after hostOps2 W (Proc.devRef .tc r) = W (Proc.devRef .tc r) :=
  after_of_writes_sub hostOps2 W writes h

set_option maxHeartbeats 4000000 in
theorem r_v99 (W : Valuation τ sig (Elt Ideal)) :
    after hostOps2 W (Proc.devRef .tc main_v99) = KaggRR (W (Proc.devRef .tc main_v74)) (W (Proc.devRef .tc main_arg8)) (W (Proc.devRef .tc main_arg9)) := by
  after_results_simp <;> rfl

set_option maxHeartbeats 4000000 in
theorem r_v104 (W : Valuation τ sig (Elt Ideal)) :
    after hostOps2 W (Proc.devRef .tc main_v104) = col50 (KdegRR (W (Proc.devRef .tc main_arg9))) := by
  after_results_simp <;> rfl

set_option maxHeartbeats 4000000 in
theorem r_v114 (W : Valuation τ sig (Elt Ideal)) :
    after hostOps2 W (Proc.devRef .tc main_v114) = KaggOR (W (Proc.devRef .tc main_v89)) (W (Proc.devRef .tc main_arg10)) (W (Proc.devRef .tc main_arg11)) := by
  after_results_simp <;> rfl

set_option maxHeartbeats 4000000 in
theorem r_v119 (W : Valuation τ sig (Elt Ideal)) :
    after hostOps2 W (Proc.devRef .tc main_v119) = col50 (KdegOR (W (Proc.devRef .tc main_arg11))) := by
  after_results_simp <;> rfl

set_option maxHeartbeats 4000000 in
theorem r_v129 (W : Valuation τ sig (Elt Ideal)) :
    after hostOps2 W (Proc.devRef .tc main_v129) = KaggRO (W (Proc.devRef .tc main_v74)) (W (Proc.devRef .tc main_arg12)) (W (Proc.devRef .tc main_arg13)) := by
  after_results_simp <;> rfl

set_option maxHeartbeats 4000000 in
theorem r_v134 (W : Valuation τ sig (Elt Ideal)) :
    after hostOps2 W (Proc.devRef .tc main_v134) = col200 (KdegRO (W (Proc.devRef .tc main_arg13))) := by
  after_results_simp <;> rfl

set_option maxHeartbeats 4000000 in
theorem r_v144 (W : Valuation τ sig (Elt Ideal)) :
    after hostOps2 W (Proc.devRef .tc main_v144) = KaggOO (W (Proc.devRef .tc main_v89)) (W (Proc.devRef .tc main_arg14)) (W (Proc.devRef .tc main_arg15)) := by
  after_results_simp <;> rfl

set_option maxHeartbeats 4000000 in
theorem r_v149 (W : Valuation τ sig (Elt Ideal)) :
    after hostOps2 W (Proc.devRef .tc main_v149) = col200 (KdegOO (W (Proc.devRef .tc main_arg15))) := by
  after_results_simp <;> rfl

set_option maxHeartbeats 4000000 in
theorem r_v151 (W : Valuation τ sig (Elt Ideal)) :
    after hostOps2 W (Proc.devRef .tc main_v151) = Kmat10 (W (Proc.devRef .tc main_arg2)) := by
  after_results_simp <;> rfl

set_option maxHeartbeats 4000000 in
theorem r_v153 (W : Valuation τ sig (Elt Ideal)) :
    after hostOps2 W (Proc.devRef .tc main_v153) = Kmat10 (W (Proc.devRef .tc main_arg3)) := by
  after_results_simp <;> rfl

set_option maxHeartbeats 4000000 in
theorem r_v162 (W : Valuation τ sig (Elt Ideal)) :
    after hostOps2 W (Proc.devRef .tc main_v162) = row64 (Kvec10 (W (Proc.devRef .tc main_arg4))) := by
  after_results_simp <;> rfl

set_option maxHeartbeats 4000000 in
theorem r_v157 (W : Valuation τ sig (Elt Ideal)) :
    after hostOps2 W (Proc.devRef .tc main_v157) = Kmat11 (W (Proc.devRef .tc main_arg2)) := by
  after_results_simp <;> rfl

set_option maxHeartbeats 4000000 in
theorem r_v159 (W : Valuation τ sig (Elt Ideal)) :
    after hostOps2 W (Proc.devRef .tc main_v159) = Kmat11 (W (Proc.devRef .tc main_arg3)) := by
  after_results_simp <;> rfl

set_option maxHeartbeats 4000000 in
theorem r_v163 (W : Valuation τ sig (Elt Ideal)) :
    after hostOps2 W (Proc.devRef .tc main_v163) = row64 (Kvec11 (W (Proc.devRef .tc main_arg4))) := by
  after_results_simp <;> rfl

end Cert.KerSide.H2

end
-- ==== Proof.KerHost3.lean ====
/-
  Host stretch 3 of the kernel program, read at the buffers the next region (and later stretches) use: each is the
  named aggregation, count or parameter slice of the contents the stretch started from; every buffer outside the
  stretch's own results keeps its contents.  Stated over an arbitrary starting valuation.
-/
import proofs.«139568_j10058813407385_1_alg».proof.Proof.Gen.KernelIdeal.Launch
import proofs.«139568_j10058813407385_1_alg».proof.Proof.KerTerms
import Idealize.ShloMosaic.Lib.StableHlo.Run

set_option maxRecDepth 65536

noncomputable section

namespace Cert.KerSide.H3

open Idealize.ShloMosaic Idealize.ShloMosaic.TcCoe Idealize.SL.Sem Idealize.ShloMosaic.StableHlo
open Cert.KernelIdeal Cert.KernelIdeal.Gen Cert.KerSide

/-- The buffers the stretch's operations write. -/
abbrev written : List (Ref sig .tc) := [main_v165, main_v166, main_v167, main_v168, main_v169, main_v170, main_v171, main_v172, main_v173, main_v174, main_v175, main_v176, main_v177, main_v178]

set_option maxHeartbeats 4000000 in
theorem writes : (hostOps3 : List (HloOp τ sig (Elt Ideal))).Forall fun op => op.writes ⊆ (written.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A buffer the stretch does not write keeps its contents. -/
theorem keep (W : Valuation τ sig (Elt Ideal)) (r : Ref sig .tc) (h : r ∉ written) :
    after hostOps3 W (Proc.devRef .tc r) = W (Proc.devRef .tc r) :=
  after_of_writes_sub hostOps3 W writes h

set_option maxHeartbeats 4000000 in
theorem r_v166 (W : Valuation τ sig (Elt Ideal)) :
    after hostOps3 W (Proc.devRef .tc main_v166) = Kmat12 (W (Proc.devRef .tc main_arg2)) := by
  after_results_simp <;> rfl

set_option maxHeartbeats 4000000 in
theorem r_v168 (W : Valuation τ sig (Elt Ideal)) :
    after hostOps3 W (Proc.devRef .tc main_v168) = Kmat12 (W (Proc.devRef .tc main_arg3)) := by
  after_results_simp <;> rfl

set_option maxHeartbeats 4000000 in
theorem r_v177 (W : Valuation τ sig (Elt Ideal)) :
    after hostOps3 W (Proc.devRef .tc main_v177) = row64 (Kvec12 (W (Proc.devRef .tc main_arg4))) := by
  after_results_simp <;> rfl

set_option maxHeartbeats 4000000 in
theorem r_v172 (W : Valuation τ sig (Elt Ideal)) :
    after hostOps3 W (Proc.devRef .tc main_v172) = Kmat13 (W (Proc.devRef .tc main_arg2)) := by
  after_results_simp <;> rfl

set_option maxHeartbeats 4000000 in
theorem r_v174 (W : Valuation τ sig (Elt Ideal)) :
    after hostOps3 W (Proc.devRef .tc main_v174) = Kmat13 (W (Proc.devRef .tc main_arg3)) := by
  after_results_simp <;> rfl

set_option maxHeartbeats 4000000 in
theorem r_v178 (W : Valuation τ sig (Elt Ideal)) :
    after hostOps3 W (Proc.devRef .tc main_v178) = row64 (Kvec13 (W (Proc.devRef .tc main_arg4))) := by
  after_results_simp <;> rfl

end Cert.KerSide.H3

end
-- ==== Proof.KerHost4.lean ====
/-
  Host stretch 4 of the kernel program, read at the buffers the next region (and later stretches) use: each is the
  named aggregation, count or parameter slice of the contents the stretch started from; every buffer outside the
  stretch's own results keeps its contents.  Stated over an arbitrary starting valuation.
-/
import proofs.«139568_j10058813407385_1_alg».proof.Proof.Gen.KernelIdeal.Launch
import proofs.«139568_j10058813407385_1_alg».proof.Proof.KerTerms
import Idealize.ShloMosaic.Lib.StableHlo.Run

set_option maxRecDepth 65536

noncomputable section

namespace Cert.KerSide.H4

open Idealize.ShloMosaic Idealize.ShloMosaic.TcCoe Idealize.SL.Sem Idealize.ShloMosaic.StableHlo
open Cert.KernelIdeal Cert.KernelIdeal.Gen Cert.KerSide

/-- The buffers the stretch's operations write. -/
abbrev written : List (Ref sig .tc) := [main_c_38, main_v180, main_v181, main_c_39, main_v182, main_v183, main_v184, main_v185, main_v186, main_cst_40, main_v187, main_v188, main_v189, main_cst_41, main_v190, main_cst_42, main_v191, main_v192, main_v193, main_v194, main_c_43, main_v195, main_v196, main_c_44, main_v197, main_v198, main_v199, main_v200, main_v201, main_cst_45, main_v202, main_v203, main_v204, main_cst_46, main_v205, main_cst_47, main_v206, main_v207, main_v208, main_v209, main_v210, main_v211, main_v212, main_v213, main_v214, main_v215, main_v216, main_v217, main_v218, main_v219, main_v220, main_v221, main_v222, main_v223]

set_option maxHeartbeats 4000000 in
theorem writes : (hostOps4 : List (HloOp τ sig (Elt Ideal))).Forall fun op => op.writes ⊆ (written.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A buffer the stretch does not write keeps its contents. -/
theorem keep (W : Valuation τ sig (Elt Ideal)) (r : Ref sig .tc) (h : r ∉ written) :
    after hostOps4 W (Proc.devRef .tc r) = W (Proc.devRef .tc r) :=
  after_of_writes_sub hostOps4 W writes h

set_option maxHeartbeats 4000000 in
theorem r_v189 (W : Valuation τ sig (Elt Ideal)) :
    after hostOps4 W (Proc.devRef .tc main_v189) = KaggRR (W (Proc.devRef .tc main_v164)) (W (Proc.devRef .tc main_arg8)) (W (Proc.devRef .tc main_arg9)) := by
  after_results_simp <;> rfl

set_option maxHeartbeats 4000000 in
theorem r_v194 (W : Valuation τ sig (Elt Ideal)) :
    after hostOps4 W (Proc.devRef .tc main_v194) = col50 (KdegRR (W (Proc.devRef .tc main_arg9))) := by
  after_results_simp <;> rfl

set_option maxHeartbeats 4000000 in
theorem r_v204 (W : Valuation τ sig (Elt Ideal)) :
    after hostOps4 W (Proc.devRef .tc main_v204) = KaggOR (W (Proc.devRef .tc main_v179)) (W (Proc.devRef .tc main_arg10)) (W (Proc.devRef .tc main_arg11)) := by
  after_results_simp <;> rfl

set_option maxHeartbeats 4000000 in
theorem r_v209 (W : Valuation τ sig (Elt Ideal)) :
    after hostOps4 W (Proc.devRef .tc main_v209) = col50 (KdegOR (W (Proc.devRef .tc main_arg11))) := by
  after_results_simp <;> rfl

set_option maxHeartbeats 4000000 in
theorem r_v211 (W : Valuation τ sig (Elt Ideal)) :
    after hostOps4 W (Proc.devRef .tc main_v211) = Komat0 (W (Proc.devRef .tc main_arg5)) := by
  after_results_simp <;> rfl

set_option maxHeartbeats 4000000 in
theorem r_v213 (W : Valuation τ sig (Elt Ideal)) :
    after hostOps4 W (Proc.devRef .tc main_v213) = Komat0 (W (Proc.devRef .tc main_arg6)) := by
  after_results_simp <;> rfl

set_option maxHeartbeats 4000000 in
theorem r_v222 (W : Valuation τ sig (Elt Ideal)) :
    after hostOps4 W (Proc.devRef .tc main_v222) = row25 (Kovec0 (W (Proc.devRef .tc main_arg7))) := by
  after_results_simp <;> rfl

set_option maxHeartbeats 4000000 in
theorem r_v217 (W : Valuation τ sig (Elt Ideal)) :
    after hostOps4 W (Proc.devRef .tc main_v217) = Komat1 (W (Proc.devRef .tc main_arg5)) := by
  after_results_simp <;> rfl

set_option maxHeartbeats 4000000 in
theorem r_v219 (W : Valuation τ sig (Elt Ideal)) :
    after hostOps4 W (Proc.devRef .tc main_v219) = Komat1 (W (Proc.devRef .tc main_arg6)) := by
  after_results_simp <;> rfl

set_option maxHeartbeats 4000000 in
theorem r_v223 (W : Valuation τ sig (Elt Ideal)) :
    after hostOps4 W (Proc.devRef .tc main_v223) = row25 (Kovec1 (W (Proc.devRef .tc main_arg7))) := by
  after_results_simp <;> rfl

end Cert.KerSide.H4

end
-- ==== Proof.KerBridge.lean ====
/-
  A region's function, fed the kernel program's host terms, is one layer of the network: the count read from its
  one-column layout and the bias read from its one-row layout are the vectors themselves, and the aggregation terms are
  the network's.
-/
import proofs.«139568_j10058813407385_1_alg».proof.Proof.KerShape
import proofs.«139568_j10058813407385_1_alg».proof.Proof.KerTerms

noncomputable section

namespace Cert.KerSide

open Idealize.ShloMosaic Idealize.ShloMosaic.ValueIdx Cert.KernelIdeal

/-- bridgeR: the region's function at the kernel program's host terms — the counts as one-column arrays, the biases as
    one-row arrays — is the network's layer. -/
theorem bridgeR (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (s d : IVec S800000 32) (s' d' : IVec S1600000 32) :
    G50 (KaggRR xr s d) (col50 (KdegRR d)) (KaggOR xo s' d') (col50 (KdegOR d')) xr wl1 wr1 (row64 b1) wl2 wr2 (row64 b2)
      = Cert.Sage.hidR xr xo wl1 wr1 b1 wl2 wr2 b2 s d s' d' := by
  have e1 : (fun r : (⟨1, ![50000]⟩ : Shape).Idx => col50 (KdegRR d) (ix2 (r 0) 0)) = KdegRR d :=
    funext fun r => (col50_apply _ (r 0)).trans (congrArg _ (eq_ix1 r).symm)
  have e2 : (fun r : (⟨1, ![50000]⟩ : Shape).Idx => col50 (KdegOR d') (ix2 (r 0) 0)) = KdegOR d' :=
    funext fun r => (col50_apply _ (r 0)).trans (congrArg _ (eq_ix1 r).symm)
  have eb1 : (fun r : (⟨1, ![64]⟩ : Shape).Idx => row64 b1 (ix2 0 (r 0))) = b1 :=
    funext fun r => (row64_apply b1 (r 0)).trans (congrArg b1 (eq_ix1 r).symm)
  have eb2 : (fun r : (⟨1, ![64]⟩ : Shape).Idx => row64 b2 (ix2 0 (r 0))) = b2 :=
    funext fun r => (row64_apply b2 (r 0)).trans (congrArg b2 (eq_ix1 r).symm)
  unfold G50 Cert.Sage.hidR
  rw [e1, e2, eb1, eb2, aggRR_eq, degRR_eq, aggOR_eq, degOR_eq]

/-- bridgeO: the region's function at the kernel program's host terms — the counts as one-column arrays, the biases as
    one-row arrays — is the network's layer. -/
theorem bridgeO (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (s d : IVec S1600000 32) (s' d' : IVec S1600000 32) :
    G200 (KaggRO xr s d) (col200 (KdegRO d)) (KaggOO xo s' d') (col200 (KdegOO d')) xo wl1 wr1 (row64 b1) wl2 wr2 (row64 b2)
      = Cert.Sage.hidO xr xo wl1 wr1 b1 wl2 wr2 b2 s d s' d' := by
  have e1 : (fun r : (⟨1, ![200000]⟩ : Shape).Idx => col200 (KdegRO d) (ix2 (r 0) 0)) = KdegRO d :=
    funext fun r => (col200_apply _ (r 0)).trans (congrArg _ (eq_ix1 r).symm)
  have e2 : (fun r : (⟨1, ![200000]⟩ : Shape).Idx => col200 (KdegOO d') (ix2 (r 0) 0)) = KdegOO d' :=
    funext fun r => (col200_apply _ (r 0)).trans (congrArg _ (eq_ix1 r).symm)
  have eb1 : (fun r : (⟨1, ![64]⟩ : Shape).Idx => row64 b1 (ix2 0 (r 0))) = b1 :=
    funext fun r => (row64_apply b1 (r 0)).trans (congrArg b1 (eq_ix1 r).symm)
  have eb2 : (fun r : (⟨1, ![64]⟩ : Shape).Idx => row64 b2 (ix2 0 (r 0))) = b2 :=
    funext fun r => (row64_apply b2 (r 0)).trans (congrArg b2 (eq_ix1 r).symm)
  unfold G200 Cert.Sage.hidO
  rw [e1, e2, eb1, eb2, aggRO_eq, degRO_eq, aggOO_eq, degOO_eq]

/-- bridgeOut: the region's function at the kernel program's host terms — the counts as one-column arrays, the biases as
    one-row arrays — is the network's layer. -/
theorem bridgeOut (xr : FVec Ideal S50000x64 .f32) (xo : FVec Ideal S200000x64 .f32)
    (wl1 wr1 : FVec Ideal S64x25 .f32) (b1 : FVec Ideal S25 .f32) (wl2 wr2 : FVec Ideal S64x25 .f32) (b2 : FVec Ideal S25 .f32)
    (s d : IVec S800000 32) (s' d' : IVec S1600000 32) :
    Gout (KaggRR xr s d) (col50 (KdegRR d)) (KaggOR xo s' d') (col50 (KdegOR d')) xr wl1 wr1 (row25 b1) wl2 wr2 (row25 b2)
      = Cert.Sage.outR xr xo wl1 wr1 b1 wl2 wr2 b2 s d s' d' := by
  have e1 : (fun r : (⟨1, ![50000]⟩ : Shape).Idx => col50 (KdegRR d) (ix2 (r 0) 0)) = KdegRR d :=
    funext fun r => (col50_apply _ (r 0)).trans (congrArg _ (eq_ix1 r).symm)
  have e2 : (fun r : (⟨1, ![50000]⟩ : Shape).Idx => col50 (KdegOR d') (ix2 (r 0) 0)) = KdegOR d' :=
    funext fun r => (col50_apply _ (r 0)).trans (congrArg _ (eq_ix1 r).symm)
  have eb1 : (fun r : (⟨1, ![25]⟩ : Shape).Idx => row25 b1 (ix2 0 (r 0))) = b1 :=
    funext fun r => (row25_apply b1 (r 0)).trans (congrArg b1 (eq_ix1 r).symm)
  have eb2 : (fun r : (⟨1, ![25]⟩ : Shape).Idx => row25 b2 (ix2 0 (r 0))) = b2 :=
    funext fun r => (row25_apply b2 (r 0)).trans (congrArg b2 (eq_ix1 r).symm)
  unfold Gout Cert.Sage.outR
  rw [e1, e2, eb1, eb2, aggRR_eq, degRR_eq, aggOR_eq, degOR_eq]

end Cert.KerSide

end
-- ==== Proof.KerChain.lean ====
/-
  The kernel program's run, boundary by boundary: what each buffer holds when a region is entered and left, back to the
  launch arguments.  A host stretch gives its results as the named aggregations, counts and parameter slices of what it
  started from and leaves every other buffer alone; a region replaces its result array by its function of the arrays it
  read and leaves every buffer that is not one of its arrays alone.  Composed, the last region's result is the whole
  network of the sixteen arguments.
-/
import proofs.«139568_j10058813407385_1_alg».proof.Proof.Gen.KernelIdeal.Frame
import proofs.«139568_j10058813407385_1_alg».proof.Proof.KerRegion0
import proofs.«139568_j10058813407385_1_alg».proof.Proof.KerRegion1
import proofs.«139568_j10058813407385_1_alg».proof.Proof.KerRegion2
import proofs.«139568_j10058813407385_1_alg».proof.Proof.KerRegion3
import proofs.«139568_j10058813407385_1_alg».proof.Proof.KerRegion4
import proofs.«139568_j10058813407385_1_alg».proof.Proof.KerHost0
import proofs.«139568_j10058813407385_1_alg».proof.Proof.KerHost1
import proofs.«139568_j10058813407385_1_alg».proof.Proof.KerHost2
import proofs.«139568_j10058813407385_1_alg».proof.Proof.KerHost3
import proofs.«139568_j10058813407385_1_alg».proof.Proof.KerHost4
import proofs.«139568_j10058813407385_1_alg».proof.Proof.KerBridge

set_option maxRecDepth 16384

noncomputable section

namespace Cert.KerSide

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The room features after the first hidden layer, as the network's layer of the launch arguments. -/
def xr1 : FVec Ideal S50000x64 .f32 :=
  Cert.Sage.hidR (m ((c : Thread nD τ).loc main_arg0)) (m ((c : Thread nD τ).loc main_arg1)) (Cert.Sage.mat00 (m ((c : Thread nD τ).loc main_arg2))) (Cert.Sage.mat00 (m ((c : Thread nD τ).loc main_arg3))) (Cert.Sage.vec00 (m ((c : Thread nD τ).loc main_arg4))) (Cert.Sage.mat01 (m ((c : Thread nD τ).loc main_arg2))) (Cert.Sage.mat01 (m ((c : Thread nD τ).loc main_arg3))) (Cert.Sage.vec01 (m ((c : Thread nD τ).loc main_arg4))) (m ((c : Thread nD τ).loc main_arg8)) (m ((c : Thread nD τ).loc main_arg9)) (m ((c : Thread nD τ).loc main_arg10)) (m ((c : Thread nD τ).loc main_arg11))
/-- The object features after the first hidden layer. -/
def xo1 : FVec Ideal S200000x64 .f32 :=
  Cert.Sage.hidO (m ((c : Thread nD τ).loc main_arg0)) (m ((c : Thread nD τ).loc main_arg1)) (Cert.Sage.mat02 (m ((c : Thread nD τ).loc main_arg2))) (Cert.Sage.mat02 (m ((c : Thread nD τ).loc main_arg3))) (Cert.Sage.vec02 (m ((c : Thread nD τ).loc main_arg4))) (Cert.Sage.mat03 (m ((c : Thread nD τ).loc main_arg2))) (Cert.Sage.mat03 (m ((c : Thread nD τ).loc main_arg3))) (Cert.Sage.vec03 (m ((c : Thread nD τ).loc main_arg4))) (m ((c : Thread nD τ).loc main_arg12)) (m ((c : Thread nD τ).loc main_arg13)) (m ((c : Thread nD τ).loc main_arg14)) (m ((c : Thread nD τ).loc main_arg15))
/-- The room features after the second hidden layer. -/
def xr2 : FVec Ideal S50000x64 .f32 :=
  Cert.Sage.hidR (xr1 m c) (xo1 m c) (Cert.Sage.mat10 (m ((c : Thread nD τ).loc main_arg2))) (Cert.Sage.mat10 (m ((c : Thread nD τ).loc main_arg3))) (Cert.Sage.vec10 (m ((c : Thread nD τ).loc main_arg4))) (Cert.Sage.mat11 (m ((c : Thread nD τ).loc main_arg2))) (Cert.Sage.mat11 (m ((c : Thread nD τ).loc main_arg3))) (Cert.Sage.vec11 (m ((c : Thread nD τ).loc main_arg4))) (m ((c : Thread nD τ).loc main_arg8)) (m ((c : Thread nD τ).loc main_arg9)) (m ((c : Thread nD τ).loc main_arg10)) (m ((c : Thread nD τ).loc main_arg11))
/-- The object features after the second hidden layer. -/
def xo2 : FVec Ideal S200000x64 .f32 :=
  Cert.Sage.hidO (xr1 m c) (xo1 m c) (Cert.Sage.mat12 (m ((c : Thread nD τ).loc main_arg2))) (Cert.Sage.mat12 (m ((c : Thread nD τ).loc main_arg3))) (Cert.Sage.vec12 (m ((c : Thread nD τ).loc main_arg4))) (Cert.Sage.mat13 (m ((c : Thread nD τ).loc main_arg2))) (Cert.Sage.mat13 (m ((c : Thread nD τ).loc main_arg3))) (Cert.Sage.vec13 (m ((c : Thread nD τ).loc main_arg4))) (m ((c : Thread nD τ).loc main_arg12)) (m ((c : Thread nD τ).loc main_arg13)) (m ((c : Thread nD τ).loc main_arg14)) (m ((c : Thread nD τ).loc main_arg15))
/-- The room scores. -/
def out : FVec Ideal S50000x25 .f32 :=
  Cert.Sage.outR (xr2 m c) (xo2 m c) (Cert.Sage.omat0 (m ((c : Thread nD τ).loc main_arg5))) (Cert.Sage.omat0 (m ((c : Thread nD τ).loc main_arg6))) (Cert.Sage.ovec0 (m ((c : Thread nD τ).loc main_arg7))) (Cert.Sage.omat1 (m ((c : Thread nD τ).loc main_arg5))) (Cert.Sage.omat1 (m ((c : Thread nD τ).loc main_arg6))) (Cert.Sage.ovec1 (m ((c : Thread nD τ).loc main_arg7))) (m ((c : Thread nD τ).loc main_arg8)) (m ((c : Thread nD τ).loc main_arg9)) (m ((c : Thread nD τ).loc main_arg10)) (m ((c : Thread nD τ).loc main_arg11))

/-- Unfolded, that is the whole network of the sixteen arguments. -/
theorem out_eq : out m c = Cert.Sage.final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := rfl

theorem at0_arg0 : W0 m ρ c (Proc.devRef .tc main_arg0) = (m ((c : Thread nD τ).loc main_arg0)) :=
  rfl

theorem at0_arg8 : W0 m ρ c (Proc.devRef .tc main_arg8) = (m ((c : Thread nD τ).loc main_arg8)) :=
  rfl

theorem at0_arg9 : W0 m ρ c (Proc.devRef .tc main_arg9) = (m ((c : Thread nD τ).loc main_arg9)) :=
  rfl

theorem at1_v9 : W1 m ρ c (Proc.devRef .tc main_v9) = KaggRR (m ((c : Thread nD τ).loc main_arg0)) (m ((c : Thread nD τ).loc main_arg8)) (m ((c : Thread nD τ).loc main_arg9)) :=
  (H0.r_v9 (W0 m ρ c)).trans (by rw [at0_arg0 m ρ c, at0_arg8 m ρ c, at0_arg9 m ρ c])

theorem at1_v14 : W1 m ρ c (Proc.devRef .tc main_v14) = col50 (KdegRR (m ((c : Thread nD τ).loc main_arg9))) :=
  (H0.r_v14 (W0 m ρ c)).trans (by rw [at0_arg9 m ρ c])

theorem at0_arg1 : W0 m ρ c (Proc.devRef .tc main_arg1) = (m ((c : Thread nD τ).loc main_arg1)) :=
  rfl

theorem at0_arg10 : W0 m ρ c (Proc.devRef .tc main_arg10) = (m ((c : Thread nD τ).loc main_arg10)) :=
  rfl

theorem at0_arg11 : W0 m ρ c (Proc.devRef .tc main_arg11) = (m ((c : Thread nD τ).loc main_arg11)) :=
  rfl

theorem at1_v24 : W1 m ρ c (Proc.devRef .tc main_v24) = KaggOR (m ((c : Thread nD τ).loc main_arg1)) (m ((c : Thread nD τ).loc main_arg10)) (m ((c : Thread nD τ).loc main_arg11)) :=
  (H0.r_v24 (W0 m ρ c)).trans (by rw [at0_arg1 m ρ c, at0_arg10 m ρ c, at0_arg11 m ρ c])

theorem at1_v29 : W1 m ρ c (Proc.devRef .tc main_v29) = col50 (KdegOR (m ((c : Thread nD τ).loc main_arg11))) :=
  (H0.r_v29 (W0 m ρ c)).trans (by rw [at0_arg11 m ρ c])

theorem at1_arg0 : W1 m ρ c (Proc.devRef .tc main_arg0) = (m ((c : Thread nD τ).loc main_arg0)) :=
  (H0.keep (W0 m ρ c) main_arg0 (by decide)).trans (at0_arg0 m ρ c)

theorem at0_arg2 : W0 m ρ c (Proc.devRef .tc main_arg2) = (m ((c : Thread nD τ).loc main_arg2)) :=
  rfl

theorem at1_v61 : W1 m ρ c (Proc.devRef .tc main_v61) = Kmat00 (m ((c : Thread nD τ).loc main_arg2)) :=
  (H0.r_v61 (W0 m ρ c)).trans (by rw [at0_arg2 m ρ c])

theorem at0_arg3 : W0 m ρ c (Proc.devRef .tc main_arg3) = (m ((c : Thread nD τ).loc main_arg3)) :=
  rfl

theorem at1_v63 : W1 m ρ c (Proc.devRef .tc main_v63) = Kmat00 (m ((c : Thread nD τ).loc main_arg3)) :=
  (H0.r_v63 (W0 m ρ c)).trans (by rw [at0_arg3 m ρ c])

theorem at0_arg4 : W0 m ρ c (Proc.devRef .tc main_arg4) = (m ((c : Thread nD τ).loc main_arg4)) :=
  rfl

theorem at1_v72 : W1 m ρ c (Proc.devRef .tc main_v72) = row64 (Kvec00 (m ((c : Thread nD τ).loc main_arg4))) :=
  (H0.r_v72 (W0 m ρ c)).trans (by rw [at0_arg4 m ρ c])

theorem at1_v67 : W1 m ρ c (Proc.devRef .tc main_v67) = Kmat01 (m ((c : Thread nD τ).loc main_arg2)) :=
  (H0.r_v67 (W0 m ρ c)).trans (by rw [at0_arg2 m ρ c])

theorem at1_v69 : W1 m ρ c (Proc.devRef .tc main_v69) = Kmat01 (m ((c : Thread nD τ).loc main_arg3)) :=
  (H0.r_v69 (W0 m ρ c)).trans (by rw [at0_arg3 m ρ c])

theorem at1_v73 : W1 m ρ c (Proc.devRef .tc main_v73) = row64 (Kvec01 (m ((c : Thread nD τ).loc main_arg4))) :=
  (H0.r_v73 (W0 m ρ c)).trans (by rw [at0_arg4 m ρ c])

/-- Region 0's result array, read at its exit: the network's layer of the launch arguments. -/
theorem at2_v74 : W2 m ρ c (Proc.devRef .tc main_v74) = (xr1 m c) := by
  refine (W2_arr m ρ c 11).trans ((R0.final (V1 m ρ) c).trans ?_)
  show G50 (W1 m ρ c (Proc.devRef .tc main_v9)) (W1 m ρ c (Proc.devRef .tc main_v14)) (W1 m ρ c (Proc.devRef .tc main_v24)) (W1 m ρ c (Proc.devRef .tc main_v29)) (W1 m ρ c (Proc.devRef .tc main_arg0)) (W1 m ρ c (Proc.devRef .tc main_v61)) (W1 m ρ c (Proc.devRef .tc main_v63)) (W1 m ρ c (Proc.devRef .tc main_v72)) (W1 m ρ c (Proc.devRef .tc main_v67)) (W1 m ρ c (Proc.devRef .tc main_v69)) (W1 m ρ c (Proc.devRef .tc main_v73)) = _
  rw [at1_v9 m ρ c, at1_v14 m ρ c, at1_v24 m ρ c, at1_v29 m ρ c, at1_arg0 m ρ c, at1_v61 m ρ c, at1_v63 m ρ c, at1_v72 m ρ c, at1_v67 m ρ c, at1_v69 m ρ c, at1_v73 m ρ c]
  rw [bridgeR, mat00_eq, vec00_eq, mat01_eq, vec01_eq]
  try rfl

theorem at0_arg12 : W0 m ρ c (Proc.devRef .tc main_arg12) = (m ((c : Thread nD τ).loc main_arg12)) :=
  rfl

theorem at0_arg13 : W0 m ρ c (Proc.devRef .tc main_arg13) = (m ((c : Thread nD τ).loc main_arg13)) :=
  rfl

theorem at1_v39 : W1 m ρ c (Proc.devRef .tc main_v39) = KaggRO (m ((c : Thread nD τ).loc main_arg0)) (m ((c : Thread nD τ).loc main_arg12)) (m ((c : Thread nD τ).loc main_arg13)) :=
  (H0.r_v39 (W0 m ρ c)).trans (by rw [at0_arg0 m ρ c, at0_arg12 m ρ c, at0_arg13 m ρ c])

theorem at2_v39 : W2 m ρ c (Proc.devRef .tc main_v39) = KaggRO (m ((c : Thread nD τ).loc main_arg0)) (m ((c : Thread nD τ).loc main_arg12)) (m ((c : Thread nD τ).loc main_arg13)) :=
  (W2_of_ne m ρ c main_v39 (by decide)).trans (at1_v39 m ρ c)

theorem at3_v39 : W3 m ρ c (Proc.devRef .tc main_v39) = KaggRO (m ((c : Thread nD τ).loc main_arg0)) (m ((c : Thread nD τ).loc main_arg12)) (m ((c : Thread nD τ).loc main_arg13)) :=
  (H1.keep (W2 m ρ c) main_v39 (by decide)).trans (at2_v39 m ρ c)

theorem at1_v44 : W1 m ρ c (Proc.devRef .tc main_v44) = col200 (KdegRO (m ((c : Thread nD τ).loc main_arg13))) :=
  (H0.r_v44 (W0 m ρ c)).trans (by rw [at0_arg13 m ρ c])

theorem at2_v44 : W2 m ρ c (Proc.devRef .tc main_v44) = col200 (KdegRO (m ((c : Thread nD τ).loc main_arg13))) :=
  (W2_of_ne m ρ c main_v44 (by decide)).trans (at1_v44 m ρ c)

theorem at3_v44 : W3 m ρ c (Proc.devRef .tc main_v44) = col200 (KdegRO (m ((c : Thread nD τ).loc main_arg13))) :=
  (H1.keep (W2 m ρ c) main_v44 (by decide)).trans (at2_v44 m ρ c)

theorem at0_arg14 : W0 m ρ c (Proc.devRef .tc main_arg14) = (m ((c : Thread nD τ).loc main_arg14)) :=
  rfl

theorem at0_arg15 : W0 m ρ c (Proc.devRef .tc main_arg15) = (m ((c : Thread nD τ).loc main_arg15)) :=
  rfl

theorem at1_v54 : W1 m ρ c (Proc.devRef .tc main_v54) = KaggOO (m ((c : Thread nD τ).loc main_arg1)) (m ((c : Thread nD τ).loc main_arg14)) (m ((c : Thread nD τ).loc main_arg15)) :=
  (H0.r_v54 (W0 m ρ c)).trans (by rw [at0_arg1 m ρ c, at0_arg14 m ρ c, at0_arg15 m ρ c])

theorem at2_v54 : W2 m ρ c (Proc.devRef .tc main_v54) = KaggOO (m ((c : Thread nD τ).loc main_arg1)) (m ((c : Thread nD τ).loc main_arg14)) (m ((c : Thread nD τ).loc main_arg15)) :=
  (W2_of_ne m ρ c main_v54 (by decide)).trans (at1_v54 m ρ c)

theorem at3_v54 : W3 m ρ c (Proc.devRef .tc main_v54) = KaggOO (m ((c : Thread nD τ).loc main_arg1)) (m ((c : Thread nD τ).loc main_arg14)) (m ((c : Thread nD τ).loc main_arg15)) :=
  (H1.keep (W2 m ρ c) main_v54 (by decide)).trans (at2_v54 m ρ c)

theorem at1_v59 : W1 m ρ c (Proc.devRef .tc main_v59) = col200 (KdegOO (m ((c : Thread nD τ).loc main_arg15))) :=
  (H0.r_v59 (W0 m ρ c)).trans (by rw [at0_arg15 m ρ c])

theorem at2_v59 : W2 m ρ c (Proc.devRef .tc main_v59) = col200 (KdegOO (m ((c : Thread nD τ).loc main_arg15))) :=
  (W2_of_ne m ρ c main_v59 (by decide)).trans (at1_v59 m ρ c)

theorem at3_v59 : W3 m ρ c (Proc.devRef .tc main_v59) = col200 (KdegOO (m ((c : Thread nD τ).loc main_arg15))) :=
  (H1.keep (W2 m ρ c) main_v59 (by decide)).trans (at2_v59 m ρ c)

theorem at1_arg1 : W1 m ρ c (Proc.devRef .tc main_arg1) = (m ((c : Thread nD τ).loc main_arg1)) :=
  (H0.keep (W0 m ρ c) main_arg1 (by decide)).trans (at0_arg1 m ρ c)

theorem at2_arg1 : W2 m ρ c (Proc.devRef .tc main_arg1) = (m ((c : Thread nD τ).loc main_arg1)) :=
  (W2_of_ne m ρ c main_arg1 (by decide)).trans (at1_arg1 m ρ c)

theorem at3_arg1 : W3 m ρ c (Proc.devRef .tc main_arg1) = (m ((c : Thread nD τ).loc main_arg1)) :=
  (H1.keep (W2 m ρ c) main_arg1 (by decide)).trans (at2_arg1 m ρ c)

theorem at1_arg2 : W1 m ρ c (Proc.devRef .tc main_arg2) = (m ((c : Thread nD τ).loc main_arg2)) :=
  (H0.keep (W0 m ρ c) main_arg2 (by decide)).trans (at0_arg2 m ρ c)

theorem at2_arg2 : W2 m ρ c (Proc.devRef .tc main_arg2) = (m ((c : Thread nD τ).loc main_arg2)) :=
  (W2_of_ne m ρ c main_arg2 (by decide)).trans (at1_arg2 m ρ c)

theorem at3_v76 : W3 m ρ c (Proc.devRef .tc main_v76) = Kmat02 (m ((c : Thread nD τ).loc main_arg2)) :=
  (H1.r_v76 (W2 m ρ c)).trans (by rw [at2_arg2 m ρ c])

theorem at1_arg3 : W1 m ρ c (Proc.devRef .tc main_arg3) = (m ((c : Thread nD τ).loc main_arg3)) :=
  (H0.keep (W0 m ρ c) main_arg3 (by decide)).trans (at0_arg3 m ρ c)

theorem at2_arg3 : W2 m ρ c (Proc.devRef .tc main_arg3) = (m ((c : Thread nD τ).loc main_arg3)) :=
  (W2_of_ne m ρ c main_arg3 (by decide)).trans (at1_arg3 m ρ c)

theorem at3_v78 : W3 m ρ c (Proc.devRef .tc main_v78) = Kmat02 (m ((c : Thread nD τ).loc main_arg3)) :=
  (H1.r_v78 (W2 m ρ c)).trans (by rw [at2_arg3 m ρ c])

theorem at1_arg4 : W1 m ρ c (Proc.devRef .tc main_arg4) = (m ((c : Thread nD τ).loc main_arg4)) :=
  (H0.keep (W0 m ρ c) main_arg4 (by decide)).trans (at0_arg4 m ρ c)

theorem at2_arg4 : W2 m ρ c (Proc.devRef .tc main_arg4) = (m ((c : Thread nD τ).loc main_arg4)) :=
  (W2_of_ne m ρ c main_arg4 (by decide)).trans (at1_arg4 m ρ c)

theorem at3_v87 : W3 m ρ c (Proc.devRef .tc main_v87) = row64 (Kvec02 (m ((c : Thread nD τ).loc main_arg4))) :=
  (H1.r_v87 (W2 m ρ c)).trans (by rw [at2_arg4 m ρ c])

theorem at3_v82 : W3 m ρ c (Proc.devRef .tc main_v82) = Kmat03 (m ((c : Thread nD τ).loc main_arg2)) :=
  (H1.r_v82 (W2 m ρ c)).trans (by rw [at2_arg2 m ρ c])

theorem at3_v84 : W3 m ρ c (Proc.devRef .tc main_v84) = Kmat03 (m ((c : Thread nD τ).loc main_arg3)) :=
  (H1.r_v84 (W2 m ρ c)).trans (by rw [at2_arg3 m ρ c])

theorem at3_v88 : W3 m ρ c (Proc.devRef .tc main_v88) = row64 (Kvec03 (m ((c : Thread nD τ).loc main_arg4))) :=
  (H1.r_v88 (W2 m ρ c)).trans (by rw [at2_arg4 m ρ c])

/-- Region 1's result array, read at its exit: the network's layer of the launch arguments. -/
theorem at4_v89 : W4 m ρ c (Proc.devRef .tc main_v89) = (xo1 m c) := by
  refine (W4_arr m ρ c 11).trans ((R1.final (V3 m ρ) c).trans ?_)
  show G200 (W3 m ρ c (Proc.devRef .tc main_v39)) (W3 m ρ c (Proc.devRef .tc main_v44)) (W3 m ρ c (Proc.devRef .tc main_v54)) (W3 m ρ c (Proc.devRef .tc main_v59)) (W3 m ρ c (Proc.devRef .tc main_arg1)) (W3 m ρ c (Proc.devRef .tc main_v76)) (W3 m ρ c (Proc.devRef .tc main_v78)) (W3 m ρ c (Proc.devRef .tc main_v87)) (W3 m ρ c (Proc.devRef .tc main_v82)) (W3 m ρ c (Proc.devRef .tc main_v84)) (W3 m ρ c (Proc.devRef .tc main_v88)) = _
  rw [at3_v39 m ρ c, at3_v44 m ρ c, at3_v54 m ρ c, at3_v59 m ρ c, at3_arg1 m ρ c, at3_v76 m ρ c, at3_v78 m ρ c, at3_v87 m ρ c, at3_v82 m ρ c, at3_v84 m ρ c, at3_v88 m ρ c]
  rw [bridgeO, mat02_eq, vec02_eq, mat03_eq, vec03_eq]
  try rfl

theorem at3_v74 : W3 m ρ c (Proc.devRef .tc main_v74) = (xr1 m c) :=
  (H1.keep (W2 m ρ c) main_v74 (by decide)).trans (at2_v74 m ρ c)

theorem at4_v74 : W4 m ρ c (Proc.devRef .tc main_v74) = (xr1 m c) :=
  (W4_of_ne m ρ c main_v74 (by decide)).trans (at3_v74 m ρ c)

theorem at1_arg8 : W1 m ρ c (Proc.devRef .tc main_arg8) = (m ((c : Thread nD τ).loc main_arg8)) :=
  (H0.keep (W0 m ρ c) main_arg8 (by decide)).trans (at0_arg8 m ρ c)

theorem at2_arg8 : W2 m ρ c (Proc.devRef .tc main_arg8) = (m ((c : Thread nD τ).loc main_arg8)) :=
  (W2_of_ne m ρ c main_arg8 (by decide)).trans (at1_arg8 m ρ c)

theorem at3_arg8 : W3 m ρ c (Proc.devRef .tc main_arg8) = (m ((c : Thread nD τ).loc main_arg8)) :=
  (H1.keep (W2 m ρ c) main_arg8 (by decide)).trans (at2_arg8 m ρ c)

theorem at4_arg8 : W4 m ρ c (Proc.devRef .tc main_arg8) = (m ((c : Thread nD τ).loc main_arg8)) :=
  (W4_of_ne m ρ c main_arg8 (by decide)).trans (at3_arg8 m ρ c)

theorem at1_arg9 : W1 m ρ c (Proc.devRef .tc main_arg9) = (m ((c : Thread nD τ).loc main_arg9)) :=
  (H0.keep (W0 m ρ c) main_arg9 (by decide)).trans (at0_arg9 m ρ c)

theorem at2_arg9 : W2 m ρ c (Proc.devRef .tc main_arg9) = (m ((c : Thread nD τ).loc main_arg9)) :=
  (W2_of_ne m ρ c main_arg9 (by decide)).trans (at1_arg9 m ρ c)

theorem at3_arg9 : W3 m ρ c (Proc.devRef .tc main_arg9) = (m ((c : Thread nD τ).loc main_arg9)) :=
  (H1.keep (W2 m ρ c) main_arg9 (by decide)).trans (at2_arg9 m ρ c)

theorem at4_arg9 : W4 m ρ c (Proc.devRef .tc main_arg9) = (m ((c : Thread nD τ).loc main_arg9)) :=
  (W4_of_ne m ρ c main_arg9 (by decide)).trans (at3_arg9 m ρ c)

theorem at5_v99 : W5 m ρ c (Proc.devRef .tc main_v99) = KaggRR (xr1 m c) (m ((c : Thread nD τ).loc main_arg8)) (m ((c : Thread nD τ).loc main_arg9)) :=
  (H2.r_v99 (W4 m ρ c)).trans (by rw [at4_v74 m ρ c, at4_arg8 m ρ c, at4_arg9 m ρ c])

theorem at5_v104 : W5 m ρ c (Proc.devRef .tc main_v104) = col50 (KdegRR (m ((c : Thread nD τ).loc main_arg9))) :=
  (H2.r_v104 (W4 m ρ c)).trans (by rw [at4_arg9 m ρ c])

theorem at1_arg10 : W1 m ρ c (Proc.devRef .tc main_arg10) = (m ((c : Thread nD τ).loc main_arg10)) :=
  (H0.keep (W0 m ρ c) main_arg10 (by decide)).trans (at0_arg10 m ρ c)

theorem at2_arg10 : W2 m ρ c (Proc.devRef .tc main_arg10) = (m ((c : Thread nD τ).loc main_arg10)) :=
  (W2_of_ne m ρ c main_arg10 (by decide)).trans (at1_arg10 m ρ c)

theorem at3_arg10 : W3 m ρ c (Proc.devRef .tc main_arg10) = (m ((c : Thread nD τ).loc main_arg10)) :=
  (H1.keep (W2 m ρ c) main_arg10 (by decide)).trans (at2_arg10 m ρ c)

theorem at4_arg10 : W4 m ρ c (Proc.devRef .tc main_arg10) = (m ((c : Thread nD τ).loc main_arg10)) :=
  (W4_of_ne m ρ c main_arg10 (by decide)).trans (at3_arg10 m ρ c)

theorem at1_arg11 : W1 m ρ c (Proc.devRef .tc main_arg11) = (m ((c : Thread nD τ).loc main_arg11)) :=
  (H0.keep (W0 m ρ c) main_arg11 (by decide)).trans (at0_arg11 m ρ c)

theorem at2_arg11 : W2 m ρ c (Proc.devRef .tc main_arg11) = (m ((c : Thread nD τ).loc main_arg11)) :=
  (W2_of_ne m ρ c main_arg11 (by decide)).trans (at1_arg11 m ρ c)

theorem at3_arg11 : W3 m ρ c (Proc.devRef .tc main_arg11) = (m ((c : Thread nD τ).loc main_arg11)) :=
  (H1.keep (W2 m ρ c) main_arg11 (by decide)).trans (at2_arg11 m ρ c)

theorem at4_arg11 : W4 m ρ c (Proc.devRef .tc main_arg11) = (m ((c : Thread nD τ).loc main_arg11)) :=
  (W4_of_ne m ρ c main_arg11 (by decide)).trans (at3_arg11 m ρ c)

theorem at5_v114 : W5 m ρ c (Proc.devRef .tc main_v114) = KaggOR (xo1 m c) (m ((c : Thread nD τ).loc main_arg10)) (m ((c : Thread nD τ).loc main_arg11)) :=
  (H2.r_v114 (W4 m ρ c)).trans (by rw [at4_v89 m ρ c, at4_arg10 m ρ c, at4_arg11 m ρ c])

theorem at5_v119 : W5 m ρ c (Proc.devRef .tc main_v119) = col50 (KdegOR (m ((c : Thread nD τ).loc main_arg11))) :=
  (H2.r_v119 (W4 m ρ c)).trans (by rw [at4_arg11 m ρ c])

theorem at5_v74 : W5 m ρ c (Proc.devRef .tc main_v74) = (xr1 m c) :=
  (H2.keep (W4 m ρ c) main_v74 (by decide)).trans (at4_v74 m ρ c)

theorem at3_arg2 : W3 m ρ c (Proc.devRef .tc main_arg2) = (m ((c : Thread nD τ).loc main_arg2)) :=
  (H1.keep (W2 m ρ c) main_arg2 (by decide)).trans (at2_arg2 m ρ c)

theorem at4_arg2 : W4 m ρ c (Proc.devRef .tc main_arg2) = (m ((c : Thread nD τ).loc main_arg2)) :=
  (W4_of_ne m ρ c main_arg2 (by decide)).trans (at3_arg2 m ρ c)

theorem at5_v151 : W5 m ρ c (Proc.devRef .tc main_v151) = Kmat10 (m ((c : Thread nD τ).loc main_arg2)) :=
  (H2.r_v151 (W4 m ρ c)).trans (by rw [at4_arg2 m ρ c])

theorem at3_arg3 : W3 m ρ c (Proc.devRef .tc main_arg3) = (m ((c : Thread nD τ).loc main_arg3)) :=
  (H1.keep (W2 m ρ c) main_arg3 (by decide)).trans (at2_arg3 m ρ c)

theorem at4_arg3 : W4 m ρ c (Proc.devRef .tc main_arg3) = (m ((c : Thread nD τ).loc main_arg3)) :=
  (W4_of_ne m ρ c main_arg3 (by decide)).trans (at3_arg3 m ρ c)

theorem at5_v153 : W5 m ρ c (Proc.devRef .tc main_v153) = Kmat10 (m ((c : Thread nD τ).loc main_arg3)) :=
  (H2.r_v153 (W4 m ρ c)).trans (by rw [at4_arg3 m ρ c])

theorem at3_arg4 : W3 m ρ c (Proc.devRef .tc main_arg4) = (m ((c : Thread nD τ).loc main_arg4)) :=
  (H1.keep (W2 m ρ c) main_arg4 (by decide)).trans (at2_arg4 m ρ c)

theorem at4_arg4 : W4 m ρ c (Proc.devRef .tc main_arg4) = (m ((c : Thread nD τ).loc main_arg4)) :=
  (W4_of_ne m ρ c main_arg4 (by decide)).trans (at3_arg4 m ρ c)

theorem at5_v162 : W5 m ρ c (Proc.devRef .tc main_v162) = row64 (Kvec10 (m ((c : Thread nD τ).loc main_arg4))) :=
  (H2.r_v162 (W4 m ρ c)).trans (by rw [at4_arg4 m ρ c])

theorem at5_v157 : W5 m ρ c (Proc.devRef .tc main_v157) = Kmat11 (m ((c : Thread nD τ).loc main_arg2)) :=
  (H2.r_v157 (W4 m ρ c)).trans (by rw [at4_arg2 m ρ c])

theorem at5_v159 : W5 m ρ c (Proc.devRef .tc main_v159) = Kmat11 (m ((c : Thread nD τ).loc main_arg3)) :=
  (H2.r_v159 (W4 m ρ c)).trans (by rw [at4_arg3 m ρ c])

theorem at5_v163 : W5 m ρ c (Proc.devRef .tc main_v163) = row64 (Kvec11 (m ((c : Thread nD τ).loc main_arg4))) :=
  (H2.r_v163 (W4 m ρ c)).trans (by rw [at4_arg4 m ρ c])

/-- Region 2's result array, read at its exit: the network's layer of the launch arguments. -/
theorem at6_v164 : W6 m ρ c (Proc.devRef .tc main_v164) = (xr2 m c) := by
  refine (W6_arr m ρ c 11).trans ((R2.final (V5 m ρ) c).trans ?_)
  show G50 (W5 m ρ c (Proc.devRef .tc main_v99)) (W5 m ρ c (Proc.devRef .tc main_v104)) (W5 m ρ c (Proc.devRef .tc main_v114)) (W5 m ρ c (Proc.devRef .tc main_v119)) (W5 m ρ c (Proc.devRef .tc main_v74)) (W5 m ρ c (Proc.devRef .tc main_v151)) (W5 m ρ c (Proc.devRef .tc main_v153)) (W5 m ρ c (Proc.devRef .tc main_v162)) (W5 m ρ c (Proc.devRef .tc main_v157)) (W5 m ρ c (Proc.devRef .tc main_v159)) (W5 m ρ c (Proc.devRef .tc main_v163)) = _
  rw [at5_v99 m ρ c, at5_v104 m ρ c, at5_v114 m ρ c, at5_v119 m ρ c, at5_v74 m ρ c, at5_v151 m ρ c, at5_v153 m ρ c, at5_v162 m ρ c, at5_v157 m ρ c, at5_v159 m ρ c, at5_v163 m ρ c]
  rw [bridgeR, mat10_eq, vec10_eq, mat11_eq, vec11_eq]
  try rfl

theorem at1_arg12 : W1 m ρ c (Proc.devRef .tc main_arg12) = (m ((c : Thread nD τ).loc main_arg12)) :=
  (H0.keep (W0 m ρ c) main_arg12 (by decide)).trans (at0_arg12 m ρ c)

theorem at2_arg12 : W2 m ρ c (Proc.devRef .tc main_arg12) = (m ((c : Thread nD τ).loc main_arg12)) :=
  (W2_of_ne m ρ c main_arg12 (by decide)).trans (at1_arg12 m ρ c)

theorem at3_arg12 : W3 m ρ c (Proc.devRef .tc main_arg12) = (m ((c : Thread nD τ).loc main_arg12)) :=
  (H1.keep (W2 m ρ c) main_arg12 (by decide)).trans (at2_arg12 m ρ c)

theorem at4_arg12 : W4 m ρ c (Proc.devRef .tc main_arg12) = (m ((c : Thread nD τ).loc main_arg12)) :=
  (W4_of_ne m ρ c main_arg12 (by decide)).trans (at3_arg12 m ρ c)

theorem at1_arg13 : W1 m ρ c (Proc.devRef .tc main_arg13) = (m ((c : Thread nD τ).loc main_arg13)) :=
  (H0.keep (W0 m ρ c) main_arg13 (by decide)).trans (at0_arg13 m ρ c)

theorem at2_arg13 : W2 m ρ c (Proc.devRef .tc main_arg13) = (m ((c : Thread nD τ).loc main_arg13)) :=
  (W2_of_ne m ρ c main_arg13 (by decide)).trans (at1_arg13 m ρ c)

theorem at3_arg13 : W3 m ρ c (Proc.devRef .tc main_arg13) = (m ((c : Thread nD τ).loc main_arg13)) :=
  (H1.keep (W2 m ρ c) main_arg13 (by decide)).trans (at2_arg13 m ρ c)

theorem at4_arg13 : W4 m ρ c (Proc.devRef .tc main_arg13) = (m ((c : Thread nD τ).loc main_arg13)) :=
  (W4_of_ne m ρ c main_arg13 (by decide)).trans (at3_arg13 m ρ c)

theorem at5_v129 : W5 m ρ c (Proc.devRef .tc main_v129) = KaggRO (xr1 m c) (m ((c : Thread nD τ).loc main_arg12)) (m ((c : Thread nD τ).loc main_arg13)) :=
  (H2.r_v129 (W4 m ρ c)).trans (by rw [at4_v74 m ρ c, at4_arg12 m ρ c, at4_arg13 m ρ c])

theorem at6_v129 : W6 m ρ c (Proc.devRef .tc main_v129) = KaggRO (xr1 m c) (m ((c : Thread nD τ).loc main_arg12)) (m ((c : Thread nD τ).loc main_arg13)) :=
  (W6_of_ne m ρ c main_v129 (by decide)).trans (at5_v129 m ρ c)

theorem at7_v129 : W7 m ρ c (Proc.devRef .tc main_v129) = KaggRO (xr1 m c) (m ((c : Thread nD τ).loc main_arg12)) (m ((c : Thread nD τ).loc main_arg13)) :=
  (H3.keep (W6 m ρ c) main_v129 (by decide)).trans (at6_v129 m ρ c)

theorem at5_v134 : W5 m ρ c (Proc.devRef .tc main_v134) = col200 (KdegRO (m ((c : Thread nD τ).loc main_arg13))) :=
  (H2.r_v134 (W4 m ρ c)).trans (by rw [at4_arg13 m ρ c])

theorem at6_v134 : W6 m ρ c (Proc.devRef .tc main_v134) = col200 (KdegRO (m ((c : Thread nD τ).loc main_arg13))) :=
  (W6_of_ne m ρ c main_v134 (by decide)).trans (at5_v134 m ρ c)

theorem at7_v134 : W7 m ρ c (Proc.devRef .tc main_v134) = col200 (KdegRO (m ((c : Thread nD τ).loc main_arg13))) :=
  (H3.keep (W6 m ρ c) main_v134 (by decide)).trans (at6_v134 m ρ c)

theorem at1_arg14 : W1 m ρ c (Proc.devRef .tc main_arg14) = (m ((c : Thread nD τ).loc main_arg14)) :=
  (H0.keep (W0 m ρ c) main_arg14 (by decide)).trans (at0_arg14 m ρ c)

theorem at2_arg14 : W2 m ρ c (Proc.devRef .tc main_arg14) = (m ((c : Thread nD τ).loc main_arg14)) :=
  (W2_of_ne m ρ c main_arg14 (by decide)).trans (at1_arg14 m ρ c)

theorem at3_arg14 : W3 m ρ c (Proc.devRef .tc main_arg14) = (m ((c : Thread nD τ).loc main_arg14)) :=
  (H1.keep (W2 m ρ c) main_arg14 (by decide)).trans (at2_arg14 m ρ c)

theorem at4_arg14 : W4 m ρ c (Proc.devRef .tc main_arg14) = (m ((c : Thread nD τ).loc main_arg14)) :=
  (W4_of_ne m ρ c main_arg14 (by decide)).trans (at3_arg14 m ρ c)

theorem at1_arg15 : W1 m ρ c (Proc.devRef .tc main_arg15) = (m ((c : Thread nD τ).loc main_arg15)) :=
  (H0.keep (W0 m ρ c) main_arg15 (by decide)).trans (at0_arg15 m ρ c)

theorem at2_arg15 : W2 m ρ c (Proc.devRef .tc main_arg15) = (m ((c : Thread nD τ).loc main_arg15)) :=
  (W2_of_ne m ρ c main_arg15 (by decide)).trans (at1_arg15 m ρ c)

theorem at3_arg15 : W3 m ρ c (Proc.devRef .tc main_arg15) = (m ((c : Thread nD τ).loc main_arg15)) :=
  (H1.keep (W2 m ρ c) main_arg15 (by decide)).trans (at2_arg15 m ρ c)

theorem at4_arg15 : W4 m ρ c (Proc.devRef .tc main_arg15) = (m ((c : Thread nD τ).loc main_arg15)) :=
  (W4_of_ne m ρ c main_arg15 (by decide)).trans (at3_arg15 m ρ c)

theorem at5_v144 : W5 m ρ c (Proc.devRef .tc main_v144) = KaggOO (xo1 m c) (m ((c : Thread nD τ).loc main_arg14)) (m ((c : Thread nD τ).loc main_arg15)) :=
  (H2.r_v144 (W4 m ρ c)).trans (by rw [at4_v89 m ρ c, at4_arg14 m ρ c, at4_arg15 m ρ c])

theorem at6_v144 : W6 m ρ c (Proc.devRef .tc main_v144) = KaggOO (xo1 m c) (m ((c : Thread nD τ).loc main_arg14)) (m ((c : Thread nD τ).loc main_arg15)) :=
  (W6_of_ne m ρ c main_v144 (by decide)).trans (at5_v144 m ρ c)

theorem at7_v144 : W7 m ρ c (Proc.devRef .tc main_v144) = KaggOO (xo1 m c) (m ((c : Thread nD τ).loc main_arg14)) (m ((c : Thread nD τ).loc main_arg15)) :=
  (H3.keep (W6 m ρ c) main_v144 (by decide)).trans (at6_v144 m ρ c)

theorem at5_v149 : W5 m ρ c (Proc.devRef .tc main_v149) = col200 (KdegOO (m ((c : Thread nD τ).loc main_arg15))) :=
  (H2.r_v149 (W4 m ρ c)).trans (by rw [at4_arg15 m ρ c])

theorem at6_v149 : W6 m ρ c (Proc.devRef .tc main_v149) = col200 (KdegOO (m ((c : Thread nD τ).loc main_arg15))) :=
  (W6_of_ne m ρ c main_v149 (by decide)).trans (at5_v149 m ρ c)

theorem at7_v149 : W7 m ρ c (Proc.devRef .tc main_v149) = col200 (KdegOO (m ((c : Thread nD τ).loc main_arg15))) :=
  (H3.keep (W6 m ρ c) main_v149 (by decide)).trans (at6_v149 m ρ c)

theorem at5_v89 : W5 m ρ c (Proc.devRef .tc main_v89) = (xo1 m c) :=
  (H2.keep (W4 m ρ c) main_v89 (by decide)).trans (at4_v89 m ρ c)

theorem at6_v89 : W6 m ρ c (Proc.devRef .tc main_v89) = (xo1 m c) :=
  (W6_of_ne m ρ c main_v89 (by decide)).trans (at5_v89 m ρ c)

theorem at7_v89 : W7 m ρ c (Proc.devRef .tc main_v89) = (xo1 m c) :=
  (H3.keep (W6 m ρ c) main_v89 (by decide)).trans (at6_v89 m ρ c)

theorem at5_arg2 : W5 m ρ c (Proc.devRef .tc main_arg2) = (m ((c : Thread nD τ).loc main_arg2)) :=
  (H2.keep (W4 m ρ c) main_arg2 (by decide)).trans (at4_arg2 m ρ c)

theorem at6_arg2 : W6 m ρ c (Proc.devRef .tc main_arg2) = (m ((c : Thread nD τ).loc main_arg2)) :=
  (W6_of_ne m ρ c main_arg2 (by decide)).trans (at5_arg2 m ρ c)

theorem at7_v166 : W7 m ρ c (Proc.devRef .tc main_v166) = Kmat12 (m ((c : Thread nD τ).loc main_arg2)) :=
  (H3.r_v166 (W6 m ρ c)).trans (by rw [at6_arg2 m ρ c])

theorem at5_arg3 : W5 m ρ c (Proc.devRef .tc main_arg3) = (m ((c : Thread nD τ).loc main_arg3)) :=
  (H2.keep (W4 m ρ c) main_arg3 (by decide)).trans (at4_arg3 m ρ c)

theorem at6_arg3 : W6 m ρ c (Proc.devRef .tc main_arg3) = (m ((c : Thread nD τ).loc main_arg3)) :=
  (W6_of_ne m ρ c main_arg3 (by decide)).trans (at5_arg3 m ρ c)

theorem at7_v168 : W7 m ρ c (Proc.devRef .tc main_v168) = Kmat12 (m ((c : Thread nD τ).loc main_arg3)) :=
  (H3.r_v168 (W6 m ρ c)).trans (by rw [at6_arg3 m ρ c])

theorem at5_arg4 : W5 m ρ c (Proc.devRef .tc main_arg4) = (m ((c : Thread nD τ).loc main_arg4)) :=
  (H2.keep (W4 m ρ c) main_arg4 (by decide)).trans (at4_arg4 m ρ c)

theorem at6_arg4 : W6 m ρ c (Proc.devRef .tc main_arg4) = (m ((c : Thread nD τ).loc main_arg4)) :=
  (W6_of_ne m ρ c main_arg4 (by decide)).trans (at5_arg4 m ρ c)

theorem at7_v177 : W7 m ρ c (Proc.devRef .tc main_v177) = row64 (Kvec12 (m ((c : Thread nD τ).loc main_arg4))) :=
  (H3.r_v177 (W6 m ρ c)).trans (by rw [at6_arg4 m ρ c])

theorem at7_v172 : W7 m ρ c (Proc.devRef .tc main_v172) = Kmat13 (m ((c : Thread nD τ).loc main_arg2)) :=
  (H3.r_v172 (W6 m ρ c)).trans (by rw [at6_arg2 m ρ c])

theorem at7_v174 : W7 m ρ c (Proc.devRef .tc main_v174) = Kmat13 (m ((c : Thread nD τ).loc main_arg3)) :=
  (H3.r_v174 (W6 m ρ c)).trans (by rw [at6_arg3 m ρ c])

theorem at7_v178 : W7 m ρ c (Proc.devRef .tc main_v178) = row64 (Kvec13 (m ((c : Thread nD τ).loc main_arg4))) :=
  (H3.r_v178 (W6 m ρ c)).trans (by rw [at6_arg4 m ρ c])

/-- Region 3's result array, read at its exit: the network's layer of the launch arguments. -/
theorem at8_v179 : W8 m ρ c (Proc.devRef .tc main_v179) = (xo2 m c) := by
  refine (W8_arr m ρ c 11).trans ((R3.final (V7 m ρ) c).trans ?_)
  show G200 (W7 m ρ c (Proc.devRef .tc main_v129)) (W7 m ρ c (Proc.devRef .tc main_v134)) (W7 m ρ c (Proc.devRef .tc main_v144)) (W7 m ρ c (Proc.devRef .tc main_v149)) (W7 m ρ c (Proc.devRef .tc main_v89)) (W7 m ρ c (Proc.devRef .tc main_v166)) (W7 m ρ c (Proc.devRef .tc main_v168)) (W7 m ρ c (Proc.devRef .tc main_v177)) (W7 m ρ c (Proc.devRef .tc main_v172)) (W7 m ρ c (Proc.devRef .tc main_v174)) (W7 m ρ c (Proc.devRef .tc main_v178)) = _
  rw [at7_v129 m ρ c, at7_v134 m ρ c, at7_v144 m ρ c, at7_v149 m ρ c, at7_v89 m ρ c, at7_v166 m ρ c, at7_v168 m ρ c, at7_v177 m ρ c, at7_v172 m ρ c, at7_v174 m ρ c, at7_v178 m ρ c]
  rw [bridgeO, mat12_eq, vec12_eq, mat13_eq, vec13_eq]
  try rfl

theorem at7_v164 : W7 m ρ c (Proc.devRef .tc main_v164) = (xr2 m c) :=
  (H3.keep (W6 m ρ c) main_v164 (by decide)).trans (at6_v164 m ρ c)

theorem at8_v164 : W8 m ρ c (Proc.devRef .tc main_v164) = (xr2 m c) :=
  (W8_of_ne m ρ c main_v164 (by decide)).trans (at7_v164 m ρ c)

theorem at5_arg8 : W5 m ρ c (Proc.devRef .tc main_arg8) = (m ((c : Thread nD τ).loc main_arg8)) :=
  (H2.keep (W4 m ρ c) main_arg8 (by decide)).trans (at4_arg8 m ρ c)

theorem at6_arg8 : W6 m ρ c (Proc.devRef .tc main_arg8) = (m ((c : Thread nD τ).loc main_arg8)) :=
  (W6_of_ne m ρ c main_arg8 (by decide)).trans (at5_arg8 m ρ c)

theorem at7_arg8 : W7 m ρ c (Proc.devRef .tc main_arg8) = (m ((c : Thread nD τ).loc main_arg8)) :=
  (H3.keep (W6 m ρ c) main_arg8 (by decide)).trans (at6_arg8 m ρ c)

theorem at8_arg8 : W8 m ρ c (Proc.devRef .tc main_arg8) = (m ((c : Thread nD τ).loc main_arg8)) :=
  (W8_of_ne m ρ c main_arg8 (by decide)).trans (at7_arg8 m ρ c)

theorem at5_arg9 : W5 m ρ c (Proc.devRef .tc main_arg9) = (m ((c : Thread nD τ).loc main_arg9)) :=
  (H2.keep (W4 m ρ c) main_arg9 (by decide)).trans (at4_arg9 m ρ c)

theorem at6_arg9 : W6 m ρ c (Proc.devRef .tc main_arg9) = (m ((c : Thread nD τ).loc main_arg9)) :=
  (W6_of_ne m ρ c main_arg9 (by decide)).trans (at5_arg9 m ρ c)

theorem at7_arg9 : W7 m ρ c (Proc.devRef .tc main_arg9) = (m ((c : Thread nD τ).loc main_arg9)) :=
  (H3.keep (W6 m ρ c) main_arg9 (by decide)).trans (at6_arg9 m ρ c)

theorem at8_arg9 : W8 m ρ c (Proc.devRef .tc main_arg9) = (m ((c : Thread nD τ).loc main_arg9)) :=
  (W8_of_ne m ρ c main_arg9 (by decide)).trans (at7_arg9 m ρ c)

theorem at9_v189 : W9 m ρ c (Proc.devRef .tc main_v189) = KaggRR (xr2 m c) (m ((c : Thread nD τ).loc main_arg8)) (m ((c : Thread nD τ).loc main_arg9)) :=
  (H4.r_v189 (W8 m ρ c)).trans (by rw [at8_v164 m ρ c, at8_arg8 m ρ c, at8_arg9 m ρ c])

theorem at9_v194 : W9 m ρ c (Proc.devRef .tc main_v194) = col50 (KdegRR (m ((c : Thread nD τ).loc main_arg9))) :=
  (H4.r_v194 (W8 m ρ c)).trans (by rw [at8_arg9 m ρ c])

theorem at5_arg10 : W5 m ρ c (Proc.devRef .tc main_arg10) = (m ((c : Thread nD τ).loc main_arg10)) :=
  (H2.keep (W4 m ρ c) main_arg10 (by decide)).trans (at4_arg10 m ρ c)

theorem at6_arg10 : W6 m ρ c (Proc.devRef .tc main_arg10) = (m ((c : Thread nD τ).loc main_arg10)) :=
  (W6_of_ne m ρ c main_arg10 (by decide)).trans (at5_arg10 m ρ c)

theorem at7_arg10 : W7 m ρ c (Proc.devRef .tc main_arg10) = (m ((c : Thread nD τ).loc main_arg10)) :=
  (H3.keep (W6 m ρ c) main_arg10 (by decide)).trans (at6_arg10 m ρ c)

theorem at8_arg10 : W8 m ρ c (Proc.devRef .tc main_arg10) = (m ((c : Thread nD τ).loc main_arg10)) :=
  (W8_of_ne m ρ c main_arg10 (by decide)).trans (at7_arg10 m ρ c)

theorem at5_arg11 : W5 m ρ c (Proc.devRef .tc main_arg11) = (m ((c : Thread nD τ).loc main_arg11)) :=
  (H2.keep (W4 m ρ c) main_arg11 (by decide)).trans (at4_arg11 m ρ c)

theorem at6_arg11 : W6 m ρ c (Proc.devRef .tc main_arg11) = (m ((c : Thread nD τ).loc main_arg11)) :=
  (W6_of_ne m ρ c main_arg11 (by decide)).trans (at5_arg11 m ρ c)

theorem at7_arg11 : W7 m ρ c (Proc.devRef .tc main_arg11) = (m ((c : Thread nD τ).loc main_arg11)) :=
  (H3.keep (W6 m ρ c) main_arg11 (by decide)).trans (at6_arg11 m ρ c)

theorem at8_arg11 : W8 m ρ c (Proc.devRef .tc main_arg11) = (m ((c : Thread nD τ).loc main_arg11)) :=
  (W8_of_ne m ρ c main_arg11 (by decide)).trans (at7_arg11 m ρ c)

theorem at9_v204 : W9 m ρ c (Proc.devRef .tc main_v204) = KaggOR (xo2 m c) (m ((c : Thread nD τ).loc main_arg10)) (m ((c : Thread nD τ).loc main_arg11)) :=
  (H4.r_v204 (W8 m ρ c)).trans (by rw [at8_v179 m ρ c, at8_arg10 m ρ c, at8_arg11 m ρ c])

theorem at9_v209 : W9 m ρ c (Proc.devRef .tc main_v209) = col50 (KdegOR (m ((c : Thread nD τ).loc main_arg11))) :=
  (H4.r_v209 (W8 m ρ c)).trans (by rw [at8_arg11 m ρ c])

theorem at9_v164 : W9 m ρ c (Proc.devRef .tc main_v164) = (xr2 m c) :=
  (H4.keep (W8 m ρ c) main_v164 (by decide)).trans (at8_v164 m ρ c)

theorem at0_arg5 : W0 m ρ c (Proc.devRef .tc main_arg5) = (m ((c : Thread nD τ).loc main_arg5)) :=
  rfl

theorem at1_arg5 : W1 m ρ c (Proc.devRef .tc main_arg5) = (m ((c : Thread nD τ).loc main_arg5)) :=
  (H0.keep (W0 m ρ c) main_arg5 (by decide)).trans (at0_arg5 m ρ c)

theorem at2_arg5 : W2 m ρ c (Proc.devRef .tc main_arg5) = (m ((c : Thread nD τ).loc main_arg5)) :=
  (W2_of_ne m ρ c main_arg5 (by decide)).trans (at1_arg5 m ρ c)

theorem at3_arg5 : W3 m ρ c (Proc.devRef .tc main_arg5) = (m ((c : Thread nD τ).loc main_arg5)) :=
  (H1.keep (W2 m ρ c) main_arg5 (by decide)).trans (at2_arg5 m ρ c)

theorem at4_arg5 : W4 m ρ c (Proc.devRef .tc main_arg5) = (m ((c : Thread nD τ).loc main_arg5)) :=
  (W4_of_ne m ρ c main_arg5 (by decide)).trans (at3_arg5 m ρ c)

theorem at5_arg5 : W5 m ρ c (Proc.devRef .tc main_arg5) = (m ((c : Thread nD τ).loc main_arg5)) :=
  (H2.keep (W4 m ρ c) main_arg5 (by decide)).trans (at4_arg5 m ρ c)

theorem at6_arg5 : W6 m ρ c (Proc.devRef .tc main_arg5) = (m ((c : Thread nD τ).loc main_arg5)) :=
  (W6_of_ne m ρ c main_arg5 (by decide)).trans (at5_arg5 m ρ c)

theorem at7_arg5 : W7 m ρ c (Proc.devRef .tc main_arg5) = (m ((c : Thread nD τ).loc main_arg5)) :=
  (H3.keep (W6 m ρ c) main_arg5 (by decide)).trans (at6_arg5 m ρ c)

theorem at8_arg5 : W8 m ρ c (Proc.devRef .tc main_arg5) = (m ((c : Thread nD τ).loc main_arg5)) :=
  (W8_of_ne m ρ c main_arg5 (by decide)).trans (at7_arg5 m ρ c)

theorem at9_v211 : W9 m ρ c (Proc.devRef .tc main_v211) = Komat0 (m ((c : Thread nD τ).loc main_arg5)) :=
  (H4.r_v211 (W8 m ρ c)).trans (by rw [at8_arg5 m ρ c])

theorem at0_arg6 : W0 m ρ c (Proc.devRef .tc main_arg6) = (m ((c : Thread nD τ).loc main_arg6)) :=
  rfl

theorem at1_arg6 : W1 m ρ c (Proc.devRef .tc main_arg6) = (m ((c : Thread nD τ).loc main_arg6)) :=
  (H0.keep (W0 m ρ c) main_arg6 (by decide)).trans (at0_arg6 m ρ c)

theorem at2_arg6 : W2 m ρ c (Proc.devRef .tc main_arg6) = (m ((c : Thread nD τ).loc main_arg6)) :=
  (W2_of_ne m ρ c main_arg6 (by decide)).trans (at1_arg6 m ρ c)

theorem at3_arg6 : W3 m ρ c (Proc.devRef .tc main_arg6) = (m ((c : Thread nD τ).loc main_arg6)) :=
  (H1.keep (W2 m ρ c) main_arg6 (by decide)).trans (at2_arg6 m ρ c)

theorem at4_arg6 : W4 m ρ c (Proc.devRef .tc main_arg6) = (m ((c : Thread nD τ).loc main_arg6)) :=
  (W4_of_ne m ρ c main_arg6 (by decide)).trans (at3_arg6 m ρ c)

theorem at5_arg6 : W5 m ρ c (Proc.devRef .tc main_arg6) = (m ((c : Thread nD τ).loc main_arg6)) :=
  (H2.keep (W4 m ρ c) main_arg6 (by decide)).trans (at4_arg6 m ρ c)

theorem at6_arg6 : W6 m ρ c (Proc.devRef .tc main_arg6) = (m ((c : Thread nD τ).loc main_arg6)) :=
  (W6_of_ne m ρ c main_arg6 (by decide)).trans (at5_arg6 m ρ c)

theorem at7_arg6 : W7 m ρ c (Proc.devRef .tc main_arg6) = (m ((c : Thread nD τ).loc main_arg6)) :=
  (H3.keep (W6 m ρ c) main_arg6 (by decide)).trans (at6_arg6 m ρ c)

theorem at8_arg6 : W8 m ρ c (Proc.devRef .tc main_arg6) = (m ((c : Thread nD τ).loc main_arg6)) :=
  (W8_of_ne m ρ c main_arg6 (by decide)).trans (at7_arg6 m ρ c)

theorem at9_v213 : W9 m ρ c (Proc.devRef .tc main_v213) = Komat0 (m ((c : Thread nD τ).loc main_arg6)) :=
  (H4.r_v213 (W8 m ρ c)).trans (by rw [at8_arg6 m ρ c])

theorem at0_arg7 : W0 m ρ c (Proc.devRef .tc main_arg7) = (m ((c : Thread nD τ).loc main_arg7)) :=
  rfl

theorem at1_arg7 : W1 m ρ c (Proc.devRef .tc main_arg7) = (m ((c : Thread nD τ).loc main_arg7)) :=
  (H0.keep (W0 m ρ c) main_arg7 (by decide)).trans (at0_arg7 m ρ c)

theorem at2_arg7 : W2 m ρ c (Proc.devRef .tc main_arg7) = (m ((c : Thread nD τ).loc main_arg7)) :=
  (W2_of_ne m ρ c main_arg7 (by decide)).trans (at1_arg7 m ρ c)

theorem at3_arg7 : W3 m ρ c (Proc.devRef .tc main_arg7) = (m ((c : Thread nD τ).loc main_arg7)) :=
  (H1.keep (W2 m ρ c) main_arg7 (by decide)).trans (at2_arg7 m ρ c)

theorem at4_arg7 : W4 m ρ c (Proc.devRef .tc main_arg7) = (m ((c : Thread nD τ).loc main_arg7)) :=
  (W4_of_ne m ρ c main_arg7 (by decide)).trans (at3_arg7 m ρ c)

theorem at5_arg7 : W5 m ρ c (Proc.devRef .tc main_arg7) = (m ((c : Thread nD τ).loc main_arg7)) :=
  (H2.keep (W4 m ρ c) main_arg7 (by decide)).trans (at4_arg7 m ρ c)

theorem at6_arg7 : W6 m ρ c (Proc.devRef .tc main_arg7) = (m ((c : Thread nD τ).loc main_arg7)) :=
  (W6_of_ne m ρ c main_arg7 (by decide)).trans (at5_arg7 m ρ c)

theorem at7_arg7 : W7 m ρ c (Proc.devRef .tc main_arg7) = (m ((c : Thread nD τ).loc main_arg7)) :=
  (H3.keep (W6 m ρ c) main_arg7 (by decide)).trans (at6_arg7 m ρ c)

theorem at8_arg7 : W8 m ρ c (Proc.devRef .tc main_arg7) = (m ((c : Thread nD τ).loc main_arg7)) :=
  (W8_of_ne m ρ c main_arg7 (by decide)).trans (at7_arg7 m ρ c)

theorem at9_v222 : W9 m ρ c (Proc.devRef .tc main_v222) = row25 (Kovec0 (m ((c : Thread nD τ).loc main_arg7))) :=
  (H4.r_v222 (W8 m ρ c)).trans (by rw [at8_arg7 m ρ c])

theorem at9_v217 : W9 m ρ c (Proc.devRef .tc main_v217) = Komat1 (m ((c : Thread nD τ).loc main_arg5)) :=
  (H4.r_v217 (W8 m ρ c)).trans (by rw [at8_arg5 m ρ c])

theorem at9_v219 : W9 m ρ c (Proc.devRef .tc main_v219) = Komat1 (m ((c : Thread nD τ).loc main_arg6)) :=
  (H4.r_v219 (W8 m ρ c)).trans (by rw [at8_arg6 m ρ c])

theorem at9_v223 : W9 m ρ c (Proc.devRef .tc main_v223) = row25 (Kovec1 (m ((c : Thread nD τ).loc main_arg7))) :=
  (H4.r_v223 (W8 m ρ c)).trans (by rw [at8_arg7 m ρ c])

/-- Region 4's result array, read at its exit: the network's layer of the launch arguments. -/
theorem at10_v224 : W10 m ρ c (Proc.devRef .tc main_v224) = (out m c) := by
  refine (W10_arr m ρ c 11).trans ((R4.final (V9 m ρ) c).trans ?_)
  show Gout (W9 m ρ c (Proc.devRef .tc main_v189)) (W9 m ρ c (Proc.devRef .tc main_v194)) (W9 m ρ c (Proc.devRef .tc main_v204)) (W9 m ρ c (Proc.devRef .tc main_v209)) (W9 m ρ c (Proc.devRef .tc main_v164)) (W9 m ρ c (Proc.devRef .tc main_v211)) (W9 m ρ c (Proc.devRef .tc main_v213)) (W9 m ρ c (Proc.devRef .tc main_v222)) (W9 m ρ c (Proc.devRef .tc main_v217)) (W9 m ρ c (Proc.devRef .tc main_v219)) (W9 m ρ c (Proc.devRef .tc main_v223)) = _
  rw [at9_v189 m ρ c, at9_v194 m ρ c, at9_v204 m ρ c, at9_v209 m ρ c, at9_v164 m ρ c, at9_v211 m ρ c, at9_v213 m ρ c, at9_v222 m ρ c, at9_v217 m ρ c, at9_v219 m ρ c, at9_v223 m ρ c]
  rw [bridgeOut, omat0_eq, ovec0_eq, omat1_eq, ovec1_eq]
  try rfl

/-- THE KERNEL PROGRAM'S RESULT at the last boundary: the network of the arguments. -/
theorem result : W10 m ρ c (Proc.devRef .tc main_v224) = Cert.Sage.final (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  (at10_v224 m ρ c).trans (out_eq m c)

end Cert.KerSide

end
-- ==== Proof.LibAfterAppend.lean ====
/-
  Buffer contents after two lists of host operations run one after the other.
-/
import Idealize.ShloMosaic.Lib.StableHlo.Run

namespace Idealize.ShloMosaic.StableHlo

variable {τ : Topo} {sig : RefSig} {Val : EltTy → Type}

/-- The contents after a concatenation of two operation lists are the contents after the second list, started from the
    contents after the first: the fold over the operations splits at the seam. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.RefKeep.lean ====
/-
  Which buffers each piece of the reference's operation list writes: every operation writes its one result buffer, so a
  buffer that is not the result of any operation of a piece holds after the piece what it held before.
-/
import proofs.«139568_j10058813407385_1_alg».proof.Proof.RefOps
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

/-- The result buffers of piece 0. -/
abbrev R0 : List (Ref sig .tc) :=
  [main_v0, main_v1, main_v2, main_v3, main_v4, main_v5, main_c, main_v6, main_v7, main_c_0, main_v8, main_v9, main_v10, main_v11, main_v12, main_cst, main_v13, main_v14, main_v15, main_cst_1, main_v16, main_cst_2, main_v17, main_v18, main_v19, main_cst_3, main_v20, main_v21, main_v22, main_v23, main_v24, main_v25, main_v26, main_v27, main_v28, main_v29, main_v30, main_v31, main_v32, main_v33, main_v34, main_v35, main_v36, main_c_4, main_v37, main_v38, main_c_5, main_v39, main_v40, main_v41, main_v42, main_v43, main_cst_6, main_v44, main_v45, main_v46, main_cst_7, main_v47, main_cst_8, main_v48]

set_option maxHeartbeats 4000000 in
theorem q0_writes : (q0 : List (HloOp τ sig (Elt Ideal))).Forall fun op => op.writes ⊆ (R0.map (Proc.devRef (τ := τ) .tc)).toFinset := by
  simp only [q0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 0 keeps its contents across it. -/
theorem keep0 {r : Ref sig .tc} (hr : r ∉ R0) (V : Valuation τ sig (Elt Ideal)) :
    after q0 V (Proc.devRef .tc r) = V (Proc.devRef .tc r) :=
  after_of_writes_sub q0 V q0_writes hr

/-- The result buffers of piece 1. -/
abbrev R1 : List (Ref sig .tc) :=
  [main_v49, main_v50, main_cst_9, main_v51, main_v52, main_v53, main_v54, main_v55, main_v56, main_v57, main_v58, main_v59, main_v60, main_v61, main_v62]

set_option maxHeartbeats 4000000 in
theorem q1_writes : (q1 : List (HloOp τ sig (Elt Ideal))).Forall fun op => op.writes ⊆ (R1.map (Proc.devRef (τ := τ) .tc)).toFinset := by
  simp only [q1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 1 keeps its contents across it. -/
theorem keep1 {r : Ref sig .tc} (hr : r ∉ R1) (V : Valuation τ sig (Elt Ideal)) :
    after q1 V (Proc.devRef .tc r) = V (Proc.devRef .tc r) :=
  after_of_writes_sub q1 V q1_writes hr

/-- The result buffers of piece 2. -/
abbrev R2 : List (Ref sig .tc) :=
  [main_v63, main_v64, main_v65, main_v66, main_v67, main_v68, main_c_10, main_v69, main_v70, main_c_11, main_v71, main_v72, main_v73, main_v74, main_v75, main_cst_12, main_v76, main_v77, main_v78, main_cst_13, main_v79, main_cst_14, main_v80, main_v81, main_v82, main_cst_15, main_v83, main_v84, main_v85, main_v86, main_v87, main_v88, main_v89, main_v90, main_v91, main_v92, main_v93, main_v94, main_v95, main_v96, main_v97, main_v98, main_v99, main_c_16, main_v100]

set_option maxHeartbeats 4000000 in
theorem q2_writes : (q2 : List (HloOp τ sig (Elt Ideal))).Forall fun op => op.writes ⊆ (R2.map (Proc.devRef (τ := τ) .tc)).toFinset := by
  simp only [q2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 2 keeps its contents across it. -/
theorem keep2 {r : Ref sig .tc} (hr : r ∉ R2) (V : Valuation τ sig (Elt Ideal)) :
    after q2 V (Proc.devRef .tc r) = V (Proc.devRef .tc r) :=
  after_of_writes_sub q2 V q2_writes hr

/-- The result buffers of piece 3. -/
abbrev R3 : List (Ref sig .tc) :=
  [main_v101, main_c_17, main_v102, main_v103, main_v104, main_v105, main_v106, main_cst_18, main_v107, main_v108, main_v109, main_cst_19, main_v110, main_cst_20, main_v111, main_v112, main_v113, main_cst_21, main_v114, main_v115, main_v116, main_v117, main_v118, main_v119, main_v120, main_v121, main_v122, main_v123, main_v124, main_v125]

set_option maxHeartbeats 4000000 in
theorem q3_writes : (q3 : List (HloOp τ sig (Elt Ideal))).Forall fun op => op.writes ⊆ (R3.map (Proc.devRef (τ := τ) .tc)).toFinset := by
  simp only [q3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 3 keeps its contents across it. -/
theorem keep3 {r : Ref sig .tc} (hr : r ∉ R3) (V : Valuation τ sig (Elt Ideal)) :
    after q3 V (Proc.devRef .tc r) = V (Proc.devRef .tc r) :=
  after_of_writes_sub q3 V q3_writes hr

/-- The result buffers of piece 4. -/
abbrev R4 : List (Ref sig .tc) :=
  [main_call0_cst, main_call0_v0, main_v126]

set_option maxHeartbeats 4000000 in
theorem q4_writes : (q4 : List (HloOp τ sig (Elt Ideal))).Forall fun op => op.writes ⊆ (R4.map (Proc.devRef (τ := τ) .tc)).toFinset := by
  simp only [q4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 4 keeps its contents across it. -/
theorem keep4 {r : Ref sig .tc} (hr : r ∉ R4) (V : Valuation τ sig (Elt Ideal)) :
    after q4 V (Proc.devRef .tc r) = V (Proc.devRef .tc r) :=
  after_of_writes_sub q4 V q4_writes hr

/-- The result buffers of piece 5. -/
abbrev R5 : List (Ref sig .tc) :=
  [main_call1_cst, main_call1_v0, main_v127]

set_option maxHeartbeats 4000000 in
theorem q5_writes : (q5 : List (HloOp τ sig (Elt Ideal))).Forall fun op => op.writes ⊆ (R5.map (Proc.devRef (τ := τ) .tc)).toFinset := by
  simp only [q5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 5 keeps its contents across it. -/
theorem keep5 {r : Ref sig .tc} (hr : r ∉ R5) (V : Valuation τ sig (Elt Ideal)) :
    after q5 V (Proc.devRef .tc r) = V (Proc.devRef .tc r) :=
  after_of_writes_sub q5 V q5_writes hr

/-- The result buffers of piece 6. -/
abbrev R6 : List (Ref sig .tc) :=
  [main_v128, main_v129, main_v130, main_v131, main_v132, main_v133, main_c_22, main_v134, main_v135, main_c_23, main_v136, main_v137, main_v138, main_v139, main_v140, main_cst_24, main_v141, main_v142, main_v143, main_cst_25, main_v144, main_cst_26, main_v145, main_v146, main_v147, main_cst_27, main_v148, main_v149]

set_option maxHeartbeats 4000000 in
theorem q6_writes : (q6 : List (HloOp τ sig (Elt Ideal))).Forall fun op => op.writes ⊆ (R6.map (Proc.devRef (τ := τ) .tc)).toFinset := by
  simp only [q6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 6 keeps its contents across it. -/
theorem keep6 {r : Ref sig .tc} (hr : r ∉ R6) (V : Valuation τ sig (Elt Ideal)) :
    after q6 V (Proc.devRef .tc r) = V (Proc.devRef .tc r) :=
  after_of_writes_sub q6 V q6_writes hr

/-- The result buffers of piece 7. -/
abbrev R7 : List (Ref sig .tc) :=
  [main_v150, main_v151, main_v152, main_v153, main_v154, main_v155, main_v156, main_v157, main_v158, main_v159, main_v160, main_v161, main_v162, main_v163, main_v164, main_c_28, main_v165, main_v166, main_c_29, main_v167, main_v168, main_v169, main_v170, main_v171, main_cst_30, main_v172, main_v173, main_v174, main_cst_31, main_v175, main_cst_32, main_v176, main_v177, main_v178, main_cst_33, main_v179, main_v180, main_v181, main_v182, main_v183, main_v184, main_v185, main_v186, main_v187, main_v188, main_v189, main_v190]

set_option maxHeartbeats 4000000 in
theorem q7_writes : (q7 : List (HloOp τ sig (Elt Ideal))).Forall fun op => op.writes ⊆ (R7.map (Proc.devRef (τ := τ) .tc)).toFinset := by
  simp only [q7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 7 keeps its contents across it. -/
theorem keep7 {r : Ref sig .tc} (hr : r ∉ R7) (V : Valuation τ sig (Elt Ideal)) :
    after q7 V (Proc.devRef .tc r) = V (Proc.devRef .tc r) :=
  after_of_writes_sub q7 V q7_writes hr

/-- The result buffers of piece 8. -/
abbrev R8 : List (Ref sig .tc) :=
  [main_v191, main_v192, main_v193, main_v194, main_v195, main_v196, main_c_34, main_v197, main_v198, main_c_35, main_v199, main_v200, main_v201]

set_option maxHeartbeats 4000000 in
theorem q8_writes : (q8 : List (HloOp τ sig (Elt Ideal))).Forall fun op => op.writes ⊆ (R8.map (Proc.devRef (τ := τ) .tc)).toFinset := by
  simp only [q8, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 8 keeps its contents across it. -/
theorem keep8 {r : Ref sig .tc} (hr : r ∉ R8) (V : Valuation τ sig (Elt Ideal)) :
    after q8 V (Proc.devRef .tc r) = V (Proc.devRef .tc r) :=
  after_of_writes_sub q8 V q8_writes hr

/-- The result buffers of piece 9. -/
abbrev R9 : List (Ref sig .tc) :=
  [main_v202, main_v203, main_cst_36, main_v204, main_v205, main_v206, main_cst_37, main_v207, main_cst_38, main_v208, main_v209, main_v210, main_cst_39, main_v211, main_v212, main_v213, main_v214, main_v215, main_v216, main_v217, main_v218, main_v219, main_v220, main_v221, main_v222, main_v223, main_v224, main_v225, main_v226, main_v227, main_c_40, main_v228, main_v229, main_c_41, main_v230, main_v231, main_v232, main_v233, main_v234, main_cst_42, main_v235, main_v236, main_v237, main_cst_43, main_v238, main_cst_44, main_v239, main_v240, main_v241, main_cst_45, main_v242, main_v243, main_v244, main_v245, main_v246, main_v247, main_v248, main_v249, main_v250, main_v251]

set_option maxHeartbeats 4000000 in
theorem q9_writes : (q9 : List (HloOp τ sig (Elt Ideal))).Forall fun op => op.writes ⊆ (R9.map (Proc.devRef (τ := τ) .tc)).toFinset := by
  simp only [q9, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 9 keeps its contents across it. -/
theorem keep9 {r : Ref sig .tc} (hr : r ∉ R9) (V : Valuation τ sig (Elt Ideal)) :
    after q9 V (Proc.devRef .tc r) = V (Proc.devRef .tc r) :=
  after_of_writes_sub q9 V q9_writes hr

/-- The result buffers of piece 10. -/
abbrev R10 : List (Ref sig .tc) :=
  [main_v252, main_v253]

set_option maxHeartbeats 4000000 in
theorem q10_writes : (q10 : List (HloOp τ sig (Elt Ideal))).Forall fun op => op.writes ⊆ (R10.map (Proc.devRef (τ := τ) .tc)).toFinset := by
  simp only [q10, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 10 keeps its contents across it. -/
theorem keep10 {r : Ref sig .tc} (hr : r ∉ R10) (V : Valuation τ sig (Elt Ideal)) :
    after q10 V (Proc.devRef .tc r) = V (Proc.devRef .tc r) :=
  after_of_writes_sub q10 V q10_writes hr

/-- The result buffers of piece 11. -/
abbrev R11 : List (Ref sig .tc) :=
  [main_call2_cst, main_call2_v0, main_v254]

set_option maxHeartbeats 4000000 in
theorem q11_writes : (q11 : List (HloOp τ sig (Elt Ideal))).Forall fun op => op.writes ⊆ (R11.map (Proc.devRef (τ := τ) .tc)).toFinset := by
  simp only [q11, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 11 keeps its contents across it. -/
theorem keep11 {r : Ref sig .tc} (hr : r ∉ R11) (V : Valuation τ sig (Elt Ideal)) :
    after q11 V (Proc.devRef .tc r) = V (Proc.devRef .tc r) :=
  after_of_writes_sub q11 V q11_writes hr

/-- The result buffers of piece 12. -/
abbrev R12 : List (Ref sig .tc) :=
  [main_call3_cst, main_call3_v0, main_v255]

set_option maxHeartbeats 4000000 in
theorem q12_writes : (q12 : List (HloOp τ sig (Elt Ideal))).Forall fun op => op.writes ⊆ (R12.map (Proc.devRef (τ := τ) .tc)).toFinset := by
  simp only [q12, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 12 keeps its contents across it. -/
theorem keep12 {r : Ref sig .tc} (hr : r ∉ R12) (V : Valuation τ sig (Elt Ideal)) :
    after q12 V (Proc.devRef .tc r) = V (Proc.devRef .tc r) :=
  after_of_writes_sub q12 V q12_writes hr

/-- The result buffers of piece 13. -/
abbrev R13 : List (Ref sig .tc) :=
  [main_v256, main_v257, main_v258, main_v259, main_v260, main_v261, main_c_46, main_v262, main_v263, main_c_47, main_v264, main_v265, main_v266, main_v267, main_v268, main_cst_48, main_v269, main_v270, main_v271, main_cst_49, main_v272, main_cst_50, main_v273, main_v274, main_v275, main_cst_51, main_v276, main_v277, main_v278, main_v279, main_v280, main_v281, main_v282, main_v283, main_v284, main_v285, main_v286, main_v287, main_v288, main_v289, main_v290, main_v291, main_v292, main_c_52, main_v293, main_v294, main_c_53, main_v295, main_v296, main_v297, main_v298, main_v299, main_cst_54, main_v300, main_v301, main_v302]

set_option maxHeartbeats 4000000 in
theorem q13_writes : (q13 : List (HloOp τ sig (Elt Ideal))).Forall fun op => op.writes ⊆ (R13.map (Proc.devRef (τ := τ) .tc)).toFinset := by
  simp only [q13, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 13 keeps its contents across it. -/
theorem keep13 {r : Ref sig .tc} (hr : r ∉ R13) (V : Valuation τ sig (Elt Ideal)) :
    after q13 V (Proc.devRef .tc r) = V (Proc.devRef .tc r) :=
  after_of_writes_sub q13 V q13_writes hr

/-- The result buffers of piece 14. -/
abbrev R14 : List (Ref sig .tc) :=
  [main_cst_55, main_v303, main_cst_56, main_v304, main_v305, main_v306, main_cst_57, main_v307, main_v308, main_v309, main_v310, main_v311, main_v312, main_v313, main_v314, main_v315, main_v316, main_v317, main_v318]

set_option maxHeartbeats 4000000 in
theorem q14_writes : (q14 : List (HloOp τ sig (Elt Ideal))).Forall fun op => op.writes ⊆ (R14.map (Proc.devRef (τ := τ) .tc)).toFinset := by
  simp only [q14, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- A buffer that is no result of piece 14 keeps its contents across it. -/
theorem keep14 {r : Ref sig .tc} (hr : r ∉ R14) (V : Valuation τ sig (Elt Ideal)) :
    after q14 V (Proc.devRef .tc r) = V (Proc.devRef .tc r) :=
  after_of_writes_sub q14 V q14_writes hr

end Cert.RefSide

end
-- ==== Proof.RefDense.lean ====
/-
  The dense part of one layer, index by index.  One arriving edge type's contribution, as the reference composes it from
  whole arrays — the aggregated rows divided by the per-row count clamped at one from below (the count broadcast across
  the row), times the left weight, plus the bias broadcast down the rows, plus the node's own rows times the right
  weight — read at an index (i, j) is the per-node expression: the two matrix products' contractions are sums over the
  middle coordinate, and each broadcast reads its operand at the coordinate it keeps.  A layer adds two such
  contributions; a hidden layer clamps the sum at zero from below.
-/
import proofs.«139568_j10058813407385_1_alg».proof.Proof.Spec
import proofs.«139568_j10058813407385_1_alg».proof.Proof.LibPlainDot
import Idealize.ShloMosaic.PureOps.Ideal.Laws
import Idealize.ShloMosaic.Lib.ValueIdx
import Idealize.ShloMosaic.Lib.IdealHost
import Idealize.ShloMosaic.Lib.KernelVsHost

noncomputable section

open scoped BigOperators

namespace Cert.RefSide

open Idealize.ShloMosaic Idealize.ShloMosaic.ValueIdx Cert.ReferenceIdeal
open Cert.ReferenceIdeal.Facts₀ Cert.ReferenceIdeal.Facts

section Generic

variable {α : Type} {N K D : Nat}

/-- A value per row, broadcast first to a one-column matrix and then across the columns, reads the row's value. -/
theorem bcast_col_apply (h1 : (⟨1, ![N]⟩ : Shape).BroadcastsInDim ⟨2, ![N, 1]⟩ ![0])
    (h2 : (⟨2, ![N, 1]⟩ : Shape).BroadcastsInDim ⟨2, ![N, K]⟩ ![0, 1]) (y : (⟨1, ![N]⟩ : Shape).Idx → α)
    (a : Fin N) (q : Fin K) :
    broadcastInDim ⟨2, ![N, K]⟩ ![0, 1] h2 (broadcastInDim ⟨2, ![N, 1]⟩ ![0] h1 y) (ix2 a q) = y (ix1 a) := by
  refine (broadcastInDim_apply ![0, 1] h2 _ (ix2 a q) (ix2 a (0 : Fin 1)) ?_).trans
    (broadcastInDim_apply ![0] h1 y (ix2 a (0 : Fin 1)) (ix1 a) ?_)
  · intro ax
    fin_cases ax
    · show a.val = if N = 1 then 0 else a.val
      split_ifs with hn
      · have := a.isLt; omega
      · rfl
    · show (0 : ℕ) = if (1 : ℕ) = 1 then 0 else _
      simp
  · intro ax
    fin_cases ax
    show a.val = if N = 1 then 0 else a.val
    split_ifs with hn
    · have := a.isLt; omega
    · rfl

/-- A value per column, broadcast first to a one-row matrix and then down the rows, reads the column's value. -/
theorem bcast_row_apply (h1 : (⟨1, ![D]⟩ : Shape).BroadcastsInDim ⟨2, ![1, D]⟩ ![1])
    (h2 : (⟨2, ![1, D]⟩ : Shape).BroadcastsInDim ⟨2, ![N, D]⟩ ![0, 1]) (b : (⟨1, ![D]⟩ : Shape).Idx → α)
    (a : Fin N) (j : Fin D) :
    broadcastInDim ⟨2, ![N, D]⟩ ![0, 1] h2 (broadcastInDim ⟨2, ![1, D]⟩ ![1] h1 b) (ix2 a j) = b (ix1 j) := by
  refine (broadcastInDim_oneRow_apply h2 _ a j).trans
    (broadcastInDim_apply ![1] h1 b (ix2 (0 : Fin 1) j) (ix1 j) ?_)
  intro ax
  fin_cases ax
  show j.val = if D = 1 then 0 else j.val
  split_ifs with hn
  · have := j.isLt; omega
  · rfl

/-- One edge type's contribution, composed from whole arrays as the reference does, read at an index: the per-node
    expression.  For any plain product's dimension numbers and any extents. -/
theorem half_apply (d : DotDims ⟨2, ![N, K]⟩ ⟨2, ![K, D]⟩ ⟨2, ![N, D]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨0, ![]⟩ : Shape).BroadcastsInDim ⟨1, ![N]⟩ ![])
    (h2 : (⟨1, ![N]⟩ : Shape).BroadcastsInDim ⟨2, ![N, 1]⟩ ![0])
    (h3 : (⟨2, ![N, 1]⟩ : Shape).BroadcastsInDim ⟨2, ![N, K]⟩ ![0, 1])
    (h4 : (⟨1, ![D]⟩ : Shape).BroadcastsInDim ⟨2, ![1, D]⟩ ![1])
    (h5 : (⟨2, ![1, D]⟩ : Shape).BroadcastsInDim ⟨2, ![N, D]⟩ ![0, 1])
    (agg : FVec Ideal ⟨2, ![N, K]⟩ .f32) (deg : FVec Ideal ⟨1, ![N]⟩ .f32) (x : FVec Ideal ⟨2, ![N, K]⟩ .f32)
    (wl wr : FVec Ideal ⟨2, ![K, D]⟩ .f32) (b : FVec Ideal ⟨1, ![D]⟩ .f32) (idx : (⟨2, ![N, D]⟩ : Shape).Idx) :
    addf (addf (Host.dotGeneral d none
        (Host.divf agg (broadcastInDim ⟨2, ![N, K]⟩ ![0, 1] h3 (broadcastInDim ⟨2, ![N, 1]⟩ ![0] h2
          (maximumf deg (broadcastInDim ⟨1, ![N]⟩ ![] h1 (constant ⟨0, ![]⟩ .f32 0x3F800000#32)))))) wl)
        (broadcastInDim ⟨2, ![N, D]⟩ ![0, 1] h5 (broadcastInDim ⟨2, ![1, D]⟩ ![1] h4 b)))
      (Host.dotGeneral d none x wr) idx
      = Sage.half agg deg x wl wr b (idx 0) (idx 1) := by
  obtain ⟨a, j, rfl⟩ : ∃ a j, idx = ix2 a j := ⟨idx 0, idx 1, eq_ix2 idx⟩
  show _ = Sage.half agg deg x wl wr b a j
  rw [addf_apply, addf_apply]
  simp only [Host.dotGeneral]
  rw [Ideal.dotGeneral_apply, Ideal.dotGeneral_apply, bcast_row_apply]
  unfold Sage.half
  refine congrArg₂ (· + ·) (congrArg₂ (· + ·) ?_ rfl) ?_
  · refine (Cert.LibPlainDot.plain_sum d hlc hrc hln hrn hlb hrb
      (fun L R => Host.divf agg (broadcastInDim ⟨2, ![N, K]⟩ ![0, 1] h3 (broadcastInDim ⟨2, ![N, 1]⟩ ![0] h2
          (maximumf deg (broadcastInDim ⟨1, ![N]⟩ ![] h1 (constant ⟨0, ![]⟩ .f32 0x3F800000#32))))) L * wl R) a j).trans ?_
    refine Finset.sum_congr rfl fun q _ => ?_
    rw [hostDivf_apply, bcast_col_apply, maximumf_apply, broadcastInDim_scalar_apply, constant_apply]
  · exact Cert.LibPlainDot.plain_sum d hlc hrc hln hrn hlb hrb (fun L R => x L * wr R) a j

end Generic

variable [Cert.ReferenceIdeal.Facts]

/-- One edge type's contribution to a hidden layer's room features, from whole arrays, as the reference composes it. -/
def halfR (agg : FVec Ideal S50000x64 .f32) (deg : FVec Ideal S50000 .f32) (x : FVec Ideal S50000x64 .f32)
    (wl wr : FVec Ideal S64x64 .f32) (b : FVec Ideal S64 .f32) : FVec Ideal S50000x64 .f32 :=
  addf (addf (Host.dotGeneral dot_S50000x64_S64x64_S50000x64_1_0_0_1_n_n none
      (Host.divf agg (broadcastInDim S50000x64 ![0, 1] bcast_S50000x1_S50000x64_0_1 (broadcastInDim S50000x1 ![0] bcast_S50000_S50000x1_0
        (maximumf deg (broadcastInDim S50000 ![] bcast_S_S50000 (constant S_ .f32 0x3F800000#32)))))) wl)
      (broadcastInDim S50000x64 ![0, 1] bcast_S1x64_S50000x64_0_1 (broadcastInDim S1x64 ![1] bcast_S64_S1x64_1 b)))
    (Host.dotGeneral dot_S50000x64_S64x64_S50000x64_1_0_0_1_n_n none x wr)

/-- Read at an index it is the per-node expression. -/
theorem halfR_apply (agg : FVec Ideal S50000x64 .f32) (deg : FVec Ideal S50000 .f32) (x : FVec Ideal S50000x64 .f32)
    (wl wr : FVec Ideal S64x64 .f32) (b : FVec Ideal S64 .f32) (idx : S50000x64.Idx) :
    halfR agg deg x wl wr b idx = Sage.half agg deg x wl wr b (idx 0) (idx 1) :=
  half_apply dot_S50000x64_S64x64_S50000x64_1_0_0_1_n_n rfl rfl rfl rfl rfl rfl bcast_S_S50000 bcast_S50000_S50000x1_0 bcast_S50000x1_S50000x64_0_1
    bcast_S64_S1x64_1 bcast_S1x64_S50000x64_0_1 agg deg x wl wr b idx

/-- One edge type's contribution to a hidden layer's object features, from whole arrays, as the reference composes it. -/
def halfO (agg : FVec Ideal S200000x64 .f32) (deg : FVec Ideal S200000 .f32) (x : FVec Ideal S200000x64 .f32)
    (wl wr : FVec Ideal S64x64 .f32) (b : FVec Ideal S64 .f32) : FVec Ideal S200000x64 .f32 :=
  addf (addf (Host.dotGeneral dot_S200000x64_S64x64_S200000x64_1_0_0_1_n_n none
      (Host.divf agg (broadcastInDim S200000x64 ![0, 1] bcast_S200000x1_S200000x64_0_1 (broadcastInDim S200000x1 ![0] bcast_S200000_S200000x1_0
        (maximumf deg (broadcastInDim S200000 ![] bcast_S_S200000 (constant S_ .f32 0x3F800000#32)))))) wl)
      (broadcastInDim S200000x64 ![0, 1] bcast_S1x64_S200000x64_0_1 (broadcastInDim S1x64 ![1] bcast_S64_S1x64_1 b)))
    (Host.dotGeneral dot_S200000x64_S64x64_S200000x64_1_0_0_1_n_n none x wr)

/-- Read at an index it is the per-node expression. -/
theorem halfO_apply (agg : FVec Ideal S200000x64 .f32) (deg : FVec Ideal S200000 .f32) (x : FVec Ideal S200000x64 .f32)
    (wl wr : FVec Ideal S64x64 .f32) (b : FVec Ideal S64 .f32) (idx : S200000x64.Idx) :
    halfO agg deg x wl wr b idx = Sage.half agg deg x wl wr b (idx 0) (idx 1) :=
  half_apply dot_S200000x64_S64x64_S200000x64_1_0_0_1_n_n rfl rfl rfl rfl rfl rfl bcast_S_S200000 bcast_S200000_S200000x1_0 bcast_S200000x1_S200000x64_0_1
    bcast_S64_S1x64_1 bcast_S1x64_S200000x64_0_1 agg deg x wl wr b idx

/-- One edge type's contribution to the output layer's room scores, from whole arrays, as the reference composes it. -/
def halfS (agg : FVec Ideal S50000x64 .f32) (deg : FVec Ideal S50000 .f32) (x : FVec Ideal S50000x64 .f32)
    (wl wr : FVec Ideal S64x25 .f32) (b : FVec Ideal S25 .f32) : FVec Ideal S50000x25 .f32 :=
  addf (addf (Host.dotGeneral dot_S50000x64_S64x25_S50000x25_1_0_0_1_n_n none
      (Host.divf agg (broadcastInDim S50000x64 ![0, 1] bcast_S50000x1_S50000x64_0_1 (broadcastInDim S50000x1 ![0] bcast_S50000_S50000x1_0
        (maximumf deg (broadcastInDim S50000 ![] bcast_S_S50000 (constant S_ .f32 0x3F800000#32)))))) wl)
      (broadcastInDim S50000x25 ![0, 1] bcast_S1x25_S50000x25_0_1 (broadcastInDim S1x25 ![1] bcast_S25_S1x25_1 b)))
    (Host.dotGeneral dot_S50000x64_S64x25_S50000x25_1_0_0_1_n_n none x wr)

/-- Read at an index it is the per-node expression. -/
theorem halfS_apply (agg : FVec Ideal S50000x64 .f32) (deg : FVec Ideal S50000 .f32) (x : FVec Ideal S50000x64 .f32)
    (wl wr : FVec Ideal S64x25 .f32) (b : FVec Ideal S25 .f32) (idx : S50000x25.Idx) :
    halfS agg deg x wl wr b idx = Sage.half agg deg x wl wr b (idx 0) (idx 1) :=
  half_apply dot_S50000x64_S64x25_S50000x25_1_0_0_1_n_n rfl rfl rfl rfl rfl rfl bcast_S_S50000 bcast_S50000_S50000x1_0 bcast_S50000x1_S50000x64_0_1
    bcast_S25_S1x25_1 bcast_S1x25_S50000x25_0_1 agg deg x wl wr b idx

/-- A hidden layer's room features before the clamp: the two arriving edge types' contributions added. -/
def preR (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (srcRR dstRR : IVec S800000 32) (srcOR dstOR : IVec S1600000 32) : FVec Ideal S50000x64 .f32 :=
  addf (halfR (Sage.aggRR xr srcRR dstRR) (Sage.degRR dstRR) xr wl1 wr1 b1)
    (halfR (Sage.aggOR xo srcOR dstOR) (Sage.degOR dstOR) xr wl2 wr2 b2)

/-- A hidden layer's object features before the clamp. -/
def preO (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (srcRO dstRO srcOO dstOO : IVec S1600000 32) : FVec Ideal S200000x64 .f32 :=
  addf (halfO (Sage.aggRO xr srcRO dstRO) (Sage.degRO dstRO) xo wl1 wr1 b1)
    (halfO (Sage.aggOO xo srcOO dstOO) (Sage.degOO dstOO) xo wl2 wr2 b2)

/-- The room features clamped at zero from below are the hidden layer's. -/
theorem clamp_preR (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (srcRR dstRR : IVec S800000 32) (srcOR dstOR : IVec S1600000 32) :
    maximumf (preR xr xo wl1 wr1 b1 wl2 wr2 b2 srcRR dstRR srcOR dstOR)
        (broadcastInDim S50000x64 ![] bcast_S_S50000x64 (constant S_ .f32 0x00000000#32))
      = Sage.hidR xr xo wl1 wr1 b1 wl2 wr2 b2 srcRR dstRR srcOR dstOR := by
  funext idx
  rw [maximumf_apply, broadcastInDim_scalar_apply, constant_apply]
  unfold preR
  rw [addf_apply, halfR_apply, halfR_apply]
  rfl

/-- The object features clamped at zero from below are the hidden layer's. -/
theorem clamp_preO (xr : FVec Ideal S50000x64 .f32) (xo : FVec Ideal S200000x64 .f32)
    (wl1 wr1 : FVec Ideal S64x64 .f32) (b1 : FVec Ideal S64 .f32) (wl2 wr2 : FVec Ideal S64x64 .f32) (b2 : FVec Ideal S64 .f32)
    (srcRO dstRO srcOO dstOO : IVec S1600000 32) :
    maximumf (preO xr xo wl1 wr1 b1 wl2 wr2 b2 srcRO dstRO srcOO dstOO)
        (broadcastInDim S200000x64 ![] bcast_S_S200000x64 (constant S_ .f32 0x00000000#32))
      = Sage.hidO xr xo wl1 wr1 b1 wl2 wr2 b2 srcRO dstRO srcOO dstOO := by
  funext idx
  rw [maximumf_apply, broadcastInDim_scalar_apply, constant_apply]
  unfold preO
  rw [addf_apply, halfO_apply, halfO_apply]
  rfl

/-- The output layer's two contributions added are its room scores. -/
theorem scores_eq (xr : FVec Ideal S50000x64 .f32) (xo : FVec Ideal S200000x64 .f32)
    (wl1 wr1 : FVec Ideal S64x25 .f32) (b1 : FVec Ideal S25 .f32) (wl2 wr2 : FVec Ideal S64x25 .f32) (b2 : FVec Ideal S25 .f32)
    (srcRR dstRR : IVec S800000 32) (srcOR dstOR : IVec S1600000 32) :
    addf (halfS (Sage.aggRR xr srcRR dstRR) (Sage.degRR dstRR) xr wl1 wr1 b1)
        (halfS (Sage.aggOR xo srcOR dstOR) (Sage.degOR dstOR) xr wl2 wr2 b2)
      = Sage.outR xr xo wl1 wr1 b1 wl2 wr2 b2 srcRR dstRR srcOR dstOR := by
  funext idx
  rw [addf_apply, halfS_apply, halfS_apply]
  rfl

end Cert.RefSide

end
-- ==== Proof.RefStretch.lean ====
/-
  The reference's operation list read in stretches, each over any contents the device's buffers may hold before it.
  A hidden layer's room half leaves in its last buffer the two arriving edge types' contributions added, as a function
  of the buffers it reads (the layer's input arrays, the stacked parameters, the edge lists); likewise its object half;
  each clamp leaves the larger of its operand and zero; the output layer leaves the room scores before any clamp.
-/
import proofs.«139568_j10058813407385_1_alg».proof.Proof.RefOps
import proofs.«139568_j10058813407385_1_alg».proof.Proof.RefDense

noncomputable section

namespace Cert.RefSide

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- The first hidden layer's room half, from the arguments. -/
theorem layer1_room (W : Valuation τ sig (Elt Ideal)) :
    after q1 (after q0 W) (Proc.devRef .tc main_v62)
      = preR (W (Proc.devRef .tc main_arg0)) (W (Proc.devRef .tc main_arg1)) (Sage.mat00 (W (Proc.devRef .tc main_arg2))) (Sage.mat00 (W (Proc.devRef .tc main_arg3))) (Sage.vec00 (W (Proc.devRef .tc main_arg4)))
          (Sage.mat01 (W (Proc.devRef .tc main_arg2))) (Sage.mat01 (W (Proc.devRef .tc main_arg3))) (Sage.vec01 (W (Proc.devRef .tc main_arg4))) (W (Proc.devRef .tc main_arg8)) (W (Proc.devRef .tc main_arg9)) (W (Proc.devRef .tc main_arg10)) (W (Proc.devRef .tc main_arg11)) := by
  unfold q0 q1
  after_results_simp
  unfold preR halfR Sage.aggRR Sage.degRR Sage.aggOR Sage.degOR Sage.mat00 Sage.vec00 Sage.mat01 Sage.vec01
  rfl

set_option maxRecDepth 8192 in
set_option maxHeartbeats 4000000 in
/-- The first hidden layer's object half, from the arguments. -/
theorem layer1_obj (W : Valuation τ sig (Elt Ideal)) :
    after q3 (after q2 W) (Proc.devRef .tc main_v125)
      = preO (W (Proc.devRef .tc main_arg0)) (W (Proc.devRef .tc main_arg1)) (Sage.mat02 (W (Proc.devRef .tc main_arg2))) (Sage.mat02 (W (Proc.devRef .tc main_arg3))) (Sage.vec02 (W (Proc.devRef .tc main_arg4)))
          (Sage.mat03 (W (Proc.devRef .tc main_arg2))) (Sage.mat03 (W (Proc.devRef .tc main_arg3))) (Sage.vec03 (W (Proc.devRef .tc main_arg4))) (W (Proc.devRef .tc main_arg12)) (W (Proc.devRef .tc main_arg13)) (W (Proc.devRef .tc main_arg14)) (W (Proc.devRef .tc main_arg15)) := by
  unfold q2 q3
  after_results_simp
  unfold preO halfO Sage.aggRO Sage.degRO Sage.aggOO Sage.degOO Sage.mat02 Sage.vec02 Sage.mat03 Sage.vec03
  rfl

set_option maxRecDepth 8192 in
set_option maxHeartbeats 4000000 in
/-- The first clamp of the room features: the larger of its operand and zero. -/
theorem clamp1_room (W : Valuation τ sig (Elt Ideal)) :
    after q4 W (Proc.devRef .tc main_v126)
      = (maximumf (W (Proc.devRef .tc main_v62)) (broadcastInDim S50000x64 ![] bcast_S_S50000x64 (constant S_ .f32 0x00000000#32)) : FVec Ideal S50000x64 .f32) := by
  unfold q4
  after_results_simp
  rfl

set_option maxRecDepth 8192 in
set_option maxHeartbeats 4000000 in
/-- The first clamp of the object features: the larger of its operand and zero. -/
theorem clamp1_obj (W : Valuation τ sig (Elt Ideal)) :
    after q5 W (Proc.devRef .tc main_v127)
      = (maximumf (W (Proc.devRef .tc main_v125)) (broadcastInDim S200000x64 ![] bcast_S_S200000x64 (constant S_ .f32 0x00000000#32)) : FVec Ideal S200000x64 .f32) := by
  unfold q5
  after_results_simp
  rfl

set_option maxRecDepth 8192 in
set_option maxHeartbeats 4000000 in
/-- The second hidden layer's room half, from the first layer's two arrays and the arguments. -/
theorem layer2_room (W : Valuation τ sig (Elt Ideal)) :
    after q7 (after q6 W) (Proc.devRef .tc main_v190)
      = preR (W (Proc.devRef .tc main_v126)) (W (Proc.devRef .tc main_v127)) (Sage.mat10 (W (Proc.devRef .tc main_arg2))) (Sage.mat10 (W (Proc.devRef .tc main_arg3))) (Sage.vec10 (W (Proc.devRef .tc main_arg4)))
          (Sage.mat11 (W (Proc.devRef .tc main_arg2))) (Sage.mat11 (W (Proc.devRef .tc main_arg3))) (Sage.vec11 (W (Proc.devRef .tc main_arg4))) (W (Proc.devRef .tc main_arg8)) (W (Proc.devRef .tc main_arg9)) (W (Proc.devRef .tc main_arg10)) (W (Proc.devRef .tc main_arg11)) := by
  unfold q6 q7
  after_results_simp
  unfold preR halfR Sage.aggRR Sage.degRR Sage.aggOR Sage.degOR Sage.mat10 Sage.vec10 Sage.mat11 Sage.vec11
  rfl

set_option maxRecDepth 8192 in
set_option maxHeartbeats 4000000 in
/-- The second hidden layer's object half, from the first layer's two arrays and the arguments. -/
theorem layer2_obj (W : Valuation τ sig (Elt Ideal)) :
    after q10 (after q9 (after q8 W)) (Proc.devRef .tc main_v253)
      = preO (W (Proc.devRef .tc main_v126)) (W (Proc.devRef .tc main_v127)) (Sage.mat12 (W (Proc.devRef .tc main_arg2))) (Sage.mat12 (W (Proc.devRef .tc main_arg3))) (Sage.vec12 (W (Proc.devRef .tc main_arg4)))
          (Sage.mat13 (W (Proc.devRef .tc main_arg2))) (Sage.mat13 (W (Proc.devRef .tc main_arg3))) (Sage.vec13 (W (Proc.devRef .tc main_arg4))) (W (Proc.devRef .tc main_arg12)) (W (Proc.devRef .tc main_arg13)) (W (Proc.devRef .tc main_arg14)) (W (Proc.devRef .tc main_arg15)) := by
  unfold q8 q9 q10
  after_results_simp
  unfold preO halfO Sage.aggRO Sage.degRO Sage.aggOO Sage.degOO Sage.mat12 Sage.vec12 Sage.mat13 Sage.vec13
  rfl

set_option maxRecDepth 8192 in
set_option maxHeartbeats 4000000 in
/-- The second clamp of the room features. -/
theorem clamp2_room (W : Valuation τ sig (Elt Ideal)) :
    after q11 W (Proc.devRef .tc main_v254)
      = (maximumf (W (Proc.devRef .tc main_v190)) (broadcastInDim S50000x64 ![] bcast_S_S50000x64 (constant S_ .f32 0x00000000#32)) : FVec Ideal S50000x64 .f32) := by
  unfold q11
  after_results_simp
  rfl

set_option maxRecDepth 8192 in
set_option maxHeartbeats 4000000 in
/-- The second clamp of the object features. -/
theorem clamp2_obj (W : Valuation τ sig (Elt Ideal)) :
    after q12 W (Proc.devRef .tc main_v255)
      = (maximumf (W (Proc.devRef .tc main_v253)) (broadcastInDim S200000x64 ![] bcast_S_S200000x64 (constant S_ .f32 0x00000000#32)) : FVec Ideal S200000x64 .f32) := by
  unfold q12
  after_results_simp
  rfl

set_option maxRecDepth 8192 in
set_option maxHeartbeats 4000000 in
/-- The output layer, from the second layer's two arrays and the arguments: the two contributions added. -/
theorem out_layer (W : Valuation τ sig (Elt Ideal)) :
    after q14 (after q13 W) (Proc.devRef .tc main_v318)
      = addf (halfS (Sage.aggRR (W (Proc.devRef .tc main_v254)) (W (Proc.devRef .tc main_arg8)) (W (Proc.devRef .tc main_arg9))) (Sage.degRR (W (Proc.devRef .tc main_arg9))) (W (Proc.devRef .tc main_v254))
            (Sage.omat0 (W (Proc.devRef .tc main_arg5))) (Sage.omat0 (W (Proc.devRef .tc main_arg6))) (Sage.ovec0 (W (Proc.devRef .tc main_arg7))))
          (halfS (Sage.aggOR (W (Proc.devRef .tc main_v255)) (W (Proc.devRef .tc main_arg10)) (W (Proc.devRef .tc main_arg11))) (Sage.degOR (W (Proc.devRef .tc main_arg11))) (W (Proc.devRef .tc main_v254))
            (Sage.omat1 (W (Proc.devRef .tc main_arg5))) (Sage.omat1 (W (Proc.devRef .tc main_arg6))) (Sage.ovec1 (W (Proc.devRef .tc main_arg7)))) := by
  unfold q13 q14
  after_results_simp
  unfold halfS Sage.aggRR Sage.degRR Sage.aggOR Sage.degOR Sage.omat0 Sage.ovec0 Sage.omat1 Sage.ovec1
  rfl

end Cert.RefSide

end
-- ==== Proof.RefSide.lean ====
/-
  The reference computes the network.  Its operation list is read stretch by stretch from the launch contents: the
  first hidden layer's two halves and their clamps give the first layer's room and object features of the arguments,
  the second layer's the second layer's features of those, and the output layer the room scores — the network of
  the sixteen arguments, in the same association.  No operation writes an argument.  So every weakly fair execution of
  the reference ends with the result buffer at the network's value and the arguments as launched.
-/
import proofs.«139568_j10058813407385_1_alg».proof.Proof.RefOps
import proofs.«139568_j10058813407385_1_alg».proof.Proof.RefKeep
import proofs.«139568_j10058813407385_1_alg».proof.Proof.RefDense
import proofs.«139568_j10058813407385_1_alg».proof.Proof.RefStretch

noncomputable section

namespace Cert.RefSide

open Cert.ReferenceIdeal Cert.ReferenceIdeal.Gen Idealize.ShloMosaic Idealize.ShloMosaic.TcCoe Idealize.SL.Sem Idealize.ShloMosaic.StableHlo

/-! ### The contents after each stretch -/

/-- The buffers' contents after the first hidden layer's room half. -/
def V1 (V : Valuation τ sig (Elt Ideal)) : Valuation τ sig (Elt Ideal) := after q1 (after q0 V)
/-- The buffers' contents after the first hidden layer's object half. -/
def V2 (V : Valuation τ sig (Elt Ideal)) : Valuation τ sig (Elt Ideal) := after q3 (after q2 (V1 V))
/-- The buffers' contents after the first clamp of the room features. -/
def V3 (V : Valuation τ sig (Elt Ideal)) : Valuation τ sig (Elt Ideal) := after q4 (V2 V)
/-- The buffers' contents after the first clamp of the object features. -/
def V4 (V : Valuation τ sig (Elt Ideal)) : Valuation τ sig (Elt Ideal) := after q5 (V3 V)
/-- The buffers' contents after the second hidden layer's room half. -/
def V5 (V : Valuation τ sig (Elt Ideal)) : Valuation τ sig (Elt Ideal) := after q7 (after q6 (V4 V))
/-- The buffers' contents after the second hidden layer's object half. -/
def V6 (V : Valuation τ sig (Elt Ideal)) : Valuation τ sig (Elt Ideal) := after q10 (after q9 (after q8 (V5 V)))
/-- The buffers' contents after the second clamp of the room features. -/
def V7 (V : Valuation τ sig (Elt Ideal)) : Valuation τ sig (Elt Ideal) := after q11 (V6 V)
/-- The buffers' contents after the second clamp of the object features. -/
def V8 (V : Valuation τ sig (Elt Ideal)) : Valuation τ sig (Elt Ideal) := after q12 (V7 V)
/-- The buffers' contents after the output layer. -/
def V9 (V : Valuation τ sig (Elt Ideal)) : Valuation τ sig (Elt Ideal) := after q14 (after q13 (V8 V))

theorem after_ops_eq (V : Valuation τ sig (Elt Ideal)) : after ops V = V9 V := after_ops V

/-! ### No stretch writes an argument -/

theorem V1_a0 (V : Valuation τ sig (Elt Ideal)) : V1 V (Proc.devRef .tc main_arg0) = V (Proc.devRef .tc main_arg0) := by
  unfold V1; rw [keep1 (r := main_arg0) (by decide), keep0 (r := main_arg0) (by decide)]
theorem V1_a1 (V : Valuation τ sig (Elt Ideal)) : V1 V (Proc.devRef .tc main_arg1) = V (Proc.devRef .tc main_arg1) := by
  unfold V1; rw [keep1 (r := main_arg1) (by decide), keep0 (r := main_arg1) (by decide)]
theorem V1_a2 (V : Valuation τ sig (Elt Ideal)) : V1 V (Proc.devRef .tc main_arg2) = V (Proc.devRef .tc main_arg2) := by
  unfold V1; rw [keep1 (r := main_arg2) (by decide), keep0 (r := main_arg2) (by decide)]
theorem V1_a3 (V : Valuation τ sig (Elt Ideal)) : V1 V (Proc.devRef .tc main_arg3) = V (Proc.devRef .tc main_arg3) := by
  unfold V1; rw [keep1 (r := main_arg3) (by decide), keep0 (r := main_arg3) (by decide)]
theorem V1_a4 (V : Valuation τ sig (Elt Ideal)) : V1 V (Proc.devRef .tc main_arg4) = V (Proc.devRef .tc main_arg4) := by
  unfold V1; rw [keep1 (r := main_arg4) (by decide), keep0 (r := main_arg4) (by decide)]
theorem V1_a5 (V : Valuation τ sig (Elt Ideal)) : V1 V (Proc.devRef .tc main_arg5) = V (Proc.devRef .tc main_arg5) := by
  unfold V1; rw [keep1 (r := main_arg5) (by decide), keep0 (r := main_arg5) (by decide)]
theorem V1_a6 (V : Valuation τ sig (Elt Ideal)) : V1 V (Proc.devRef .tc main_arg6) = V (Proc.devRef .tc main_arg6) := by
  unfold V1; rw [keep1 (r := main_arg6) (by decide), keep0 (r := main_arg6) (by decide)]
theorem V1_a7 (V : Valuation τ sig (Elt Ideal)) : V1 V (Proc.devRef .tc main_arg7) = V (Proc.devRef .tc main_arg7) := by
  unfold V1; rw [keep1 (r := main_arg7) (by decide), keep0 (r := main_arg7) (by decide)]
theorem V1_a8 (V : Valuation τ sig (Elt Ideal)) : V1 V (Proc.devRef .tc main_arg8) = V (Proc.devRef .tc main_arg8) := by
  unfold V1; rw [keep1 (r := main_arg8) (by decide), keep0 (r := main_arg8) (by decide)]
theorem V1_a9 (V : Valuation τ sig (Elt Ideal)) : V1 V (Proc.devRef .tc main_arg9) = V (Proc.devRef .tc main_arg9) := by
  unfold V1; rw [keep1 (r := main_arg9) (by decide), keep0 (r := main_arg9) (by decide)]
theorem V1_a10 (V : Valuation τ sig (Elt Ideal)) : V1 V (Proc.devRef .tc main_arg10) = V (Proc.devRef .tc main_arg10) := by
  unfold V1; rw [keep1 (r := main_arg10) (by decide), keep0 (r := main_arg10) (by decide)]
theorem V1_a11 (V : Valuation τ sig (Elt Ideal)) : V1 V (Proc.devRef .tc main_arg11) = V (Proc.devRef .tc main_arg11) := by
  unfold V1; rw [keep1 (r := main_arg11) (by decide), keep0 (r := main_arg11) (by decide)]
theorem V1_a12 (V : Valuation τ sig (Elt Ideal)) : V1 V (Proc.devRef .tc main_arg12) = V (Proc.devRef .tc main_arg12) := by
  unfold V1; rw [keep1 (r := main_arg12) (by decide), keep0 (r := main_arg12) (by decide)]
theorem V1_a13 (V : Valuation τ sig (Elt Ideal)) : V1 V (Proc.devRef .tc main_arg13) = V (Proc.devRef .tc main_arg13) := by
  unfold V1; rw [keep1 (r := main_arg13) (by decide), keep0 (r := main_arg13) (by decide)]
theorem V1_a14 (V : Valuation τ sig (Elt Ideal)) : V1 V (Proc.devRef .tc main_arg14) = V (Proc.devRef .tc main_arg14) := by
  unfold V1; rw [keep1 (r := main_arg14) (by decide), keep0 (r := main_arg14) (by decide)]
theorem V1_a15 (V : Valuation τ sig (Elt Ideal)) : V1 V (Proc.devRef .tc main_arg15) = V (Proc.devRef .tc main_arg15) := by
  unfold V1; rw [keep1 (r := main_arg15) (by decide), keep0 (r := main_arg15) (by decide)]
theorem V2_a0 (V : Valuation τ sig (Elt Ideal)) : V2 V (Proc.devRef .tc main_arg0) = V (Proc.devRef .tc main_arg0) := by
  unfold V2; rw [keep3 (r := main_arg0) (by decide), keep2 (r := main_arg0) (by decide), V1_a0]
theorem V2_a1 (V : Valuation τ sig (Elt Ideal)) : V2 V (Proc.devRef .tc main_arg1) = V (Proc.devRef .tc main_arg1) := by
  unfold V2; rw [keep3 (r := main_arg1) (by decide), keep2 (r := main_arg1) (by decide), V1_a1]
theorem V2_a2 (V : Valuation τ sig (Elt Ideal)) : V2 V (Proc.devRef .tc main_arg2) = V (Proc.devRef .tc main_arg2) := by
  unfold V2; rw [keep3 (r := main_arg2) (by decide), keep2 (r := main_arg2) (by decide), V1_a2]
theorem V2_a3 (V : Valuation τ sig (Elt Ideal)) : V2 V (Proc.devRef .tc main_arg3) = V (Proc.devRef .tc main_arg3) := by
  unfold V2; rw [keep3 (r := main_arg3) (by decide), keep2 (r := main_arg3) (by decide), V1_a3]
theorem V2_a4 (V : Valuation τ sig (Elt Ideal)) : V2 V (Proc.devRef .tc main_arg4) = V (Proc.devRef .tc main_arg4) := by
  unfold V2; rw [keep3 (r := main_arg4) (by decide), keep2 (r := main_arg4) (by decide), V1_a4]
theorem V2_a5 (V : Valuation τ sig (Elt Ideal)) : V2 V (Proc.devRef .tc main_arg5) = V (Proc.devRef .tc main_arg5) := by
  unfold V2; rw [keep3 (r := main_arg5) (by decide), keep2 (r := main_arg5) (by decide), V1_a5]
theorem V2_a6 (V : Valuation τ sig (Elt Ideal)) : V2 V (Proc.devRef .tc main_arg6) = V (Proc.devRef .tc main_arg6) := by
  unfold V2; rw [keep3 (r := main_arg6) (by decide), keep2 (r := main_arg6) (by decide), V1_a6]
theorem V2_a7 (V : Valuation τ sig (Elt Ideal)) : V2 V (Proc.devRef .tc main_arg7) = V (Proc.devRef .tc main_arg7) := by
  unfold V2; rw [keep3 (r := main_arg7) (by decide), keep2 (r := main_arg7) (by decide), V1_a7]
theorem V2_a8 (V : Valuation τ sig (Elt Ideal)) : V2 V (Proc.devRef .tc main_arg8) = V (Proc.devRef .tc main_arg8) := by
  unfold V2; rw [keep3 (r := main_arg8) (by decide), keep2 (r := main_arg8) (by decide), V1_a8]
theorem V2_a9 (V : Valuation τ sig (Elt Ideal)) : V2 V (Proc.devRef .tc main_arg9) = V (Proc.devRef .tc main_arg9) := by
  unfold V2; rw [keep3 (r := main_arg9) (by decide), keep2 (r := main_arg9) (by decide), V1_a9]
theorem V2_a10 (V : Valuation τ sig (Elt Ideal)) : V2 V (Proc.devRef .tc main_arg10) = V (Proc.devRef .tc main_arg10) := by
  unfold V2; rw [keep3 (r := main_arg10) (by decide), keep2 (r := main_arg10) (by decide), V1_a10]
theorem V2_a11 (V : Valuation τ sig (Elt Ideal)) : V2 V (Proc.devRef .tc main_arg11) = V (Proc.devRef .tc main_arg11) := by
  unfold V2; rw [keep3 (r := main_arg11) (by decide), keep2 (r := main_arg11) (by decide), V1_a11]
theorem V2_a12 (V : Valuation τ sig (Elt Ideal)) : V2 V (Proc.devRef .tc main_arg12) = V (Proc.devRef .tc main_arg12) := by
  unfold V2; rw [keep3 (r := main_arg12) (by decide), keep2 (r := main_arg12) (by decide), V1_a12]
theorem V2_a13 (V : Valuation τ sig (Elt Ideal)) : V2 V (Proc.devRef .tc main_arg13) = V (Proc.devRef .tc main_arg13) := by
  unfold V2; rw [keep3 (r := main_arg13) (by decide), keep2 (r := main_arg13) (by decide), V1_a13]
theorem V2_a14 (V : Valuation τ sig (Elt Ideal)) : V2 V (Proc.devRef .tc main_arg14) = V (Proc.devRef .tc main_arg14) := by
  unfold V2; rw [keep3 (r := main_arg14) (by decide), keep2 (r := main_arg14) (by decide), V1_a14]
theorem V2_a15 (V : Valuation τ sig (Elt Ideal)) : V2 V (Proc.devRef .tc main_arg15) = V (Proc.devRef .tc main_arg15) := by
  unfold V2; rw [keep3 (r := main_arg15) (by decide), keep2 (r := main_arg15) (by decide), V1_a15]
theorem V3_a0 (V : Valuation τ sig (Elt Ideal)) : V3 V (Proc.devRef .tc main_arg0) = V (Proc.devRef .tc main_arg0) := by
  unfold V3; rw [keep4 (r := main_arg0) (by decide), V2_a0]
theorem V3_a1 (V : Valuation τ sig (Elt Ideal)) : V3 V (Proc.devRef .tc main_arg1) = V (Proc.devRef .tc main_arg1) := by
  unfold V3; rw [keep4 (r := main_arg1) (by decide), V2_a1]
theorem V3_a2 (V : Valuation τ sig (Elt Ideal)) : V3 V (Proc.devRef .tc main_arg2) = V (Proc.devRef .tc main_arg2) := by
  unfold V3; rw [keep4 (r := main_arg2) (by decide), V2_a2]
theorem V3_a3 (V : Valuation τ sig (Elt Ideal)) : V3 V (Proc.devRef .tc main_arg3) = V (Proc.devRef .tc main_arg3) := by
  unfold V3; rw [keep4 (r := main_arg3) (by decide), V2_a3]
theorem V3_a4 (V : Valuation τ sig (Elt Ideal)) : V3 V (Proc.devRef .tc main_arg4) = V (Proc.devRef .tc main_arg4) := by
  unfold V3; rw [keep4 (r := main_arg4) (by decide), V2_a4]
theorem V3_a5 (V : Valuation τ sig (Elt Ideal)) : V3 V (Proc.devRef .tc main_arg5) = V (Proc.devRef .tc main_arg5) := by
  unfold V3; rw [keep4 (r := main_arg5) (by decide), V2_a5]
theorem V3_a6 (V : Valuation τ sig (Elt Ideal)) : V3 V (Proc.devRef .tc main_arg6) = V (Proc.devRef .tc main_arg6) := by
  unfold V3; rw [keep4 (r := main_arg6) (by decide), V2_a6]
theorem V3_a7 (V : Valuation τ sig (Elt Ideal)) : V3 V (Proc.devRef .tc main_arg7) = V (Proc.devRef .tc main_arg7) := by
  unfold V3; rw [keep4 (r := main_arg7) (by decide), V2_a7]
theorem V3_a8 (V : Valuation τ sig (Elt Ideal)) : V3 V (Proc.devRef .tc main_arg8) = V (Proc.devRef .tc main_arg8) := by
  unfold V3; rw [keep4 (r := main_arg8) (by decide), V2_a8]
theorem V3_a9 (V : Valuation τ sig (Elt Ideal)) : V3 V (Proc.devRef .tc main_arg9) = V (Proc.devRef .tc main_arg9) := by
  unfold V3; rw [keep4 (r := main_arg9) (by decide), V2_a9]
theorem V3_a10 (V : Valuation τ sig (Elt Ideal)) : V3 V (Proc.devRef .tc main_arg10) = V (Proc.devRef .tc main_arg10) := by
  unfold V3; rw [keep4 (r := main_arg10) (by decide), V2_a10]
theorem V3_a11 (V : Valuation τ sig (Elt Ideal)) : V3 V (Proc.devRef .tc main_arg11) = V (Proc.devRef .tc main_arg11) := by
  unfold V3; rw [keep4 (r := main_arg11) (by decide), V2_a11]
theorem V3_a12 (V : Valuation τ sig (Elt Ideal)) : V3 V (Proc.devRef .tc main_arg12) = V (Proc.devRef .tc main_arg12) := by
  unfold V3; rw [keep4 (r := main_arg12) (by decide), V2_a12]
theorem V3_a13 (V : Valuation τ sig (Elt Ideal)) : V3 V (Proc.devRef .tc main_arg13) = V (Proc.devRef .tc main_arg13) := by
  unfold V3; rw [keep4 (r := main_arg13) (by decide), V2_a13]
theorem V3_a14 (V : Valuation τ sig (Elt Ideal)) : V3 V (Proc.devRef .tc main_arg14) = V (Proc.devRef .tc main_arg14) := by
  unfold V3; rw [keep4 (r := main_arg14) (by decide), V2_a14]
theorem V3_a15 (V : Valuation τ sig (Elt Ideal)) : V3 V (Proc.devRef .tc main_arg15) = V (Proc.devRef .tc main_arg15) := by
  unfold V3; rw [keep4 (r := main_arg15) (by decide), V2_a15]
theorem V4_a0 (V : Valuation τ sig (Elt Ideal)) : V4 V (Proc.devRef .tc main_arg0) = V (Proc.devRef .tc main_arg0) := by
  unfold V4; rw [keep5 (r := main_arg0) (by decide), V3_a0]
theorem V4_a1 (V : Valuation τ sig (Elt Ideal)) : V4 V (Proc.devRef .tc main_arg1) = V (Proc.devRef .tc main_arg1) := by
  unfold V4; rw [keep5 (r := main_arg1) (by decide), V3_a1]
theorem V4_a2 (V : Valuation τ sig (Elt Ideal)) : V4 V (Proc.devRef .tc main_arg2) = V (Proc.devRef .tc main_arg2) := by
  unfold V4; rw [keep5 (r := main_arg2) (by decide), V3_a2]
theorem V4_a3 (V : Valuation τ sig (Elt Ideal)) : V4 V (Proc.devRef .tc main_arg3) = V (Proc.devRef .tc main_arg3) := by
  unfold V4; rw [keep5 (r := main_arg3) (by decide), V3_a3]
theorem V4_a4 (V : Valuation τ sig (Elt Ideal)) : V4 V (Proc.devRef .tc main_arg4) = V (Proc.devRef .tc main_arg4) := by
  unfold V4; rw [keep5 (r := main_arg4) (by decide), V3_a4]
theorem V4_a5 (V : Valuation τ sig (Elt Ideal)) : V4 V (Proc.devRef .tc main_arg5) = V (Proc.devRef .tc main_arg5) := by
  unfold V4; rw [keep5 (r := main_arg5) (by decide), V3_a5]
theorem V4_a6 (V : Valuation τ sig (Elt Ideal)) : V4 V (Proc.devRef .tc main_arg6) = V (Proc.devRef .tc main_arg6) := by
  unfold V4; rw [keep5 (r := main_arg6) (by decide), V3_a6]
theorem V4_a7 (V : Valuation τ sig (Elt Ideal)) : V4 V (Proc.devRef .tc main_arg7) = V (Proc.devRef .tc main_arg7) := by
  unfold V4; rw [keep5 (r := main_arg7) (by decide), V3_a7]
theorem V4_a8 (V : Valuation τ sig (Elt Ideal)) : V4 V (Proc.devRef .tc main_arg8) = V (Proc.devRef .tc main_arg8) := by
  unfold V4; rw [keep5 (r := main_arg8) (by decide), V3_a8]
theorem V4_a9 (V : Valuation τ sig (Elt Ideal)) : V4 V (Proc.devRef .tc main_arg9) = V (Proc.devRef .tc main_arg9) := by
  unfold V4; rw [keep5 (r := main_arg9) (by decide), V3_a9]
theorem V4_a10 (V : Valuation τ sig (Elt Ideal)) : V4 V (Proc.devRef .tc main_arg10) = V (Proc.devRef .tc main_arg10) := by
  unfold V4; rw [keep5 (r := main_arg10) (by decide), V3_a10]
theorem V4_a11 (V : Valuation τ sig (Elt Ideal)) : V4 V (Proc.devRef .tc main_arg11) = V (Proc.devRef .tc main_arg11) := by
  unfold V4; rw [keep5 (r := main_arg11) (by decide), V3_a11]
theorem V4_a12 (V : Valuation τ sig (Elt Ideal)) : V4 V (Proc.devRef .tc main_arg12) = V (Proc.devRef .tc main_arg12) := by
  unfold V4; rw [keep5 (r := main_arg12) (by decide), V3_a12]
theorem V4_a13 (V : Valuation τ sig (Elt Ideal)) : V4 V (Proc.devRef .tc main_arg13) = V (Proc.devRef .tc main_arg13) := by
  unfold V4; rw [keep5 (r := main_arg13) (by decide), V3_a13]
theorem V4_a14 (V : Valuation τ sig (Elt Ideal)) : V4 V (Proc.devRef .tc main_arg14) = V (Proc.devRef .tc main_arg14) := by
  unfold V4; rw [keep5 (r := main_arg14) (by decide), V3_a14]
theorem V4_a15 (V : Valuation τ sig (Elt Ideal)) : V4 V (Proc.devRef .tc main_arg15) = V (Proc.devRef .tc main_arg15) := by
  unfold V4; rw [keep5 (r := main_arg15) (by decide), V3_a15]
theorem V5_a0 (V : Valuation τ sig (Elt Ideal)) : V5 V (Proc.devRef .tc main_arg0) = V (Proc.devRef .tc main_arg0) := by
  unfold V5; rw [keep7 (r := main_arg0) (by decide), keep6 (r := main_arg0) (by decide), V4_a0]
theorem V5_a1 (V : Valuation τ sig (Elt Ideal)) : V5 V (Proc.devRef .tc main_arg1) = V (Proc.devRef .tc main_arg1) := by
  unfold V5; rw [keep7 (r := main_arg1) (by decide), keep6 (r := main_arg1) (by decide), V4_a1]
theorem V5_a2 (V : Valuation τ sig (Elt Ideal)) : V5 V (Proc.devRef .tc main_arg2) = V (Proc.devRef .tc main_arg2) := by
  unfold V5; rw [keep7 (r := main_arg2) (by decide), keep6 (r := main_arg2) (by decide), V4_a2]
theorem V5_a3 (V : Valuation τ sig (Elt Ideal)) : V5 V (Proc.devRef .tc main_arg3) = V (Proc.devRef .tc main_arg3) := by
  unfold V5; rw [keep7 (r := main_arg3) (by decide), keep6 (r := main_arg3) (by decide), V4_a3]
theorem V5_a4 (V : Valuation τ sig (Elt Ideal)) : V5 V (Proc.devRef .tc main_arg4) = V (Proc.devRef .tc main_arg4) := by
  unfold V5; rw [keep7 (r := main_arg4) (by decide), keep6 (r := main_arg4) (by decide), V4_a4]
theorem V5_a5 (V : Valuation τ sig (Elt Ideal)) : V5 V (Proc.devRef .tc main_arg5) = V (Proc.devRef .tc main_arg5) := by
  unfold V5; rw [keep7 (r := main_arg5) (by decide), keep6 (r := main_arg5) (by decide), V4_a5]
theorem V5_a6 (V : Valuation τ sig (Elt Ideal)) : V5 V (Proc.devRef .tc main_arg6) = V (Proc.devRef .tc main_arg6) := by
  unfold V5; rw [keep7 (r := main_arg6) (by decide), keep6 (r := main_arg6) (by decide), V4_a6]
theorem V5_a7 (V : Valuation τ sig (Elt Ideal)) : V5 V (Proc.devRef .tc main_arg7) = V (Proc.devRef .tc main_arg7) := by
  unfold V5; rw [keep7 (r := main_arg7) (by decide), keep6 (r := main_arg7) (by decide), V4_a7]
theorem V5_a8 (V : Valuation τ sig (Elt Ideal)) : V5 V (Proc.devRef .tc main_arg8) = V (Proc.devRef .tc main_arg8) := by
  unfold V5; rw [keep7 (r := main_arg8) (by decide), keep6 (r := main_arg8) (by decide), V4_a8]
theorem V5_a9 (V : Valuation τ sig (Elt Ideal)) : V5 V (Proc.devRef .tc main_arg9) = V (Proc.devRef .tc main_arg9) := by
  unfold V5; rw [keep7 (r := main_arg9) (by decide), keep6 (r := main_arg9) (by decide), V4_a9]
theorem V5_a10 (V : Valuation τ sig (Elt Ideal)) : V5 V (Proc.devRef .tc main_arg10) = V (Proc.devRef .tc main_arg10) := by
  unfold V5; rw [keep7 (r := main_arg10) (by decide), keep6 (r := main_arg10) (by decide), V4_a10]
theorem V5_a11 (V : Valuation τ sig (Elt Ideal)) : V5 V (Proc.devRef .tc main_arg11) = V (Proc.devRef .tc main_arg11) := by
  unfold V5; rw [keep7 (r := main_arg11) (by decide), keep6 (r := main_arg11) (by decide), V4_a11]
theorem V5_a12 (V : Valuation τ sig (Elt Ideal)) : V5 V (Proc.devRef .tc main_arg12) = V (Proc.devRef .tc main_arg12) := by
  unfold V5; rw [keep7 (r := main_arg12) (by decide), keep6 (r := main_arg12) (by decide), V4_a12]
theorem V5_a13 (V : Valuation τ sig (Elt Ideal)) : V5 V (Proc.devRef .tc main_arg13) = V (Proc.devRef .tc main_arg13) := by
  unfold V5; rw [keep7 (r := main_arg13) (by decide), keep6 (r := main_arg13) (by decide), V4_a13]
theorem V5_a14 (V : Valuation τ sig (Elt Ideal)) : V5 V (Proc.devRef .tc main_arg14) = V (Proc.devRef .tc main_arg14) := by
  unfold V5; rw [keep7 (r := main_arg14) (by decide), keep6 (r := main_arg14) (by decide), V4_a14]
theorem V5_a15 (V : Valuation τ sig (Elt Ideal)) : V5 V (Proc.devRef .tc main_arg15) = V (Proc.devRef .tc main_arg15) := by
  unfold V5; rw [keep7 (r := main_arg15) (by decide), keep6 (r := main_arg15) (by decide), V4_a15]
theorem V6_a0 (V : Valuation τ sig (Elt Ideal)) : V6 V (Proc.devRef .tc main_arg0) = V (Proc.devRef .tc main_arg0) := by
  unfold V6; rw [keep10 (r := main_arg0) (by decide), keep9 (r := main_arg0) (by decide), keep8 (r := main_arg0) (by decide), V5_a0]
theorem V6_a1 (V : Valuation τ sig (Elt Ideal)) : V6 V (Proc.devRef .tc main_arg1) = V (Proc.devRef .tc main_arg1) := by
  unfold V6; rw [keep10 (r := main_arg1) (by decide), keep9 (r := main_arg1) (by decide), keep8 (r := main_arg1) (by decide), V5_a1]
theorem V6_a2 (V : Valuation τ sig (Elt Ideal)) : V6 V (Proc.devRef .tc main_arg2) = V (Proc.devRef .tc main_arg2) := by
  unfold V6; rw [keep10 (r := main_arg2) (by decide), keep9 (r := main_arg2) (by decide), keep8 (r := main_arg2) (by decide), V5_a2]
theorem V6_a3 (V : Valuation τ sig (Elt Ideal)) : V6 V (Proc.devRef .tc main_arg3) = V (Proc.devRef .tc main_arg3) := by
  unfold V6; rw [keep10 (r := main_arg3) (by decide), keep9 (r := main_arg3) (by decide), keep8 (r := main_arg3) (by decide), V5_a3]
theorem V6_a4 (V : Valuation τ sig (Elt Ideal)) : V6 V (Proc.devRef .tc main_arg4) = V (Proc.devRef .tc main_arg4) := by
  unfold V6; rw [keep10 (r := main_arg4) (by decide), keep9 (r := main_arg4) (by decide), keep8 (r := main_arg4) (by decide), V5_a4]
theorem V6_a5 (V : Valuation τ sig (Elt Ideal)) : V6 V (Proc.devRef .tc main_arg5) = V (Proc.devRef .tc main_arg5) := by
  unfold V6; rw [keep10 (r := main_arg5) (by decide), keep9 (r := main_arg5) (by decide), keep8 (r := main_arg5) (by decide), V5_a5]
theorem V6_a6 (V : Valuation τ sig (Elt Ideal)) : V6 V (Proc.devRef .tc main_arg6) = V (Proc.devRef .tc main_arg6) := by
  unfold V6; rw [keep10 (r := main_arg6) (by decide), keep9 (r := main_arg6) (by decide), keep8 (r := main_arg6) (by decide), V5_a6]
theorem V6_a7 (V : Valuation τ sig (Elt Ideal)) : V6 V (Proc.devRef .tc main_arg7) = V (Proc.devRef .tc main_arg7) := by
  unfold V6; rw [keep10 (r := main_arg7) (by decide), keep9 (r := main_arg7) (by decide), keep8 (r := main_arg7) (by decide), V5_a7]
theorem V6_a8 (V : Valuation τ sig (Elt Ideal)) : V6 V (Proc.devRef .tc main_arg8) = V (Proc.devRef .tc main_arg8) := by
  unfold V6; rw [keep10 (r := main_arg8) (by decide), keep9 (r := main_arg8) (by decide), keep8 (r := main_arg8) (by decide), V5_a8]
theorem V6_a9 (V : Valuation τ sig (Elt Ideal)) : V6 V (Proc.devRef .tc main_arg9) = V (Proc.devRef .tc main_arg9) := by
  unfold V6; rw [keep10 (r := main_arg9) (by decide), keep9 (r := main_arg9) (by decide), keep8 (r := main_arg9) (by decide), V5_a9]
theorem V6_a10 (V : Valuation τ sig (Elt Ideal)) : V6 V (Proc.devRef .tc main_arg10) = V (Proc.devRef .tc main_arg10) := by
  unfold V6; rw [keep10 (r := main_arg10) (by decide), keep9 (r := main_arg10) (by decide), keep8 (r := main_arg10) (by decide), V5_a10]
theorem V6_a11 (V : Valuation τ sig (Elt Ideal)) : V6 V (Proc.devRef .tc main_arg11) = V (Proc.devRef .tc main_arg11) := by
  unfold V6; rw [keep10 (r := main_arg11) (by decide), keep9 (r := main_arg11) (by decide), keep8 (r := main_arg11) (by decide), V5_a11]
theorem V6_a12 (V : Valuation τ sig (Elt Ideal)) : V6 V (Proc.devRef .tc main_arg12) = V (Proc.devRef .tc main_arg12) := by
  unfold V6; rw [keep10 (r := main_arg12) (by decide), keep9 (r := main_arg12) (by decide), keep8 (r := main_arg12) (by decide), V5_a12]
theorem V6_a13 (V : Valuation τ sig (Elt Ideal)) : V6 V (Proc.devRef .tc main_arg13) = V (Proc.devRef .tc main_arg13) := by
  unfold V6; rw [keep10 (r := main_arg13) (by decide), keep9 (r := main_arg13) (by decide), keep8 (r := main_arg13) (by decide), V5_a13]
theorem V6_a14 (V : Valuation τ sig (Elt Ideal)) : V6 V (Proc.devRef .tc main_arg14) = V (Proc.devRef .tc main_arg14) := by
  unfold V6; rw [keep10 (r := main_arg14) (by decide), keep9 (r := main_arg14) (by decide), keep8 (r := main_arg14) (by decide), V5_a14]
theorem V6_a15 (V : Valuation τ sig (Elt Ideal)) : V6 V (Proc.devRef .tc main_arg15) = V (Proc.devRef .tc main_arg15) := by
  unfold V6; rw [keep10 (r := main_arg15) (by decide), keep9 (r := main_arg15) (by decide), keep8 (r := main_arg15) (by decide), V5_a15]
theorem V7_a0 (V : Valuation τ sig (Elt Ideal)) : V7 V (Proc.devRef .tc main_arg0) = V (Proc.devRef .tc main_arg0) := by
  unfold V7; rw [keep11 (r := main_arg0) (by decide), V6_a0]
theorem V7_a1 (V : Valuation τ sig (Elt Ideal)) : V7 V (Proc.devRef .tc main_arg1) = V (Proc.devRef .tc main_arg1) := by
  unfold V7; rw [keep11 (r := main_arg1) (by decide), V6_a1]
theorem V7_a2 (V : Valuation τ sig (Elt Ideal)) : V7 V (Proc.devRef .tc main_arg2) = V (Proc.devRef .tc main_arg2) := by
  unfold V7; rw [keep11 (r := main_arg2) (by decide), V6_a2]
theorem V7_a3 (V : Valuation τ sig (Elt Ideal)) : V7 V (Proc.devRef .tc main_arg3) = V (Proc.devRef .tc main_arg3) := by
  unfold V7; rw [keep11 (r := main_arg3) (by decide), V6_a3]
theorem V7_a4 (V : Valuation τ sig (Elt Ideal)) : V7 V (Proc.devRef .tc main_arg4) = V (Proc.devRef .tc main_arg4) := by
  unfold V7; rw [keep11 (r := main_arg4) (by decide), V6_a4]
theorem V7_a5 (V : Valuation τ sig (Elt Ideal)) : V7 V (Proc.devRef .tc main_arg5) = V (Proc.devRef .tc main_arg5) := by
  unfold V7; rw [keep11 (r := main_arg5) (by decide), V6_a5]
theorem V7_a6 (V : Valuation τ sig (Elt Ideal)) : V7 V (Proc.devRef .tc main_arg6) = V (Proc.devRef .tc main_arg6) := by
  unfold V7; rw [keep11 (r := main_arg6) (by decide), V6_a6]
theorem V7_a7 (V : Valuation τ sig (Elt Ideal)) : V7 V (Proc.devRef .tc main_arg7) = V (Proc.devRef .tc main_arg7) := by
  unfold V7; rw [keep11 (r := main_arg7) (by decide), V6_a7]
theorem V7_a8 (V : Valuation τ sig (Elt Ideal)) : V7 V (Proc.devRef .tc main_arg8) = V (Proc.devRef .tc main_arg8) := by
  unfold V7; rw [keep11 (r := main_arg8) (by decide), V6_a8]
theorem V7_a9 (V : Valuation τ sig (Elt Ideal)) : V7 V (Proc.devRef .tc main_arg9) = V (Proc.devRef .tc main_arg9) := by
  unfold V7; rw [keep11 (r := main_arg9) (by decide), V6_a9]
theorem V7_a10 (V : Valuation τ sig (Elt Ideal)) : V7 V (Proc.devRef .tc main_arg10) = V (Proc.devRef .tc main_arg10) := by
  unfold V7; rw [keep11 (r := main_arg10) (by decide), V6_a10]
theorem V7_a11 (V : Valuation τ sig (Elt Ideal)) : V7 V (Proc.devRef .tc main_arg11) = V (Proc.devRef .tc main_arg11) := by
  unfold V7; rw [keep11 (r := main_arg11) (by decide), V6_a11]
theorem V7_a12 (V : Valuation τ sig (Elt Ideal)) : V7 V (Proc.devRef .tc main_arg12) = V (Proc.devRef .tc main_arg12) := by
  unfold V7; rw [keep11 (r := main_arg12) (by decide), V6_a12]
theorem V7_a13 (V : Valuation τ sig (Elt Ideal)) : V7 V (Proc.devRef .tc main_arg13) = V (Proc.devRef .tc main_arg13) := by
  unfold V7; rw [keep11 (r := main_arg13) (by decide), V6_a13]
theorem V7_a14 (V : Valuation τ sig (Elt Ideal)) : V7 V (Proc.devRef .tc main_arg14) = V (Proc.devRef .tc main_arg14) := by
  unfold V7; rw [keep11 (r := main_arg14) (by decide), V6_a14]
theorem V7_a15 (V : Valuation τ sig (Elt Ideal)) : V7 V (Proc.devRef .tc main_arg15) = V (Proc.devRef .tc main_arg15) := by
  unfold V7; rw [keep11 (r := main_arg15) (by decide), V6_a15]
theorem V8_a0 (V : Valuation τ sig (Elt Ideal)) : V8 V (Proc.devRef .tc main_arg0) = V (Proc.devRef .tc main_arg0) := by
  unfold V8; rw [keep12 (r := main_arg0) (by decide), V7_a0]
theorem V8_a1 (V : Valuation τ sig (Elt Ideal)) : V8 V (Proc.devRef .tc main_arg1) = V (Proc.devRef .tc main_arg1) := by
  unfold V8; rw [keep12 (r := main_arg1) (by decide), V7_a1]
theorem V8_a2 (V : Valuation τ sig (Elt Ideal)) : V8 V (Proc.devRef .tc main_arg2) = V (Proc.devRef .tc main_arg2) := by
  unfold V8; rw [keep12 (r := main_arg2) (by decide), V7_a2]
theorem V8_a3 (V : Valuation τ sig (Elt Ideal)) : V8 V (Proc.devRef .tc main_arg3) = V (Proc.devRef .tc main_arg3) := by
  unfold V8; rw [keep12 (r := main_arg3) (by decide), V7_a3]
theorem V8_a4 (V : Valuation τ sig (Elt Ideal)) : V8 V (Proc.devRef .tc main_arg4) = V (Proc.devRef .tc main_arg4) := by
  unfold V8; rw [keep12 (r := main_arg4) (by decide), V7_a4]
theorem V8_a5 (V : Valuation τ sig (Elt Ideal)) : V8 V (Proc.devRef .tc main_arg5) = V (Proc.devRef .tc main_arg5) := by
  unfold V8; rw [keep12 (r := main_arg5) (by decide), V7_a5]
theorem V8_a6 (V : Valuation τ sig (Elt Ideal)) : V8 V (Proc.devRef .tc main_arg6) = V (Proc.devRef .tc main_arg6) := by
  unfold V8; rw [keep12 (r := main_arg6) (by decide), V7_a6]
theorem V8_a7 (V : Valuation τ sig (Elt Ideal)) : V8 V (Proc.devRef .tc main_arg7) = V (Proc.devRef .tc main_arg7) := by
  unfold V8; rw [keep12 (r := main_arg7) (by decide), V7_a7]
theorem V8_a8 (V : Valuation τ sig (Elt Ideal)) : V8 V (Proc.devRef .tc main_arg8) = V (Proc.devRef .tc main_arg8) := by
  unfold V8; rw [keep12 (r := main_arg8) (by decide), V7_a8]
theorem V8_a9 (V : Valuation τ sig (Elt Ideal)) : V8 V (Proc.devRef .tc main_arg9) = V (Proc.devRef .tc main_arg9) := by
  unfold V8; rw [keep12 (r := main_arg9) (by decide), V7_a9]
theorem V8_a10 (V : Valuation τ sig (Elt Ideal)) : V8 V (Proc.devRef .tc main_arg10) = V (Proc.devRef .tc main_arg10) := by
  unfold V8; rw [keep12 (r := main_arg10) (by decide), V7_a10]
theorem V8_a11 (V : Valuation τ sig (Elt Ideal)) : V8 V (Proc.devRef .tc main_arg11) = V (Proc.devRef .tc main_arg11) := by
  unfold V8; rw [keep12 (r := main_arg11) (by decide), V7_a11]
theorem V8_a12 (V : Valuation τ sig (Elt Ideal)) : V8 V (Proc.devRef .tc main_arg12) = V (Proc.devRef .tc main_arg12) := by
  unfold V8; rw [keep12 (r := main_arg12) (by decide), V7_a12]
theorem V8_a13 (V : Valuation τ sig (Elt Ideal)) : V8 V (Proc.devRef .tc main_arg13) = V (Proc.devRef .tc main_arg13) := by
  unfold V8; rw [keep12 (r := main_arg13) (by decide), V7_a13]
theorem V8_a14 (V : Valuation τ sig (Elt Ideal)) : V8 V (Proc.devRef .tc main_arg14) = V (Proc.devRef .tc main_arg14) := by
  unfold V8; rw [keep12 (r := main_arg14) (by decide), V7_a14]
theorem V8_a15 (V : Valuation τ sig (Elt Ideal)) : V8 V (Proc.devRef .tc main_arg15) = V (Proc.devRef .tc main_arg15) := by
  unfold V8; rw [keep12 (r := main_arg15) (by decide), V7_a15]
theorem V9_a0 (V : Valuation τ sig (Elt Ideal)) : V9 V (Proc.devRef .tc main_arg0) = V (Proc.devRef .tc main_arg0) := by
  unfold V9; rw [keep14 (r := main_arg0) (by decide), keep13 (r := main_arg0) (by decide), V8_a0]
theorem V9_a1 (V : Valuation τ sig (Elt Ideal)) : V9 V (Proc.devRef .tc main_arg1) = V (Proc.devRef .tc main_arg1) := by
  unfold V9; rw [keep14 (r := main_arg1) (by decide), keep13 (r := main_arg1) (by decide), V8_a1]
theorem V9_a2 (V : Valuation τ sig (Elt Ideal)) : V9 V (Proc.devRef .tc main_arg2) = V (Proc.devRef .tc main_arg2) := by
  unfold V9; rw [keep14 (r := main_arg2) (by decide), keep13 (r := main_arg2) (by decide), V8_a2]
theorem V9_a3 (V : Valuation τ sig (Elt Ideal)) : V9 V (Proc.devRef .tc main_arg3) = V (Proc.devRef .tc main_arg3) := by
  unfold V9; rw [keep14 (r := main_arg3) (by decide), keep13 (r := main_arg3) (by decide), V8_a3]
theorem V9_a4 (V : Valuation τ sig (Elt Ideal)) : V9 V (Proc.devRef .tc main_arg4) = V (Proc.devRef .tc main_arg4) := by
  unfold V9; rw [keep14 (r := main_arg4) (by decide), keep13 (r := main_arg4) (by decide), V8_a4]
theorem V9_a5 (V : Valuation τ sig (Elt Ideal)) : V9 V (Proc.devRef .tc main_arg5) = V (Proc.devRef .tc main_arg5) := by
  unfold V9; rw [keep14 (r := main_arg5) (by decide), keep13 (r := main_arg5) (by decide), V8_a5]
theorem V9_a6 (V : Valuation τ sig (Elt Ideal)) : V9 V (Proc.devRef .tc main_arg6) = V (Proc.devRef .tc main_arg6) := by
  unfold V9; rw [keep14 (r := main_arg6) (by decide), keep13 (r := main_arg6) (by decide), V8_a6]
theorem V9_a7 (V : Valuation τ sig (Elt Ideal)) : V9 V (Proc.devRef .tc main_arg7) = V (Proc.devRef .tc main_arg7) := by
  unfold V9; rw [keep14 (r := main_arg7) (by decide), keep13 (r := main_arg7) (by decide), V8_a7]
theorem V9_a8 (V : Valuation τ sig (Elt Ideal)) : V9 V (Proc.devRef .tc main_arg8) = V (Proc.devRef .tc main_arg8) := by
  unfold V9; rw [keep14 (r := main_arg8) (by decide), keep13 (r := main_arg8) (by decide), V8_a8]
theorem V9_a9 (V : Valuation τ sig (Elt Ideal)) : V9 V (Proc.devRef .tc main_arg9) = V (Proc.devRef .tc main_arg9) := by
  unfold V9; rw [keep14 (r := main_arg9) (by decide), keep13 (r := main_arg9) (by decide), V8_a9]
theorem V9_a10 (V : Valuation τ sig (Elt Ideal)) : V9 V (Proc.devRef .tc main_arg10) = V (Proc.devRef .tc main_arg10) := by
  unfold V9; rw [keep14 (r := main_arg10) (by decide), keep13 (r := main_arg10) (by decide), V8_a10]
theorem V9_a11 (V : Valuation τ sig (Elt Ideal)) : V9 V (Proc.devRef .tc main_arg11) = V (Proc.devRef .tc main_arg11) := by
  unfold V9; rw [keep14 (r := main_arg11) (by decide), keep13 (r := main_arg11) (by decide), V8_a11]
theorem V9_a12 (V : Valuation τ sig (Elt Ideal)) : V9 V (Proc.devRef .tc main_arg12) = V (Proc.devRef .tc main_arg12) := by
  unfold V9; rw [keep14 (r := main_arg12) (by decide), keep13 (r := main_arg12) (by decide), V8_a12]
theorem V9_a13 (V : Valuation τ sig (Elt Ideal)) : V9 V (Proc.devRef .tc main_arg13) = V (Proc.devRef .tc main_arg13) := by
  unfold V9; rw [keep14 (r := main_arg13) (by decide), keep13 (r := main_arg13) (by decide), V8_a13]
theorem V9_a14 (V : Valuation τ sig (Elt Ideal)) : V9 V (Proc.devRef .tc main_arg14) = V (Proc.devRef .tc main_arg14) := by
  unfold V9; rw [keep14 (r := main_arg14) (by decide), keep13 (r := main_arg14) (by decide), V8_a14]
theorem V9_a15 (V : Valuation τ sig (Elt Ideal)) : V9 V (Proc.devRef .tc main_arg15) = V (Proc.devRef .tc main_arg15) := by
  unfold V9; rw [keep14 (r := main_arg15) (by decide), keep13 (r := main_arg15) (by decide), V8_a15]

/-! ### The layers' features as functions of the launch contents -/

/-- The first hidden layer's room features. -/
def h1R (V : Valuation τ sig (Elt Ideal)) : FVec Ideal S50000x64 .f32 :=
  Sage.hidR (V (Proc.devRef .tc main_arg0)) (V (Proc.devRef .tc main_arg1)) (Sage.mat00 (V (Proc.devRef .tc main_arg2))) (Sage.mat00 (V (Proc.devRef .tc main_arg3))) (Sage.vec00 (V (Proc.devRef .tc main_arg4)))
    (Sage.mat01 (V (Proc.devRef .tc main_arg2))) (Sage.mat01 (V (Proc.devRef .tc main_arg3))) (Sage.vec01 (V (Proc.devRef .tc main_arg4))) (V (Proc.devRef .tc main_arg8)) (V (Proc.devRef .tc main_arg9)) (V (Proc.devRef .tc main_arg10)) (V (Proc.devRef .tc main_arg11))
/-- The first hidden layer's object features. -/
def h1O (V : Valuation τ sig (Elt Ideal)) : FVec Ideal S200000x64 .f32 :=
  Sage.hidO (V (Proc.devRef .tc main_arg0)) (V (Proc.devRef .tc main_arg1)) (Sage.mat02 (V (Proc.devRef .tc main_arg2))) (Sage.mat02 (V (Proc.devRef .tc main_arg3))) (Sage.vec02 (V (Proc.devRef .tc main_arg4)))
    (Sage.mat03 (V (Proc.devRef .tc main_arg2))) (Sage.mat03 (V (Proc.devRef .tc main_arg3))) (Sage.vec03 (V (Proc.devRef .tc main_arg4))) (V (Proc.devRef .tc main_arg12)) (V (Proc.devRef .tc main_arg13)) (V (Proc.devRef .tc main_arg14)) (V (Proc.devRef .tc main_arg15))
/-- The second hidden layer's room features. -/
def h2R (V : Valuation τ sig (Elt Ideal)) : FVec Ideal S50000x64 .f32 :=
  Sage.hidR (h1R V) (h1O V) (Sage.mat10 (V (Proc.devRef .tc main_arg2))) (Sage.mat10 (V (Proc.devRef .tc main_arg3))) (Sage.vec10 (V (Proc.devRef .tc main_arg4)))
    (Sage.mat11 (V (Proc.devRef .tc main_arg2))) (Sage.mat11 (V (Proc.devRef .tc main_arg3))) (Sage.vec11 (V (Proc.devRef .tc main_arg4))) (V (Proc.devRef .tc main_arg8)) (V (Proc.devRef .tc main_arg9)) (V (Proc.devRef .tc main_arg10)) (V (Proc.devRef .tc main_arg11))
/-- The second hidden layer's object features. -/
def h2O (V : Valuation τ sig (Elt Ideal)) : FVec Ideal S200000x64 .f32 :=
  Sage.hidO (h1R V) (h1O V) (Sage.mat12 (V (Proc.devRef .tc main_arg2))) (Sage.mat12 (V (Proc.devRef .tc main_arg3))) (Sage.vec12 (V (Proc.devRef .tc main_arg4)))
    (Sage.mat13 (V (Proc.devRef .tc main_arg2))) (Sage.mat13 (V (Proc.devRef .tc main_arg3))) (Sage.vec13 (V (Proc.devRef .tc main_arg4))) (V (Proc.devRef .tc main_arg12)) (V (Proc.devRef .tc main_arg13)) (V (Proc.devRef .tc main_arg14)) (V (Proc.devRef .tc main_arg15))

/-! ### The chain -/

variable (V : Valuation τ sig (Elt Ideal))

theorem V2_v62 : V2 V (Proc.devRef .tc main_v62)
    = preR (V (Proc.devRef .tc main_arg0)) (V (Proc.devRef .tc main_arg1)) (Sage.mat00 (V (Proc.devRef .tc main_arg2))) (Sage.mat00 (V (Proc.devRef .tc main_arg3))) (Sage.vec00 (V (Proc.devRef .tc main_arg4)))
        (Sage.mat01 (V (Proc.devRef .tc main_arg2))) (Sage.mat01 (V (Proc.devRef .tc main_arg3))) (Sage.vec01 (V (Proc.devRef .tc main_arg4))) (V (Proc.devRef .tc main_arg8)) (V (Proc.devRef .tc main_arg9)) (V (Proc.devRef .tc main_arg10)) (V (Proc.devRef .tc main_arg11)) := by
  unfold V2; rw [keep3 (r := main_v62) (by decide), keep2 (r := main_v62) (by decide)]; unfold V1; exact layer1_room V

theorem V2_v125 : V2 V (Proc.devRef .tc main_v125)
    = preO (V (Proc.devRef .tc main_arg0)) (V (Proc.devRef .tc main_arg1)) (Sage.mat02 (V (Proc.devRef .tc main_arg2))) (Sage.mat02 (V (Proc.devRef .tc main_arg3))) (Sage.vec02 (V (Proc.devRef .tc main_arg4)))
        (Sage.mat03 (V (Proc.devRef .tc main_arg2))) (Sage.mat03 (V (Proc.devRef .tc main_arg3))) (Sage.vec03 (V (Proc.devRef .tc main_arg4))) (V (Proc.devRef .tc main_arg12)) (V (Proc.devRef .tc main_arg13)) (V (Proc.devRef .tc main_arg14)) (V (Proc.devRef .tc main_arg15)) := by
  unfold V2; rw [layer1_obj (V1 V), V1_a0, V1_a1, V1_a2, V1_a3, V1_a4, V1_a12, V1_a13, V1_a14, V1_a15]

theorem V3_v126 : V3 V (Proc.devRef .tc main_v126) = h1R V := by
  unfold V3; rw [clamp1_room (V2 V), V2_v62, clamp_preR]; rfl

theorem V3_v125 : V3 V (Proc.devRef .tc main_v125)
    = preO (V (Proc.devRef .tc main_arg0)) (V (Proc.devRef .tc main_arg1)) (Sage.mat02 (V (Proc.devRef .tc main_arg2))) (Sage.mat02 (V (Proc.devRef .tc main_arg3))) (Sage.vec02 (V (Proc.devRef .tc main_arg4)))
        (Sage.mat03 (V (Proc.devRef .tc main_arg2))) (Sage.mat03 (V (Proc.devRef .tc main_arg3))) (Sage.vec03 (V (Proc.devRef .tc main_arg4))) (V (Proc.devRef .tc main_arg12)) (V (Proc.devRef .tc main_arg13)) (V (Proc.devRef .tc main_arg14)) (V (Proc.devRef .tc main_arg15)) := by
  unfold V3; rw [keep4 (r := main_v125) (by decide), V2_v125]

theorem V4_v127 : V4 V (Proc.devRef .tc main_v127) = h1O V := by
  unfold V4; rw [clamp1_obj (V3 V), V3_v125, clamp_preO]; rfl

theorem V4_v126 : V4 V (Proc.devRef .tc main_v126) = h1R V := by
  unfold V4; rw [keep5 (r := main_v126) (by decide), V3_v126]

theorem V5_v190 : V5 V (Proc.devRef .tc main_v190)
    = preR (h1R V) (h1O V) (Sage.mat10 (V (Proc.devRef .tc main_arg2))) (Sage.mat10 (V (Proc.devRef .tc main_arg3))) (Sage.vec10 (V (Proc.devRef .tc main_arg4)))
        (Sage.mat11 (V (Proc.devRef .tc main_arg2))) (Sage.mat11 (V (Proc.devRef .tc main_arg3))) (Sage.vec11 (V (Proc.devRef .tc main_arg4))) (V (Proc.devRef .tc main_arg8)) (V (Proc.devRef .tc main_arg9)) (V (Proc.devRef .tc main_arg10)) (V (Proc.devRef .tc main_arg11)) := by
  unfold V5; rw [layer2_room (V4 V), V4_v126, V4_v127, V4_a2, V4_a3, V4_a4, V4_a8, V4_a9, V4_a10, V4_a11]

theorem V5_v126 : V5 V (Proc.devRef .tc main_v126) = h1R V := by
  unfold V5; rw [keep7 (r := main_v126) (by decide), keep6 (r := main_v126) (by decide), V4_v126]

theorem V5_v127 : V5 V (Proc.devRef .tc main_v127) = h1O V := by
  unfold V5; rw [keep7 (r := main_v127) (by decide), keep6 (r := main_v127) (by decide), V4_v127]

theorem V6_v253 : V6 V (Proc.devRef .tc main_v253)
    = preO (h1R V) (h1O V) (Sage.mat12 (V (Proc.devRef .tc main_arg2))) (Sage.mat12 (V (Proc.devRef .tc main_arg3))) (Sage.vec12 (V (Proc.devRef .tc main_arg4)))
        (Sage.mat13 (V (Proc.devRef .tc main_arg2))) (Sage.mat13 (V (Proc.devRef .tc main_arg3))) (Sage.vec13 (V (Proc.devRef .tc main_arg4))) (V (Proc.devRef .tc main_arg12)) (V (Proc.devRef .tc main_arg13)) (V (Proc.devRef .tc main_arg14)) (V (Proc.devRef .tc main_arg15)) := by
  unfold V6; rw [layer2_obj (V5 V), V5_v126, V5_v127, V5_a2, V5_a3, V5_a4, V5_a12, V5_a13, V5_a14, V5_a15]

theorem V6_v190 : V6 V (Proc.devRef .tc main_v190)
    = preR (h1R V) (h1O V) (Sage.mat10 (V (Proc.devRef .tc main_arg2))) (Sage.mat10 (V (Proc.devRef .tc main_arg3))) (Sage.vec10 (V (Proc.devRef .tc main_arg4)))
        (Sage.mat11 (V (Proc.devRef .tc main_arg2))) (Sage.mat11 (V (Proc.devRef .tc main_arg3))) (Sage.vec11 (V (Proc.devRef .tc main_arg4))) (V (Proc.devRef .tc main_arg8)) (V (Proc.devRef .tc main_arg9)) (V (Proc.devRef .tc main_arg10)) (V (Proc.devRef .tc main_arg11)) := by
  unfold V6; rw [keep10 (r := main_v190) (by decide), keep9 (r := main_v190) (by decide), keep8 (r := main_v190) (by decide), V5_v190]

theorem V7_v254 : V7 V (Proc.devRef .tc main_v254) = h2R V := by
  unfold V7; rw [clamp2_room (V6 V), V6_v190, clamp_preR]; rfl

theorem V7_v253 : V7 V (Proc.devRef .tc main_v253)
    = preO (h1R V) (h1O V) (Sage.mat12 (V (Proc.devRef .tc main_arg2))) (Sage.mat12 (V (Proc.devRef .tc main_arg3))) (Sage.vec12 (V (Proc.devRef .tc main_arg4)))
        (Sage.mat13 (V (Proc.devRef .tc main_arg2))) (Sage.mat13 (V (Proc.devRef .tc main_arg3))) (Sage.vec13 (V (Proc.devRef .tc main_arg4))) (V (Proc.devRef .tc main_arg12)) (V (Proc.devRef .tc main_arg13)) (V (Proc.devRef .tc main_arg14)) (V (Proc.devRef .tc main_arg15)) := by
  unfold V7; rw [keep11 (r := main_v253) (by decide), V6_v253]

theorem V8_v255 : V8 V (Proc.devRef .tc main_v255) = h2O V := by
  unfold V8; rw [clamp2_obj (V7 V), V7_v253, clamp_preO]; rfl

theorem V8_v254 : V8 V (Proc.devRef .tc main_v254) = h2R V := by
  unfold V8; rw [keep12 (r := main_v254) (by decide), V7_v254]

/-- The result buffer ends at the network's value of the launch contents of the sixteen arguments. -/
theorem V9_v318 : V9 V (Proc.devRef .tc main_v318)
    = Sage.final (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  unfold V9
  rw [out_layer (V8 V), V8_v254, V8_v255, V8_a5, V8_a6, V8_a7, V8_a8, V8_a9, V8_a10, V8_a11, scores_eq]
  rfl

/-! ### The run -/

/-- On every device, from any memory with zero counters: every weakly fair execution of the reference terminates with
    the result buffer at the network's value of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v318)
          = Sage.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v318).trans ((congrFun (after_ops_eq (launchContents m c)) _).trans (V9_v318 (launchContents m c))),
      (h c main_arg0).trans ((congrFun (after_ops_eq (launchContents m c)) _).trans (V9_a0 (launchContents m c))),
      (h c main_arg1).trans ((congrFun (after_ops_eq (launchContents m c)) _).trans (V9_a1 (launchContents m c))),
      (h c main_arg2).trans ((congrFun (after_ops_eq (launchContents m c)) _).trans (V9_a2 (launchContents m c))),
      (h c main_arg3).trans ((congrFun (after_ops_eq (launchContents m c)) _).trans (V9_a3 (launchContents m c))),
      (h c main_arg4).trans ((congrFun (after_ops_eq (launchContents m c)) _).trans (V9_a4 (launchContents m c))),
      (h c main_arg5).trans ((congrFun (after_ops_eq (launchContents m c)) _).trans (V9_a5 (launchContents m c))),
      (h c main_arg6).trans ((congrFun (after_ops_eq (launchContents m c)) _).trans (V9_a6 (launchContents m c))),
      (h c main_arg7).trans ((congrFun (after_ops_eq (launchContents m c)) _).trans (V9_a7 (launchContents m c))),
      (h c main_arg8).trans ((congrFun (after_ops_eq (launchContents m c)) _).trans (V9_a8 (launchContents m c))),
      (h c main_arg9).trans ((congrFun (after_ops_eq (launchContents m c)) _).trans (V9_a9 (launchContents m c))),
      (h c main_arg10).trans ((congrFun (after_ops_eq (launchContents m c)) _).trans (V9_a10 (launchContents m c))),
      (h c main_arg11).trans ((congrFun (after_ops_eq (launchContents m c)) _).trans (V9_a11 (launchContents m c))),
      (h c main_arg12).trans ((congrFun (after_ops_eq (launchContents m c)) _).trans (V9_a12 (launchContents m c))),
      (h c main_arg13).trans ((congrFun (after_ops_eq (launchContents m c)) _).trans (V9_a13 (launchContents m c))),
      (h c main_arg14).trans ((congrFun (after_ops_eq (launchContents m c)) _).trans (V9_a14 (launchContents m c))),
      (h c main_arg15).trans ((congrFun (after_ops_eq (launchContents m c)) _).trans (V9_a15 (launchContents m c)))⟩)
    (run_after m ρ)

/-- The same run, the result's value dropped: the arguments end as launched. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run _ _ _).mono (fun _ h c => (h c).2) (run m ρ)

end Cert.RefSide

end
-- ==== Proof.lean ====
/-
  Equivalence of a two-type message-passing network's kernel program with its reference, over the extended reals.

  The network.  Rooms (50000 nodes) and objects (200000 nodes) carry 64 features.  For each of four edge types an
  aggregation gathers the source rows along the edges and sums them into the destination rows, and counts the edges
  arriving at each destination.  A node's new features are, summed over the two edge types that arrive at its node type,
  (aggregate / max(count, 1)) · W_left + bias + (own features) · W_right; two hidden layers clamp the sum at zero from
  below and update both node types, the output layer gives 25 room scores.

  The two programs.  The reference computes every layer on the host.  The kernel program keeps the gathers and
  scatter-adds on the host and computes each layer's dense part — the division by the clamped count, the four products,
  the biases, the sum and the clamp — in a grid of row blocks of 5000 nodes, five such regions in all.  At exact values a
  change of float format is the identity and a product into a zero accumulator is a plain sum, and the kernel program's
  dense part has the reference's association of the additions term for term, so no algebraic law and no finiteness of the
  inputs is used: both programs end with the network's expression `Cert.Sage.final` of the sixteen arguments (Spec.lean).

  Kernel side: each region's block, index by index (KerBlock*); the blocks tile the result and each input block is the
  rows of its array (KerRegion*); the host stretches as named aggregations and parameter slices (KerTerms, KerHost*);
  a region's function at those terms is a layer (KerBridge); boundary by boundary back to the arguments (KerChain); the
  run (KerRun).  Reference side: RefSide.  The idealization rewrote nothing, so the fourth conjunct is trivial.
-/
import proofs.«139568_j10058813407385_1_alg».proof.Defs
import proofs.«139568_j10058813407385_1_alg».proof.Proof.Gen.Kernel
import proofs.«139568_j10058813407385_1_alg».proof.Proof.Gen.Kernel.Frame
import proofs.«139568_j10058813407385_1_alg».proof.Proof.Gen.KernelIdeal
import proofs.«139568_j10058813407385_1_alg».proof.Proof.Gen.KernelIdeal.Frame
import proofs.«139568_j10058813407385_1_alg».proof.Proof.Gen.ReferenceIdeal
import proofs.«139568_j10058813407385_1_alg».proof.Proof.Gen.Pre_finite_inputs
import proofs.«139568_j10058813407385_1_alg».proof.Proof.KerRun
import proofs.«139568_j10058813407385_1_alg».proof.Proof.RefSide
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.Gen.frame m ρ

/-- So does its reading at exact values. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.RefSide.run m ρ)

/-- From memories that agree on the arguments both programs end with the network's expression of the arguments. -/
theorem algebraic : Cert.algebraic_KernelIdeal_ReferenceIdeal := by
  intro m ρ m' ρ' _ hagree
  refine ⟨fun c => Cert.Sage.final (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    Cert.KerSide.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
